-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S65536x32x3 : Shape := ⟨3, ![65536, 32, 3]⟩
abbrev S65536x8x12 : Shape := ⟨3, ![65536, 8, 12]⟩
abbrev S_ : Shape := ⟨0, ![]⟩
abbrev S4 : Shape := ⟨1, ![4]⟩
abbrev S753x8x4 : Shape := ⟨3, ![753, 8, 4]⟩
abbrev S31x8x4 : Shape := ⟨3, ![31, 8, 4]⟩

class Facts : Prop where
  bcast_S_S65536x32x3 : S_.BroadcastsInDim S65536x32x3 (![] : Fin 0 → Fin S65536x32x3.rank)
  reducesTo_S65536x32x3_S_d0_1_2 : S65536x32x3.ReducesTo [0, 1, 2] S_
  h_S_ : 0 < S_.numel
  bcast_S_S65536x8x12 : S_.BroadcastsInDim S65536x8x12 (![] : Fin 0 → Fin S65536x8x12.rank)
  reducesTo_S65536x8x12_S_d0_1_2 : S65536x8x12.ReducesTo [0, 1, 2] S_
  reducesTo_S_S_d : S_.ReducesTo [] S_
  bcast_S_S753x8x4 : S_.BroadcastsInDim S753x8x4 (![] : Fin 0 → Fin S753x8x4.rank)
  reducesTo_S753x8x4_S_d0_1_2 : S753x8x4.ReducesTo [0, 1, 2] S_
  bcast_S_S31x8x4 : S_.BroadcastsInDim S31x8x4 (![] : Fin 0 → Fin S31x8x4.rank)
  reducesTo_S31x8x4_S_d0_1_2 : S31x8x4.ReducesTo [0, 1, 2] S_
  bcast_S_S4 : S_.BroadcastsInDim S4 (![] : Fin 0 → Fin S4.rank)
  reducesTo_S4_S_d0 : S4.ReducesTo [0] S_

variable [Facts]

def fn_part2 {F : FTy → Type} [FloatOps F] (main_v27 : IVec S_ 1) (main_v32 : IVec S4 1) (main_c_12 : IVec S_ 1) : IVec S_ 1 :=
  let main_v33 : IVec S_ 1 := (fun x v => Host.reduce IntOp.andi x v reducesTo_S4_S_d0 h_S_) main_v32 main_c_12
  let main_v34 : IVec S_ 1 := andi main_v27 main_v33
  main_v34

def fn_part1 {F : FTy → Type} [FloatOps F] (main_arg3 : IVec S4 32) (main_arg5 : FVec F S753x8x4 .f32) (main_arg6 : FVec F S31x8x4 .f32) (main_v12 : IVec S_ 1) (main_v15 : IVec S753x8x4 1) (main_c_5 : IVec S_ 1) : IVec S_ 1 :=
  let main_v16 : IVec S_ 1 := (fun x v => Host.reduce IntOp.andi x v reducesTo_S753x8x4_S_d0_1_2 h_S_) main_v15 main_c_5
  let main_v17 : IVec S_ 1 := andi main_v12 main_v16
  let main_v18 : FVec F S753x8x4 .f32 := Host.absf main_arg5
  let main_cst_6 : FVec F S_ .f32 := constant S_ .f32 0x7F800000#32
  let main_v19 : FVec F S753x8x4 .f32 := broadcastInDim S753x8x4 ![] bcast_S_S753x8x4 main_cst_6
  let main_v20 : IVec S753x8x4 1 := cmpf .olt main_v18 main_v19
  let main_c_7 : IVec S_ 1 := constantI S_ 1 1#1
  let main_v21 : IVec S_ 1 := (fun x v => Host.reduce IntOp.andi x v reducesTo_S753x8x4_S_d0_1_2 h_S_) main_v20 main_c_7
  let main_v22 : IVec S_ 1 := andi main_v17 main_v21
  let main_v23 : FVec F S31x8x4 .f32 := Host.absf main_arg6
  let main_cst_8 : FVec F S_ .f32 := constant S_ .f32 0x7F800000#32
  let main_v24 : FVec F S31x8x4 .f32 := broadcastInDim S31x8x4 ![] bcast_S_S31x8x4 main_cst_8
  let main_v25 : IVec S31x8x4 1 := cmpf .olt main_v23 main_v24
  let main_c_9 : IVec S_ 1 := constantI S_ 1 1#1
  let main_v26 : IVec S_ 1 := (fun x v => Host.reduce IntOp.andi x v reducesTo_S31x8x4_S_d0_1_2 h_S_) main_v25 main_c_9
  let main_v27 : IVec S_ 1 := andi main_v22 main_v26
  let main_c_10 : IVec S_ 32 := constantI S_ 32 16384#32
  let main_v28 : IVec S4 32 := broadcastInDim S4 ![] bcast_S_S4 main_c_10
  let main_v29 : IVec S4 1 := cmpi .sge main_arg3 main_v28
  let main_c_11 : IVec S_ 32 := constantI S_ 32 16384#32
  let main_v30 : IVec S4 32 := broadcastInDim S4 ![] bcast_S_S4 main_c_11
  let main_v31 : IVec S4 1 := cmpi .sle main_arg3 main_v30
  let main_v32 : IVec S4 1 := andi main_v29 main_v31
  let main_c_12 : IVec S_ 1 := constantI S_ 1 1#1
  fn_part2 (F := F) main_v27 main_v32 main_c_12

def fn {F : FTy → Type} [FloatOps F] (main_arg0 : FVec F S65536x32x3 .f32) (main_arg1 : FVec F S65536x8x12 .f32) (main_arg2 : FVec F S_ .f32) (main_arg3 : IVec S4 32) (main_arg4 : FVec F S753x8x4 .f32) (main_arg5 : FVec F S753x8x4 .f32) (main_arg6 : FVec F S31x8x4 .f32) : IVec S_ 1 :=
  let main_v0 : FVec F S65536x32x3 .f32 := Host.absf main_arg0
  let main_cst : FVec F S_ .f32 := constant S_ .f32 0x7F800000#32
  let main_v1 : FVec F S65536x32x3 .f32 := broadcastInDim S65536x32x3 ![] bcast_S_S65536x32x3 main_cst
  let main_v2 : IVec S65536x32x3 1 := cmpf .olt main_v0 main_v1
  let main_c : IVec S_ 1 := constantI S_ 1 1#1
  let main_v3 : IVec S_ 1 := (fun x v => Host.reduce IntOp.andi x v reducesTo_S65536x32x3_S_d0_1_2 h_S_) main_v2 main_c
  let main_v4 : FVec F S65536x8x12 .f32 := Host.absf main_arg1
  let main_cst_0 : FVec F S_ .f32 := constant S_ .f32 0x7F800000#32
  let main_v5 : FVec F S65536x8x12 .f32 := broadcastInDim S65536x8x12 ![] bcast_S_S65536x8x12 main_cst_0
  let main_v6 : IVec S65536x8x12 1 := cmpf .olt main_v4 main_v5
  let main_c_1 : IVec S_ 1 := constantI S_ 1 1#1
  let main_v7 : IVec S_ 1 := (fun x v => Host.reduce IntOp.andi x v reducesTo_S65536x8x12_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S753x8x4 .f32 := Host.absf main_arg4
  let main_cst_4 : FVec F S_ .f32 := constant S_ .f32 0x7F800000#32
  let main_v14 : FVec F S753x8x4 .f32 := broadcastInDim S753x8x4 ![] bcast_S_S753x8x4 main_cst_4
  let main_v15 : IVec S753x8x4 1 := cmpf .olt main_v13 main_v14
  let main_c_5 : IVec S_ 1 := constantI S_ 1 1#1
  fn_part1 (F := F) main_arg3 main_arg5 main_arg6 main_v12 main_v15 main_c_5
-- ==== Kernel.lean ====
abbrev S65536x32x3 : Shape := ⟨3, ![65536, 32, 3]⟩
abbrev S65536x8x12 : Shape := ⟨3, ![65536, 8, 12]⟩
abbrev S_ : Shape := ⟨0, ![]⟩
abbrev S4 : Shape := ⟨1, ![4]⟩
abbrev S753x8x4 : Shape := ⟨3, ![753, 8, 4]⟩
abbrev S31x8x4 : Shape := ⟨3, ![31, 8, 4]⟩
abbrev S24096 : Shape := ⟨1, ![24096]⟩
abbrev S992 : Shape := ⟨1, ![992]⟩
abbrev S49184 : Shape := ⟨1, ![49184]⟩
abbrev S6291456 : Shape := ⟨1, ![6291456]⟩
abbrev S16777216 : Shape := ⟨1, ![16777216]⟩
abbrev S6144 : Shape := ⟨1, ![6144]⟩
abbrev S16384 : Shape := ⟨1, ![16384]⟩
abbrev S16 : Shape := ⟨1, ![16]⟩
abbrev S65536x32x8 : Shape := ⟨3, ![65536, 32, 8]⟩

abbrev nBuf : Table → Nat
  | .hbm => 17
  | .local .scVector .vmem => 4
  | _ => 0

abbrev bufTy : (tb : Table) → Fin (nBuf tb) → BufTy
  | .hbm, ⟨0, _⟩ => ⟨S65536x32x3, .f32⟩
  | .hbm, ⟨1, _⟩ => ⟨S65536x8x12, .f32⟩
  | .hbm, ⟨2, _⟩ => ⟨S_, .f32⟩
  | .hbm, ⟨3, _⟩ => ⟨S4, .i32⟩
  | .hbm, ⟨4, _⟩ => ⟨S753x8x4, .f32⟩
  | .hbm, ⟨5, _⟩ => ⟨S753x8x4, .f32⟩
  | .hbm, ⟨6, _⟩ => ⟨S31x8x4, .f32⟩
  | .hbm, ⟨7, _⟩ => ⟨S24096, .f32⟩
  | .hbm, ⟨8, _⟩ => ⟨S24096, .f32⟩
  | .hbm, ⟨9, _⟩ => ⟨S992, .f32⟩
  | .hbm, ⟨10, _⟩ => ⟨S49184, .f32⟩
  | .hbm, ⟨11, _⟩ => ⟨S49184, .f32⟩
  | .hbm, ⟨12, _⟩ => ⟨S49184, .f32⟩
  | .hbm, ⟨13, _⟩ => ⟨S6291456, .f32⟩
  | .hbm, ⟨14, _⟩ => ⟨S6291456, .f32⟩
  | .hbm, ⟨15, _⟩ => ⟨S16777216, .f32⟩
  | .hbm, ⟨16, _⟩ => ⟨S65536x32x8, .f32⟩
  | .local .scVector .vmem, ⟨0, _⟩ => ⟨S49184, .f32⟩
  | .local .scVector .vmem, ⟨1, _⟩ => ⟨S6144, .f32⟩
  | .local .scVector .vmem, ⟨2, _⟩ => ⟨S6144, .f32⟩
  | .local .scVector .vmem, ⟨3, _⟩ => ⟨S16384, .f32⟩
  | _, _ => ⟨S65536x32x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v6_scv : Ref sig .scVector := ⟨.hbm, 13, rfl⟩
abbrev main_v7_scv : Ref sig .scVector := ⟨.hbm, 14, rfl⟩
abbrev main_v5_scv : Ref sig .scVector := ⟨.hbm, 12, rfl⟩
abbrev main_v8_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v7 : BitVec 32 := Scalar.addi c0_i32_0 c32_i32
  let c1_i32 : BitVec 32 := 1#32
  ⟨c0_i32_0, v7, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v9 : BitVec 32 := Scalar.muli v1 c2048_i32
  let c0_i32_0 : BitVec 32 := 0#32
  let c1_i32 : BitVec 32 := 1#32
  let arg10 : BitVec 32 := Scf.iv c0_i32_0 c1_i32 k0_t1
  let c64_i32 : BitVec 32 := 64#32
  let v10 : BitVec 32 := Scalar.muli arg10 c64_i32
  let v11 : BitVec 32 := Scalar.addi v9 v10
  let c96_i32 : BitVec 32 := 96#32
  let v12 : BitVec 32 := Scalar.muli v11 c96_i32
  ![v12.toNat]
@[reducible] def k0_t2_loop : Scf.Loop 32 :=
  let c0_i32_4 : BitVec 32 := 0#32
  let c64_i32_5 : BitVec 32 := 64#32
  let v14 : BitVec 32 := Scalar.addi c0_i32_4 c64_i32_5
  let c1_i32_6 : BitVec 32 := 1#32
  ⟨c0_i32_4, v14, c1_i32_6⟩

def k0_chk1 (v21 : IVec S16 32) : Prop :=
  (∀ a x, ((![v21] : Fin 1 → IVec S16 32) a x).toNat < S6144.size a)
instance k0_chk1.dec : ∀ (v21 : IVec S16 32), Decidable (k0_chk1 v21) := fun v21 => decidable_of_iff' _ (Iff.of_eq (k0_chk1.eq_1 v21))
theorem k0_idx1_inb : ∀ (v21 : IVec S16 32) (k0_hw1 : k0_chk1 v21), ∀ a x, ((![v21] : Fin 1 → IVec S16 32) a x).toNat < S6144.size a := fun v21 k0_hw1 => k0_hw1

def k0_chk2 (v39 : IVec S16 32) : Prop :=
  (∀ a x, ((![v39] : Fin 1 → IVec S16 32) a x).toNat < S6144.size a)
instance k0_chk2.dec : ∀ (v39 : IVec S16 32), Decidable (k0_chk2 v39) := fun v39 => decidable_of_iff' _ (Iff.of_eq (k0_chk2.eq_1 v39))
theorem k0_idx2_inb : ∀ (v39 : IVec S16 32) (k0_hw2 : k0_chk2 v39), ∀ a x, ((![v39] : Fin 1 → IVec S16 32) a x).toNat < S6144.size a := fun v39 k0_hw2 => k0_hw2

def k0_chk3 (v57 : IVec S16 32) : Prop :=
  (∀ a x, ((![v57] : Fin 1 → IVec S16 32) a x).toNat < S6144.size a)
instance k0_chk3.dec : ∀ (v57 : IVec S16 32), Decidable (k0_chk3 v57) := fun v57 => decidable_of_iff' _ (Iff.of_eq (k0_chk3.eq_1 v57))
theorem k0_idx3_inb : ∀ (v57 : IVec S16 32) (k0_hw3 : k0_chk3 v57), ∀ a x, ((![v57] : Fin 1 → IVec S16 32) a x).toNat < S6144.size a := fun v57 k0_hw3 => k0_hw3

def k0_chk4 (v75 : IVec S16 32) : Prop :=
  (∀ a x, ((![v75] : Fin 1 → IVec S16 32) a x).toNat < S6144.size a)
instance k0_chk4.dec : ∀ (v75 : IVec S16 32), Decidable (k0_chk4 v75) := fun v75 => decidable_of_iff' _ (Iff.of_eq (k0_chk4.eq_1 v75))
theorem k0_idx4_inb : ∀ (v75 : IVec S16 32) (k0_hw4 : k0_chk4 v75), ∀ a x, ((![v75] : Fin 1 → IVec S16 32) a x).toNat < S6144.size a := fun v75 k0_hw4 => k0_hw4

def k0_chk5 (v93 : IVec S16 32) : Prop :=
  (∀ a x, ((![v93] : Fin 1 → IVec S16 32) a x).toNat < S6144.size a)
instance k0_chk5.dec : ∀ (v93 : IVec S16 32), Decidable (k0_chk5 v93) := fun v93 => decidable_of_iff' _ (Iff.of_eq (k0_chk5.eq_1 v93))
theorem k0_idx5_inb : ∀ (v93 : IVec S16 32) (k0_hw5 : k0_chk5 v93), ∀ a x, ((![v93] : Fin 1 → IVec S16 32) a x).toNat < S6144.size a := fun v93 k0_hw5 => k0_hw5

def k0_chk6 (v111 : IVec S16 32) : Prop :=
  (∀ a x, ((![v111] : Fin 1 → IVec S16 32) a x).toNat < S6144.size a)
instance k0_chk6.dec : ∀ (v111 : IVec S16 32), Decidable (k0_chk6 v111) := fun v111 => decidable_of_iff' _ (Iff.of_eq (k0_chk6.eq_1 v111))
theorem k0_idx6_inb : ∀ (v111 : IVec S16 32) (k0_hw6 : k0_chk6 v111), ∀ a x, ((![v111] : Fin 1 → IVec S16 32) a x).toNat < S6144.size a := fun v111 k0_hw6 => k0_hw6

def k0_chk7 (v148 : IVec S16 32) : Prop :=
  (∀ a x, ((![v148] : Fin 1 → IVec S16 32) a x).toNat < S6144.size a)
instance k0_chk7.dec : ∀ (v148 : IVec S16 32), Decidable (k0_chk7 v148) := fun v148 => decidable_of_iff' _ (Iff.of_eq (k0_chk7.eq_1 v148))
theorem k0_idx7_inb : ∀ (v148 : IVec S16 32) (k0_hw7 : k0_chk7 v148), ∀ a x, ((![v148] : Fin 1 → IVec S16 32) a x).toNat < S6144.size a := fun v148 k0_hw7 => k0_hw7

def k0_chk8 (v151 : IVec S16 32) : Prop :=
  (∀ a x, ((![v151] : Fin 1 → IVec S16 32) a x).toNat < S49184.size a)
instance k0_chk8.dec : ∀ (v151 : IVec S16 32), Decidable (k0_chk8 v151) := fun v151 => decidable_of_iff' _ (Iff.of_eq (k0_chk8.eq_1 v151))
theorem k0_idx8_inb : ∀ (v151 : IVec S16 32) (k0_hw8 : k0_chk8 v151), ∀ a x, ((![v151] : Fin 1 → IVec S16 32) a x).toNat < S49184.size a := fun v151 k0_hw8 => k0_hw8

def k0_chk9 (v156 : IVec S16 32) : Prop :=
  (∀ a x, ((![v156] : Fin 1 → IVec S16 32) a x).toNat < S49184.size a)
instance k0_chk9.dec : ∀ (v156 : IVec S16 32), Decidable (k0_chk9 v156) := fun v156 => decidable_of_iff' _ (Iff.of_eq (k0_chk9.eq_1 v156))
theorem k0_idx9_inb : ∀ (v156 : IVec S16 32) (k0_hw9 : k0_chk9 v156), ∀ a x, ((![v156] : Fin 1 → IVec S16 32) a x).toNat < S49184.size a := fun v156 k0_hw9 => k0_hw9

def k0_chk10 (v165 : IVec S16 32) : Prop :=
  (∀ a x, ((![v165] : Fin 1 → IVec S16 32) a x).toNat < S6144.size a)
instance k0_chk10.dec : ∀ (v165 : IVec S16 32), Decidable (k0_chk10 v165) := fun v165 => decidable_of_iff' _ (Iff.of_eq (k0_chk10.eq_1 v165))
theorem k0_idx10_inb : ∀ (v165 : IVec S16 32) (k0_hw10 : k0_chk10 v165), ∀ a x, ((![v165] : Fin 1 → IVec S16 32) a x).toNat < S6144.size a := fun v165 k0_hw10 => k0_hw10

def k0_chk11 (v168 : IVec S16 32) : Prop :=
  (∀ a x, ((![v168] : Fin 1 → IVec S16 32) a x).toNat < S49184.size a)
instance k0_chk11.dec : ∀ (v168 : IVec S16 32), Decidable (k0_chk11 v168) := fun v168 => decidable_of_iff' _ (Iff.of_eq (k0_chk11.eq_1 v168))
theorem k0_idx11_inb : ∀ (v168 : IVec S16 32) (k0_hw11 : k0_chk11 v168), ∀ a x, ((![v168] : Fin 1 → IVec S16 32) a x).toNat < S49184.size a := fun v168 k0_hw11 => k0_hw11

def k0_chk12 (v173 : IVec S16 32) : Prop :=
  (∀ a x, ((![v173] : Fin 1 → IVec S16 32) a x).toNat < S49184.size a)
instance k0_chk12.dec : ∀ (v173 : IVec S16 32), Decidable (k0_chk12 v173) := fun v173 => decidable_of_iff' _ (Iff.of_eq (k0_chk12.eq_1 v173))
theorem k0_idx12_inb : ∀ (v173 : IVec S16 32) (k0_hw12 : k0_chk12 v173), ∀ a x, ((![v173] : Fin 1 → IVec S16 32) a x).toNat < S49184.size a := fun v173 k0_hw12 => k0_hw12

def k0_chk13 (v182 : IVec S16 32) : Prop :=
  (∀ a x, ((![v182] : Fin 1 → IVec S16 32) a x).toNat < S6144.size a)
instance k0_chk13.dec : ∀ (v182 : IVec S16 32), Decidable (k0_chk13 v182) := fun v182 => decidable_of_iff' _ (Iff.of_eq (k0_chk13.eq_1 v182))
theorem k0_idx13_inb : ∀ (v182 : IVec S16 32) (k0_hw13 : k0_chk13 v182), ∀ a x, ((![v182] : Fin 1 → IVec S16 32) a x).toNat < S6144.size a := fun v182 k0_hw13 => k0_hw13

def k0_chk14 (v185 : IVec S16 32) : Prop :=
  (∀ a x, ((![v185] : Fin 1 → IVec S16 32) a x).toNat < S49184.size a)
instance k0_chk14.dec : ∀ (v185 : IVec S16 32), Decidable (k0_chk14 v185) := fun v185 => decidable_of_iff' _ (Iff.of_eq (k0_chk14.eq_1 v185))
theorem k0_idx14_inb : ∀ (v185 : IVec S16 32) (k0_hw14 : k0_chk14 v185), ∀ a x, ((![v185] : Fin 1 → IVec S16 32) a x).toNat < S49184.size a := fun v185 k0_hw14 => k0_hw14

def k0_chk15 (v190 : IVec S16 32) : Prop :=
  (∀ a x, ((![v190] : Fin 1 → IVec S16 32) a x).toNat < S49184.size a)
instance k0_chk15.dec : ∀ (v190 : IVec S16 32), Decidable (k0_chk15 v190) := fun v190 => decidable_of_iff' _ (Iff.of_eq (k0_chk15.eq_1 v190))
theorem k0_idx15_inb : ∀ (v190 : IVec S16 32) (k0_hw15 : k0_chk15 v190), ∀ a x, ((![v190] : Fin 1 → IVec S16 32) a x).toNat < S49184.size a := fun v190 k0_hw15 => k0_hw15

def k0_chk16 (v199 : IVec S16 32) : Prop :=
  (∀ a x, ((![v199] : Fin 1 → IVec S16 32) a x).toNat < S6144.size a)
instance k0_chk16.dec : ∀ (v199 : IVec S16 32), Decidable (k0_chk16 v199) := fun v199 => decidable_of_iff' _ (Iff.of_eq (k0_chk16.eq_1 v199))
theorem k0_idx16_inb : ∀ (v199 : IVec S16 32) (k0_hw16 : k0_chk16 v199), ∀ a x, ((![v199] : Fin 1 → IVec S16 32) a x).toNat < S6144.size a := fun v199 k0_hw16 => k0_hw16

def k0_chk17 (v202 : IVec S16 32) : Prop :=
  (∀ a x, ((![v202] : Fin 1 → IVec S16 32) a x).toNat < S49184.size a)
instance k0_chk17.dec : ∀ (v202 : IVec S16 32), Decidable (k0_chk17 v202) := fun v202 => decidable_of_iff' _ (Iff.of_eq (k0_chk17.eq_1 v202))
theorem k0_idx17_inb : ∀ (v202 : IVec S16 32) (k0_hw17 : k0_chk17 v202), ∀ a x, ((![v202] : Fin 1 → IVec S16 32) a x).toNat < S49184.size a := fun v202 k0_hw17 => k0_hw17

def k0_chk18 (v207 : IVec S16 32) : Prop :=
  (∀ a x, ((![v207] : Fin 1 → IVec S16 32) a x).toNat < S49184.size a)
instance k0_chk18.dec : ∀ (v207 : IVec S16 32), Decidable (k0_chk18 v207) := fun v207 => decidable_of_iff' _ (Iff.of_eq (k0_chk18.eq_1 v207))
theorem k0_idx18_inb : ∀ (v207 : IVec S16 32) (k0_hw18 : k0_chk18 v207), ∀ a x, ((![v207] : Fin 1 → IVec S16 32) a x).toNat < S49184.size a := fun v207 k0_hw18 => k0_hw18

def k0_chk19 (v216 : IVec S16 32) : Prop :=
  (∀ a x, ((![v216] : Fin 1 → IVec S16 32) a x).toNat < S6144.size a)
instance k0_chk19.dec : ∀ (v216 : IVec S16 32), Decidable (k0_chk19 v216) := fun v216 => decidable_of_iff' _ (Iff.of_eq (k0_chk19.eq_1 v216))
theorem k0_idx19_inb : ∀ (v216 : IVec S16 32) (k0_hw19 : k0_chk19 v216), ∀ a x, ((![v216] : Fin 1 → IVec S16 32) a x).toNat < S6144.size a := fun v216 k0_hw19 => k0_hw19

def k0_chk20 (v219 : IVec S16 32) : Prop :=
  (∀ a x, ((![v219] : Fin 1 → IVec S16 32) a x).toNat < S49184.size a)
instance k0_chk20.dec : ∀ (v219 : IVec S16 32), Decidable (k0_chk20 v219) := fun v219 => decidable_of_iff' _ (Iff.of_eq (k0_chk20.eq_1 v219))
theorem k0_idx20_inb : ∀ (v219 : IVec S16 32) (k0_hw20 : k0_chk20 v219), ∀ a x, ((![v219] : Fin 1 → IVec S16 32) a x).toNat < S49184.size a := fun v219 k0_hw20 => k0_hw20

def k0_chk21 (v224 : IVec S16 32) : Prop :=
  (∀ a x, ((![v224] : Fin 1 → IVec S16 32) a x).toNat < S49184.size a)
instance k0_chk21.dec : ∀ (v224 : IVec S16 32), Decidable (k0_chk21 v224) := fun v224 => decidable_of_iff' _ (Iff.of_eq (k0_chk21.eq_1 v224))
theorem k0_idx21_inb : ∀ (v224 : IVec S16 32) (k0_hw21 : k0_chk21 v224), ∀ a x, ((![v224] : Fin 1 → IVec S16 32) a x).toNat < S49184.size a := fun v224 k0_hw21 => k0_hw21

def k0_chk22 (v233 : IVec S16 32) : Prop :=
  (∀ a x, ((![v233] : Fin 1 → IVec S16 32) a x).toNat < S6144.size a)
instance k0_chk22.dec : ∀ (v233 : IVec S16 32), Decidable (k0_chk22 v233) := fun v233 => decidable_of_iff' _ (Iff.of_eq (k0_chk22.eq_1 v233))
theorem k0_idx22_inb : ∀ (v233 : IVec S16 32) (k0_hw22 : k0_chk22 v233), ∀ a x, ((![v233] : Fin 1 → IVec S16 32) a x).toNat < S6144.size a := fun v233 k0_hw22 => k0_hw22

def k0_chk23 (v236 : IVec S16 32) : Prop :=
  (∀ a x, ((![v236] : Fin 1 → IVec S16 32) a x).toNat < S49184.size a)
instance k0_chk23.dec : ∀ (v236 : IVec S16 32), Decidable (k0_chk23 v236) := fun v236 => decidable_of_iff' _ (Iff.of_eq (k0_chk23.eq_1 v236))
theorem k0_idx23_inb : ∀ (v236 : IVec S16 32) (k0_hw23 : k0_chk23 v236), ∀ a x, ((![v236] : Fin 1 → IVec S16 32) a x).toNat < S49184.size a := fun v236 k0_hw23 => k0_hw23

def k0_chk24 (v241 : IVec S16 32) : Prop :=
  (∀ a x, ((![v241] : Fin 1 → IVec S16 32) a x).toNat < S49184.size a)
instance k0_chk24.dec : ∀ (v241 : IVec S16 32), Decidable (k0_chk24 v241) := fun v241 => decidable_of_iff' _ (Iff.of_eq (k0_chk24.eq_1 v241))
theorem k0_idx24_inb : ∀ (v241 : IVec S16 32) (k0_hw24 : k0_chk24 v241), ∀ a x, ((![v241] : Fin 1 → IVec S16 32) a x).toNat < S49184.size a := fun v241 k0_hw24 => k0_hw24

def k0_chk25 (v250 : IVec S16 32) : Prop :=
  (∀ a x, ((![v250] : Fin 1 → IVec S16 32) a x).toNat < S6144.size a)
instance k0_chk25.dec : ∀ (v250 : IVec S16 32), Decidable (k0_chk25 v250) := fun v250 => decidable_of_iff' _ (Iff.of_eq (k0_chk25.eq_1 v250))
theorem k0_idx25_inb : ∀ (v250 : IVec S16 32) (k0_hw25 : k0_chk25 v250), ∀ a x, ((![v250] : Fin 1 → IVec S16 32) a x).toNat < S6144.size a := fun v250 k0_hw25 => k0_hw25

def k0_chk26 (v253 : IVec S16 32) : Prop :=
  (∀ a x, ((![v253] : Fin 1 → IVec S16 32) a x).toNat < S49184.size a)
instance k0_chk26.dec : ∀ (v253 : IVec S16 32), Decidable (k0_chk26 v253) := fun v253 => decidable_of_iff' _ (Iff.of_eq (k0_chk26.eq_1 v253))
theorem k0_idx26_inb : ∀ (v253 : IVec S16 32) (k0_hw26 : k0_chk26 v253), ∀ a x, ((![v253] : Fin 1 → IVec S16 32) a x).toNat < S49184.size a := fun v253 k0_hw26 => k0_hw26

def k0_chk27 (v258 : IVec S16 32) : Prop :=
  (∀ a x, ((![v258] : Fin 1 → IVec S16 32) a x).toNat < S49184.size a)
instance k0_chk27.dec : ∀ (v258 : IVec S16 32), Decidable (k0_chk27 v258) := fun v258 => decidable_of_iff' _ (Iff.of_eq (k0_chk27.eq_1 v258))
theorem k0_idx27_inb : ∀ (v258 : IVec S16 32) (k0_hw27 : k0_chk27 v258), ∀ a x, ((![v258] : Fin 1 → IVec S16 32) a x).toNat < S49184.size a := fun v258 k0_hw27 => k0_hw27

def k0_chk28 (v267 : IVec S16 32) : Prop :=
  (∀ a x, ((![v267] : Fin 1 → IVec S16 32) a x).toNat < S6144.size a)
instance k0_chk28.dec : ∀ (v267 : IVec S16 32), Decidable (k0_chk28 v267) := fun v267 => decidable_of_iff' _ (Iff.of_eq (k0_chk28.eq_1 v267))
theorem k0_idx28_inb : ∀ (v267 : IVec S16 32) (k0_hw28 : k0_chk28 v267), ∀ a x, ((![v267] : Fin 1 → IVec S16 32) a x).toNat < S6144.size a := fun v267 k0_hw28 => k0_hw28

def k0_chk29 (v270 : IVec S16 32) : Prop :=
  (∀ a x, ((![v270] : Fin 1 → IVec S16 32) a x).toNat < S49184.size a)
instance k0_chk29.dec : ∀ (v270 : IVec S16 32), Decidable (k0_chk29 v270) := fun v270 => decidable_of_iff' _ (Iff.of_eq (k0_chk29.eq_1 v270))
theorem k0_idx29_inb : ∀ (v270 : IVec S16 32) (k0_hw29 : k0_chk29 v270), ∀ a x, ((![v270] : Fin 1 → IVec S16 32) a x).toNat < S49184.size a := fun v270 k0_hw29 => k0_hw29

def k0_chk30 (v275 : IVec S16 32) : Prop :=
  (∀ a x, ((![v275] : Fin 1 → IVec S16 32) a x).toNat < S49184.size a)
instance k0_chk30.dec : ∀ (v275 : IVec S16 32), Decidable (k0_chk30 v275) := fun v275 => decidable_of_iff' _ (Iff.of_eq (k0_chk30.eq_1 v275))
theorem k0_idx30_inb : ∀ (v275 : IVec S16 32) (k0_hw30 : k0_chk30 v275), ∀ a x, ((![v275] : Fin 1 → IVec S16 32) a x).toNat < S49184.size a := fun v275 k0_hw30 => k0_hw30

def k0_chk31 (v284 : IVec S16 32) : Prop :=
  (∀ a x, ((![v284] : Fin 1 → IVec S16 32) a x).toNat < S6144.size a)
instance k0_chk31.dec : ∀ (v284 : IVec S16 32), Decidable (k0_chk31 v284) := fun v284 => decidable_of_iff' _ (Iff.of_eq (k0_chk31.eq_1 v284))
theorem k0_idx31_inb : ∀ (v284 : IVec S16 32) (k0_hw31 : k0_chk31 v284), ∀ a x, ((![v284] : Fin 1 → IVec S16 32) a x).toNat < S6144.size a := fun v284 k0_hw31 => k0_hw31

def k0_chk32 (v287 : IVec S16 32) : Prop :=
  (∀ a x, ((![v287] : Fin 1 → IVec S16 32) a x).toNat < S49184.size a)
instance k0_chk32.dec : ∀ (v287 : IVec S16 32), Decidable (k0_chk32 v287) := fun v287 => decidable_of_iff' _ (Iff.of_eq (k0_chk32.eq_1 v287))
theorem k0_idx32_inb : ∀ (v287 : IVec S16 32) (k0_hw32 : k0_chk32 v287), ∀ a x, ((![v287] : Fin 1 → IVec S16 32) a x).toNat < S49184.size a := fun v287 k0_hw32 => k0_hw32

def k0_chk33 (v292 : IVec S16 32) : Prop :=
  (∀ a x, ((![v292] : Fin 1 → IVec S16 32) a x).toNat < S49184.size a)
instance k0_chk33.dec : ∀ (v292 : IVec S16 32), Decidable (k0_chk33 v292) := fun v292 => decidable_of_iff' _ (Iff.of_eq (k0_chk33.eq_1 v292))
theorem k0_idx33_inb : ∀ (v292 : IVec S16 32) (k0_hw33 : k0_chk33 v292), ∀ a x, ((![v292] : Fin 1 → IVec S16 32) a x).toNat < S49184.size a := fun v292 k0_hw33 => k0_hw33

def k0_chk34 (v301 : IVec S16 32) : Prop :=
  (∀ a x, ((![v301] : Fin 1 → IVec S16 32) a x).toNat < S6144.size a)
instance k0_chk34.dec : ∀ (v301 : IVec S16 32), Decidable (k0_chk34 v301) := fun v301 => decidable_of_iff' _ (Iff.of_eq (k0_chk34.eq_1 v301))
theorem k0_idx34_inb : ∀ (v301 : IVec S16 32) (k0_hw34 : k0_chk34 v301), ∀ a x, ((![v301] : Fin 1 → IVec S16 32) a x).toNat < S6144.size a := fun v301 k0_hw34 => k0_hw34

def k0_chk35 (v304 : IVec S16 32) : Prop :=
  (∀ a x, ((![v304] : Fin 1 → IVec S16 32) a x).toNat < S49184.size a)
instance k0_chk35.dec : ∀ (v304 : IVec S16 32), Decidable (k0_chk35 v304) := fun v304 => decidable_of_iff' _ (Iff.of_eq (k0_chk35.eq_1 v304))
theorem k0_idx35_inb : ∀ (v304 : IVec S16 32) (k0_hw35 : k0_chk35 v304), ∀ a x, ((![v304] : Fin 1 → IVec S16 32) a x).toNat < S49184.size a := fun v304 k0_hw35 => k0_hw35

def k0_chk36 (v309 : IVec S16 32) : Prop :=
  (∀ a x, ((![v309] : Fin 1 → IVec S16 32) a x).toNat < S49184.size a)
instance k0_chk36.dec : ∀ (v309 : IVec S16 32), Decidable (k0_chk36 v309) := fun v309 => decidable_of_iff' _ (Iff.of_eq (k0_chk36.eq_1 v309))
theorem k0_idx36_inb : ∀ (v309 : IVec S16 32) (k0_hw36 : k0_chk36 v309), ∀ a x, ((![v309] : Fin 1 → IVec S16 32) a x).toNat < S49184.size a := fun v309 k0_hw36 => k0_hw36

def k0_chk37 (v318 : IVec S16 32) : Prop :=
  (∀ a x, ((![v318] : Fin 1 → IVec S16 32) a x).toNat < S6144.size a)
instance k0_chk37.dec : ∀ (v318 : IVec S16 32), Decidable (k0_chk37 v318) := fun v318 => decidable_of_iff' _ (Iff.of_eq (k0_chk37.eq_1 v318))
theorem k0_idx37_inb : ∀ (v318 : IVec S16 32) (k0_hw37 : k0_chk37 v318), ∀ a x, ((![v318] : Fin 1 → IVec S16 32) a x).toNat < S6144.size a := fun v318 k0_hw37 => k0_hw37

def k0_chk38 (v321 : IVec S16 32) : Prop :=
  (∀ a x, ((![v321] : Fin 1 → IVec S16 32) a x).toNat < S49184.size a)
instance k0_chk38.dec : ∀ (v321 : IVec S16 32), Decidable (k0_chk38 v321) := fun v321 => decidable_of_iff' _ (Iff.of_eq (k0_chk38.eq_1 v321))
theorem k0_idx38_inb : ∀ (v321 : IVec S16 32) (k0_hw38 : k0_chk38 v321), ∀ a x, ((![v321] : Fin 1 → IVec S16 32) a x).toNat < S49184.size a := fun v321 k0_hw38 => k0_hw38

def k0_chk39 (v326 : IVec S16 32) : Prop :=
  (∀ a x, ((![v326] : Fin 1 → IVec S16 32) a x).toNat < S49184.size a)
instance k0_chk39.dec : ∀ (v326 : IVec S16 32), Decidable (k0_chk39 v326) := fun v326 => decidable_of_iff' _ (Iff.of_eq (k0_chk39.eq_1 v326))
theorem k0_idx39_inb : ∀ (v326 : IVec S16 32) (k0_hw39 : k0_chk39 v326), ∀ a x, ((![v326] : Fin 1 → IVec S16 32) a x).toNat < S49184.size a := fun v326 k0_hw39 => k0_hw39

def k0_chk40 (v335 : IVec S16 32) : Prop :=
  (∀ a x, ((![v335] : Fin 1 → IVec S16 32) a x).toNat < S6144.size a)
instance k0_chk40.dec : ∀ (v335 : IVec S16 32), Decidable (k0_chk40 v335) := fun v335 => decidable_of_iff' _ (Iff.of_eq (k0_chk40.eq_1 v335))
theorem k0_idx40_inb : ∀ (v335 : IVec S16 32) (k0_hw40 : k0_chk40 v335), ∀ a x, ((![v335] : Fin 1 → IVec S16 32) a x).toNat < S6144.size a := fun v335 k0_hw40 => k0_hw40

def k0_chk41 (v338 : IVec S16 32) : Prop :=
  (∀ a x, ((![v338] : Fin 1 → IVec S16 32) a x).toNat < S49184.size a)
instance k0_chk41.dec : ∀ (v338 : IVec S16 32), Decidable (k0_chk41 v338) := fun v338 => decidable_of_iff' _ (Iff.of_eq (k0_chk41.eq_1 v338))
theorem k0_idx41_inb : ∀ (v338 : IVec S16 32) (k0_hw41 : k0_chk41 v338), ∀ a x, ((![v338] : Fin 1 → IVec S16 32) a x).toNat < S49184.size a := fun v338 k0_hw41 => k0_hw41

def k0_chk42 (v343 : IVec S16 32) : Prop :=
  (∀ a x, ((![v343] : Fin 1 → IVec S16 32) a x).toNat < S49184.size a)
instance k0_chk42.dec : ∀ (v343 : IVec S16 32), Decidable (k0_chk42 v343) := fun v343 => decidable_of_iff' _ (Iff.of_eq (k0_chk42.eq_1 v343))
theorem k0_idx42_inb : ∀ (v343 : IVec S16 32) (k0_hw42 : k0_chk42 v343), ∀ a x, ((![v343] : Fin 1 → IVec S16 32) a x).toNat < S49184.size a := fun v343 k0_hw42 => k0_hw42

def k0_chk43 (v352 : IVec S16 32) : Prop :=
  (∀ a x, ((![v352] : Fin 1 → IVec S16 32) a x).toNat < S6144.size a)
instance k0_chk43.dec : ∀ (v352 : IVec S16 32), Decidable (k0_chk43 v352) := fun v352 => decidable_of_iff' _ (Iff.of_eq (k0_chk43.eq_1 v352))
theorem k0_idx43_inb : ∀ (v352 : IVec S16 32) (k0_hw43 : k0_chk43 v352), ∀ a x, ((![v352] : Fin 1 → IVec S16 32) a x).toNat < S6144.size a := fun v352 k0_hw43 => k0_hw43

def k0_chk44 (v355 : IVec S16 32) : Prop :=
  (∀ a x, ((![v355] : Fin 1 → IVec S16 32) a x).toNat < S49184.size a)
instance k0_chk44.dec : ∀ (v355 : IVec S16 32), Decidable (k0_chk44 v355) := fun v355 => decidable_of_iff' _ (Iff.of_eq (k0_chk44.eq_1 v355))
theorem k0_idx44_inb : ∀ (v355 : IVec S16 32) (k0_hw44 : k0_chk44 v355), ∀ a x, ((![v355] : Fin 1 → IVec S16 32) a x).toNat < S49184.size a := fun v355 k0_hw44 => k0_hw44

def k0_chk45 (v360 : IVec S16 32) : Prop :=
  (∀ a x, ((![v360] : Fin 1 → IVec S16 32) a x).toNat < S49184.size a)
instance k0_chk45.dec : ∀ (v360 : IVec S16 32), Decidable (k0_chk45 v360) := fun v360 => decidable_of_iff' _ (Iff.of_eq (k0_chk45.eq_1 v360))
theorem k0_idx45_inb : ∀ (v360 : IVec S16 32) (k0_hw45 : k0_chk45 v360), ∀ a x, ((![v360] : Fin 1 → IVec S16 32) a x).toNat < S49184.size a := fun v360 k0_hw45 => k0_hw45

def k0_chk46 (v369 : IVec S16 32) : Prop :=
  (∀ a x, ((![v369] : Fin 1 → IVec S16 32) a x).toNat < S6144.size a)
instance k0_chk46.dec : ∀ (v369 : IVec S16 32), Decidable (k0_chk46 v369) := fun v369 => decidable_of_iff' _ (Iff.of_eq (k0_chk46.eq_1 v369))
theorem k0_idx46_inb : ∀ (v369 : IVec S16 32) (k0_hw46 : k0_chk46 v369), ∀ a x, ((![v369] : Fin 1 → IVec S16 32) a x).toNat < S6144.size a := fun v369 k0_hw46 => k0_hw46

def k0_chk47 (v372 : IVec S16 32) : Prop :=
  (∀ a x, ((![v372] : Fin 1 → IVec S16 32) a x).toNat < S49184.size a)
instance k0_chk47.dec : ∀ (v372 : IVec S16 32), Decidable (k0_chk47 v372) := fun v372 => decidable_of_iff' _ (Iff.of_eq (k0_chk47.eq_1 v372))
theorem k0_idx47_inb : ∀ (v372 : IVec S16 32) (k0_hw47 : k0_chk47 v372), ∀ a x, ((![v372] : Fin 1 → IVec S16 32) a x).toNat < S49184.size a := fun v372 k0_hw47 => k0_hw47

def k0_chk48 (v377 : IVec S16 32) : Prop :=
  (∀ a x, ((![v377] : Fin 1 → IVec S16 32) a x).toNat < S49184.size a)
instance k0_chk48.dec : ∀ (v377 : IVec S16 32), Decidable (k0_chk48 v377) := fun v377 => decidable_of_iff' _ (Iff.of_eq (k0_chk48.eq_1 v377))
theorem k0_idx48_inb : ∀ (v377 : IVec S16 32) (k0_hw48 : k0_chk48 v377), ∀ a x, ((![v377] : Fin 1 → IVec S16 32) a x).toNat < S49184.size a := fun v377 k0_hw48 => k0_hw48

def k0_chk49 (v386 : IVec S16 32) : Prop :=
  (∀ a x, ((![v386] : Fin 1 → IVec S16 32) a x).toNat < S6144.size a)
instance k0_chk49.dec : ∀ (v386 : IVec S16 32), Decidable (k0_chk49 v386) := fun v386 => decidable_of_iff' _ (Iff.of_eq (k0_chk49.eq_1 v386))
theorem k0_idx49_inb : ∀ (v386 : IVec S16 32) (k0_hw49 : k0_chk49 v386), ∀ a x, ((![v386] : Fin 1 → IVec S16 32) a x).toNat < S6144.size a := fun v386 k0_hw49 => k0_hw49

def k0_chk50 (v389 : IVec S16 32) : Prop :=
  (∀ a x, ((![v389] : Fin 1 → IVec S16 32) a x).toNat < S49184.size a)
instance k0_chk50.dec : ∀ (v389 : IVec S16 32), Decidable (k0_chk50 v389) := fun v389 => decidable_of_iff' _ (Iff.of_eq (k0_chk50.eq_1 v389))
theorem k0_idx50_inb : ∀ (v389 : IVec S16 32) (k0_hw50 : k0_chk50 v389), ∀ a x, ((![v389] : Fin 1 → IVec S16 32) a x).toNat < S49184.size a := fun v389 k0_hw50 => k0_hw50

def k0_chk51 (v394 : IVec S16 32) : Prop :=
  (∀ a x, ((![v394] : Fin 1 → IVec S16 32) a x).toNat < S49184.size a)
instance k0_chk51.dec : ∀ (v394 : IVec S16 32), Decidable (k0_chk51 v394) := fun v394 => decidable_of_iff' _ (Iff.of_eq (k0_chk51.eq_1 v394))
theorem k0_idx51_inb : ∀ (v394 : IVec S16 32) (k0_hw51 : k0_chk51 v394), ∀ a x, ((![v394] : Fin 1 → IVec S16 32) a x).toNat < S49184.size a := fun v394 k0_hw51 => k0_hw51

def k0_chk52 (v403 : IVec S16 32) : Prop :=
  (∀ a x, ((![v403] : Fin 1 → IVec S16 32) a x).toNat < S6144.size a)
instance k0_chk52.dec : ∀ (v403 : IVec S16 32), Decidable (k0_chk52 v403) := fun v403 => decidable_of_iff' _ (Iff.of_eq (k0_chk52.eq_1 v403))
theorem k0_idx52_inb : ∀ (v403 : IVec S16 32) (k0_hw52 : k0_chk52 v403), ∀ a x, ((![v403] : Fin 1 → IVec S16 32) a x).toNat < S6144.size a := fun v403 k0_hw52 => k0_hw52

def k0_chk53 (v406 : IVec S16 32) : Prop :=
  (∀ a x, ((![v406] : Fin 1 → IVec S16 32) a x).toNat < S49184.size a)
instance k0_chk53.dec : ∀ (v406 : IVec S16 32), Decidable (k0_chk53 v406) := fun v406 => decidable_of_iff' _ (Iff.of_eq (k0_chk53.eq_1 v406))
theorem k0_idx53_inb : ∀ (v406 : IVec S16 32) (k0_hw53 : k0_chk53 v406), ∀ a x, ((![v406] : Fin 1 → IVec S16 32) a x).toNat < S49184.size a := fun v406 k0_hw53 => k0_hw53

def k0_chk54 (v411 : IVec S16 32) : Prop :=
  (∀ a x, ((![v411] : Fin 1 → IVec S16 32) a x).toNat < S49184.size a)
instance k0_chk54.dec : ∀ (v411 : IVec S16 32), Decidable (k0_chk54 v411) := fun v411 => decidable_of_iff' _ (Iff.of_eq (k0_chk54.eq_1 v411))
theorem k0_idx54_inb : ∀ (v411 : IVec S16 32) (k0_hw54 : k0_chk54 v411), ∀ a x, ((![v411] : Fin 1 → IVec S16 32) a x).toNat < S49184.size a := fun v411 k0_hw54 => k0_hw54

def k0_chk55 (v420 : IVec S16 32) : Prop :=
  (∀ a x, ((![v420] : Fin 1 → IVec S16 32) a x).toNat < S6144.size a)
instance k0_chk55.dec : ∀ (v420 : IVec S16 32), Decidable (k0_chk55 v420) := fun v420 => decidable_of_iff' _ (Iff.of_eq (k0_chk55.eq_1 v420))
theorem k0_idx55_inb : ∀ (v420 : IVec S16 32) (k0_hw55 : k0_chk55 v420), ∀ a x, ((![v420] : Fin 1 → IVec S16 32) a x).toNat < S6144.size a := fun v420 k0_hw55 => k0_hw55

def k0_chk56 (v423 : IVec S16 32) : Prop :=
  (∀ a x, ((![v423] : Fin 1 → IVec S16 32) a x).toNat < S49184.size a)
instance k0_chk56.dec : ∀ (v423 : IVec S16 32), Decidable (k0_chk56 v423) := fun v423 => decidable_of_iff' _ (Iff.of_eq (k0_chk56.eq_1 v423))
theorem k0_idx56_inb : ∀ (v423 : IVec S16 32) (k0_hw56 : k0_chk56 v423), ∀ a x, ((![v423] : Fin 1 → IVec S16 32) a x).toNat < S49184.size a := fun v423 k0_hw56 => k0_hw56

def k0_chk57 (v428 : IVec S16 32) : Prop :=
  (∀ a x, ((![v428] : Fin 1 → IVec S16 32) a x).toNat < S49184.size a)
instance k0_chk57.dec : ∀ (v428 : IVec S16 32), Decidable (k0_chk57 v428) := fun v428 => decidable_of_iff' _ (Iff.of_eq (k0_chk57.eq_1 v428))
theorem k0_idx57_inb : ∀ (v428 : IVec S16 32) (k0_hw57 : k0_chk57 v428), ∀ a x, ((![v428] : Fin 1 → IVec S16 32) a x).toNat < S49184.size a := fun v428 k0_hw57 => k0_hw57

def k0_chk58 (v437 : IVec S16 32) : Prop :=
  (∀ a x, ((![v437] : Fin 1 → IVec S16 32) a x).toNat < S6144.size a)
instance k0_chk58.dec : ∀ (v437 : IVec S16 32), Decidable (k0_chk58 v437) := fun v437 => decidable_of_iff' _ (Iff.of_eq (k0_chk58.eq_1 v437))
theorem k0_idx58_inb : ∀ (v437 : IVec S16 32) (k0_hw58 : k0_chk58 v437), ∀ a x, ((![v437] : Fin 1 → IVec S16 32) a x).toNat < S6144.size a := fun v437 k0_hw58 => k0_hw58

def k0_chk59 (v440 : IVec S16 32) : Prop :=
  (∀ a x, ((![v440] : Fin 1 → IVec S16 32) a x).toNat < S49184.size a)
instance k0_chk59.dec : ∀ (v440 : IVec S16 32), Decidable (k0_chk59 v440) := fun v440 => decidable_of_iff' _ (Iff.of_eq (k0_chk59.eq_1 v440))
theorem k0_idx59_inb : ∀ (v440 : IVec S16 32) (k0_hw59 : k0_chk59 v440), ∀ a x, ((![v440] : Fin 1 → IVec S16 32) a x).toNat < S49184.size a := fun v440 k0_hw59 => k0_hw59

def k0_chk60 (v445 : IVec S16 32) : Prop :=
  (∀ a x, ((![v445] : Fin 1 → IVec S16 32) a x).toNat < S49184.size a)
instance k0_chk60.dec : ∀ (v445 : IVec S16 32), Decidable (k0_chk60 v445) := fun v445 => decidable_of_iff' _ (Iff.of_eq (k0_chk60.eq_1 v445))
theorem k0_idx60_inb : ∀ (v445 : IVec S16 32) (k0_hw60 : k0_chk60 v445), ∀ a x, ((![v445] : Fin 1 → IVec S16 32) a x).toNat < S49184.size a := fun v445 k0_hw60 => k0_hw60

def k0_chk61 (v454 : IVec S16 32) : Prop :=
  (∀ a x, ((![v454] : Fin 1 → IVec S16 32) a x).toNat < S6144.size a)
instance k0_chk61.dec : ∀ (v454 : IVec S16 32), Decidable (k0_chk61 v454) := fun v454 => decidable_of_iff' _ (Iff.of_eq (k0_chk61.eq_1 v454))
theorem k0_idx61_inb : ∀ (v454 : IVec S16 32) (k0_hw61 : k0_chk61 v454), ∀ a x, ((![v454] : Fin 1 → IVec S16 32) a x).toNat < S6144.size a := fun v454 k0_hw61 => k0_hw61

def k0_chk62 (v457 : IVec S16 32) : Prop :=
  (∀ a x, ((![v457] : Fin 1 → IVec S16 32) a x).toNat < S49184.size a)
instance k0_chk62.dec : ∀ (v457 : IVec S16 32), Decidable (k0_chk62 v457) := fun v457 => decidable_of_iff' _ (Iff.of_eq (k0_chk62.eq_1 v457))
theorem k0_idx62_inb : ∀ (v457 : IVec S16 32) (k0_hw62 : k0_chk62 v457), ∀ a x, ((![v457] : Fin 1 → IVec S16 32) a x).toNat < S49184.size a := fun v457 k0_hw62 => k0_hw62

def k0_chk63 (v462 : IVec S16 32) : Prop :=
  (∀ a x, ((![v462] : Fin 1 → IVec S16 32) a x).toNat < S49184.size a)
instance k0_chk63.dec : ∀ (v462 : IVec S16 32), Decidable (k0_chk63 v462) := fun v462 => decidable_of_iff' _ (Iff.of_eq (k0_chk63.eq_1 v462))
theorem k0_idx63_inb : ∀ (v462 : IVec S16 32) (k0_hw63 : k0_chk63 v462), ∀ a x, ((![v462] : Fin 1 → IVec S16 32) a x).toNat < S49184.size a := fun v462 k0_hw63 => k0_hw63

def k0_chk64 (v471 : IVec S16 32) : Prop :=
  (∀ a x, ((![v471] : Fin 1 → IVec S16 32) a x).toNat < S6144.size a)
instance k0_chk64.dec : ∀ (v471 : IVec S16 32), Decidable (k0_chk64 v471) := fun v471 => decidable_of_iff' _ (Iff.of_eq (k0_chk64.eq_1 v471))
theorem k0_idx64_inb : ∀ (v471 : IVec S16 32) (k0_hw64 : k0_chk64 v471), ∀ a x, ((![v471] : Fin 1 → IVec S16 32) a x).toNat < S6144.size a := fun v471 k0_hw64 => k0_hw64

def k0_chk65 (v474 : IVec S16 32) : Prop :=
  (∀ a x, ((![v474] : Fin 1 → IVec S16 32) a x).toNat < S49184.size a)
instance k0_chk65.dec : ∀ (v474 : IVec S16 32), Decidable (k0_chk65 v474) := fun v474 => decidable_of_iff' _ (Iff.of_eq (k0_chk65.eq_1 v474))
theorem k0_idx65_inb : ∀ (v474 : IVec S16 32) (k0_hw65 : k0_chk65 v474), ∀ a x, ((![v474] : Fin 1 → IVec S16 32) a x).toNat < S49184.size a := fun v474 k0_hw65 => k0_hw65

def k0_chk66 (v479 : IVec S16 32) : Prop :=
  (∀ a x, ((![v479] : Fin 1 → IVec S16 32) a x).toNat < S49184.size a)
instance k0_chk66.dec : ∀ (v479 : IVec S16 32), Decidable (k0_chk66 v479) := fun v479 => decidable_of_iff' _ (Iff.of_eq (k0_chk66.eq_1 v479))
theorem k0_idx66_inb : ∀ (v479 : IVec S16 32) (k0_hw66 : k0_chk66 v479), ∀ a x, ((![v479] : Fin 1 → IVec S16 32) a x).toNat < S49184.size a := fun v479 k0_hw66 => k0_hw66

def k0_chk67 (v488 : IVec S16 32) : Prop :=
  (∀ a x, ((![v488] : Fin 1 → IVec S16 32) a x).toNat < S6144.size a)
instance k0_chk67.dec : ∀ (v488 : IVec S16 32), Decidable (k0_chk67 v488) := fun v488 => decidable_of_iff' _ (Iff.of_eq (k0_chk67.eq_1 v488))
theorem k0_idx67_inb : ∀ (v488 : IVec S16 32) (k0_hw67 : k0_chk67 v488), ∀ a x, ((![v488] : Fin 1 → IVec S16 32) a x).toNat < S6144.size a := fun v488 k0_hw67 => k0_hw67

def k0_chk68 (v491 : IVec S16 32) : Prop :=
  (∀ a x, ((![v491] : Fin 1 → IVec S16 32) a x).toNat < S49184.size a)
instance k0_chk68.dec : ∀ (v491 : IVec S16 32), Decidable (k0_chk68 v491) := fun v491 => decidable_of_iff' _ (Iff.of_eq (k0_chk68.eq_1 v491))
theorem k0_idx68_inb : ∀ (v491 : IVec S16 32) (k0_hw68 : k0_chk68 v491), ∀ a x, ((![v491] : Fin 1 → IVec S16 32) a x).toNat < S49184.size a := fun v491 k0_hw68 => k0_hw68

def k0_chk69 (v496 : IVec S16 32) : Prop :=
  (∀ a x, ((![v496] : Fin 1 → IVec S16 32) a x).toNat < S49184.size a)
instance k0_chk69.dec : ∀ (v496 : IVec S16 32), Decidable (k0_chk69 v496) := fun v496 => decidable_of_iff' _ (Iff.of_eq (k0_chk69.eq_1 v496))
theorem k0_idx69_inb : ∀ (v496 : IVec S16 32) (k0_hw69 : k0_chk69 v496), ∀ a x, ((![v496] : Fin 1 → IVec S16 32) a x).toNat < S49184.size a := fun v496 k0_hw69 => k0_hw69

def k0_chk70 (v505 : IVec S16 32) : Prop :=
  (∀ a x, ((![v505] : Fin 1 → IVec S16 32) a x).toNat < S6144.size a)
instance k0_chk70.dec : ∀ (v505 : IVec S16 32), Decidable (k0_chk70 v505) := fun v505 => decidable_of_iff' _ (Iff.of_eq (k0_chk70.eq_1 v505))
theorem k0_idx70_inb : ∀ (v505 : IVec S16 32) (k0_hw70 : k0_chk70 v505), ∀ a x, ((![v505] : Fin 1 → IVec S16 32) a x).toNat < S6144.size a := fun v505 k0_hw70 => k0_hw70

def k0_chk71 (v508 : IVec S16 32) : Prop :=
  (∀ a x, ((![v508] : Fin 1 → IVec S16 32) a x).toNat < S49184.size a)
instance k0_chk71.dec : ∀ (v508 : IVec S16 32), Decidable (k0_chk71 v508) := fun v508 => decidable_of_iff' _ (Iff.of_eq (k0_chk71.eq_1 v508))
theorem k0_idx71_inb : ∀ (v508 : IVec S16 32) (k0_hw71 : k0_chk71 v508), ∀ a x, ((![v508] : Fin 1 → IVec S16 32) a x).toNat < S49184.size a := fun v508 k0_hw71 => k0_hw71

def k0_chk72 (v513 : IVec S16 32) : Prop :=
  (∀ a x, ((![v513] : Fin 1 → IVec S16 32) a x).toNat < S49184.size a)
instance k0_chk72.dec : ∀ (v513 : IVec S16 32), Decidable (k0_chk72 v513) := fun v513 => decidable_of_iff' _ (Iff.of_eq (k0_chk72.eq_1 v513))
theorem k0_idx72_inb : ∀ (v513 : IVec S16 32) (k0_hw72 : k0_chk72 v513), ∀ a x, ((![v513] : Fin 1 → IVec S16 32) a x).toNat < S49184.size a := fun v513 k0_hw72 => k0_hw72

def k0_chk73 (v522 : IVec S16 32) : Prop :=
  (∀ a x, ((![v522] : Fin 1 → IVec S16 32) a x).toNat < S6144.size a)
instance k0_chk73.dec : ∀ (v522 : IVec S16 32), Decidable (k0_chk73 v522) := fun v522 => decidable_of_iff' _ (Iff.of_eq (k0_chk73.eq_1 v522))
theorem k0_idx73_inb : ∀ (v522 : IVec S16 32) (k0_hw73 : k0_chk73 v522), ∀ a x, ((![v522] : Fin 1 → IVec S16 32) a x).toNat < S6144.size a := fun v522 k0_hw73 => k0_hw73

def k0_chk74 (v525 : IVec S16 32) : Prop :=
  (∀ a x, ((![v525] : Fin 1 → IVec S16 32) a x).toNat < S49184.size a)
instance k0_chk74.dec : ∀ (v525 : IVec S16 32), Decidable (k0_chk74 v525) := fun v525 => decidable_of_iff' _ (Iff.of_eq (k0_chk74.eq_1 v525))
theorem k0_idx74_inb : ∀ (v525 : IVec S16 32) (k0_hw74 : k0_chk74 v525), ∀ a x, ((![v525] : Fin 1 → IVec S16 32) a x).toNat < S49184.size a := fun v525 k0_hw74 => k0_hw74

def k0_chk75 (v530 : IVec S16 32) : Prop :=
  (∀ a x, ((![v530] : Fin 1 → IVec S16 32) a x).toNat < S49184.size a)
instance k0_chk75.dec : ∀ (v530 : IVec S16 32), Decidable (k0_chk75 v530) := fun v530 => decidable_of_iff' _ (Iff.of_eq (k0_chk75.eq_1 v530))
theorem k0_idx75_inb : ∀ (v530 : IVec S16 32) (k0_hw75 : k0_chk75 v530), ∀ a x, ((![v530] : Fin 1 → IVec S16 32) a x).toNat < S49184.size a := fun v530 k0_hw75 => k0_hw75

def k0_chk76 (v539 : IVec S16 32) : Prop :=
  (∀ a x, ((![v539] : Fin 1 → IVec S16 32) a x).toNat < S6144.size a)
instance k0_chk76.dec : ∀ (v539 : IVec S16 32), Decidable (k0_chk76 v539) := fun v539 => decidable_of_iff' _ (Iff.of_eq (k0_chk76.eq_1 v539))
theorem k0_idx76_inb : ∀ (v539 : IVec S16 32) (k0_hw76 : k0_chk76 v539), ∀ a x, ((![v539] : Fin 1 → IVec S16 32) a x).toNat < S6144.size a := fun v539 k0_hw76 => k0_hw76

def k0_chk77 (v542 : IVec S16 32) : Prop :=
  (∀ a x, ((![v542] : Fin 1 → IVec S16 32) a x).toNat < S49184.size a)
instance k0_chk77.dec : ∀ (v542 : IVec S16 32), Decidable (k0_chk77 v542) := fun v542 => decidable_of_iff' _ (Iff.of_eq (k0_chk77.eq_1 v542))
theorem k0_idx77_inb : ∀ (v542 : IVec S16 32) (k0_hw77 : k0_chk77 v542), ∀ a x, ((![v542] : Fin 1 → IVec S16 32) a x).toNat < S49184.size a := fun v542 k0_hw77 => k0_hw77

def k0_chk78 (v547 : IVec S16 32) : Prop :=
  (∀ a x, ((![v547] : Fin 1 → IVec S16 32) a x).toNat < S49184.size a)
instance k0_chk78.dec : ∀ (v547 : IVec S16 32), Decidable (k0_chk78 v547) := fun v547 => decidable_of_iff' _ (Iff.of_eq (k0_chk78.eq_1 v547))
theorem k0_idx78_inb : ∀ (v547 : IVec S16 32) (k0_hw78 : k0_chk78 v547), ∀ a x, ((![v547] : Fin 1 → IVec S16 32) a x).toNat < S49184.size a := fun v547 k0_hw78 => k0_hw78

def k0_chk79 (v556 : IVec S16 32) : Prop :=
  (∀ a x, ((![v556] : Fin 1 → IVec S16 32) a x).toNat < S6144.size a)
instance k0_chk79.dec : ∀ (v556 : IVec S16 32), Decidable (k0_chk79 v556) := fun v556 => decidable_of_iff' _ (Iff.of_eq (k0_chk79.eq_1 v556))
theorem k0_idx79_inb : ∀ (v556 : IVec S16 32) (k0_hw79 : k0_chk79 v556), ∀ a x, ((![v556] : Fin 1 → IVec S16 32) a x).toNat < S6144.size a := fun v556 k0_hw79 => k0_hw79

def k0_chk80 (v559 : IVec S16 32) : Prop :=
  (∀ a x, ((![v559] : Fin 1 → IVec S16 32) a x).toNat < S49184.size a)
instance k0_chk80.dec : ∀ (v559 : IVec S16 32), Decidable (k0_chk80 v559) := fun v559 => decidable_of_iff' _ (Iff.of_eq (k0_chk80.eq_1 v559))
theorem k0_idx80_inb : ∀ (v559 : IVec S16 32) (k0_hw80 : k0_chk80 v559), ∀ a x, ((![v559] : Fin 1 → IVec S16 32) a x).toNat < S49184.size a := fun v559 k0_hw80 => k0_hw80

def k0_chk81 (v564 : IVec S16 32) : Prop :=
  (∀ a x, ((![v564] : Fin 1 → IVec S16 32) a x).toNat < S49184.size a)
instance k0_chk81.dec : ∀ (v564 : IVec S16 32), Decidable (k0_chk81 v564) := fun v564 => decidable_of_iff' _ (Iff.of_eq (k0_chk81.eq_1 v564))
theorem k0_idx81_inb : ∀ (v564 : IVec S16 32) (k0_hw81 : k0_chk81 v564), ∀ a x, ((![v564] : Fin 1 → IVec S16 32) a x).toNat < S49184.size a := fun v564 k0_hw81 => k0_hw81

def k0_chk82 (v573 : IVec S16 32) : Prop :=
  (∀ a x, ((![v573] : Fin 1 → IVec S16 32) a x).toNat < S6144.size a)
instance k0_chk82.dec : ∀ (v573 : IVec S16 32), Decidable (k0_chk82 v573) := fun v573 => decidable_of_iff' _ (Iff.of_eq (k0_chk82.eq_1 v573))
theorem k0_idx82_inb : ∀ (v573 : IVec S16 32) (k0_hw82 : k0_chk82 v573), ∀ a x, ((![v573] : Fin 1 → IVec S16 32) a x).toNat < S6144.size a := fun v573 k0_hw82 => k0_hw82

def k0_chk83 (v576 : IVec S16 32) : Prop :=
  (∀ a x, ((![v576] : Fin 1 → IVec S16 32) a x).toNat < S49184.size a)
instance k0_chk83.dec : ∀ (v576 : IVec S16 32), Decidable (k0_chk83 v576) := fun v576 => decidable_of_iff' _ (Iff.of_eq (k0_chk83.eq_1 v576))
theorem k0_idx83_inb : ∀ (v576 : IVec S16 32) (k0_hw83 : k0_chk83 v576), ∀ a x, ((![v576] : Fin 1 → IVec S16 32) a x).toNat < S49184.size a := fun v576 k0_hw83 => k0_hw83

def k0_chk84 (v581 : IVec S16 32) : Prop :=
  (∀ a x, ((![v581] : Fin 1 → IVec S16 32) a x).toNat < S49184.size a)
instance k0_chk84.dec : ∀ (v581 : IVec S16 32), Decidable (k0_chk84 v581) := fun v581 => decidable_of_iff' _ (Iff.of_eq (k0_chk84.eq_1 v581))
theorem k0_idx84_inb : ∀ (v581 : IVec S16 32) (k0_hw84 : k0_chk84 v581), ∀ a x, ((![v581] : Fin 1 → IVec S16 32) a x).toNat < S49184.size a := fun v581 k0_hw84 => k0_hw84

def k0_chk85 (v590 : IVec S16 32) : Prop :=
  (∀ a x, ((![v590] : Fin 1 → IVec S16 32) a x).toNat < S6144.size a)
instance k0_chk85.dec : ∀ (v590 : IVec S16 32), Decidable (k0_chk85 v590) := fun v590 => decidable_of_iff' _ (Iff.of_eq (k0_chk85.eq_1 v590))
theorem k0_idx85_inb : ∀ (v590 : IVec S16 32) (k0_hw85 : k0_chk85 v590), ∀ a x, ((![v590] : Fin 1 → IVec S16 32) a x).toNat < S6144.size a := fun v590 k0_hw85 => k0_hw85

def k0_chk86 (v593 : IVec S16 32) : Prop :=
  (∀ a x, ((![v593] : Fin 1 → IVec S16 32) a x).toNat < S49184.size a)
instance k0_chk86.dec : ∀ (v593 : IVec S16 32), Decidable (k0_chk86 v593) := fun v593 => decidable_of_iff' _ (Iff.of_eq (k0_chk86.eq_1 v593))
theorem k0_idx86_inb : ∀ (v593 : IVec S16 32) (k0_hw86 : k0_chk86 v593), ∀ a x, ((![v593] : Fin 1 → IVec S16 32) a x).toNat < S49184.size a := fun v593 k0_hw86 => k0_hw86

def k0_chk87 (v598 : IVec S16 32) : Prop :=
  (∀ a x, ((![v598] : Fin 1 → IVec S16 32) a x).toNat < S49184.size a)
instance k0_chk87.dec : ∀ (v598 : IVec S16 32), Decidable (k0_chk87 v598) := fun v598 => decidable_of_iff' _ (Iff.of_eq (k0_chk87.eq_1 v598))
theorem k0_idx87_inb : ∀ (v598 : IVec S16 32) (k0_hw87 : k0_chk87 v598), ∀ a x, ((![v598] : Fin 1 → IVec S16 32) a x).toNat < S49184.size a := fun v598 k0_hw87 => k0_hw87

def k0_chk88 (v607 : IVec S16 32) : Prop :=
  (∀ a x, ((![v607] : Fin 1 → IVec S16 32) a x).toNat < S6144.size a)
instance k0_chk88.dec : ∀ (v607 : IVec S16 32), Decidable (k0_chk88 v607) := fun v607 => decidable_of_iff' _ (Iff.of_eq (k0_chk88.eq_1 v607))
theorem k0_idx88_inb : ∀ (v607 : IVec S16 32) (k0_hw88 : k0_chk88 v607), ∀ a x, ((![v607] : Fin 1 → IVec S16 32) a x).toNat < S6144.size a := fun v607 k0_hw88 => k0_hw88

def k0_chk89 (v610 : IVec S16 32) : Prop :=
  (∀ a x, ((![v610] : Fin 1 → IVec S16 32) a x).toNat < S49184.size a)
instance k0_chk89.dec : ∀ (v610 : IVec S16 32), Decidable (k0_chk89 v610) := fun v610 => decidable_of_iff' _ (Iff.of_eq (k0_chk89.eq_1 v610))
theorem k0_idx89_inb : ∀ (v610 : IVec S16 32) (k0_hw89 : k0_chk89 v610), ∀ a x, ((![v610] : Fin 1 → IVec S16 32) a x).toNat < S49184.size a := fun v610 k0_hw89 => k0_hw89

def k0_chk90 (v615 : IVec S16 32) : Prop :=
  (∀ a x, ((![v615] : Fin 1 → IVec S16 32) a x).toNat < S49184.size a)
instance k0_chk90.dec : ∀ (v615 : IVec S16 32), Decidable (k0_chk90 v615) := fun v615 => decidable_of_iff' _ (Iff.of_eq (k0_chk90.eq_1 v615))
theorem k0_idx90_inb : ∀ (v615 : IVec S16 32) (k0_hw90 : k0_chk90 v615), ∀ a x, ((![v615] : Fin 1 → IVec S16 32) a x).toNat < S49184.size a := fun v615 k0_hw90 => k0_hw90

def k0_chk91 (v624 : IVec S16 32) : Prop :=
  (∀ a x, ((![v624] : Fin 1 → IVec S16 32) a x).toNat < S6144.size a)
instance k0_chk91.dec : ∀ (v624 : IVec S16 32), Decidable (k0_chk91 v624) := fun v624 => decidable_of_iff' _ (Iff.of_eq (k0_chk91.eq_1 v624))
theorem k0_idx91_inb : ∀ (v624 : IVec S16 32) (k0_hw91 : k0_chk91 v624), ∀ a x, ((![v624] : Fin 1 → IVec S16 32) a x).toNat < S6144.size a := fun v624 k0_hw91 => k0_hw91

def k0_chk92 (v627 : IVec S16 32) : Prop :=
  (∀ a x, ((![v627] : Fin 1 → IVec S16 32) a x).toNat < S49184.size a)
instance k0_chk92.dec : ∀ (v627 : IVec S16 32), Decidable (k0_chk92 v627) := fun v627 => decidable_of_iff' _ (Iff.of_eq (k0_chk92.eq_1 v627))
theorem k0_idx92_inb : ∀ (v627 : IVec S16 32) (k0_hw92 : k0_chk92 v627), ∀ a x, ((![v627] : Fin 1 → IVec S16 32) a x).toNat < S49184.size a := fun v627 k0_hw92 => k0_hw92

def k0_chk93 (v632 : IVec S16 32) : Prop :=
  (∀ a x, ((![v632] : Fin 1 → IVec S16 32) a x).toNat < S49184.size a)
instance k0_chk93.dec : ∀ (v632 : IVec S16 32), Decidable (k0_chk93 v632) := fun v632 => decidable_of_iff' _ (Iff.of_eq (k0_chk93.eq_1 v632))
theorem k0_idx93_inb : ∀ (v632 : IVec S16 32) (k0_hw93 : k0_chk93 v632), ∀ a x, ((![v632] : Fin 1 → IVec S16 32) a x).toNat < S49184.size a := fun v632 k0_hw93 => k0_hw93

def k0_chk94 (v641 : IVec S16 32) : Prop :=
  (∀ a x, ((![v641] : Fin 1 → IVec S16 32) a x).toNat < S6144.size a)
instance k0_chk94.dec : ∀ (v641 : IVec S16 32), Decidable (k0_chk94 v641) := fun v641 => decidable_of_iff' _ (Iff.of_eq (k0_chk94.eq_1 v641))
theorem k0_idx94_inb : ∀ (v641 : IVec S16 32) (k0_hw94 : k0_chk94 v641), ∀ a x, ((![v641] : Fin 1 → IVec S16 32) a x).toNat < S6144.size a := fun v641 k0_hw94 => k0_hw94

def k0_chk95 (v644 : IVec S16 32) : Prop :=
  (∀ a x, ((![v644] : Fin 1 → IVec S16 32) a x).toNat < S49184.size a)
instance k0_chk95.dec : ∀ (v644 : IVec S16 32), Decidable (k0_chk95 v644) := fun v644 => decidable_of_iff' _ (Iff.of_eq (k0_chk95.eq_1 v644))
theorem k0_idx95_inb : ∀ (v644 : IVec S16 32) (k0_hw95 : k0_chk95 v644), ∀ a x, ((![v644] : Fin 1 → IVec S16 32) a x).toNat < S49184.size a := fun v644 k0_hw95 => k0_hw95

def k0_chk96 (v649 : IVec S16 32) : Prop :=
  (∀ a x, ((![v649] : Fin 1 → IVec S16 32) a x).toNat < S49184.size a)
instance k0_chk96.dec : ∀ (v649 : IVec S16 32), Decidable (k0_chk96 v649) := fun v649 => decidable_of_iff' _ (Iff.of_eq (k0_chk96.eq_1 v649))
theorem k0_idx96_inb : ∀ (v649 : IVec S16 32) (k0_hw96 : k0_chk96 v649), ∀ a x, ((![v649] : Fin 1 → IVec S16 32) a x).toNat < S49184.size a := fun v649 k0_hw96 => k0_hw96

def k0_chk97 (v658 : IVec S16 32) : Prop :=
  (∀ a x, ((![v658] : Fin 1 → IVec S16 32) a x).toNat < S6144.size a)
instance k0_chk97.dec : ∀ (v658 : IVec S16 32), Decidable (k0_chk97 v658) := fun v658 => decidable_of_iff' _ (Iff.of_eq (k0_chk97.eq_1 v658))
theorem k0_idx97_inb : ∀ (v658 : IVec S16 32) (k0_hw97 : k0_chk97 v658), ∀ a x, ((![v658] : Fin 1 → IVec S16 32) a x).toNat < S6144.size a := fun v658 k0_hw97 => k0_hw97

def k0_chk98 (v661 : IVec S16 32) : Prop :=
  (∀ a x, ((![v661] : Fin 1 → IVec S16 32) a x).toNat < S49184.size a)
instance k0_chk98.dec : ∀ (v661 : IVec S16 32), Decidable (k0_chk98 v661) := fun v661 => decidable_of_iff' _ (Iff.of_eq (k0_chk98.eq_1 v661))
theorem k0_idx98_inb : ∀ (v661 : IVec S16 32) (k0_hw98 : k0_chk98 v661), ∀ a x, ((![v661] : Fin 1 → IVec S16 32) a x).toNat < S49184.size a := fun v661 k0_hw98 => k0_hw98

def k0_chk99 (v666 : IVec S16 32) : Prop :=
  (∀ a x, ((![v666] : Fin 1 → IVec S16 32) a x).toNat < S49184.size a)
instance k0_chk99.dec : ∀ (v666 : IVec S16 32), Decidable (k0_chk99 v666) := fun v666 => decidable_of_iff' _ (Iff.of_eq (k0_chk99.eq_1 v666))
theorem k0_idx99_inb : ∀ (v666 : IVec S16 32) (k0_hw99 : k0_chk99 v666), ∀ a x, ((![v666] : Fin 1 → IVec S16 32) a x).toNat < S49184.size a := fun v666 k0_hw99 => k0_hw99

def k0_chk100 (v675 : IVec S16 32) : Prop :=
  (∀ a x, ((![v675] : Fin 1 → IVec S16 32) a x).toNat < S6144.size a)
instance k0_chk100.dec : ∀ (v675 : IVec S16 32), Decidable (k0_chk100 v675) := fun v675 => decidable_of_iff' _ (Iff.of_eq (k0_chk100.eq_1 v675))
theorem k0_idx100_inb : ∀ (v675 : IVec S16 32) (k0_hw100 : k0_chk100 v675), ∀ a x, ((![v675] : Fin 1 → IVec S16 32) a x).toNat < S6144.size a := fun v675 k0_hw100 => k0_hw100

def k0_chk101 (v678 : IVec S16 32) : Prop :=
  (∀ a x, ((![v678] : Fin 1 → IVec S16 32) a x).toNat < S49184.size a)
instance k0_chk101.dec : ∀ (v678 : IVec S16 32), Decidable (k0_chk101 v678) := fun v678 => decidable_of_iff' _ (Iff.of_eq (k0_chk101.eq_1 v678))
theorem k0_idx101_inb : ∀ (v678 : IVec S16 32) (k0_hw101 : k0_chk101 v678), ∀ a x, ((![v678] : Fin 1 → IVec S16 32) a x).toNat < S49184.size a := fun v678 k0_hw101 => k0_hw101

def k0_chk102 (v683 : IVec S16 32) : Prop :=
  (∀ a x, ((![v683] : Fin 1 → IVec S16 32) a x).toNat < S49184.size a)
instance k0_chk102.dec : ∀ (v683 : IVec S16 32), Decidable (k0_chk102 v683) := fun v683 => decidable_of_iff' _ (Iff.of_eq (k0_chk102.eq_1 v683))
theorem k0_idx102_inb : ∀ (v683 : IVec S16 32) (k0_hw102 : k0_chk102 v683), ∀ a x, ((![v683] : Fin 1 → IVec S16 32) a x).toNat < S49184.size a := fun v683 k0_hw102 => k0_hw102

def k0_chk103 (v692 : IVec S16 32) : Prop :=
  (∀ a x, ((![v692] : Fin 1 → IVec S16 32) a x).toNat < S6144.size a)
instance k0_chk103.dec : ∀ (v692 : IVec S16 32), Decidable (k0_chk103 v692) := fun v692 => decidable_of_iff' _ (Iff.of_eq (k0_chk103.eq_1 v692))
theorem k0_idx103_inb : ∀ (v692 : IVec S16 32) (k0_hw103 : k0_chk103 v692), ∀ a x, ((![v692] : Fin 1 → IVec S16 32) a x).toNat < S6144.size a := fun v692 k0_hw103 => k0_hw103

def k0_chk104 (v695 : IVec S16 32) : Prop :=
  (∀ a x, ((![v695] : Fin 1 → IVec S16 32) a x).toNat < S49184.size a)
instance k0_chk104.dec : ∀ (v695 : IVec S16 32), Decidable (k0_chk104 v695) := fun v695 => decidable_of_iff' _ (Iff.of_eq (k0_chk104.eq_1 v695))
theorem k0_idx104_inb : ∀ (v695 : IVec S16 32) (k0_hw104 : k0_chk104 v695), ∀ a x, ((![v695] : Fin 1 → IVec S16 32) a x).toNat < S49184.size a := fun v695 k0_hw104 => k0_hw104

def k0_chk105 (v700 : IVec S16 32) : Prop :=
  (∀ a x, ((![v700] : Fin 1 → IVec S16 32) a x).toNat < S49184.size a)
instance k0_chk105.dec : ∀ (v700 : IVec S16 32), Decidable (k0_chk105 v700) := fun v700 => decidable_of_iff' _ (Iff.of_eq (k0_chk105.eq_1 v700))
theorem k0_idx105_inb : ∀ (v700 : IVec S16 32) (k0_hw105 : k0_chk105 v700), ∀ a x, ((![v700] : Fin 1 → IVec S16 32) a x).toNat < S49184.size a := fun v700 k0_hw105 => k0_hw105

def k0_chk106 (v709 : IVec S16 32) : Prop :=
  (∀ a x, ((![v709] : Fin 1 → IVec S16 32) a x).toNat < S6144.size a)
instance k0_chk106.dec : ∀ (v709 : IVec S16 32), Decidable (k0_chk106 v709) := fun v709 => decidable_of_iff' _ (Iff.of_eq (k0_chk106.eq_1 v709))
theorem k0_idx106_inb : ∀ (v709 : IVec S16 32) (k0_hw106 : k0_chk106 v709), ∀ a x, ((![v709] : Fin 1 → IVec S16 32) a x).toNat < S6144.size a := fun v709 k0_hw106 => k0_hw106

def k0_chk107 (v712 : IVec S16 32) : Prop :=
  (∀ a x, ((![v712] : Fin 1 → IVec S16 32) a x).toNat < S49184.size a)
instance k0_chk107.dec : ∀ (v712 : IVec S16 32), Decidable (k0_chk107 v712) := fun v712 => decidable_of_iff' _ (Iff.of_eq (k0_chk107.eq_1 v712))
theorem k0_idx107_inb : ∀ (v712 : IVec S16 32) (k0_hw107 : k0_chk107 v712), ∀ a x, ((![v712] : Fin 1 → IVec S16 32) a x).toNat < S49184.size a := fun v712 k0_hw107 => k0_hw107

def k0_chk108 (v717 : IVec S16 32) : Prop :=
  (∀ a x, ((![v717] : Fin 1 → IVec S16 32) a x).toNat < S49184.size a)
instance k0_chk108.dec : ∀ (v717 : IVec S16 32), Decidable (k0_chk108 v717) := fun v717 => decidable_of_iff' _ (Iff.of_eq (k0_chk108.eq_1 v717))
theorem k0_idx108_inb : ∀ (v717 : IVec S16 32) (k0_hw108 : k0_chk108 v717), ∀ a x, ((![v717] : Fin 1 → IVec S16 32) a x).toNat < S49184.size a := fun v717 k0_hw108 => k0_hw108

def k0_chk109 (v726 : IVec S16 32) : Prop :=
  (∀ a x, ((![v726] : Fin 1 → IVec S16 32) a x).toNat < S6144.size a)
instance k0_chk109.dec : ∀ (v726 : IVec S16 32), Decidable (k0_chk109 v726) := fun v726 => decidable_of_iff' _ (Iff.of_eq (k0_chk109.eq_1 v726))
theorem k0_idx109_inb : ∀ (v726 : IVec S16 32) (k0_hw109 : k0_chk109 v726), ∀ a x, ((![v726] : Fin 1 → IVec S16 32) a x).toNat < S6144.size a := fun v726 k0_hw109 => k0_hw109

def k0_chk110 (v729 : IVec S16 32) : Prop :=
  (∀ a x, ((![v729] : Fin 1 → IVec S16 32) a x).toNat < S49184.size a)
instance k0_chk110.dec : ∀ (v729 : IVec S16 32), Decidable (k0_chk110 v729) := fun v729 => decidable_of_iff' _ (Iff.of_eq (k0_chk110.eq_1 v729))
theorem k0_idx110_inb : ∀ (v729 : IVec S16 32) (k0_hw110 : k0_chk110 v729), ∀ a x, ((![v729] : Fin 1 → IVec S16 32) a x).toNat < S49184.size a := fun v729 k0_hw110 => k0_hw110

def k0_chk111 (v734 : IVec S16 32) : Prop :=
  (∀ a x, ((![v734] : Fin 1 → IVec S16 32) a x).toNat < S49184.size a)
instance k0_chk111.dec : ∀ (v734 : IVec S16 32), Decidable (k0_chk111 v734) := fun v734 => decidable_of_iff' _ (Iff.of_eq (k0_chk111.eq_1 v734))
theorem k0_idx111_inb : ∀ (v734 : IVec S16 32) (k0_hw111 : k0_chk111 v734), ∀ a x, ((![v734] : Fin 1 → IVec S16 32) a x).toNat < S49184.size a := fun v734 k0_hw111 => k0_hw111

def k0_chk112 (v743 : IVec S16 32) : Prop :=
  (∀ a x, ((![v743] : Fin 1 → IVec S16 32) a x).toNat < S6144.size a)
instance k0_chk112.dec : ∀ (v743 : IVec S16 32), Decidable (k0_chk112 v743) := fun v743 => decidable_of_iff' _ (Iff.of_eq (k0_chk112.eq_1 v743))
theorem k0_idx112_inb : ∀ (v743 : IVec S16 32) (k0_hw112 : k0_chk112 v743), ∀ a x, ((![v743] : Fin 1 → IVec S16 32) a x).toNat < S6144.size a := fun v743 k0_hw112 => k0_hw112

def k0_chk113 (v746 : IVec S16 32) : Prop :=
  (∀ a x, ((![v746] : Fin 1 → IVec S16 32) a x).toNat < S49184.size a)
instance k0_chk113.dec : ∀ (v746 : IVec S16 32), Decidable (k0_chk113 v746) := fun v746 => decidable_of_iff' _ (Iff.of_eq (k0_chk113.eq_1 v746))
theorem k0_idx113_inb : ∀ (v746 : IVec S16 32) (k0_hw113 : k0_chk113 v746), ∀ a x, ((![v746] : Fin 1 → IVec S16 32) a x).toNat < S49184.size a := fun v746 k0_hw113 => k0_hw113

def k0_chk114 (v751 : IVec S16 32) : Prop :=
  (∀ a x, ((![v751] : Fin 1 → IVec S16 32) a x).toNat < S49184.size a)
instance k0_chk114.dec : ∀ (v751 : IVec S16 32), Decidable (k0_chk114 v751) := fun v751 => decidable_of_iff' _ (Iff.of_eq (k0_chk114.eq_1 v751))
theorem k0_idx114_inb : ∀ (v751 : IVec S16 32) (k0_hw114 : k0_chk114 v751), ∀ a x, ((![v751] : Fin 1 → IVec S16 32) a x).toNat < S49184.size a := fun v751 k0_hw114 => k0_hw114

def k0_chk115 (v760 : IVec S16 32) : Prop :=
  (∀ a x, ((![v760] : Fin 1 → IVec S16 32) a x).toNat < S6144.size a)
instance k0_chk115.dec : ∀ (v760 : IVec S16 32), Decidable (k0_chk115 v760) := fun v760 => decidable_of_iff' _ (Iff.of_eq (k0_chk115.eq_1 v760))
theorem k0_idx115_inb : ∀ (v760 : IVec S16 32) (k0_hw115 : k0_chk115 v760), ∀ a x, ((![v760] : Fin 1 → IVec S16 32) a x).toNat < S6144.size a := fun v760 k0_hw115 => k0_hw115

def k0_chk116 (v763 : IVec S16 32) : Prop :=
  (∀ a x, ((![v763] : Fin 1 → IVec S16 32) a x).toNat < S49184.size a)
instance k0_chk116.dec : ∀ (v763 : IVec S16 32), Decidable (k0_chk116 v763) := fun v763 => decidable_of_iff' _ (Iff.of_eq (k0_chk116.eq_1 v763))
theorem k0_idx116_inb : ∀ (v763 : IVec S16 32) (k0_hw116 : k0_chk116 v763), ∀ a x, ((![v763] : Fin 1 → IVec S16 32) a x).toNat < S49184.size a := fun v763 k0_hw116 => k0_hw116

def k0_chk117 (v768 : IVec S16 32) : Prop :=
  (∀ a x, ((![v768] : Fin 1 → IVec S16 32) a x).toNat < S49184.size a)
instance k0_chk117.dec : ∀ (v768 : IVec S16 32), Decidable (k0_chk117 v768) := fun v768 => decidable_of_iff' _ (Iff.of_eq (k0_chk117.eq_1 v768))
theorem k0_idx117_inb : ∀ (v768 : IVec S16 32) (k0_hw117 : k0_chk117 v768), ∀ a x, ((![v768] : Fin 1 → IVec S16 32) a x).toNat < S49184.size a := fun v768 k0_hw117 => k0_hw117

def k0_chk118 (v777 : IVec S16 32) : Prop :=
  (∀ a x, ((![v777] : Fin 1 → IVec S16 32) a x).toNat < S6144.size a)
instance k0_chk118.dec : ∀ (v777 : IVec S16 32), Decidable (k0_chk118 v777) := fun v777 => decidable_of_iff' _ (Iff.of_eq (k0_chk118.eq_1 v777))
theorem k0_idx118_inb : ∀ (v777 : IVec S16 32) (k0_hw118 : k0_chk118 v777), ∀ a x, ((![v777] : Fin 1 → IVec S16 32) a x).toNat < S6144.size a := fun v777 k0_hw118 => k0_hw118

def k0_chk119 (v780 : IVec S16 32) : Prop :=
  (∀ a x, ((![v780] : Fin 1 → IVec S16 32) a x).toNat < S49184.size a)
instance k0_chk119.dec : ∀ (v780 : IVec S16 32), Decidable (k0_chk119 v780) := fun v780 => decidable_of_iff' _ (Iff.of_eq (k0_chk119.eq_1 v780))
theorem k0_idx119_inb : ∀ (v780 : IVec S16 32) (k0_hw119 : k0_chk119 v780), ∀ a x, ((![v780] : Fin 1 → IVec S16 32) a x).toNat < S49184.size a := fun v780 k0_hw119 => k0_hw119

def k0_chk120 (v785 : IVec S16 32) : Prop :=
  (∀ a x, ((![v785] : Fin 1 → IVec S16 32) a x).toNat < S49184.size a)
instance k0_chk120.dec : ∀ (v785 : IVec S16 32), Decidable (k0_chk120 v785) := fun v785 => decidable_of_iff' _ (Iff.of_eq (k0_chk120.eq_1 v785))
theorem k0_idx120_inb : ∀ (v785 : IVec S16 32) (k0_hw120 : k0_chk120 v785), ∀ a x, ((![v785] : Fin 1 → IVec S16 32) a x).toNat < S49184.size a := fun v785 k0_hw120 => k0_hw120

def k0_chk121 (v794 : IVec S16 32) : Prop :=
  (∀ a x, ((![v794] : Fin 1 → IVec S16 32) a x).toNat < S6144.size a)
instance k0_chk121.dec : ∀ (v794 : IVec S16 32), Decidable (k0_chk121 v794) := fun v794 => decidable_of_iff' _ (Iff.of_eq (k0_chk121.eq_1 v794))
theorem k0_idx121_inb : ∀ (v794 : IVec S16 32) (k0_hw121 : k0_chk121 v794), ∀ a x, ((![v794] : Fin 1 → IVec S16 32) a x).toNat < S6144.size a := fun v794 k0_hw121 => k0_hw121

def k0_chk122 (v797 : IVec S16 32) : Prop :=
  (∀ a x, ((![v797] : Fin 1 → IVec S16 32) a x).toNat < S49184.size a)
instance k0_chk122.dec : ∀ (v797 : IVec S16 32), Decidable (k0_chk122 v797) := fun v797 => decidable_of_iff' _ (Iff.of_eq (k0_chk122.eq_1 v797))
theorem k0_idx122_inb : ∀ (v797 : IVec S16 32) (k0_hw122 : k0_chk122 v797), ∀ a x, ((![v797] : Fin 1 → IVec S16 32) a x).toNat < S49184.size a := fun v797 k0_hw122 => k0_hw122

def k0_chk123 (v802 : IVec S16 32) : Prop :=
  (∀ a x, ((![v802] : Fin 1 → IVec S16 32) a x).toNat < S49184.size a)
instance k0_chk123.dec : ∀ (v802 : IVec S16 32), Decidable (k0_chk123 v802) := fun v802 => decidable_of_iff' _ (Iff.of_eq (k0_chk123.eq_1 v802))
theorem k0_idx123_inb : ∀ (v802 : IVec S16 32) (k0_hw123 : k0_chk123 v802), ∀ a x, ((![v802] : Fin 1 → IVec S16 32) a x).toNat < S49184.size a := fun v802 k0_hw123 => k0_hw123

def k0_chk124 (v811 : IVec S16 32) : Prop :=
  (∀ a x, ((![v811] : Fin 1 → IVec S16 32) a x).toNat < S6144.size a)
instance k0_chk124.dec : ∀ (v811 : IVec S16 32), Decidable (k0_chk124 v811) := fun v811 => decidable_of_iff' _ (Iff.of_eq (k0_chk124.eq_1 v811))
theorem k0_idx124_inb : ∀ (v811 : IVec S16 32) (k0_hw124 : k0_chk124 v811), ∀ a x, ((![v811] : Fin 1 → IVec S16 32) a x).toNat < S6144.size a := fun v811 k0_hw124 => k0_hw124

def k0_chk125 (v814 : IVec S16 32) : Prop :=
  (∀ a x, ((![v814] : Fin 1 → IVec S16 32) a x).toNat < S49184.size a)
instance k0_chk125.dec : ∀ (v814 : IVec S16 32), Decidable (k0_chk125 v814) := fun v814 => decidable_of_iff' _ (Iff.of_eq (k0_chk125.eq_1 v814))
theorem k0_idx125_inb : ∀ (v814 : IVec S16 32) (k0_hw125 : k0_chk125 v814), ∀ a x, ((![v814] : Fin 1 → IVec S16 32) a x).toNat < S49184.size a := fun v814 k0_hw125 => k0_hw125

def k0_chk126 (v819 : IVec S16 32) : Prop :=
  (∀ a x, ((![v819] : Fin 1 → IVec S16 32) a x).toNat < S49184.size a)
instance k0_chk126.dec : ∀ (v819 : IVec S16 32), Decidable (k0_chk126 v819) := fun v819 => decidable_of_iff' _ (Iff.of_eq (k0_chk126.eq_1 v819))
theorem k0_idx126_inb : ∀ (v819 : IVec S16 32) (k0_hw126 : k0_chk126 v819), ∀ a x, ((![v819] : Fin 1 → IVec S16 32) a x).toNat < S49184.size a := fun v819 k0_hw126 => k0_hw126

def k0_chk127 (v828 : IVec S16 32) : Prop :=
  (∀ a x, ((![v828] : Fin 1 → IVec S16 32) a x).toNat < S6144.size a)
instance k0_chk127.dec : ∀ (v828 : IVec S16 32), Decidable (k0_chk127 v828) := fun v828 => decidable_of_iff' _ (Iff.of_eq (k0_chk127.eq_1 v828))
theorem k0_idx127_inb : ∀ (v828 : IVec S16 32) (k0_hw127 : k0_chk127 v828), ∀ a x, ((![v828] : Fin 1 → IVec S16 32) a x).toNat < S6144.size a := fun v828 k0_hw127 => k0_hw127

def k0_chk128 (v831 : IVec S16 32) : Prop :=
  (∀ a x, ((![v831] : Fin 1 → IVec S16 32) a x).toNat < S49184.size a)
instance k0_chk128.dec : ∀ (v831 : IVec S16 32), Decidable (k0_chk128 v831) := fun v831 => decidable_of_iff' _ (Iff.of_eq (k0_chk128.eq_1 v831))
theorem k0_idx128_inb : ∀ (v831 : IVec S16 32) (k0_hw128 : k0_chk128 v831), ∀ a x, ((![v831] : Fin 1 → IVec S16 32) a x).toNat < S49184.size a := fun v831 k0_hw128 => k0_hw128

def k0_chk129 (v836 : IVec S16 32) : Prop :=
  (∀ a x, ((![v836] : Fin 1 → IVec S16 32) a x).toNat < S49184.size a)
instance k0_chk129.dec : ∀ (v836 : IVec S16 32), Decidable (k0_chk129 v836) := fun v836 => decidable_of_iff' _ (Iff.of_eq (k0_chk129.eq_1 v836))
theorem k0_idx129_inb : ∀ (v836 : IVec S16 32) (k0_hw129 : k0_chk129 v836), ∀ a x, ((![v836] : Fin 1 → IVec S16 32) a x).toNat < S49184.size a := fun v836 k0_hw129 => k0_hw129

def k0_chk130 (v845 : IVec S16 32) : Prop :=
  (∀ a x, ((![v845] : Fin 1 → IVec S16 32) a x).toNat < S6144.size a)
instance k0_chk130.dec : ∀ (v845 : IVec S16 32), Decidable (k0_chk130 v845) := fun v845 => decidable_of_iff' _ (Iff.of_eq (k0_chk130.eq_1 v845))
theorem k0_idx130_inb : ∀ (v845 : IVec S16 32) (k0_hw130 : k0_chk130 v845), ∀ a x, ((![v845] : Fin 1 → IVec S16 32) a x).toNat < S6144.size a := fun v845 k0_hw130 => k0_hw130

def k0_chk131 (v848 : IVec S16 32) : Prop :=
  (∀ a x, ((![v848] : Fin 1 → IVec S16 32) a x).toNat < S49184.size a)
instance k0_chk131.dec : ∀ (v848 : IVec S16 32), Decidable (k0_chk131 v848) := fun v848 => decidable_of_iff' _ (Iff.of_eq (k0_chk131.eq_1 v848))
theorem k0_idx131_inb : ∀ (v848 : IVec S16 32) (k0_hw131 : k0_chk131 v848), ∀ a x, ((![v848] : Fin 1 → IVec S16 32) a x).toNat < S49184.size a := fun v848 k0_hw131 => k0_hw131

def k0_chk132 (v853 : IVec S16 32) : Prop :=
  (∀ a x, ((![v853] : Fin 1 → IVec S16 32) a x).toNat < S49184.size a)
instance k0_chk132.dec : ∀ (v853 : IVec S16 32), Decidable (k0_chk132 v853) := fun v853 => decidable_of_iff' _ (Iff.of_eq (k0_chk132.eq_1 v853))
theorem k0_idx132_inb : ∀ (v853 : IVec S16 32) (k0_hw132 : k0_chk132 v853), ∀ a x, ((![v853] : Fin 1 → IVec S16 32) a x).toNat < S49184.size a := fun v853 k0_hw132 => k0_hw132

def k0_chk133 (v862 : IVec S16 32) : Prop :=
  (∀ a x, ((![v862] : Fin 1 → IVec S16 32) a x).toNat < S6144.size a)
instance k0_chk133.dec : ∀ (v862 : IVec S16 32), Decidable (k0_chk133 v862) := fun v862 => decidable_of_iff' _ (Iff.of_eq (k0_chk133.eq_1 v862))
theorem k0_idx133_inb : ∀ (v862 : IVec S16 32) (k0_hw133 : k0_chk133 v862), ∀ a x, ((![v862] : Fin 1 → IVec S16 32) a x).toNat < S6144.size a := fun v862 k0_hw133 => k0_hw133

def k0_chk134 (v865 : IVec S16 32) : Prop :=
  (∀ a x, ((![v865] : Fin 1 → IVec S16 32) a x).toNat < S49184.size a)
instance k0_chk134.dec : ∀ (v865 : IVec S16 32), Decidable (k0_chk134 v865) := fun v865 => decidable_of_iff' _ (Iff.of_eq (k0_chk134.eq_1 v865))
theorem k0_idx134_inb : ∀ (v865 : IVec S16 32) (k0_hw134 : k0_chk134 v865), ∀ a x, ((![v865] : Fin 1 → IVec S16 32) a x).toNat < S49184.size a := fun v865 k0_hw134 => k0_hw134

def k0_chk135 (v870 : IVec S16 32) : Prop :=
  (∀ a x, ((![v870] : Fin 1 → IVec S16 32) a x).toNat < S49184.size a)
instance k0_chk135.dec : ∀ (v870 : IVec S16 32), Decidable (k0_chk135 v870) := fun v870 => decidable_of_iff' _ (Iff.of_eq (k0_chk135.eq_1 v870))
theorem k0_idx135_inb : ∀ (v870 : IVec S16 32) (k0_hw135 : k0_chk135 v870), ∀ a x, ((![v870] : Fin 1 → IVec S16 32) a x).toNat < S49184.size a := fun v870 k0_hw135 => k0_hw135

def k0_chk136 (v879 : IVec S16 32) : Prop :=
  (∀ a x, ((![v879] : Fin 1 → IVec S16 32) a x).toNat < S6144.size a)
instance k0_chk136.dec : ∀ (v879 : IVec S16 32), Decidable (k0_chk136 v879) := fun v879 => decidable_of_iff' _ (Iff.of_eq (k0_chk136.eq_1 v879))
theorem k0_idx136_inb : ∀ (v879 : IVec S16 32) (k0_hw136 : k0_chk136 v879), ∀ a x, ((![v879] : Fin 1 → IVec S16 32) a x).toNat < S6144.size a := fun v879 k0_hw136 => k0_hw136

def k0_chk137 (v882 : IVec S16 32) : Prop :=
  (∀ a x, ((![v882] : Fin 1 → IVec S16 32) a x).toNat < S49184.size a)
instance k0_chk137.dec : ∀ (v882 : IVec S16 32), Decidable (k0_chk137 v882) := fun v882 => decidable_of_iff' _ (Iff.of_eq (k0_chk137.eq_1 v882))
theorem k0_idx137_inb : ∀ (v882 : IVec S16 32) (k0_hw137 : k0_chk137 v882), ∀ a x, ((![v882] : Fin 1 → IVec S16 32) a x).toNat < S49184.size a := fun v882 k0_hw137 => k0_hw137

def k0_chk138 (v887 : IVec S16 32) : Prop :=
  (∀ a x, ((![v887] : Fin 1 → IVec S16 32) a x).toNat < S49184.size a)
instance k0_chk138.dec : ∀ (v887 : IVec S16 32), Decidable (k0_chk138 v887) := fun v887 => decidable_of_iff' _ (Iff.of_eq (k0_chk138.eq_1 v887))
theorem k0_idx138_inb : ∀ (v887 : IVec S16 32) (k0_hw138 : k0_chk138 v887), ∀ a x, ((![v887] : Fin 1 → IVec S16 32) a x).toNat < S49184.size a := fun v887 k0_hw138 => k0_hw138

def k0_chk139 (v896 : IVec S16 32) : Prop :=
  (∀ a x, ((![v896] : Fin 1 → IVec S16 32) a x).toNat < S6144.size a)
instance k0_chk139.dec : ∀ (v896 : IVec S16 32), Decidable (k0_chk139 v896) := fun v896 => decidable_of_iff' _ (Iff.of_eq (k0_chk139.eq_1 v896))
theorem k0_idx139_inb : ∀ (v896 : IVec S16 32) (k0_hw139 : k0_chk139 v896), ∀ a x, ((![v896] : Fin 1 → IVec S16 32) a x).toNat < S6144.size a := fun v896 k0_hw139 => k0_hw139

def k0_chk140 (v899 : IVec S16 32) : Prop :=
  (∀ a x, ((![v899] : Fin 1 → IVec S16 32) a x).toNat < S49184.size a)
instance k0_chk140.dec : ∀ (v899 : IVec S16 32), Decidable (k0_chk140 v899) := fun v899 => decidable_of_iff' _ (Iff.of_eq (k0_chk140.eq_1 v899))
theorem k0_idx140_inb : ∀ (v899 : IVec S16 32) (k0_hw140 : k0_chk140 v899), ∀ a x, ((![v899] : Fin 1 → IVec S16 32) a x).toNat < S49184.size a := fun v899 k0_hw140 => k0_hw140

def k0_chk141 (v904 : IVec S16 32) : Prop :=
  (∀ a x, ((![v904] : Fin 1 → IVec S16 32) a x).toNat < S49184.size a)
instance k0_chk141.dec : ∀ (v904 : IVec S16 32), Decidable (k0_chk141 v904) := fun v904 => decidable_of_iff' _ (Iff.of_eq (k0_chk141.eq_1 v904))
theorem k0_idx141_inb : ∀ (v904 : IVec S16 32) (k0_hw141 : k0_chk141 v904), ∀ a x, ((![v904] : Fin 1 → IVec S16 32) a x).toNat < S49184.size a := fun v904 k0_hw141 => k0_hw141

def k0_chk142 (v913 : IVec S16 32) : Prop :=
  (∀ a x, ((![v913] : Fin 1 → IVec S16 32) a x).toNat < S6144.size a)
instance k0_chk142.dec : ∀ (v913 : IVec S16 32), Decidable (k0_chk142 v913) := fun v913 => decidable_of_iff' _ (Iff.of_eq (k0_chk142.eq_1 v913))
theorem k0_idx142_inb : ∀ (v913 : IVec S16 32) (k0_hw142 : k0_chk142 v913), ∀ a x, ((![v913] : Fin 1 → IVec S16 32) a x).toNat < S6144.size a := fun v913 k0_hw142 => k0_hw142

def k0_chk143 (v916 : IVec S16 32) : Prop :=
  (∀ a x, ((![v916] : Fin 1 → IVec S16 32) a x).toNat < S49184.size a)
instance k0_chk143.dec : ∀ (v916 : IVec S16 32), Decidable (k0_chk143 v916) := fun v916 => decidable_of_iff' _ (Iff.of_eq (k0_chk143.eq_1 v916))
theorem k0_idx143_inb : ∀ (v916 : IVec S16 32) (k0_hw143 : k0_chk143 v916), ∀ a x, ((![v916] : Fin 1 → IVec S16 32) a x).toNat < S49184.size a := fun v916 k0_hw143 => k0_hw143

def k0_chk144 (v921 : IVec S16 32) : Prop :=
  (∀ a x, ((![v921] : Fin 1 → IVec S16 32) a x).toNat < S49184.size a)
instance k0_chk144.dec : ∀ (v921 : IVec S16 32), Decidable (k0_chk144 v921) := fun v921 => decidable_of_iff' _ (Iff.of_eq (k0_chk144.eq_1 v921))
theorem k0_idx144_inb : ∀ (v921 : IVec S16 32) (k0_hw144 : k0_chk144 v921), ∀ a x, ((![v921] : Fin 1 → IVec S16 32) a x).toNat < S49184.size a := fun v921 k0_hw144 => k0_hw144

def k0_chk145 (v930 : IVec S16 32) : Prop :=
  (∀ a x, ((![v930] : Fin 1 → IVec S16 32) a x).toNat < S6144.size a)
instance k0_chk145.dec : ∀ (v930 : IVec S16 32), Decidable (k0_chk145 v930) := fun v930 => decidable_of_iff' _ (Iff.of_eq (k0_chk145.eq_1 v930))
theorem k0_idx145_inb : ∀ (v930 : IVec S16 32) (k0_hw145 : k0_chk145 v930), ∀ a x, ((![v930] : Fin 1 → IVec S16 32) a x).toNat < S6144.size a := fun v930 k0_hw145 => k0_hw145

def k0_chk146 (v933 : IVec S16 32) : Prop :=
  (∀ a x, ((![v933] : Fin 1 → IVec S16 32) a x).toNat < S49184.size a)
instance k0_chk146.dec : ∀ (v933 : IVec S16 32), Decidable (k0_chk146 v933) := fun v933 => decidable_of_iff' _ (Iff.of_eq (k0_chk146.eq_1 v933))
theorem k0_idx146_inb : ∀ (v933 : IVec S16 32) (k0_hw146 : k0_chk146 v933), ∀ a x, ((![v933] : Fin 1 → IVec S16 32) a x).toNat < S49184.size a := fun v933 k0_hw146 => k0_hw146

def k0_chk147 (v938 : IVec S16 32) : Prop :=
  (∀ a x, ((![v938] : Fin 1 → IVec S16 32) a x).toNat < S49184.size a)
instance k0_chk147.dec : ∀ (v938 : IVec S16 32), Decidable (k0_chk147 v938) := fun v938 => decidable_of_iff' _ (Iff.of_eq (k0_chk147.eq_1 v938))
theorem k0_idx147_inb : ∀ (v938 : IVec S16 32) (k0_hw147 : k0_chk147 v938), ∀ a x, ((![v938] : Fin 1 → IVec S16 32) a x).toNat < S49184.size a := fun v938 k0_hw147 => k0_hw147

def k0_chk148 (v947 : IVec S16 32) : Prop :=
  (∀ a x, ((![v947] : Fin 1 → IVec S16 32) a x).toNat < S6144.size a)
instance k0_chk148.dec : ∀ (v947 : IVec S16 32), Decidable (k0_chk148 v947) := fun v947 => decidable_of_iff' _ (Iff.of_eq (k0_chk148.eq_1 v947))
theorem k0_idx148_inb : ∀ (v947 : IVec S16 32) (k0_hw148 : k0_chk148 v947), ∀ a x, ((![v947] : Fin 1 → IVec S16 32) a x).toNat < S6144.size a := fun v947 k0_hw148 => k0_hw148

def k0_chk149 (v950 : IVec S16 32) : Prop :=
  (∀ a x, ((![v950] : Fin 1 → IVec S16 32) a x).toNat < S49184.size a)
instance k0_chk149.dec : ∀ (v950 : IVec S16 32), Decidable (k0_chk149 v950) := fun v950 => decidable_of_iff' _ (Iff.of_eq (k0_chk149.eq_1 v950))
theorem k0_idx149_inb : ∀ (v950 : IVec S16 32) (k0_hw149 : k0_chk149 v950), ∀ a x, ((![v950] : Fin 1 → IVec S16 32) a x).toNat < S49184.size a := fun v950 k0_hw149 => k0_hw149

def k0_chk150 (v955 : IVec S16 32) : Prop :=
  (∀ a x, ((![v955] : Fin 1 → IVec S16 32) a x).toNat < S49184.size a)
instance k0_chk150.dec : ∀ (v955 : IVec S16 32), Decidable (k0_chk150 v955) := fun v955 => decidable_of_iff' _ (Iff.of_eq (k0_chk150.eq_1 v955))
theorem k0_idx150_inb : ∀ (v955 : IVec S16 32) (k0_hw150 : k0_chk150 v955), ∀ a x, ((![v955] : Fin 1 → IVec S16 32) a x).toNat < S49184.size a := fun v955 k0_hw150 => k0_hw150

def k0_chk151 (v964 : IVec S16 32) : Prop :=
  (∀ a x, ((![v964] : Fin 1 → IVec S16 32) a x).toNat < S6144.size a)
instance k0_chk151.dec : ∀ (v964 : IVec S16 32), Decidable (k0_chk151 v964) := fun v964 => decidable_of_iff' _ (Iff.of_eq (k0_chk151.eq_1 v964))
theorem k0_idx151_inb : ∀ (v964 : IVec S16 32) (k0_hw151 : k0_chk151 v964), ∀ a x, ((![v964] : Fin 1 → IVec S16 32) a x).toNat < S6144.size a := fun v964 k0_hw151 => k0_hw151

def k0_chk152 (v967 : IVec S16 32) : Prop :=
  (∀ a x, ((![v967] : Fin 1 → IVec S16 32) a x).toNat < S49184.size a)
instance k0_chk152.dec : ∀ (v967 : IVec S16 32), Decidable (k0_chk152 v967) := fun v967 => decidable_of_iff' _ (Iff.of_eq (k0_chk152.eq_1 v967))
theorem k0_idx152_inb : ∀ (v967 : IVec S16 32) (k0_hw152 : k0_chk152 v967), ∀ a x, ((![v967] : Fin 1 → IVec S16 32) a x).toNat < S49184.size a := fun v967 k0_hw152 => k0_hw152

def k0_chk153 (v972 : IVec S16 32) : Prop :=
  (∀ a x, ((![v972] : Fin 1 → IVec S16 32) a x).toNat < S49184.size a)
instance k0_chk153.dec : ∀ (v972 : IVec S16 32), Decidable (k0_chk153 v972) := fun v972 => decidable_of_iff' _ (Iff.of_eq (k0_chk153.eq_1 v972))
theorem k0_idx153_inb : ∀ (v972 : IVec S16 32) (k0_hw153 : k0_chk153 v972), ∀ a x, ((![v972] : Fin 1 → IVec S16 32) a x).toNat < S49184.size a := fun v972 k0_hw153 => k0_hw153

def k0_chk154 (v981 : IVec S16 32) : Prop :=
  (∀ a x, ((![v981] : Fin 1 → IVec S16 32) a x).toNat < S6144.size a)
instance k0_chk154.dec : ∀ (v981 : IVec S16 32), Decidable (k0_chk154 v981) := fun v981 => decidable_of_iff' _ (Iff.of_eq (k0_chk154.eq_1 v981))
theorem k0_idx154_inb : ∀ (v981 : IVec S16 32) (k0_hw154 : k0_chk154 v981), ∀ a x, ((![v981] : Fin 1 → IVec S16 32) a x).toNat < S6144.size a := fun v981 k0_hw154 => k0_hw154

def k0_chk155 (v984 : IVec S16 32) : Prop :=
  (∀ a x, ((![v984] : Fin 1 → IVec S16 32) a x).toNat < S49184.size a)
instance k0_chk155.dec : ∀ (v984 : IVec S16 32), Decidable (k0_chk155 v984) := fun v984 => decidable_of_iff' _ (Iff.of_eq (k0_chk155.eq_1 v984))
theorem k0_idx155_inb : ∀ (v984 : IVec S16 32) (k0_hw155 : k0_chk155 v984), ∀ a x, ((![v984] : Fin 1 → IVec S16 32) a x).toNat < S49184.size a := fun v984 k0_hw155 => k0_hw155

def k0_chk156 (v989 : IVec S16 32) : Prop :=
  (∀ a x, ((![v989] : Fin 1 → IVec S16 32) a x).toNat < S49184.size a)
instance k0_chk156.dec : ∀ (v989 : IVec S16 32), Decidable (k0_chk156 v989) := fun v989 => decidable_of_iff' _ (Iff.of_eq (k0_chk156.eq_1 v989))
theorem k0_idx156_inb : ∀ (v989 : IVec S16 32) (k0_hw156 : k0_chk156 v989), ∀ a x, ((![v989] : Fin 1 → IVec S16 32) a x).toNat < S49184.size a := fun v989 k0_hw156 => k0_hw156

def k0_chk157 (v998 : IVec S16 32) : Prop :=
  (∀ a x, ((![v998] : Fin 1 → IVec S16 32) a x).toNat < S6144.size a)
instance k0_chk157.dec : ∀ (v998 : IVec S16 32), Decidable (k0_chk157 v998) := fun v998 => decidable_of_iff' _ (Iff.of_eq (k0_chk157.eq_1 v998))
theorem k0_idx157_inb : ∀ (v998 : IVec S16 32) (k0_hw157 : k0_chk157 v998), ∀ a x, ((![v998] : Fin 1 → IVec S16 32) a x).toNat < S6144.size a := fun v998 k0_hw157 => k0_hw157

def k0_chk158 (v1001 : IVec S16 32) : Prop :=
  (∀ a x, ((![v1001] : Fin 1 → IVec S16 32) a x).toNat < S49184.size a)
instance k0_chk158.dec : ∀ (v1001 : IVec S16 32), Decidable (k0_chk158 v1001) := fun v1001 => decidable_of_iff' _ (Iff.of_eq (k0_chk158.eq_1 v1001))
theorem k0_idx158_inb : ∀ (v1001 : IVec S16 32) (k0_hw158 : k0_chk158 v1001), ∀ a x, ((![v1001] : Fin 1 → IVec S16 32) a x).toNat < S49184.size a := fun v1001 k0_hw158 => k0_hw158

def k0_chk159 (v1006 : IVec S16 32) : Prop :=
  (∀ a x, ((![v1006] : Fin 1 → IVec S16 32) a x).toNat < S49184.size a)
instance k0_chk159.dec : ∀ (v1006 : IVec S16 32), Decidable (k0_chk159 v1006) := fun v1006 => decidable_of_iff' _ (Iff.of_eq (k0_chk159.eq_1 v1006))
theorem k0_idx159_inb : ∀ (v1006 : IVec S16 32) (k0_hw159 : k0_chk159 v1006), ∀ a x, ((![v1006] : Fin 1 → IVec S16 32) a x).toNat < S49184.size a := fun v1006 k0_hw159 => k0_hw159

def k0_chk160 (v1015 : IVec S16 32) : Prop :=
  (∀ a x, ((![v1015] : Fin 1 → IVec S16 32) a x).toNat < S6144.size a)
instance k0_chk160.dec : ∀ (v1015 : IVec S16 32), Decidable (k0_chk160 v1015) := fun v1015 => decidable_of_iff' _ (Iff.of_eq (k0_chk160.eq_1 v1015))
theorem k0_idx160_inb : ∀ (v1015 : IVec S16 32) (k0_hw160 : k0_chk160 v1015), ∀ a x, ((![v1015] : Fin 1 → IVec S16 32) a x).toNat < S6144.size a := fun v1015 k0_hw160 => k0_hw160

def k0_chk161 (v1018 : IVec S16 32) : Prop :=
  (∀ a x, ((![v1018] : Fin 1 → IVec S16 32) a x).toNat < S49184.size a)
instance k0_chk161.dec : ∀ (v1018 : IVec S16 32), Decidable (k0_chk161 v1018) := fun v1018 => decidable_of_iff' _ (Iff.of_eq (k0_chk161.eq_1 v1018))
theorem k0_idx161_inb : ∀ (v1018 : IVec S16 32) (k0_hw161 : k0_chk161 v1018), ∀ a x, ((![v1018] : Fin 1 → IVec S16 32) a x).toNat < S49184.size a := fun v1018 k0_hw161 => k0_hw161

def k0_chk162 (v1023 : IVec S16 32) : Prop :=
  (∀ a x, ((![v1023] : Fin 1 → IVec S16 32) a x).toNat < S49184.size a)
instance k0_chk162.dec : ∀ (v1023 : IVec S16 32), Decidable (k0_chk162 v1023) := fun v1023 => decidable_of_iff' _ (Iff.of_eq (k0_chk162.eq_1 v1023))
theorem k0_idx162_inb : ∀ (v1023 : IVec S16 32) (k0_hw162 : k0_chk162 v1023), ∀ a x, ((![v1023] : Fin 1 → IVec S16 32) a x).toNat < S49184.size a := fun v1023 k0_hw162 => k0_hw162

def k0_chk163 (v1032 : IVec S16 32) : Prop :=
  (∀ a x, ((![v1032] : Fin 1 → IVec S16 32) a x).toNat < S6144.size a)
instance k0_chk163.dec : ∀ (v1032 : IVec S16 32), Decidable (k0_chk163 v1032) := fun v1032 => decidable_of_iff' _ (Iff.of_eq (k0_chk163.eq_1 v1032))
theorem k0_idx163_inb : ∀ (v1032 : IVec S16 32) (k0_hw163 : k0_chk163 v1032), ∀ a x, ((![v1032] : Fin 1 → IVec S16 32) a x).toNat < S6144.size a := fun v1032 k0_hw163 => k0_hw163

def k0_chk164 (v1035 : IVec S16 32) : Prop :=
  (∀ a x, ((![v1035] : Fin 1 → IVec S16 32) a x).toNat < S49184.size a)
instance k0_chk164.dec : ∀ (v1035 : IVec S16 32), Decidable (k0_chk164 v1035) := fun v1035 => decidable_of_iff' _ (Iff.of_eq (k0_chk164.eq_1 v1035))
theorem k0_idx164_inb : ∀ (v1035 : IVec S16 32) (k0_hw164 : k0_chk164 v1035), ∀ a x, ((![v1035] : Fin 1 → IVec S16 32) a x).toNat < S49184.size a := fun v1035 k0_hw164 => k0_hw164

def k0_chk165 (v1040 : IVec S16 32) : Prop :=
  (∀ a x, ((![v1040] : Fin 1 → IVec S16 32) a x).toNat < S49184.size a)
instance k0_chk165.dec : ∀ (v1040 : IVec S16 32), Decidable (k0_chk165 v1040) := fun v1040 => decidable_of_iff' _ (Iff.of_eq (k0_chk165.eq_1 v1040))
theorem k0_idx165_inb : ∀ (v1040 : IVec S16 32) (k0_hw165 : k0_chk165 v1040), ∀ a x, ((![v1040] : Fin 1 → IVec S16 32) a x).toNat < S49184.size a := fun v1040 k0_hw165 => k0_hw165

def k0_chk166 (v1049 : IVec S16 32) : Prop :=
  (∀ a x, ((![v1049] : Fin 1 → IVec S16 32) a x).toNat < S6144.size a)
instance k0_chk166.dec : ∀ (v1049 : IVec S16 32), Decidable (k0_chk166 v1049) := fun v1049 => decidable_of_iff' _ (Iff.of_eq (k0_chk166.eq_1 v1049))
theorem k0_idx166_inb : ∀ (v1049 : IVec S16 32) (k0_hw166 : k0_chk166 v1049), ∀ a x, ((![v1049] : Fin 1 → IVec S16 32) a x).toNat < S6144.size a := fun v1049 k0_hw166 => k0_hw166

def k0_chk167 (v1052 : IVec S16 32) : Prop :=
  (∀ a x, ((![v1052] : Fin 1 → IVec S16 32) a x).toNat < S49184.size a)
instance k0_chk167.dec : ∀ (v1052 : IVec S16 32), Decidable (k0_chk167 v1052) := fun v1052 => decidable_of_iff' _ (Iff.of_eq (k0_chk167.eq_1 v1052))
theorem k0_idx167_inb : ∀ (v1052 : IVec S16 32) (k0_hw167 : k0_chk167 v1052), ∀ a x, ((![v1052] : Fin 1 → IVec S16 32) a x).toNat < S49184.size a := fun v1052 k0_hw167 => k0_hw167

def k0_chk168 (v1057 : IVec S16 32) : Prop :=
  (∀ a x, ((![v1057] : Fin 1 → IVec S16 32) a x).toNat < S49184.size a)
instance k0_chk168.dec : ∀ (v1057 : IVec S16 32), Decidable (k0_chk168 v1057) := fun v1057 => decidable_of_iff' _ (Iff.of_eq (k0_chk168.eq_1 v1057))
theorem k0_idx168_inb : ∀ (v1057 : IVec S16 32) (k0_hw168 : k0_chk168 v1057), ∀ a x, ((![v1057] : Fin 1 → IVec S16 32) a x).toNat < S49184.size a := fun v1057 k0_hw168 => k0_hw168

def k0_chk169 (v1066 : IVec S16 32) : Prop :=
  (∀ a x, ((![v1066] : Fin 1 → IVec S16 32) a x).toNat < S6144.size a)
instance k0_chk169.dec : ∀ (v1066 : IVec S16 32), Decidable (k0_chk169 v1066) := fun v1066 => decidable_of_iff' _ (Iff.of_eq (k0_chk169.eq_1 v1066))
theorem k0_idx169_inb : ∀ (v1066 : IVec S16 32) (k0_hw169 : k0_chk169 v1066), ∀ a x, ((![v1066] : Fin 1 → IVec S16 32) a x).toNat < S6144.size a := fun v1066 k0_hw169 => k0_hw169

def k0_chk170 (v1069 : IVec S16 32) : Prop :=
  (∀ a x, ((![v1069] : Fin 1 → IVec S16 32) a x).toNat < S49184.size a)
instance k0_chk170.dec : ∀ (v1069 : IVec S16 32), Decidable (k0_chk170 v1069) := fun v1069 => decidable_of_iff' _ (Iff.of_eq (k0_chk170.eq_1 v1069))
theorem k0_idx170_inb : ∀ (v1069 : IVec S16 32) (k0_hw170 : k0_chk170 v1069), ∀ a x, ((![v1069] : Fin 1 → IVec S16 32) a x).toNat < S49184.size a := fun v1069 k0_hw170 => k0_hw170

def k0_chk171 (v1074 : IVec S16 32) : Prop :=
  (∀ a x, ((![v1074] : Fin 1 → IVec S16 32) a x).toNat < S49184.size a)
instance k0_chk171.dec : ∀ (v1074 : IVec S16 32), Decidable (k0_chk171 v1074) := fun v1074 => decidable_of_iff' _ (Iff.of_eq (k0_chk171.eq_1 v1074))
theorem k0_idx171_inb : ∀ (v1074 : IVec S16 32) (k0_hw171 : k0_chk171 v1074), ∀ a x, ((![v1074] : Fin 1 → IVec S16 32) a x).toNat < S49184.size a := fun v1074 k0_hw171 => k0_hw171

def k0_chk172 (v1083 : IVec S16 32) : Prop :=
  (∀ a x, ((![v1083] : Fin 1 → IVec S16 32) a x).toNat < S6144.size a)
instance k0_chk172.dec : ∀ (v1083 : IVec S16 32), Decidable (k0_chk172 v1083) := fun v1083 => decidable_of_iff' _ (Iff.of_eq (k0_chk172.eq_1 v1083))
theorem k0_idx172_inb : ∀ (v1083 : IVec S16 32) (k0_hw172 : k0_chk172 v1083), ∀ a x, ((![v1083] : Fin 1 → IVec S16 32) a x).toNat < S6144.size a := fun v1083 k0_hw172 => k0_hw172

def k0_chk173 (v1086 : IVec S16 32) : Prop :=
  (∀ a x, ((![v1086] : Fin 1 → IVec S16 32) a x).toNat < S49184.size a)
instance k0_chk173.dec : ∀ (v1086 : IVec S16 32), Decidable (k0_chk173 v1086) := fun v1086 => decidable_of_iff' _ (Iff.of_eq (k0_chk173.eq_1 v1086))
theorem k0_idx173_inb : ∀ (v1086 : IVec S16 32) (k0_hw173 : k0_chk173 v1086), ∀ a x, ((![v1086] : Fin 1 → IVec S16 32) a x).toNat < S49184.size a := fun v1086 k0_hw173 => k0_hw173

def k0_chk174 (v1091 : IVec S16 32) : Prop :=
  (∀ a x, ((![v1091] : Fin 1 → IVec S16 32) a x).toNat < S49184.size a)
instance k0_chk174.dec : ∀ (v1091 : IVec S16 32), Decidable (k0_chk174 v1091) := fun v1091 => decidable_of_iff' _ (Iff.of_eq (k0_chk174.eq_1 v1091))
theorem k0_idx174_inb : ∀ (v1091 : IVec S16 32) (k0_hw174 : k0_chk174 v1091), ∀ a x, ((![v1091] : Fin 1 → IVec S16 32) a x).toNat < S49184.size a := fun v1091 k0_hw174 => k0_hw174

def k0_chk175 (v1100 : IVec S16 32) : Prop :=
  (∀ a x, ((![v1100] : Fin 1 → IVec S16 32) a x).toNat < S6144.size a)
instance k0_chk175.dec : ∀ (v1100 : IVec S16 32), Decidable (k0_chk175 v1100) := fun v1100 => decidable_of_iff' _ (Iff.of_eq (k0_chk175.eq_1 v1100))
theorem k0_idx175_inb : ∀ (v1100 : IVec S16 32) (k0_hw175 : k0_chk175 v1100), ∀ a x, ((![v1100] : Fin 1 → IVec S16 32) a x).toNat < S6144.size a := fun v1100 k0_hw175 => k0_hw175

def k0_chk176 (v1103 : IVec S16 32) : Prop :=
  (∀ a x, ((![v1103] : Fin 1 → IVec S16 32) a x).toNat < S49184.size a)
instance k0_chk176.dec : ∀ (v1103 : IVec S16 32), Decidable (k0_chk176 v1103) := fun v1103 => decidable_of_iff' _ (Iff.of_eq (k0_chk176.eq_1 v1103))
theorem k0_idx176_inb : ∀ (v1103 : IVec S16 32) (k0_hw176 : k0_chk176 v1103), ∀ a x, ((![v1103] : Fin 1 → IVec S16 32) a x).toNat < S49184.size a := fun v1103 k0_hw176 => k0_hw176

def k0_chk177 (v1108 : IVec S16 32) : Prop :=
  (∀ a x, ((![v1108] : Fin 1 → IVec S16 32) a x).toNat < S49184.size a)
instance k0_chk177.dec : ∀ (v1108 : IVec S16 32), Decidable (k0_chk177 v1108) := fun v1108 => decidable_of_iff' _ (Iff.of_eq (k0_chk177.eq_1 v1108))
theorem k0_idx177_inb : ∀ (v1108 : IVec S16 32) (k0_hw177 : k0_chk177 v1108), ∀ a x, ((![v1108] : Fin 1 → IVec S16 32) a x).toNat < S49184.size a := fun v1108 k0_hw177 => k0_hw177

def k0_chk178 (v1117 : IVec S16 32) : Prop :=
  (∀ a x, ((![v1117] : Fin 1 → IVec S16 32) a x).toNat < S6144.size a)
instance k0_chk178.dec : ∀ (v1117 : IVec S16 32), Decidable (k0_chk178 v1117) := fun v1117 => decidable_of_iff' _ (Iff.of_eq (k0_chk178.eq_1 v1117))
theorem k0_idx178_inb : ∀ (v1117 : IVec S16 32) (k0_hw178 : k0_chk178 v1117), ∀ a x, ((![v1117] : Fin 1 → IVec S16 32) a x).toNat < S6144.size a := fun v1117 k0_hw178 => k0_hw178

def k0_chk179 (v1120 : IVec S16 32) : Prop :=
  (∀ a x, ((![v1120] : Fin 1 → IVec S16 32) a x).toNat < S49184.size a)
instance k0_chk179.dec : ∀ (v1120 : IVec S16 32), Decidable (k0_chk179 v1120) := fun v1120 => decidable_of_iff' _ (Iff.of_eq (k0_chk179.eq_1 v1120))
theorem k0_idx179_inb : ∀ (v1120 : IVec S16 32) (k0_hw179 : k0_chk179 v1120), ∀ a x, ((![v1120] : Fin 1 → IVec S16 32) a x).toNat < S49184.size a := fun v1120 k0_hw179 => k0_hw179

def k0_chk180 (v1125 : IVec S16 32) : Prop :=
  (∀ a x, ((![v1125] : Fin 1 → IVec S16 32) a x).toNat < S49184.size a)
instance k0_chk180.dec : ∀ (v1125 : IVec S16 32), Decidable (k0_chk180 v1125) := fun v1125 => decidable_of_iff' _ (Iff.of_eq (k0_chk180.eq_1 v1125))
theorem k0_idx180_inb : ∀ (v1125 : IVec S16 32) (k0_hw180 : k0_chk180 v1125), ∀ a x, ((![v1125] : Fin 1 → IVec S16 32) a x).toNat < S49184.size a := fun v1125 k0_hw180 => k0_hw180

def k0_chk181 (v1134 : IVec S16 32) : Prop :=
  (∀ a x, ((![v1134] : Fin 1 → IVec S16 32) a x).toNat < S6144.size a)
instance k0_chk181.dec : ∀ (v1134 : IVec S16 32), Decidable (k0_chk181 v1134) := fun v1134 => decidable_of_iff' _ (Iff.of_eq (k0_chk181.eq_1 v1134))
theorem k0_idx181_inb : ∀ (v1134 : IVec S16 32) (k0_hw181 : k0_chk181 v1134), ∀ a x, ((![v1134] : Fin 1 → IVec S16 32) a x).toNat < S6144.size a := fun v1134 k0_hw181 => k0_hw181

def k0_chk182 (v1137 : IVec S16 32) : Prop :=
  (∀ a x, ((![v1137] : Fin 1 → IVec S16 32) a x).toNat < S49184.size a)
instance k0_chk182.dec : ∀ (v1137 : IVec S16 32), Decidable (k0_chk182 v1137) := fun v1137 => decidable_of_iff' _ (Iff.of_eq (k0_chk182.eq_1 v1137))
theorem k0_idx182_inb : ∀ (v1137 : IVec S16 32) (k0_hw182 : k0_chk182 v1137), ∀ a x, ((![v1137] : Fin 1 → IVec S16 32) a x).toNat < S49184.size a := fun v1137 k0_hw182 => k0_hw182

def k0_chk183 (v1142 : IVec S16 32) : Prop :=
  (∀ a x, ((![v1142] : Fin 1 → IVec S16 32) a x).toNat < S49184.size a)
instance k0_chk183.dec : ∀ (v1142 : IVec S16 32), Decidable (k0_chk183 v1142) := fun v1142 => decidable_of_iff' _ (Iff.of_eq (k0_chk183.eq_1 v1142))
theorem k0_idx183_inb : ∀ (v1142 : IVec S16 32) (k0_hw183 : k0_chk183 v1142), ∀ a x, ((![v1142] : Fin 1 → IVec S16 32) a x).toNat < S49184.size a := fun v1142 k0_hw183 => k0_hw183

def k0_chk184 (v1151 : IVec S16 32) : Prop :=
  (∀ a x, ((![v1151] : Fin 1 → IVec S16 32) a x).toNat < S6144.size a)
instance k0_chk184.dec : ∀ (v1151 : IVec S16 32), Decidable (k0_chk184 v1151) := fun v1151 => decidable_of_iff' _ (Iff.of_eq (k0_chk184.eq_1 v1151))
theorem k0_idx184_inb : ∀ (v1151 : IVec S16 32) (k0_hw184 : k0_chk184 v1151), ∀ a x, ((![v1151] : Fin 1 → IVec S16 32) a x).toNat < S6144.size a := fun v1151 k0_hw184 => k0_hw184

def k0_chk185 (v1154 : IVec S16 32) : Prop :=
  (∀ a x, ((![v1154] : Fin 1 → IVec S16 32) a x).toNat < S49184.size a)
instance k0_chk185.dec : ∀ (v1154 : IVec S16 32), Decidable (k0_chk185 v1154) := fun v1154 => decidable_of_iff' _ (Iff.of_eq (k0_chk185.eq_1 v1154))
theorem k0_idx185_inb : ∀ (v1154 : IVec S16 32) (k0_hw185 : k0_chk185 v1154), ∀ a x, ((![v1154] : Fin 1 → IVec S16 32) a x).toNat < S49184.size a := fun v1154 k0_hw185 => k0_hw185

def k0_chk186 (v1159 : IVec S16 32) : Prop :=
  (∀ a x, ((![v1159] : Fin 1 → IVec S16 32) a x).toNat < S49184.size a)
instance k0_chk186.dec : ∀ (v1159 : IVec S16 32), Decidable (k0_chk186 v1159) := fun v1159 => decidable_of_iff' _ (Iff.of_eq (k0_chk186.eq_1 v1159))
theorem k0_idx186_inb : ∀ (v1159 : IVec S16 32) (k0_hw186 : k0_chk186 v1159), ∀ a x, ((![v1159] : Fin 1 → IVec S16 32) a x).toNat < S49184.size a := fun v1159 k0_hw186 => k0_hw186

def k0_chk187 (v1168 : IVec S16 32) : Prop :=
  (∀ a x, ((![v1168] : Fin 1 → IVec S16 32) a x).toNat < S6144.size a)
instance k0_chk187.dec : ∀ (v1168 : IVec S16 32), Decidable (k0_chk187 v1168) := fun v1168 => decidable_of_iff' _ (Iff.of_eq (k0_chk187.eq_1 v1168))
theorem k0_idx187_inb : ∀ (v1168 : IVec S16 32) (k0_hw187 : k0_chk187 v1168), ∀ a x, ((![v1168] : Fin 1 → IVec S16 32) a x).toNat < S6144.size a := fun v1168 k0_hw187 => k0_hw187

def k0_chk188 (v1171 : IVec S16 32) : Prop :=
  (∀ a x, ((![v1171] : Fin 1 → IVec S16 32) a x).toNat < S49184.size a)
instance k0_chk188.dec : ∀ (v1171 : IVec S16 32), Decidable (k0_chk188 v1171) := fun v1171 => decidable_of_iff' _ (Iff.of_eq (k0_chk188.eq_1 v1171))
theorem k0_idx188_inb : ∀ (v1171 : IVec S16 32) (k0_hw188 : k0_chk188 v1171), ∀ a x, ((![v1171] : Fin 1 → IVec S16 32) a x).toNat < S49184.size a := fun v1171 k0_hw188 => k0_hw188

def k0_chk189 (v1176 : IVec S16 32) : Prop :=
  (∀ a x, ((![v1176] : Fin 1 → IVec S16 32) a x).toNat < S49184.size a)
instance k0_chk189.dec : ∀ (v1176 : IVec S16 32), Decidable (k0_chk189 v1176) := fun v1176 => decidable_of_iff' _ (Iff.of_eq (k0_chk189.eq_1 v1176))
theorem k0_idx189_inb : ∀ (v1176 : IVec S16 32) (k0_hw189 : k0_chk189 v1176), ∀ a x, ((![v1176] : Fin 1 → IVec S16 32) a x).toNat < S49184.size a := fun v1176 k0_hw189 => k0_hw189

def k0_chk190 (v1185 : IVec S16 32) : Prop :=
  (∀ a x, ((![v1185] : Fin 1 → IVec S16 32) a x).toNat < S6144.size a)
instance k0_chk190.dec : ∀ (v1185 : IVec S16 32), Decidable (k0_chk190 v1185) := fun v1185 => decidable_of_iff' _ (Iff.of_eq (k0_chk190.eq_1 v1185))
theorem k0_idx190_inb : ∀ (v1185 : IVec S16 32) (k0_hw190 : k0_chk190 v1185), ∀ a x, ((![v1185] : Fin 1 → IVec S16 32) a x).toNat < S6144.size a := fun v1185 k0_hw190 => k0_hw190

def k0_chk191 (v1188 : IVec S16 32) : Prop :=
  (∀ a x, ((![v1188] : Fin 1 → IVec S16 32) a x).toNat < S49184.size a)
instance k0_chk191.dec : ∀ (v1188 : IVec S16 32), Decidable (k0_chk191 v1188) := fun v1188 => decidable_of_iff' _ (Iff.of_eq (k0_chk191.eq_1 v1188))
theorem k0_idx191_inb : ∀ (v1188 : IVec S16 32) (k0_hw191 : k0_chk191 v1188), ∀ a x, ((![v1188] : Fin 1 → IVec S16 32) a x).toNat < S49184.size a := fun v1188 k0_hw191 => k0_hw191

def k0_chk192 (v1193 : IVec S16 32) : Prop :=
  (∀ a x, ((![v1193] : Fin 1 → IVec S16 32) a x).toNat < S49184.size a)
instance k0_chk192.dec : ∀ (v1193 : IVec S16 32), Decidable (k0_chk192 v1193) := fun v1193 => decidable_of_iff' _ (Iff.of_eq (k0_chk192.eq_1 v1193))
theorem k0_idx192_inb : ∀ (v1193 : IVec S16 32) (k0_hw192 : k0_chk192 v1193), ∀ a x, ((![v1193] : Fin 1 → IVec S16 32) a x).toNat < S49184.size a := fun v1193 k0_hw192 => k0_hw192

def k0_chk193 (v1202 : IVec S16 32) : Prop :=
  (∀ a x, ((![v1202] : Fin 1 → IVec S16 32) a x).toNat < S6144.size a)
instance k0_chk193.dec : ∀ (v1202 : IVec S16 32), Decidable (k0_chk193 v1202) := fun v1202 => decidable_of_iff' _ (Iff.of_eq (k0_chk193.eq_1 v1202))
theorem k0_idx193_inb : ∀ (v1202 : IVec S16 32) (k0_hw193 : k0_chk193 v1202), ∀ a x, ((![v1202] : Fin 1 → IVec S16 32) a x).toNat < S6144.size a := fun v1202 k0_hw193 => k0_hw193

def k0_chk194 (v1205 : IVec S16 32) : Prop :=
  (∀ a x, ((![v1205] : Fin 1 → IVec S16 32) a x).toNat < S49184.size a)
instance k0_chk194.dec : ∀ (v1205 : IVec S16 32), Decidable (k0_chk194 v1205) := fun v1205 => decidable_of_iff' _ (Iff.of_eq (k0_chk194.eq_1 v1205))
theorem k0_idx194_inb : ∀ (v1205 : IVec S16 32) (k0_hw194 : k0_chk194 v1205), ∀ a x, ((![v1205] : Fin 1 → IVec S16 32) a x).toNat < S49184.size a := fun v1205 k0_hw194 => k0_hw194

def k0_chk195 (v1210 : IVec S16 32) : Prop :=
  (∀ a x, ((![v1210] : Fin 1 → IVec S16 32) a x).toNat < S49184.size a)
instance k0_chk195.dec : ∀ (v1210 : IVec S16 32), Decidable (k0_chk195 v1210) := fun v1210 => decidable_of_iff' _ (Iff.of_eq (k0_chk195.eq_1 v1210))
theorem k0_idx195_inb : ∀ (v1210 : IVec S16 32) (k0_hw195 : k0_chk195 v1210), ∀ a x, ((![v1210] : Fin 1 → IVec S16 32) a x).toNat < S49184.size a := fun v1210 k0_hw195 => k0_hw195

def k0_chk196 (v1219 : IVec S16 32) : Prop :=
  (∀ a x, ((![v1219] : Fin 1 → IVec S16 32) a x).toNat < S6144.size a)
instance k0_chk196.dec : ∀ (v1219 : IVec S16 32), Decidable (k0_chk196 v1219) := fun v1219 => decidable_of_iff' _ (Iff.of_eq (k0_chk196.eq_1 v1219))
theorem k0_idx196_inb : ∀ (v1219 : IVec S16 32) (k0_hw196 : k0_chk196 v1219), ∀ a x, ((![v1219] : Fin 1 → IVec S16 32) a x).toNat < S6144.size a := fun v1219 k0_hw196 => k0_hw196

def k0_chk197 (v1222 : IVec S16 32) : Prop :=
  (∀ a x, ((![v1222] : Fin 1 → IVec S16 32) a x).toNat < S49184.size a)
instance k0_chk197.dec : ∀ (v1222 : IVec S16 32), Decidable (k0_chk197 v1222) := fun v1222 => decidable_of_iff' _ (Iff.of_eq (k0_chk197.eq_1 v1222))
theorem k0_idx197_inb : ∀ (v1222 : IVec S16 32) (k0_hw197 : k0_chk197 v1222), ∀ a x, ((![v1222] : Fin 1 → IVec S16 32) a x).toNat < S49184.size a := fun v1222 k0_hw197 => k0_hw197

def k0_chk198 (v1227 : IVec S16 32) : Prop :=
  (∀ a x, ((![v1227] : Fin 1 → IVec S16 32) a x).toNat < S49184.size a)
instance k0_chk198.dec : ∀ (v1227 : IVec S16 32), Decidable (k0_chk198 v1227) := fun v1227 => decidable_of_iff' _ (Iff.of_eq (k0_chk198.eq_1 v1227))
theorem k0_idx198_inb : ∀ (v1227 : IVec S16 32) (k0_hw198 : k0_chk198 v1227), ∀ a x, ((![v1227] : Fin 1 → IVec S16 32) a x).toNat < S49184.size a := fun v1227 k0_hw198 => k0_hw198

def k0_chk199 (v1236 : IVec S16 32) : Prop :=
  (∀ a x, ((![v1236] : Fin 1 → IVec S16 32) a x).toNat < S6144.size a)
instance k0_chk199.dec : ∀ (v1236 : IVec S16 32), Decidable (k0_chk199 v1236) := fun v1236 => decidable_of_iff' _ (Iff.of_eq (k0_chk199.eq_1 v1236))
theorem k0_idx199_inb : ∀ (v1236 : IVec S16 32) (k0_hw199 : k0_chk199 v1236), ∀ a x, ((![v1236] : Fin 1 → IVec S16 32) a x).toNat < S6144.size a := fun v1236 k0_hw199 => k0_hw199

def k0_chk200 (v1239 : IVec S16 32) : Prop :=
  (∀ a x, ((![v1239] : Fin 1 → IVec S16 32) a x).toNat < S49184.size a)
instance k0_chk200.dec : ∀ (v1239 : IVec S16 32), Decidable (k0_chk200 v1239) := fun v1239 => decidable_of_iff' _ (Iff.of_eq (k0_chk200.eq_1 v1239))
theorem k0_idx200_inb : ∀ (v1239 : IVec S16 32) (k0_hw200 : k0_chk200 v1239), ∀ a x, ((![v1239] : Fin 1 → IVec S16 32) a x).toNat < S49184.size a := fun v1239 k0_hw200 => k0_hw200

def k0_chk201 (v1244 : IVec S16 32) : Prop :=
  (∀ a x, ((![v1244] : Fin 1 → IVec S16 32) a x).toNat < S49184.size a)
instance k0_chk201.dec : ∀ (v1244 : IVec S16 32), Decidable (k0_chk201 v1244) := fun v1244 => decidable_of_iff' _ (Iff.of_eq (k0_chk201.eq_1 v1244))
theorem k0_idx201_inb : ∀ (v1244 : IVec S16 32) (k0_hw201 : k0_chk201 v1244), ∀ a x, ((![v1244] : Fin 1 → IVec S16 32) a x).toNat < S49184.size a := fun v1244 k0_hw201 => k0_hw201

def k0_chk202 (v1253 : IVec S16 32) : Prop :=
  (∀ a x, ((![v1253] : Fin 1 → IVec S16 32) a x).toNat < S6144.size a)
instance k0_chk202.dec : ∀ (v1253 : IVec S16 32), Decidable (k0_chk202 v1253) := fun v1253 => decidable_of_iff' _ (Iff.of_eq (k0_chk202.eq_1 v1253))
theorem k0_idx202_inb : ∀ (v1253 : IVec S16 32) (k0_hw202 : k0_chk202 v1253), ∀ a x, ((![v1253] : Fin 1 → IVec S16 32) a x).toNat < S6144.size a := fun v1253 k0_hw202 => k0_hw202

def k0_chk203 (v1256 : IVec S16 32) : Prop :=
  (∀ a x, ((![v1256] : Fin 1 → IVec S16 32) a x).toNat < S49184.size a)
instance k0_chk203.dec : ∀ (v1256 : IVec S16 32), Decidable (k0_chk203 v1256) := fun v1256 => decidable_of_iff' _ (Iff.of_eq (k0_chk203.eq_1 v1256))
theorem k0_idx203_inb : ∀ (v1256 : IVec S16 32) (k0_hw203 : k0_chk203 v1256), ∀ a x, ((![v1256] : Fin 1 → IVec S16 32) a x).toNat < S49184.size a := fun v1256 k0_hw203 => k0_hw203

def k0_chk204 (v1261 : IVec S16 32) : Prop :=
  (∀ a x, ((![v1261] : Fin 1 → IVec S16 32) a x).toNat < S49184.size a)
instance k0_chk204.dec : ∀ (v1261 : IVec S16 32), Decidable (k0_chk204 v1261) := fun v1261 => decidable_of_iff' _ (Iff.of_eq (k0_chk204.eq_1 v1261))
theorem k0_idx204_inb : ∀ (v1261 : IVec S16 32) (k0_hw204 : k0_chk204 v1261), ∀ a x, ((![v1261] : Fin 1 → IVec S16 32) a x).toNat < S49184.size a := fun v1261 k0_hw204 => k0_hw204

def k0_chk205 (v1270 : IVec S16 32) : Prop :=
  (∀ a x, ((![v1270] : Fin 1 → IVec S16 32) a x).toNat < S6144.size a)
instance k0_chk205.dec : ∀ (v1270 : IVec S16 32), Decidable (k0_chk205 v1270) := fun v1270 => decidable_of_iff' _ (Iff.of_eq (k0_chk205.eq_1 v1270))
theorem k0_idx205_inb : ∀ (v1270 : IVec S16 32) (k0_hw205 : k0_chk205 v1270), ∀ a x, ((![v1270] : Fin 1 → IVec S16 32) a x).toNat < S6144.size a := fun v1270 k0_hw205 => k0_hw205

def k0_chk206 (v1273 : IVec S16 32) : Prop :=
  (∀ a x, ((![v1273] : Fin 1 → IVec S16 32) a x).toNat < S49184.size a)
instance k0_chk206.dec : ∀ (v1273 : IVec S16 32), Decidable (k0_chk206 v1273) := fun v1273 => decidable_of_iff' _ (Iff.of_eq (k0_chk206.eq_1 v1273))
theorem k0_idx206_inb : ∀ (v1273 : IVec S16 32) (k0_hw206 : k0_chk206 v1273), ∀ a x, ((![v1273] : Fin 1 → IVec S16 32) a x).toNat < S49184.size a := fun v1273 k0_hw206 => k0_hw206

def k0_chk207 (v1278 : IVec S16 32) : Prop :=
  (∀ a x, ((![v1278] : Fin 1 → IVec S16 32) a x).toNat < S49184.size a)
instance k0_chk207.dec : ∀ (v1278 : IVec S16 32), Decidable (k0_chk207 v1278) := fun v1278 => decidable_of_iff' _ (Iff.of_eq (k0_chk207.eq_1 v1278))
theorem k0_idx207_inb : ∀ (v1278 : IVec S16 32) (k0_hw207 : k0_chk207 v1278), ∀ a x, ((![v1278] : Fin 1 → IVec S16 32) a x).toNat < S49184.size a := fun v1278 k0_hw207 => k0_hw207

def k0_chk208 (v1287 : IVec S16 32) : Prop :=
  (∀ a x, ((![v1287] : Fin 1 → IVec S16 32) a x).toNat < S6144.size a)
instance k0_chk208.dec : ∀ (v1287 : IVec S16 32), Decidable (k0_chk208 v1287) := fun v1287 => decidable_of_iff' _ (Iff.of_eq (k0_chk208.eq_1 v1287))
theorem k0_idx208_inb : ∀ (v1287 : IVec S16 32) (k0_hw208 : k0_chk208 v1287), ∀ a x, ((![v1287] : Fin 1 → IVec S16 32) a x).toNat < S6144.size a := fun v1287 k0_hw208 => k0_hw208

def k0_chk209 (v1290 : IVec S16 32) : Prop :=
  (∀ a x, ((![v1290] : Fin 1 → IVec S16 32) a x).toNat < S49184.size a)
instance k0_chk209.dec : ∀ (v1290 : IVec S16 32), Decidable (k0_chk209 v1290) := fun v1290 => decidable_of_iff' _ (Iff.of_eq (k0_chk209.eq_1 v1290))
theorem k0_idx209_inb : ∀ (v1290 : IVec S16 32) (k0_hw209 : k0_chk209 v1290), ∀ a x, ((![v1290] : Fin 1 → IVec S16 32) a x).toNat < S49184.size a := fun v1290 k0_hw209 => k0_hw209

def k0_chk210 (v1295 : IVec S16 32) : Prop :=
  (∀ a x, ((![v1295] : Fin 1 → IVec S16 32) a x).toNat < S49184.size a)
instance k0_chk210.dec : ∀ (v1295 : IVec S16 32), Decidable (k0_chk210 v1295) := fun v1295 => decidable_of_iff' _ (Iff.of_eq (k0_chk210.eq_1 v1295))
theorem k0_idx210_inb : ∀ (v1295 : IVec S16 32) (k0_hw210 : k0_chk210 v1295), ∀ a x, ((![v1295] : Fin 1 → IVec S16 32) a x).toNat < S49184.size a := fun v1295 k0_hw210 => k0_hw210

def k0_chk211 (v1304 : IVec S16 32) : Prop :=
  (∀ a x, ((![v1304] : Fin 1 → IVec S16 32) a x).toNat < S6144.size a)
instance k0_chk211.dec : ∀ (v1304 : IVec S16 32), Decidable (k0_chk211 v1304) := fun v1304 => decidable_of_iff' _ (Iff.of_eq (k0_chk211.eq_1 v1304))
theorem k0_idx211_inb : ∀ (v1304 : IVec S16 32) (k0_hw211 : k0_chk211 v1304), ∀ a x, ((![v1304] : Fin 1 → IVec S16 32) a x).toNat < S6144.size a := fun v1304 k0_hw211 => k0_hw211

def k0_chk212 (v1307 : IVec S16 32) : Prop :=
  (∀ a x, ((![v1307] : Fin 1 → IVec S16 32) a x).toNat < S49184.size a)
instance k0_chk212.dec : ∀ (v1307 : IVec S16 32), Decidable (k0_chk212 v1307) := fun v1307 => decidable_of_iff' _ (Iff.of_eq (k0_chk212.eq_1 v1307))
theorem k0_idx212_inb : ∀ (v1307 : IVec S16 32) (k0_hw212 : k0_chk212 v1307), ∀ a x, ((![v1307] : Fin 1 → IVec S16 32) a x).toNat < S49184.size a := fun v1307 k0_hw212 => k0_hw212

def k0_chk213 (v1312 : IVec S16 32) : Prop :=
  (∀ a x, ((![v1312] : Fin 1 → IVec S16 32) a x).toNat < S49184.size a)
instance k0_chk213.dec : ∀ (v1312 : IVec S16 32), Decidable (k0_chk213 v1312) := fun v1312 => decidable_of_iff' _ (Iff.of_eq (k0_chk213.eq_1 v1312))
theorem k0_idx213_inb : ∀ (v1312 : IVec S16 32) (k0_hw213 : k0_chk213 v1312), ∀ a x, ((![v1312] : Fin 1 → IVec S16 32) a x).toNat < S49184.size a := fun v1312 k0_hw213 => k0_hw213

def k0_chk214 (v1321 : IVec S16 32) : Prop :=
  (∀ a x, ((![v1321] : Fin 1 → IVec S16 32) a x).toNat < S6144.size a)
instance k0_chk214.dec : ∀ (v1321 : IVec S16 32), Decidable (k0_chk214 v1321) := fun v1321 => decidable_of_iff' _ (Iff.of_eq (k0_chk214.eq_1 v1321))
theorem k0_idx214_inb : ∀ (v1321 : IVec S16 32) (k0_hw214 : k0_chk214 v1321), ∀ a x, ((![v1321] : Fin 1 → IVec S16 32) a x).toNat < S6144.size a := fun v1321 k0_hw214 => k0_hw214

def k0_chk215 (v1324 : IVec S16 32) : Prop :=
  (∀ a x, ((![v1324] : Fin 1 → IVec S16 32) a x).toNat < S49184.size a)
instance k0_chk215.dec : ∀ (v1324 : IVec S16 32), Decidable (k0_chk215 v1324) := fun v1324 => decidable_of_iff' _ (Iff.of_eq (k0_chk215.eq_1 v1324))
theorem k0_idx215_inb : ∀ (v1324 : IVec S16 32) (k0_hw215 : k0_chk215 v1324), ∀ a x, ((![v1324] : Fin 1 → IVec S16 32) a x).toNat < S49184.size a := fun v1324 k0_hw215 => k0_hw215

def k0_chk216 (v1329 : IVec S16 32) : Prop :=
  (∀ a x, ((![v1329] : Fin 1 → IVec S16 32) a x).toNat < S49184.size a)
instance k0_chk216.dec : ∀ (v1329 : IVec S16 32), Decidable (k0_chk216 v1329) := fun v1329 => decidable_of_iff' _ (Iff.of_eq (k0_chk216.eq_1 v1329))
theorem k0_idx216_inb : ∀ (v1329 : IVec S16 32) (k0_hw216 : k0_chk216 v1329), ∀ a x, ((![v1329] : Fin 1 → IVec S16 32) a x).toNat < S49184.size a := fun v1329 k0_hw216 => k0_hw216

def k0_chk217 (v1338 : IVec S16 32) : Prop :=
  (∀ a x, ((![v1338] : Fin 1 → IVec S16 32) a x).toNat < S6144.size a)
instance k0_chk217.dec : ∀ (v1338 : IVec S16 32), Decidable (k0_chk217 v1338) := fun v1338 => decidable_of_iff' _ (Iff.of_eq (k0_chk217.eq_1 v1338))
theorem k0_idx217_inb : ∀ (v1338 : IVec S16 32) (k0_hw217 : k0_chk217 v1338), ∀ a x, ((![v1338] : Fin 1 → IVec S16 32) a x).toNat < S6144.size a := fun v1338 k0_hw217 => k0_hw217

def k0_chk218 (v1341 : IVec S16 32) : Prop :=
  (∀ a x, ((![v1341] : Fin 1 → IVec S16 32) a x).toNat < S49184.size a)
instance k0_chk218.dec : ∀ (v1341 : IVec S16 32), Decidable (k0_chk218 v1341) := fun v1341 => decidable_of_iff' _ (Iff.of_eq (k0_chk218.eq_1 v1341))
theorem k0_idx218_inb : ∀ (v1341 : IVec S16 32) (k0_hw218 : k0_chk218 v1341), ∀ a x, ((![v1341] : Fin 1 → IVec S16 32) a x).toNat < S49184.size a := fun v1341 k0_hw218 => k0_hw218

def k0_chk219 (v1346 : IVec S16 32) : Prop :=
  (∀ a x, ((![v1346] : Fin 1 → IVec S16 32) a x).toNat < S49184.size a)
instance k0_chk219.dec : ∀ (v1346 : IVec S16 32), Decidable (k0_chk219 v1346) := fun v1346 => decidable_of_iff' _ (Iff.of_eq (k0_chk219.eq_1 v1346))
theorem k0_idx219_inb : ∀ (v1346 : IVec S16 32) (k0_hw219 : k0_chk219 v1346), ∀ a x, ((![v1346] : Fin 1 → IVec S16 32) a x).toNat < S49184.size a := fun v1346 k0_hw219 => k0_hw219

def k0_chk220 (v1355 : IVec S16 32) : Prop :=
  (∀ a x, ((![v1355] : Fin 1 → IVec S16 32) a x).toNat < S6144.size a)
instance k0_chk220.dec : ∀ (v1355 : IVec S16 32), Decidable (k0_chk220 v1355) := fun v1355 => decidable_of_iff' _ (Iff.of_eq (k0_chk220.eq_1 v1355))
theorem k0_idx220_inb : ∀ (v1355 : IVec S16 32) (k0_hw220 : k0_chk220 v1355), ∀ a x, ((![v1355] : Fin 1 → IVec S16 32) a x).toNat < S6144.size a := fun v1355 k0_hw220 => k0_hw220

def k0_chk221 (v1358 : IVec S16 32) : Prop :=
  (∀ a x, ((![v1358] : Fin 1 → IVec S16 32) a x).toNat < S49184.size a)
instance k0_chk221.dec : ∀ (v1358 : IVec S16 32), Decidable (k0_chk221 v1358) := fun v1358 => decidable_of_iff' _ (Iff.of_eq (k0_chk221.eq_1 v1358))
theorem k0_idx221_inb : ∀ (v1358 : IVec S16 32) (k0_hw221 : k0_chk221 v1358), ∀ a x, ((![v1358] : Fin 1 → IVec S16 32) a x).toNat < S49184.size a := fun v1358 k0_hw221 => k0_hw221

def k0_chk222 (v1363 : IVec S16 32) : Prop :=
  (∀ a x, ((![v1363] : Fin 1 → IVec S16 32) a x).toNat < S49184.size a)
instance k0_chk222.dec : ∀ (v1363 : IVec S16 32), Decidable (k0_chk222 v1363) := fun v1363 => decidable_of_iff' _ (Iff.of_eq (k0_chk222.eq_1 v1363))
theorem k0_idx222_inb : ∀ (v1363 : IVec S16 32) (k0_hw222 : k0_chk222 v1363), ∀ a x, ((![v1363] : Fin 1 → IVec S16 32) a x).toNat < S49184.size a := fun v1363 k0_hw222 => k0_hw222

def k0_chk223 (v1372 : IVec S16 32) : Prop :=
  (∀ a x, ((![v1372] : Fin 1 → IVec S16 32) a x).toNat < S6144.size a)
instance k0_chk223.dec : ∀ (v1372 : IVec S16 32), Decidable (k0_chk223 v1372) := fun v1372 => decidable_of_iff' _ (Iff.of_eq (k0_chk223.eq_1 v1372))
theorem k0_idx223_inb : ∀ (v1372 : IVec S16 32) (k0_hw223 : k0_chk223 v1372), ∀ a x, ((![v1372] : Fin 1 → IVec S16 32) a x).toNat < S6144.size a := fun v1372 k0_hw223 => k0_hw223

def k0_chk224 (v1375 : IVec S16 32) : Prop :=
  (∀ a x, ((![v1375] : Fin 1 → IVec S16 32) a x).toNat < S49184.size a)
instance k0_chk224.dec : ∀ (v1375 : IVec S16 32), Decidable (k0_chk224 v1375) := fun v1375 => decidable_of_iff' _ (Iff.of_eq (k0_chk224.eq_1 v1375))
theorem k0_idx224_inb : ∀ (v1375 : IVec S16 32) (k0_hw224 : k0_chk224 v1375), ∀ a x, ((![v1375] : Fin 1 → IVec S16 32) a x).toNat < S49184.size a := fun v1375 k0_hw224 => k0_hw224

def k0_chk225 (v1380 : IVec S16 32) : Prop :=
  (∀ a x, ((![v1380] : Fin 1 → IVec S16 32) a x).toNat < S49184.size a)
instance k0_chk225.dec : ∀ (v1380 : IVec S16 32), Decidable (k0_chk225 v1380) := fun v1380 => decidable_of_iff' _ (Iff.of_eq (k0_chk225.eq_1 v1380))
theorem k0_idx225_inb : ∀ (v1380 : IVec S16 32) (k0_hw225 : k0_chk225 v1380), ∀ a x, ((![v1380] : Fin 1 → IVec S16 32) a x).toNat < S49184.size a := fun v1380 k0_hw225 => k0_hw225

def k0_chk226 (v1389 : IVec S16 32) : Prop :=
  (∀ a x, ((![v1389] : Fin 1 → IVec S16 32) a x).toNat < S6144.size a)
instance k0_chk226.dec : ∀ (v1389 : IVec S16 32), Decidable (k0_chk226 v1389) := fun v1389 => decidable_of_iff' _ (Iff.of_eq (k0_chk226.eq_1 v1389))
theorem k0_idx226_inb : ∀ (v1389 : IVec S16 32) (k0_hw226 : k0_chk226 v1389), ∀ a x, ((![v1389] : Fin 1 → IVec S16 32) a x).toNat < S6144.size a := fun v1389 k0_hw226 => k0_hw226

def k0_chk227 (v1392 : IVec S16 32) : Prop :=
  (∀ a x, ((![v1392] : Fin 1 → IVec S16 32) a x).toNat < S49184.size a)
instance k0_chk227.dec : ∀ (v1392 : IVec S16 32), Decidable (k0_chk227 v1392) := fun v1392 => decidable_of_iff' _ (Iff.of_eq (k0_chk227.eq_1 v1392))
theorem k0_idx227_inb : ∀ (v1392 : IVec S16 32) (k0_hw227 : k0_chk227 v1392), ∀ a x, ((![v1392] : Fin 1 → IVec S16 32) a x).toNat < S49184.size a := fun v1392 k0_hw227 => k0_hw227

def k0_chk228 (v1397 : IVec S16 32) : Prop :=
  (∀ a x, ((![v1397] : Fin 1 → IVec S16 32) a x).toNat < S49184.size a)
instance k0_chk228.dec : ∀ (v1397 : IVec S16 32), Decidable (k0_chk228 v1397) := fun v1397 => decidable_of_iff' _ (Iff.of_eq (k0_chk228.eq_1 v1397))
theorem k0_idx228_inb : ∀ (v1397 : IVec S16 32) (k0_hw228 : k0_chk228 v1397), ∀ a x, ((![v1397] : Fin 1 → IVec S16 32) a x).toNat < S49184.size a := fun v1397 k0_hw228 => k0_hw228

def k0_chk229 (v1406 : IVec S16 32) : Prop :=
  (∀ a x, ((![v1406] : Fin 1 → IVec S16 32) a x).toNat < S6144.size a)
instance k0_chk229.dec : ∀ (v1406 : IVec S16 32), Decidable (k0_chk229 v1406) := fun v1406 => decidable_of_iff' _ (Iff.of_eq (k0_chk229.eq_1 v1406))
theorem k0_idx229_inb : ∀ (v1406 : IVec S16 32) (k0_hw229 : k0_chk229 v1406), ∀ a x, ((![v1406] : Fin 1 → IVec S16 32) a x).toNat < S6144.size a := fun v1406 k0_hw229 => k0_hw229

def k0_chk230 (v1409 : IVec S16 32) : Prop :=
  (∀ a x, ((![v1409] : Fin 1 → IVec S16 32) a x).toNat < S49184.size a)
instance k0_chk230.dec : ∀ (v1409 : IVec S16 32), Decidable (k0_chk230 v1409) := fun v1409 => decidable_of_iff' _ (Iff.of_eq (k0_chk230.eq_1 v1409))
theorem k0_idx230_inb : ∀ (v1409 : IVec S16 32) (k0_hw230 : k0_chk230 v1409), ∀ a x, ((![v1409] : Fin 1 → IVec S16 32) a x).toNat < S49184.size a := fun v1409 k0_hw230 => k0_hw230

def k0_chk231 (v1414 : IVec S16 32) : Prop :=
  (∀ a x, ((![v1414] : Fin 1 → IVec S16 32) a x).toNat < S49184.size a)
instance k0_chk231.dec : ∀ (v1414 : IVec S16 32), Decidable (k0_chk231 v1414) := fun v1414 => decidable_of_iff' _ (Iff.of_eq (k0_chk231.eq_1 v1414))
theorem k0_idx231_inb : ∀ (v1414 : IVec S16 32) (k0_hw231 : k0_chk231 v1414), ∀ a x, ((![v1414] : Fin 1 → IVec S16 32) a x).toNat < S49184.size a := fun v1414 k0_hw231 => k0_hw231

def k0_chk232 (v1423 : IVec S16 32) : Prop :=
  (∀ a x, ((![v1423] : Fin 1 → IVec S16 32) a x).toNat < S6144.size a)
instance k0_chk232.dec : ∀ (v1423 : IVec S16 32), Decidable (k0_chk232 v1423) := fun v1423 => decidable_of_iff' _ (Iff.of_eq (k0_chk232.eq_1 v1423))
theorem k0_idx232_inb : ∀ (v1423 : IVec S16 32) (k0_hw232 : k0_chk232 v1423), ∀ a x, ((![v1423] : Fin 1 → IVec S16 32) a x).toNat < S6144.size a := fun v1423 k0_hw232 => k0_hw232

def k0_chk233 (v1426 : IVec S16 32) : Prop :=
  (∀ a x, ((![v1426] : Fin 1 → IVec S16 32) a x).toNat < S49184.size a)
instance k0_chk233.dec : ∀ (v1426 : IVec S16 32), Decidable (k0_chk233 v1426) := fun v1426 => decidable_of_iff' _ (Iff.of_eq (k0_chk233.eq_1 v1426))
theorem k0_idx233_inb : ∀ (v1426 : IVec S16 32) (k0_hw233 : k0_chk233 v1426), ∀ a x, ((![v1426] : Fin 1 → IVec S16 32) a x).toNat < S49184.size a := fun v1426 k0_hw233 => k0_hw233

def k0_chk234 (v1431 : IVec S16 32) : Prop :=
  (∀ a x, ((![v1431] : Fin 1 → IVec S16 32) a x).toNat < S49184.size a)
instance k0_chk234.dec : ∀ (v1431 : IVec S16 32), Decidable (k0_chk234 v1431) := fun v1431 => decidable_of_iff' _ (Iff.of_eq (k0_chk234.eq_1 v1431))
theorem k0_idx234_inb : ∀ (v1431 : IVec S16 32) (k0_hw234 : k0_chk234 v1431), ∀ a x, ((![v1431] : Fin 1 → IVec S16 32) a x).toNat < S49184.size a := fun v1431 k0_hw234 => k0_hw234

def k0_chk235 (v1440 : IVec S16 32) : Prop :=
  (∀ a x, ((![v1440] : Fin 1 → IVec S16 32) a x).toNat < S6144.size a)
instance k0_chk235.dec : ∀ (v1440 : IVec S16 32), Decidable (k0_chk235 v1440) := fun v1440 => decidable_of_iff' _ (Iff.of_eq (k0_chk235.eq_1 v1440))
theorem k0_idx235_inb : ∀ (v1440 : IVec S16 32) (k0_hw235 : k0_chk235 v1440), ∀ a x, ((![v1440] : Fin 1 → IVec S16 32) a x).toNat < S6144.size a := fun v1440 k0_hw235 => k0_hw235

def k0_chk236 (v1443 : IVec S16 32) : Prop :=
  (∀ a x, ((![v1443] : Fin 1 → IVec S16 32) a x).toNat < S49184.size a)
instance k0_chk236.dec : ∀ (v1443 : IVec S16 32), Decidable (k0_chk236 v1443) := fun v1443 => decidable_of_iff' _ (Iff.of_eq (k0_chk236.eq_1 v1443))
theorem k0_idx236_inb : ∀ (v1443 : IVec S16 32) (k0_hw236 : k0_chk236 v1443), ∀ a x, ((![v1443] : Fin 1 → IVec S16 32) a x).toNat < S49184.size a := fun v1443 k0_hw236 => k0_hw236

def k0_chk237 (v1448 : IVec S16 32) : Prop :=
  (∀ a x, ((![v1448] : Fin 1 → IVec S16 32) a x).toNat < S49184.size a)
instance k0_chk237.dec : ∀ (v1448 : IVec S16 32), Decidable (k0_chk237 v1448) := fun v1448 => decidable_of_iff' _ (Iff.of_eq (k0_chk237.eq_1 v1448))
theorem k0_idx237_inb : ∀ (v1448 : IVec S16 32) (k0_hw237 : k0_chk237 v1448), ∀ a x, ((![v1448] : Fin 1 → IVec S16 32) a x).toNat < S49184.size a := fun v1448 k0_hw237 => k0_hw237

def k0_chk238 (v1457 : IVec S16 32) : Prop :=
  (∀ a x, ((![v1457] : Fin 1 → IVec S16 32) a x).toNat < S6144.size a)
instance k0_chk238.dec : ∀ (v1457 : IVec S16 32), Decidable (k0_chk238 v1457) := fun v1457 => decidable_of_iff' _ (Iff.of_eq (k0_chk238.eq_1 v1457))
theorem k0_idx238_inb : ∀ (v1457 : IVec S16 32) (k0_hw238 : k0_chk238 v1457), ∀ a x, ((![v1457] : Fin 1 → IVec S16 32) a x).toNat < S6144.size a := fun v1457 k0_hw238 => k0_hw238

def k0_chk239 (v1460 : IVec S16 32) : Prop :=
  (∀ a x, ((![v1460] : Fin 1 → IVec S16 32) a x).toNat < S49184.size a)
instance k0_chk239.dec : ∀ (v1460 : IVec S16 32), Decidable (k0_chk239 v1460) := fun v1460 => decidable_of_iff' _ (Iff.of_eq (k0_chk239.eq_1 v1460))
theorem k0_idx239_inb : ∀ (v1460 : IVec S16 32) (k0_hw239 : k0_chk239 v1460), ∀ a x, ((![v1460] : Fin 1 → IVec S16 32) a x).toNat < S49184.size a := fun v1460 k0_hw239 => k0_hw239

def k0_chk240 (v1465 : IVec S16 32) : Prop :=
  (∀ a x, ((![v1465] : Fin 1 → IVec S16 32) a x).toNat < S49184.size a)
instance k0_chk240.dec : ∀ (v1465 : IVec S16 32), Decidable (k0_chk240 v1465) := fun v1465 => decidable_of_iff' _ (Iff.of_eq (k0_chk240.eq_1 v1465))
theorem k0_idx240_inb : ∀ (v1465 : IVec S16 32) (k0_hw240 : k0_chk240 v1465), ∀ a x, ((![v1465] : Fin 1 → IVec S16 32) a x).toNat < S49184.size a := fun v1465 k0_hw240 => k0_hw240

def k0_chk241 (v1474 : IVec S16 32) : Prop :=
  (∀ a x, ((![v1474] : Fin 1 → IVec S16 32) a x).toNat < S6144.size a)
instance k0_chk241.dec : ∀ (v1474 : IVec S16 32), Decidable (k0_chk241 v1474) := fun v1474 => decidable_of_iff' _ (Iff.of_eq (k0_chk241.eq_1 v1474))
theorem k0_idx241_inb : ∀ (v1474 : IVec S16 32) (k0_hw241 : k0_chk241 v1474), ∀ a x, ((![v1474] : Fin 1 → IVec S16 32) a x).toNat < S6144.size a := fun v1474 k0_hw241 => k0_hw241

def k0_chk242 (v1477 : IVec S16 32) : Prop :=
  (∀ a x, ((![v1477] : Fin 1 → IVec S16 32) a x).toNat < S49184.size a)
instance k0_chk242.dec : ∀ (v1477 : IVec S16 32), Decidable (k0_chk242 v1477) := fun v1477 => decidable_of_iff' _ (Iff.of_eq (k0_chk242.eq_1 v1477))
theorem k0_idx242_inb : ∀ (v1477 : IVec S16 32) (k0_hw242 : k0_chk242 v1477), ∀ a x, ((![v1477] : Fin 1 → IVec S16 32) a x).toNat < S49184.size a := fun v1477 k0_hw242 => k0_hw242

def k0_chk243 (v1482 : IVec S16 32) : Prop :=
  (∀ a x, ((![v1482] : Fin 1 → IVec S16 32) a x).toNat < S49184.size a)
instance k0_chk243.dec : ∀ (v1482 : IVec S16 32), Decidable (k0_chk243 v1482) := fun v1482 => decidable_of_iff' _ (Iff.of_eq (k0_chk243.eq_1 v1482))
theorem k0_idx243_inb : ∀ (v1482 : IVec S16 32) (k0_hw243 : k0_chk243 v1482), ∀ a x, ((![v1482] : Fin 1 → IVec S16 32) a x).toNat < S49184.size a := fun v1482 k0_hw243 => k0_hw243

def k0_chk244 (v1491 : IVec S16 32) : Prop :=
  (∀ a x, ((![v1491] : Fin 1 → IVec S16 32) a x).toNat < S6144.size a)
instance k0_chk244.dec : ∀ (v1491 : IVec S16 32), Decidable (k0_chk244 v1491) := fun v1491 => decidable_of_iff' _ (Iff.of_eq (k0_chk244.eq_1 v1491))
theorem k0_idx244_inb : ∀ (v1491 : IVec S16 32) (k0_hw244 : k0_chk244 v1491), ∀ a x, ((![v1491] : Fin 1 → IVec S16 32) a x).toNat < S6144.size a := fun v1491 k0_hw244 => k0_hw244

def k0_chk245 (v1494 : IVec S16 32) : Prop :=
  (∀ a x, ((![v1494] : Fin 1 → IVec S16 32) a x).toNat < S49184.size a)
instance k0_chk245.dec : ∀ (v1494 : IVec S16 32), Decidable (k0_chk245 v1494) := fun v1494 => decidable_of_iff' _ (Iff.of_eq (k0_chk245.eq_1 v1494))
theorem k0_idx245_inb : ∀ (v1494 : IVec S16 32) (k0_hw245 : k0_chk245 v1494), ∀ a x, ((![v1494] : Fin 1 → IVec S16 32) a x).toNat < S49184.size a := fun v1494 k0_hw245 => k0_hw245

def k0_chk246 (v1499 : IVec S16 32) : Prop :=
  (∀ a x, ((![v1499] : Fin 1 → IVec S16 32) a x).toNat < S49184.size a)
instance k0_chk246.dec : ∀ (v1499 : IVec S16 32), Decidable (k0_chk246 v1499) := fun v1499 => decidable_of_iff' _ (Iff.of_eq (k0_chk246.eq_1 v1499))
theorem k0_idx246_inb : ∀ (v1499 : IVec S16 32) (k0_hw246 : k0_chk246 v1499), ∀ a x, ((![v1499] : Fin 1 → IVec S16 32) a x).toNat < S49184.size a := fun v1499 k0_hw246 => k0_hw246

def k0_chk247 (v1508 : IVec S16 32) : Prop :=
  (∀ a x, ((![v1508] : Fin 1 → IVec S16 32) a x).toNat < S6144.size a)
instance k0_chk247.dec : ∀ (v1508 : IVec S16 32), Decidable (k0_chk247 v1508) := fun v1508 => decidable_of_iff' _ (Iff.of_eq (k0_chk247.eq_1 v1508))
theorem k0_idx247_inb : ∀ (v1508 : IVec S16 32) (k0_hw247 : k0_chk247 v1508), ∀ a x, ((![v1508] : Fin 1 → IVec S16 32) a x).toNat < S6144.size a := fun v1508 k0_hw247 => k0_hw247

def k0_chk248 (v1511 : IVec S16 32) : Prop :=
  (∀ a x, ((![v1511] : Fin 1 → IVec S16 32) a x).toNat < S49184.size a)
instance k0_chk248.dec : ∀ (v1511 : IVec S16 32), Decidable (k0_chk248 v1511) := fun v1511 => decidable_of_iff' _ (Iff.of_eq (k0_chk248.eq_1 v1511))
theorem k0_idx248_inb : ∀ (v1511 : IVec S16 32) (k0_hw248 : k0_chk248 v1511), ∀ a x, ((![v1511] : Fin 1 → IVec S16 32) a x).toNat < S49184.size a := fun v1511 k0_hw248 => k0_hw248

def k0_chk249 (v1516 : IVec S16 32) : Prop :=
  (∀ a x, ((![v1516] : Fin 1 → IVec S16 32) a x).toNat < S49184.size a)
instance k0_chk249.dec : ∀ (v1516 : IVec S16 32), Decidable (k0_chk249 v1516) := fun v1516 => decidable_of_iff' _ (Iff.of_eq (k0_chk249.eq_1 v1516))
theorem k0_idx249_inb : ∀ (v1516 : IVec S16 32) (k0_hw249 : k0_chk249 v1516), ∀ a x, ((![v1516] : Fin 1 → IVec S16 32) a x).toNat < S49184.size a := fun v1516 k0_hw249 => k0_hw249

def k0_chk250 (v1525 : IVec S16 32) : Prop :=
  (∀ a x, ((![v1525] : Fin 1 → IVec S16 32) a x).toNat < S6144.size a)
instance k0_chk250.dec : ∀ (v1525 : IVec S16 32), Decidable (k0_chk250 v1525) := fun v1525 => decidable_of_iff' _ (Iff.of_eq (k0_chk250.eq_1 v1525))
theorem k0_idx250_inb : ∀ (v1525 : IVec S16 32) (k0_hw250 : k0_chk250 v1525), ∀ a x, ((![v1525] : Fin 1 → IVec S16 32) a x).toNat < S6144.size a := fun v1525 k0_hw250 => k0_hw250

def k0_chk251 (v1528 : IVec S16 32) : Prop :=
  (∀ a x, ((![v1528] : Fin 1 → IVec S16 32) a x).toNat < S49184.size a)
instance k0_chk251.dec : ∀ (v1528 : IVec S16 32), Decidable (k0_chk251 v1528) := fun v1528 => decidable_of_iff' _ (Iff.of_eq (k0_chk251.eq_1 v1528))
theorem k0_idx251_inb : ∀ (v1528 : IVec S16 32) (k0_hw251 : k0_chk251 v1528), ∀ a x, ((![v1528] : Fin 1 → IVec S16 32) a x).toNat < S49184.size a := fun v1528 k0_hw251 => k0_hw251

def k0_chk252 (v1533 : IVec S16 32) : Prop :=
  (∀ a x, ((![v1533] : Fin 1 → IVec S16 32) a x).toNat < S49184.size a)
instance k0_chk252.dec : ∀ (v1533 : IVec S16 32), Decidable (k0_chk252 v1533) := fun v1533 => decidable_of_iff' _ (Iff.of_eq (k0_chk252.eq_1 v1533))
theorem k0_idx252_inb : ∀ (v1533 : IVec S16 32) (k0_hw252 : k0_chk252 v1533), ∀ a x, ((![v1533] : Fin 1 → IVec S16 32) a x).toNat < S49184.size a := fun v1533 k0_hw252 => k0_hw252

def k0_chk253 (v1542 : IVec S16 32) : Prop :=
  (∀ a x, ((![v1542] : Fin 1 → IVec S16 32) a x).toNat < S6144.size a)
instance k0_chk253.dec : ∀ (v1542 : IVec S16 32), Decidable (k0_chk253 v1542) := fun v1542 => decidable_of_iff' _ (Iff.of_eq (k0_chk253.eq_1 v1542))
theorem k0_idx253_inb : ∀ (v1542 : IVec S16 32) (k0_hw253 : k0_chk253 v1542), ∀ a x, ((![v1542] : Fin 1 → IVec S16 32) a x).toNat < S6144.size a := fun v1542 k0_hw253 => k0_hw253

def k0_chk254 (v1545 : IVec S16 32) : Prop :=
  (∀ a x, ((![v1545] : Fin 1 → IVec S16 32) a x).toNat < S49184.size a)
instance k0_chk254.dec : ∀ (v1545 : IVec S16 32), Decidable (k0_chk254 v1545) := fun v1545 => decidable_of_iff' _ (Iff.of_eq (k0_chk254.eq_1 v1545))
theorem k0_idx254_inb : ∀ (v1545 : IVec S16 32) (k0_hw254 : k0_chk254 v1545), ∀ a x, ((![v1545] : Fin 1 → IVec S16 32) a x).toNat < S49184.size a := fun v1545 k0_hw254 => k0_hw254

def k0_chk255 (v1550 : IVec S16 32) : Prop :=
  (∀ a x, ((![v1550] : Fin 1 → IVec S16 32) a x).toNat < S49184.size a)
instance k0_chk255.dec : ∀ (v1550 : IVec S16 32), Decidable (k0_chk255 v1550) := fun v1550 => decidable_of_iff' _ (Iff.of_eq (k0_chk255.eq_1 v1550))
theorem k0_idx255_inb : ∀ (v1550 : IVec S16 32) (k0_hw255 : k0_chk255 v1550), ∀ a x, ((![v1550] : Fin 1 → IVec S16 32) a x).toNat < S49184.size a := fun v1550 k0_hw255 => k0_hw255

def k0_chk256 (v1559 : IVec S16 32) : Prop :=
  (∀ a x, ((![v1559] : Fin 1 → IVec S16 32) a x).toNat < S6144.size a)
instance k0_chk256.dec : ∀ (v1559 : IVec S16 32), Decidable (k0_chk256 v1559) := fun v1559 => decidable_of_iff' _ (Iff.of_eq (k0_chk256.eq_1 v1559))
theorem k0_idx256_inb : ∀ (v1559 : IVec S16 32) (k0_hw256 : k0_chk256 v1559), ∀ a x, ((![v1559] : Fin 1 → IVec S16 32) a x).toNat < S6144.size a := fun v1559 k0_hw256 => k0_hw256

def k0_chk257 (v1562 : IVec S16 32) : Prop :=
  (∀ a x, ((![v1562] : Fin 1 → IVec S16 32) a x).toNat < S49184.size a)
instance k0_chk257.dec : ∀ (v1562 : IVec S16 32), Decidable (k0_chk257 v1562) := fun v1562 => decidable_of_iff' _ (Iff.of_eq (k0_chk257.eq_1 v1562))
theorem k0_idx257_inb : ∀ (v1562 : IVec S16 32) (k0_hw257 : k0_chk257 v1562), ∀ a x, ((![v1562] : Fin 1 → IVec S16 32) a x).toNat < S49184.size a := fun v1562 k0_hw257 => k0_hw257

def k0_chk258 (v1567 : IVec S16 32) : Prop :=
  (∀ a x, ((![v1567] : Fin 1 → IVec S16 32) a x).toNat < S49184.size a)
instance k0_chk258.dec : ∀ (v1567 : IVec S16 32), Decidable (k0_chk258 v1567) := fun v1567 => decidable_of_iff' _ (Iff.of_eq (k0_chk258.eq_1 v1567))
theorem k0_idx258_inb : ∀ (v1567 : IVec S16 32) (k0_hw258 : k0_chk258 v1567), ∀ a x, ((![v1567] : Fin 1 → IVec S16 32) a x).toNat < S49184.size a := fun v1567 k0_hw258 => k0_hw258

def k0_chk259 (v1576 : IVec S16 32) : Prop :=
  (∀ a x, ((![v1576] : Fin 1 → IVec S16 32) a x).toNat < S6144.size a)
instance k0_chk259.dec : ∀ (v1576 : IVec S16 32), Decidable (k0_chk259 v1576) := fun v1576 => decidable_of_iff' _ (Iff.of_eq (k0_chk259.eq_1 v1576))
theorem k0_idx259_inb : ∀ (v1576 : IVec S16 32) (k0_hw259 : k0_chk259 v1576), ∀ a x, ((![v1576] : Fin 1 → IVec S16 32) a x).toNat < S6144.size a := fun v1576 k0_hw259 => k0_hw259

def k0_chk260 (v1579 : IVec S16 32) : Prop :=
  (∀ a x, ((![v1579] : Fin 1 → IVec S16 32) a x).toNat < S49184.size a)
instance k0_chk260.dec : ∀ (v1579 : IVec S16 32), Decidable (k0_chk260 v1579) := fun v1579 => decidable_of_iff' _ (Iff.of_eq (k0_chk260.eq_1 v1579))
theorem k0_idx260_inb : ∀ (v1579 : IVec S16 32) (k0_hw260 : k0_chk260 v1579), ∀ a x, ((![v1579] : Fin 1 → IVec S16 32) a x).toNat < S49184.size a := fun v1579 k0_hw260 => k0_hw260

def k0_chk261 (v1584 : IVec S16 32) : Prop :=
  (∀ a x, ((![v1584] : Fin 1 → IVec S16 32) a x).toNat < S49184.size a)
instance k0_chk261.dec : ∀ (v1584 : IVec S16 32), Decidable (k0_chk261 v1584) := fun v1584 => decidable_of_iff' _ (Iff.of_eq (k0_chk261.eq_1 v1584))
theorem k0_idx261_inb : ∀ (v1584 : IVec S16 32) (k0_hw261 : k0_chk261 v1584), ∀ a x, ((![v1584] : Fin 1 → IVec S16 32) a x).toNat < S49184.size a := fun v1584 k0_hw261 => k0_hw261

def k0_chk262 (v1593 : IVec S16 32) : Prop :=
  (∀ a x, ((![v1593] : Fin 1 → IVec S16 32) a x).toNat < S6144.size a)
instance k0_chk262.dec : ∀ (v1593 : IVec S16 32), Decidable (k0_chk262 v1593) := fun v1593 => decidable_of_iff' _ (Iff.of_eq (k0_chk262.eq_1 v1593))
theorem k0_idx262_inb : ∀ (v1593 : IVec S16 32) (k0_hw262 : k0_chk262 v1593), ∀ a x, ((![v1593] : Fin 1 → IVec S16 32) a x).toNat < S6144.size a := fun v1593 k0_hw262 => k0_hw262

def k0_chk263 (v1596 : IVec S16 32) : Prop :=
  (∀ a x, ((![v1596] : Fin 1 → IVec S16 32) a x).toNat < S49184.size a)
instance k0_chk263.dec : ∀ (v1596 : IVec S16 32), Decidable (k0_chk263 v1596) := fun v1596 => decidable_of_iff' _ (Iff.of_eq (k0_chk263.eq_1 v1596))
theorem k0_idx263_inb : ∀ (v1596 : IVec S16 32) (k0_hw263 : k0_chk263 v1596), ∀ a x, ((![v1596] : Fin 1 → IVec S16 32) a x).toNat < S49184.size a := fun v1596 k0_hw263 => k0_hw263

def k0_chk264 (v1601 : IVec S16 32) : Prop :=
  (∀ a x, ((![v1601] : Fin 1 → IVec S16 32) a x).toNat < S49184.size a)
instance k0_chk264.dec : ∀ (v1601 : IVec S16 32), Decidable (k0_chk264 v1601) := fun v1601 => decidable_of_iff' _ (Iff.of_eq (k0_chk264.eq_1 v1601))
theorem k0_idx264_inb : ∀ (v1601 : IVec S16 32) (k0_hw264 : k0_chk264 v1601), ∀ a x, ((![v1601] : Fin 1 → IVec S16 32) a x).toNat < S49184.size a := fun v1601 k0_hw264 => k0_hw264

def k0_chk265 (v1610 : IVec S16 32) : Prop :=
  (∀ a x, ((![v1610] : Fin 1 → IVec S16 32) a x).toNat < S6144.size a)
instance k0_chk265.dec : ∀ (v1610 : IVec S16 32), Decidable (k0_chk265 v1610) := fun v1610 => decidable_of_iff' _ (Iff.of_eq (k0_chk265.eq_1 v1610))
theorem k0_idx265_inb : ∀ (v1610 : IVec S16 32) (k0_hw265 : k0_chk265 v1610), ∀ a x, ((![v1610] : Fin 1 → IVec S16 32) a x).toNat < S6144.size a := fun v1610 k0_hw265 => k0_hw265

def k0_chk266 (v1613 : IVec S16 32) : Prop :=
  (∀ a x, ((![v1613] : Fin 1 → IVec S16 32) a x).toNat < S49184.size a)
instance k0_chk266.dec : ∀ (v1613 : IVec S16 32), Decidable (k0_chk266 v1613) := fun v1613 => decidable_of_iff' _ (Iff.of_eq (k0_chk266.eq_1 v1613))
theorem k0_idx266_inb : ∀ (v1613 : IVec S16 32) (k0_hw266 : k0_chk266 v1613), ∀ a x, ((![v1613] : Fin 1 → IVec S16 32) a x).toNat < S49184.size a := fun v1613 k0_hw266 => k0_hw266

def k0_chk267 (v1618 : IVec S16 32) : Prop :=
  (∀ a x, ((![v1618] : Fin 1 → IVec S16 32) a x).toNat < S49184.size a)
instance k0_chk267.dec : ∀ (v1618 : IVec S16 32), Decidable (k0_chk267 v1618) := fun v1618 => decidable_of_iff' _ (Iff.of_eq (k0_chk267.eq_1 v1618))
theorem k0_idx267_inb : ∀ (v1618 : IVec S16 32) (k0_hw267 : k0_chk267 v1618), ∀ a x, ((![v1618] : Fin 1 → IVec S16 32) a x).toNat < S49184.size a := fun v1618 k0_hw267 => k0_hw267

def k0_chk268 (v1627 : IVec S16 32) : Prop :=
  (∀ a x, ((![v1627] : Fin 1 → IVec S16 32) a x).toNat < S6144.size a)
instance k0_chk268.dec : ∀ (v1627 : IVec S16 32), Decidable (k0_chk268 v1627) := fun v1627 => decidable_of_iff' _ (Iff.of_eq (k0_chk268.eq_1 v1627))
theorem k0_idx268_inb : ∀ (v1627 : IVec S16 32) (k0_hw268 : k0_chk268 v1627), ∀ a x, ((![v1627] : Fin 1 → IVec S16 32) a x).toNat < S6144.size a := fun v1627 k0_hw268 => k0_hw268

def k0_chk269 (v1630 : IVec S16 32) : Prop :=
  (∀ a x, ((![v1630] : Fin 1 → IVec S16 32) a x).toNat < S49184.size a)
instance k0_chk269.dec : ∀ (v1630 : IVec S16 32), Decidable (k0_chk269 v1630) := fun v1630 => decidable_of_iff' _ (Iff.of_eq (k0_chk269.eq_1 v1630))
theorem k0_idx269_inb : ∀ (v1630 : IVec S16 32) (k0_hw269 : k0_chk269 v1630), ∀ a x, ((![v1630] : Fin 1 → IVec S16 32) a x).toNat < S49184.size a := fun v1630 k0_hw269 => k0_hw269

def k0_chk270 (v1635 : IVec S16 32) : Prop :=
  (∀ a x, ((![v1635] : Fin 1 → IVec S16 32) a x).toNat < S49184.size a)
instance k0_chk270.dec : ∀ (v1635 : IVec S16 32), Decidable (k0_chk270 v1635) := fun v1635 => decidable_of_iff' _ (Iff.of_eq (k0_chk270.eq_1 v1635))
theorem k0_idx270_inb : ∀ (v1635 : IVec S16 32) (k0_hw270 : k0_chk270 v1635), ∀ a x, ((![v1635] : Fin 1 → IVec S16 32) a x).toNat < S49184.size a := fun v1635 k0_hw270 => k0_hw270

def k0_chk271 (v1644 : IVec S16 32) : Prop :=
  (∀ a x, ((![v1644] : Fin 1 → IVec S16 32) a x).toNat < S6144.size a)
instance k0_chk271.dec : ∀ (v1644 : IVec S16 32), Decidable (k0_chk271 v1644) := fun v1644 => decidable_of_iff' _ (Iff.of_eq (k0_chk271.eq_1 v1644))
theorem k0_idx271_inb : ∀ (v1644 : IVec S16 32) (k0_hw271 : k0_chk271 v1644), ∀ a x, ((![v1644] : Fin 1 → IVec S16 32) a x).toNat < S6144.size a := fun v1644 k0_hw271 => k0_hw271

def k0_chk272 (v1647 : IVec S16 32) : Prop :=
  (∀ a x, ((![v1647] : Fin 1 → IVec S16 32) a x).toNat < S49184.size a)
instance k0_chk272.dec : ∀ (v1647 : IVec S16 32), Decidable (k0_chk272 v1647) := fun v1647 => decidable_of_iff' _ (Iff.of_eq (k0_chk272.eq_1 v1647))
theorem k0_idx272_inb : ∀ (v1647 : IVec S16 32) (k0_hw272 : k0_chk272 v1647), ∀ a x, ((![v1647] : Fin 1 → IVec S16 32) a x).toNat < S49184.size a := fun v1647 k0_hw272 => k0_hw272

def k0_chk273 (v1652 : IVec S16 32) : Prop :=
  (∀ a x, ((![v1652] : Fin 1 → IVec S16 32) a x).toNat < S49184.size a)
instance k0_chk273.dec : ∀ (v1652 : IVec S16 32), Decidable (k0_chk273 v1652) := fun v1652 => decidable_of_iff' _ (Iff.of_eq (k0_chk273.eq_1 v1652))
theorem k0_idx273_inb : ∀ (v1652 : IVec S16 32) (k0_hw273 : k0_chk273 v1652), ∀ a x, ((![v1652] : Fin 1 → IVec S16 32) a x).toNat < S49184.size a := fun v1652 k0_hw273 => k0_hw273

def k0_chk274 (v1661 : IVec S16 32) : Prop :=
  (∀ a x, ((![v1661] : Fin 1 → IVec S16 32) a x).toNat < S6144.size a)
instance k0_chk274.dec : ∀ (v1661 : IVec S16 32), Decidable (k0_chk274 v1661) := fun v1661 => decidable_of_iff' _ (Iff.of_eq (k0_chk274.eq_1 v1661))
theorem k0_idx274_inb : ∀ (v1661 : IVec S16 32) (k0_hw274 : k0_chk274 v1661), ∀ a x, ((![v1661] : Fin 1 → IVec S16 32) a x).toNat < S6144.size a := fun v1661 k0_hw274 => k0_hw274

def k0_chk275 (v1664 : IVec S16 32) : Prop :=
  (∀ a x, ((![v1664] : Fin 1 → IVec S16 32) a x).toNat < S49184.size a)
instance k0_chk275.dec : ∀ (v1664 : IVec S16 32), Decidable (k0_chk275 v1664) := fun v1664 => decidable_of_iff' _ (Iff.of_eq (k0_chk275.eq_1 v1664))
theorem k0_idx275_inb : ∀ (v1664 : IVec S16 32) (k0_hw275 : k0_chk275 v1664), ∀ a x, ((![v1664] : Fin 1 → IVec S16 32) a x).toNat < S49184.size a := fun v1664 k0_hw275 => k0_hw275

def k0_chk276 (v1669 : IVec S16 32) : Prop :=
  (∀ a x, ((![v1669] : Fin 1 → IVec S16 32) a x).toNat < S49184.size a)
instance k0_chk276.dec : ∀ (v1669 : IVec S16 32), Decidable (k0_chk276 v1669) := fun v1669 => decidable_of_iff' _ (Iff.of_eq (k0_chk276.eq_1 v1669))
theorem k0_idx276_inb : ∀ (v1669 : IVec S16 32) (k0_hw276 : k0_chk276 v1669), ∀ a x, ((![v1669] : Fin 1 → IVec S16 32) a x).toNat < S49184.size a := fun v1669 k0_hw276 => k0_hw276

def k0_chk277 (v1678 : IVec S16 32) : Prop :=
  (∀ a x, ((![v1678] : Fin 1 → IVec S16 32) a x).toNat < S6144.size a)
instance k0_chk277.dec : ∀ (v1678 : IVec S16 32), Decidable (k0_chk277 v1678) := fun v1678 => decidable_of_iff' _ (Iff.of_eq (k0_chk277.eq_1 v1678))
theorem k0_idx277_inb : ∀ (v1678 : IVec S16 32) (k0_hw277 : k0_chk277 v1678), ∀ a x, ((![v1678] : Fin 1 → IVec S16 32) a x).toNat < S6144.size a := fun v1678 k0_hw277 => k0_hw277

def k0_chk278 (v1681 : IVec S16 32) : Prop :=
  (∀ a x, ((![v1681] : Fin 1 → IVec S16 32) a x).toNat < S49184.size a)
instance k0_chk278.dec : ∀ (v1681 : IVec S16 32), Decidable (k0_chk278 v1681) := fun v1681 => decidable_of_iff' _ (Iff.of_eq (k0_chk278.eq_1 v1681))
theorem k0_idx278_inb : ∀ (v1681 : IVec S16 32) (k0_hw278 : k0_chk278 v1681), ∀ a x, ((![v1681] : Fin 1 → IVec S16 32) a x).toNat < S49184.size a := fun v1681 k0_hw278 => k0_hw278

def k0_chk279 (v1686 : IVec S16 32) : Prop :=
  (∀ a x, ((![v1686] : Fin 1 → IVec S16 32) a x).toNat < S49184.size a)
instance k0_chk279.dec : ∀ (v1686 : IVec S16 32), Decidable (k0_chk279 v1686) := fun v1686 => decidable_of_iff' _ (Iff.of_eq (k0_chk279.eq_1 v1686))
theorem k0_idx279_inb : ∀ (v1686 : IVec S16 32) (k0_hw279 : k0_chk279 v1686), ∀ a x, ((![v1686] : Fin 1 → IVec S16 32) a x).toNat < S49184.size a := fun v1686 k0_hw279 => k0_hw279

def k0_chk280 (v1695 : IVec S16 32) : Prop :=
  (∀ a x, ((![v1695] : Fin 1 → IVec S16 32) a x).toNat < S6144.size a)
instance k0_chk280.dec : ∀ (v1695 : IVec S16 32), Decidable (k0_chk280 v1695) := fun v1695 => decidable_of_iff' _ (Iff.of_eq (k0_chk280.eq_1 v1695))
theorem k0_idx280_inb : ∀ (v1695 : IVec S16 32) (k0_hw280 : k0_chk280 v1695), ∀ a x, ((![v1695] : Fin 1 → IVec S16 32) a x).toNat < S6144.size a := fun v1695 k0_hw280 => k0_hw280

def k0_chk281 (v1698 : IVec S16 32) : Prop :=
  (∀ a x, ((![v1698] : Fin 1 → IVec S16 32) a x).toNat < S49184.size a)
instance k0_chk281.dec : ∀ (v1698 : IVec S16 32), Decidable (k0_chk281 v1698) := fun v1698 => decidable_of_iff' _ (Iff.of_eq (k0_chk281.eq_1 v1698))
theorem k0_idx281_inb : ∀ (v1698 : IVec S16 32) (k0_hw281 : k0_chk281 v1698), ∀ a x, ((![v1698] : Fin 1 → IVec S16 32) a x).toNat < S49184.size a := fun v1698 k0_hw281 => k0_hw281

def k0_chk282 (v1703 : IVec S16 32) : Prop :=
  (∀ a x, ((![v1703] : Fin 1 → IVec S16 32) a x).toNat < S49184.size a)
instance k0_chk282.dec : ∀ (v1703 : IVec S16 32), Decidable (k0_chk282 v1703) := fun v1703 => decidable_of_iff' _ (Iff.of_eq (k0_chk282.eq_1 v1703))
theorem k0_idx282_inb : ∀ (v1703 : IVec S16 32) (k0_hw282 : k0_chk282 v1703), ∀ a x, ((![v1703] : Fin 1 → IVec S16 32) a x).toNat < S49184.size a := fun v1703 k0_hw282 => k0_hw282

def k0_chk283 (v1712 : IVec S16 32) : Prop :=
  (∀ a x, ((![v1712] : Fin 1 → IVec S16 32) a x).toNat < S6144.size a)
instance k0_chk283.dec : ∀ (v1712 : IVec S16 32), Decidable (k0_chk283 v1712) := fun v1712 => decidable_of_iff' _ (Iff.of_eq (k0_chk283.eq_1 v1712))
theorem k0_idx283_inb : ∀ (v1712 : IVec S16 32) (k0_hw283 : k0_chk283 v1712), ∀ a x, ((![v1712] : Fin 1 → IVec S16 32) a x).toNat < S6144.size a := fun v1712 k0_hw283 => k0_hw283

def k0_chk284 (v1715 : IVec S16 32) : Prop :=
  (∀ a x, ((![v1715] : Fin 1 → IVec S16 32) a x).toNat < S49184.size a)
instance k0_chk284.dec : ∀ (v1715 : IVec S16 32), Decidable (k0_chk284 v1715) := fun v1715 => decidable_of_iff' _ (Iff.of_eq (k0_chk284.eq_1 v1715))
theorem k0_idx284_inb : ∀ (v1715 : IVec S16 32) (k0_hw284 : k0_chk284 v1715), ∀ a x, ((![v1715] : Fin 1 → IVec S16 32) a x).toNat < S49184.size a := fun v1715 k0_hw284 => k0_hw284

def k0_chk285 (v1720 : IVec S16 32) : Prop :=
  (∀ a x, ((![v1720] : Fin 1 → IVec S16 32) a x).toNat < S49184.size a)
instance k0_chk285.dec : ∀ (v1720 : IVec S16 32), Decidable (k0_chk285 v1720) := fun v1720 => decidable_of_iff' _ (Iff.of_eq (k0_chk285.eq_1 v1720))
theorem k0_idx285_inb : ∀ (v1720 : IVec S16 32) (k0_hw285 : k0_chk285 v1720), ∀ a x, ((![v1720] : Fin 1 → IVec S16 32) a x).toNat < S49184.size a := fun v1720 k0_hw285 => k0_hw285

def k0_chk286 (v1729 : IVec S16 32) : Prop :=
  (∀ a x, ((![v1729] : Fin 1 → IVec S16 32) a x).toNat < S6144.size a)
instance k0_chk286.dec : ∀ (v1729 : IVec S16 32), Decidable (k0_chk286 v1729) := fun v1729 => decidable_of_iff' _ (Iff.of_eq (k0_chk286.eq_1 v1729))
theorem k0_idx286_inb : ∀ (v1729 : IVec S16 32) (k0_hw286 : k0_chk286 v1729), ∀ a x, ((![v1729] : Fin 1 → IVec S16 32) a x).toNat < S6144.size a := fun v1729 k0_hw286 => k0_hw286

def k0_chk287 (v1732 : IVec S16 32) : Prop :=
  (∀ a x, ((![v1732] : Fin 1 → IVec S16 32) a x).toNat < S49184.size a)
instance k0_chk287.dec : ∀ (v1732 : IVec S16 32), Decidable (k0_chk287 v1732) := fun v1732 => decidable_of_iff' _ (Iff.of_eq (k0_chk287.eq_1 v1732))
theorem k0_idx287_inb : ∀ (v1732 : IVec S16 32) (k0_hw287 : k0_chk287 v1732), ∀ a x, ((![v1732] : Fin 1 → IVec S16 32) a x).toNat < S49184.size a := fun v1732 k0_hw287 => k0_hw287

def k0_chk288 (v1737 : IVec S16 32) : Prop :=
  (∀ a x, ((![v1737] : Fin 1 → IVec S16 32) a x).toNat < S49184.size a)
instance k0_chk288.dec : ∀ (v1737 : IVec S16 32), Decidable (k0_chk288 v1737) := fun v1737 => decidable_of_iff' _ (Iff.of_eq (k0_chk288.eq_1 v1737))
theorem k0_idx288_inb : ∀ (v1737 : IVec S16 32) (k0_hw288 : k0_chk288 v1737), ∀ a x, ((![v1737] : Fin 1 → IVec S16 32) a x).toNat < S49184.size a := fun v1737 k0_hw288 => k0_hw288

def k0_chk289 (v1746 : IVec S16 32) : Prop :=
  (∀ a x, ((![v1746] : Fin 1 → IVec S16 32) a x).toNat < S6144.size a)
instance k0_chk289.dec : ∀ (v1746 : IVec S16 32), Decidable (k0_chk289 v1746) := fun v1746 => decidable_of_iff' _ (Iff.of_eq (k0_chk289.eq_1 v1746))
theorem k0_idx289_inb : ∀ (v1746 : IVec S16 32) (k0_hw289 : k0_chk289 v1746), ∀ a x, ((![v1746] : Fin 1 → IVec S16 32) a x).toNat < S6144.size a := fun v1746 k0_hw289 => k0_hw289

def k0_chk290 (v1749 : IVec S16 32) : Prop :=
  (∀ a x, ((![v1749] : Fin 1 → IVec S16 32) a x).toNat < S49184.size a)
instance k0_chk290.dec : ∀ (v1749 : IVec S16 32), Decidable (k0_chk290 v1749) := fun v1749 => decidable_of_iff' _ (Iff.of_eq (k0_chk290.eq_1 v1749))
theorem k0_idx290_inb : ∀ (v1749 : IVec S16 32) (k0_hw290 : k0_chk290 v1749), ∀ a x, ((![v1749] : Fin 1 → IVec S16 32) a x).toNat < S49184.size a := fun v1749 k0_hw290 => k0_hw290

def k0_chk291 (v1754 : IVec S16 32) : Prop :=
  (∀ a x, ((![v1754] : Fin 1 → IVec S16 32) a x).toNat < S49184.size a)
instance k0_chk291.dec : ∀ (v1754 : IVec S16 32), Decidable (k0_chk291 v1754) := fun v1754 => decidable_of_iff' _ (Iff.of_eq (k0_chk291.eq_1 v1754))
theorem k0_idx291_inb : ∀ (v1754 : IVec S16 32) (k0_hw291 : k0_chk291 v1754), ∀ a x, ((![v1754] : Fin 1 → IVec S16 32) a x).toNat < S49184.size a := fun v1754 k0_hw291 => k0_hw291

def k0_chk292 (v1763 : IVec S16 32) : Prop :=
  (∀ a x, ((![v1763] : Fin 1 → IVec S16 32) a x).toNat < S6144.size a)
instance k0_chk292.dec : ∀ (v1763 : IVec S16 32), Decidable (k0_chk292 v1763) := fun v1763 => decidable_of_iff' _ (Iff.of_eq (k0_chk292.eq_1 v1763))
theorem k0_idx292_inb : ∀ (v1763 : IVec S16 32) (k0_hw292 : k0_chk292 v1763), ∀ a x, ((![v1763] : Fin 1 → IVec S16 32) a x).toNat < S6144.size a := fun v1763 k0_hw292 => k0_hw292

def k0_chk293 (v1766 : IVec S16 32) : Prop :=
  (∀ a x, ((![v1766] : Fin 1 → IVec S16 32) a x).toNat < S49184.size a)
instance k0_chk293.dec : ∀ (v1766 : IVec S16 32), Decidable (k0_chk293 v1766) := fun v1766 => decidable_of_iff' _ (Iff.of_eq (k0_chk293.eq_1 v1766))
theorem k0_idx293_inb : ∀ (v1766 : IVec S16 32) (k0_hw293 : k0_chk293 v1766), ∀ a x, ((![v1766] : Fin 1 → IVec S16 32) a x).toNat < S49184.size a := fun v1766 k0_hw293 => k0_hw293

def k0_chk294 (v1771 : IVec S16 32) : Prop :=
  (∀ a x, ((![v1771] : Fin 1 → IVec S16 32) a x).toNat < S49184.size a)
instance k0_chk294.dec : ∀ (v1771 : IVec S16 32), Decidable (k0_chk294 v1771) := fun v1771 => decidable_of_iff' _ (Iff.of_eq (k0_chk294.eq_1 v1771))
theorem k0_idx294_inb : ∀ (v1771 : IVec S16 32) (k0_hw294 : k0_chk294 v1771), ∀ a x, ((![v1771] : Fin 1 → IVec S16 32) a x).toNat < S49184.size a := fun v1771 k0_hw294 => k0_hw294

def k0_chk295 (v1779 : IVec S16 32) : Prop :=
  (∀ a x, ((![v1779] : Fin 1 → IVec S16 32) a x).toNat < S16384.size a)
instance k0_chk295.dec : ∀ (v1779 : IVec S16 32), Decidable (k0_chk295 v1779) := fun v1779 => decidable_of_iff' _ (Iff.of_eq (k0_chk295.eq_1 v1779))
theorem k0_idx295_inb : ∀ (v1779 : IVec S16 32) (k0_hw295 : k0_chk295 v1779), ∀ a x, ((![v1779] : Fin 1 → IVec S16 32) a x).toNat < S16384.size a := fun v1779 k0_hw295 => k0_hw295

def k0_chk296 (v1783 : IVec S16 32) : Prop :=
  (∀ a x, ((![v1783] : Fin 1 → IVec S16 32) a x).toNat < S16384.size a)
instance k0_chk296.dec : ∀ (v1783 : IVec S16 32), Decidable (k0_chk296 v1783) := fun v1783 => decidable_of_iff' _ (Iff.of_eq (k0_chk296.eq_1 v1783))
theorem k0_idx296_inb : ∀ (v1783 : IVec S16 32) (k0_hw296 : k0_chk296 v1783), ∀ a x, ((![v1783] : Fin 1 → IVec S16 32) a x).toNat < S16384.size a := fun v1783 k0_hw296 => k0_hw296

def k0_chk297 (v1787 : IVec S16 32) : Prop :=
  (∀ a x, ((![v1787] : Fin 1 → IVec S16 32) a x).toNat < S16384.size a)
instance k0_chk297.dec : ∀ (v1787 : IVec S16 32), Decidable (k0_chk297 v1787) := fun v1787 => decidable_of_iff' _ (Iff.of_eq (k0_chk297.eq_1 v1787))
theorem k0_idx297_inb : ∀ (v1787 : IVec S16 32) (k0_hw297 : k0_chk297 v1787), ∀ a x, ((![v1787] : Fin 1 → IVec S16 32) a x).toNat < S16384.size a := fun v1787 k0_hw297 => k0_hw297

def k0_chk298 (v1791 : IVec S16 32) : Prop :=
  (∀ a x, ((![v1791] : Fin 1 → IVec S16 32) a x).toNat < S16384.size a)
instance k0_chk298.dec : ∀ (v1791 : IVec S16 32), Decidable (k0_chk298 v1791) := fun v1791 => decidable_of_iff' _ (Iff.of_eq (k0_chk298.eq_1 v1791))
theorem k0_idx298_inb : ∀ (v1791 : IVec S16 32) (k0_hw298 : k0_chk298 v1791), ∀ a x, ((![v1791] : Fin 1 → IVec S16 32) a x).toNat < S16384.size a := fun v1791 k0_hw298 => k0_hw298

def k0_chk299 (v1795 : IVec S16 32) : Prop :=
  (∀ a x, ((![v1795] : Fin 1 → IVec S16 32) a x).toNat < S16384.size a)
instance k0_chk299.dec : ∀ (v1795 : IVec S16 32), Decidable (k0_chk299 v1795) := fun v1795 => decidable_of_iff' _ (Iff.of_eq (k0_chk299.eq_1 v1795))
theorem k0_idx299_inb : ∀ (v1795 : IVec S16 32) (k0_hw299 : k0_chk299 v1795), ∀ a x, ((![v1795] : Fin 1 → IVec S16 32) a x).toNat < S16384.size a := fun v1795 k0_hw299 => k0_hw299

def k0_chk300 (v1799 : IVec S16 32) : Prop :=
  (∀ a x, ((![v1799] : Fin 1 → IVec S16 32) a x).toNat < S16384.size a)
instance k0_chk300.dec : ∀ (v1799 : IVec S16 32), Decidable (k0_chk300 v1799) := fun v1799 => decidable_of_iff' _ (Iff.of_eq (k0_chk300.eq_1 v1799))
theorem k0_idx300_inb : ∀ (v1799 : IVec S16 32) (k0_hw300 : k0_chk300 v1799), ∀ a x, ((![v1799] : Fin 1 → IVec S16 32) a x).toNat < S16384.size a := fun v1799 k0_hw300 => k0_hw300

def k0_chk301 (v1803 : IVec S16 32) : Prop :=
  (∀ a x, ((![v1803] : Fin 1 → IVec S16 32) a x).toNat < S16384.size a)
instance k0_chk301.dec : ∀ (v1803 : IVec S16 32), Decidable (k0_chk301 v1803) := fun v1803 => decidable_of_iff' _ (Iff.of_eq (k0_chk301.eq_1 v1803))
theorem k0_idx301_inb : ∀ (v1803 : IVec S16 32) (k0_hw301 : k0_chk301 v1803), ∀ a x, ((![v1803] : Fin 1 → IVec S16 32) a x).toNat < S16384.size a := fun v1803 k0_hw301 => k0_hw301

def k0_chk302 (v1807 : IVec S16 32) : Prop :=
  (∀ a x, ((![v1807] : Fin 1 → IVec S16 32) a x).toNat < S16384.size a)
instance k0_chk302.dec : ∀ (v1807 : IVec S16 32), Decidable (k0_chk302 v1807) := fun v1807 => decidable_of_iff' _ (Iff.of_eq (k0_chk302.eq_1 v1807))
theorem k0_idx302_inb : ∀ (v1807 : IVec S16 32) (k0_hw302 : k0_chk302 v1807), ∀ a x, ((![v1807] : Fin 1 → IVec S16 32) a x).toNat < S16384.size a := fun v1807 k0_hw302 => k0_hw302

def k0_chk303 (v1811 : IVec S16 32) : Prop :=
  (∀ a x, ((![v1811] : Fin 1 → IVec S16 32) a x).toNat < S16384.size a)
instance k0_chk303.dec : ∀ (v1811 : IVec S16 32), Decidable (k0_chk303 v1811) := fun v1811 => decidable_of_iff' _ (Iff.of_eq (k0_chk303.eq_1 v1811))
theorem k0_idx303_inb : ∀ (v1811 : IVec S16 32) (k0_hw303 : k0_chk303 v1811), ∀ a x, ((![v1811] : Fin 1 → IVec S16 32) a x).toNat < S16384.size a := fun v1811 k0_hw303 => k0_hw303

def k0_chk304 (v1815 : IVec S16 32) : Prop :=
  (∀ a x, ((![v1815] : Fin 1 → IVec S16 32) a x).toNat < S16384.size a)
instance k0_chk304.dec : ∀ (v1815 : IVec S16 32), Decidable (k0_chk304 v1815) := fun v1815 => decidable_of_iff' _ (Iff.of_eq (k0_chk304.eq_1 v1815))
theorem k0_idx304_inb : ∀ (v1815 : IVec S16 32) (k0_hw304 : k0_chk304 v1815), ∀ a x, ((![v1815] : Fin 1 → IVec S16 32) a x).toNat < S16384.size a := fun v1815 k0_hw304 => k0_hw304

def k0_chk305 (v1819 : IVec S16 32) : Prop :=
  (∀ a x, ((![v1819] : Fin 1 → IVec S16 32) a x).toNat < S16384.size a)
instance k0_chk305.dec : ∀ (v1819 : IVec S16 32), Decidable (k0_chk305 v1819) := fun v1819 => decidable_of_iff' _ (Iff.of_eq (k0_chk305.eq_1 v1819))
theorem k0_idx305_inb : ∀ (v1819 : IVec S16 32) (k0_hw305 : k0_chk305 v1819), ∀ a x, ((![v1819] : Fin 1 → IVec S16 32) a x).toNat < S16384.size a := fun v1819 k0_hw305 => k0_hw305

def k0_chk306 (v1823 : IVec S16 32) : Prop :=
  (∀ a x, ((![v1823] : Fin 1 → IVec S16 32) a x).toNat < S16384.size a)
instance k0_chk306.dec : ∀ (v1823 : IVec S16 32), Decidable (k0_chk306 v1823) := fun v1823 => decidable_of_iff' _ (Iff.of_eq (k0_chk306.eq_1 v1823))
theorem k0_idx306_inb : ∀ (v1823 : IVec S16 32) (k0_hw306 : k0_chk306 v1823), ∀ a x, ((![v1823] : Fin 1 → IVec S16 32) a x).toNat < S16384.size a := fun v1823 k0_hw306 => k0_hw306

def k0_chk307 (v1827 : IVec S16 32) : Prop :=
  (∀ a x, ((![v1827] : Fin 1 → IVec S16 32) a x).toNat < S16384.size a)
instance k0_chk307.dec : ∀ (v1827 : IVec S16 32), Decidable (k0_chk307 v1827) := fun v1827 => decidable_of_iff' _ (Iff.of_eq (k0_chk307.eq_1 v1827))
theorem k0_idx307_inb : ∀ (v1827 : IVec S16 32) (k0_hw307 : k0_chk307 v1827), ∀ a x, ((![v1827] : Fin 1 → IVec S16 32) a x).toNat < S16384.size a := fun v1827 k0_hw307 => k0_hw307

def k0_chk308 (v1831 : IVec S16 32) : Prop :=
  (∀ a x, ((![v1831] : Fin 1 → IVec S16 32) a x).toNat < S16384.size a)
instance k0_chk308.dec : ∀ (v1831 : IVec S16 32), Decidable (k0_chk308 v1831) := fun v1831 => decidable_of_iff' _ (Iff.of_eq (k0_chk308.eq_1 v1831))
theorem k0_idx308_inb : ∀ (v1831 : IVec S16 32) (k0_hw308 : k0_chk308 v1831), ∀ a x, ((![v1831] : Fin 1 → IVec S16 32) a x).toNat < S16384.size a := fun v1831 k0_hw308 => k0_hw308

def k0_chk309 (v1835 : IVec S16 32) : Prop :=
  (∀ a x, ((![v1835] : Fin 1 → IVec S16 32) a x).toNat < S16384.size a)
instance k0_chk309.dec : ∀ (v1835 : IVec S16 32), Decidable (k0_chk309 v1835) := fun v1835 => decidable_of_iff' _ (Iff.of_eq (k0_chk309.eq_1 v1835))
theorem k0_idx309_inb : ∀ (v1835 : IVec S16 32) (k0_hw309 : k0_chk309 v1835), ∀ a x, ((![v1835] : Fin 1 → IVec S16 32) a x).toNat < S16384.size a := fun v1835 k0_hw309 => k0_hw309

def k0_chk310 (v1839 : IVec S16 32) : Prop :=
  (∀ a x, ((![v1839] : Fin 1 → IVec S16 32) a x).toNat < S16384.size a)
instance k0_chk310.dec : ∀ (v1839 : IVec S16 32), Decidable (k0_chk310 v1839) := fun v1839 => decidable_of_iff' _ (Iff.of_eq (k0_chk310.eq_1 v1839))
theorem k0_idx310_inb : ∀ (v1839 : IVec S16 32) (k0_hw310 : k0_chk310 v1839), ∀ a x, ((![v1839] : Fin 1 → IVec S16 32) a x).toNat < S16384.size a := fun v1839 k0_hw310 => k0_hw310
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v9 : BitVec 32 := Scalar.muli v1 c2048_i32
  let c0_i32_0 : BitVec 32 := 0#32
  let c1_i32 : BitVec 32 := 1#32
  let arg10 : BitVec 32 := Scf.iv c0_i32_0 c1_i32 k0_t1
  let c64_i32 : BitVec 32 := 64#32
  let v10 : BitVec 32 := Scalar.muli arg10 c64_i32
  let v11 : BitVec 32 := Scalar.addi v9 v10
  let c256_i32 : BitVec 32 := 256#32
  let v16 : BitVec 32 := Scalar.muli v11 c256_i32
  ![v16.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S753x8x4_S24096 : S753x8x4.ShapeCasts S24096
  shapeCasts_S31x8x4_S992 : S31x8x4.ShapeCasts S992
  concatenates_S24096_S24096_S992_S49184_d0 : Shape.Concatenates [S24096, S24096, S992] S49184 0
  bcast_S_S49184 : S_.BroadcastsInDim S49184 (![] : Fin 0 → Fin S49184.rank)
  shapeCasts_S65536x32x3_S6291456 : S65536x32x3.ShapeCasts S6291456
  shapeCasts_S65536x8x12_S6291456 : S65536x8x12.ShapeCasts S6291456
  iota_S16_d0_w32_scVector : S16.Iotas .scVector 32 [0]
  h_S6144 : 0 < S6144.numel
  h_S49184 : 0 < S49184.numel
  h_S16384 : 0 < S16384.numel
  shapeCasts_S16777216_S65536x32x8 : S16777216.ShapeCasts S65536x32x8
  hcc0_scoped0 : 0 + S_.numel ≤ 4
  hcc0_scoped1 : 1 + S_.numel ≤ 4
  hcc0_scoped2 : 2 + S_.numel ≤ 4
  hcc0_scoped3 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S6144.size a ≤ S6291456.size a
  k0_t2_ok : k0_t2_loop.OK
  k0_off2_inb : ∀ (i : grid0.Coords) (k0_t1 : Fin k0_t1_loop.trips), ∀ a, (k0_off2 i k0_t1) a + S16384.size a ≤ S16777216.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3

class Facts : Prop extends Facts₀ where

variable [Facts]
-- ==== ReferenceIdeal.lean ====
abbrev S65536x32x3 : Shape := ⟨3, ![65536, 32, 3]⟩
abbrev S65536x8x12 : Shape := ⟨3, ![65536, 8, 12]⟩
abbrev S_ : Shape := ⟨0, ![]⟩
abbrev S4 : Shape := ⟨1, ![4]⟩
abbrev S753x8x4 : Shape := ⟨3, ![753, 8, 4]⟩
abbrev S31x8x4 : Shape := ⟨3, ![31, 8, 4]⟩
abbrev S3 : Shape := ⟨1, ![3]⟩
abbrev S1x1x3 : Shape := ⟨3, ![1, 1, 3]⟩
abbrev S65536x8x3x4 : Shape := ⟨4, ![65536, 8, 3, 4]⟩
abbrev S65536x32x1 : Shape := ⟨3, ![65536, 32, 1]⟩
abbrev S65536x32 : Shape := ⟨2, ![65536, 32]⟩
abbrev S65536x8x1x4 : Shape := ⟨4, ![65536, 8, 1, 4]⟩
abbrev S65536x8x4 : Shape := ⟨3, ![65536, 8, 4]⟩
abbrev S1 : Shape := ⟨1, ![1]⟩
abbrev S1x1x1 : Shape := ⟨3, ![1, 1, 1]⟩
abbrev S65536x32x8x4 : Shape := ⟨4, ![65536, 32, 8, 4]⟩
abbrev S65536x8x32 : Shape := ⟨3, ![65536, 8, 32]⟩
abbrev S65536x32x8 : Shape := ⟨3, ![65536, 32, 8]⟩

abbrev nBuf : Space → Nat
  | .hbm => 132
  | .vmem => 0
  | .smem => 0
  | _ => 0

abbrev hbmTy0_0 (i : Nat) : BufTy := match i % 128 with
  | 0 => ⟨S65536x32x3, .f32⟩
  | 1 => ⟨S65536x8x12, .f32⟩
  | 2 => ⟨S_, .f32⟩
  | 3 => ⟨S4, .i32⟩
  | 4 => ⟨S753x8x4, .f32⟩
  | 5 => ⟨S753x8x4, .f32⟩
  | 6 => ⟨S31x8x4, .f32⟩
  | 7 => ⟨S3, .f32⟩
  | 8 => ⟨S1x1x3, .f32⟩
  | 9 => ⟨S65536x32x3, .f32⟩
  | 10 => ⟨S65536x32x3, .f32⟩
  | 11 => ⟨S_, .f32⟩
  | 12 => ⟨S65536x32x3, .f32⟩
  | 13 => ⟨S65536x32x3, .f32⟩
  | 14 => ⟨S65536x32x3, .f32⟩
  | 15 => ⟨S65536x32x3, .i32⟩
  | 16 => ⟨S65536x8x3x4, .f32⟩
  | 17 => ⟨S65536x32x1, .i32⟩
  | 18 => ⟨S65536x32, .i32⟩
  | 19 => ⟨S_, .i32⟩
  | 20 => ⟨S_, .i32⟩
  | 21 => ⟨S_, .i32⟩
  | 22 => ⟨S65536x32, .i32⟩
  | 23 => ⟨S65536x32, .i32⟩
  | 24 => ⟨S_, .i32⟩
  | 25 => ⟨S65536x32, .i32⟩
  | 26 => ⟨S65536x32, .i32⟩
  | 27 => ⟨S65536x8x1x4, .f32⟩
  | 28 => ⟨S65536x8x4, .f32⟩
  | 29 => ⟨S_, .i32⟩
  | 30 => ⟨S65536x32, .i32⟩
  | 31 => ⟨S65536x32, .i1⟩
  | 32 => ⟨S_, .i32⟩
  | 33 => ⟨S65536x32, .i32⟩
  | 34 => ⟨S65536x32, .i32⟩
  | 35 => ⟨S65536x32, .i32⟩
  | 36 => ⟨S65536x32x1, .i32⟩
  | 37 => ⟨S1, .i32⟩
  | 38 => ⟨S_, .i32⟩
  | 39 => ⟨S65536x32x1, .i32⟩
  | 40 => ⟨S65536x32x1, .i1⟩
  | 41 => ⟨S1x1x1, .i32⟩
  | 42 => ⟨S65536x32x1, .i32⟩
  | 43 => ⟨S65536x32x1, .i1⟩
  | 44 => ⟨S65536x32x1, .i1⟩
  | 45 => ⟨S_, .i1⟩
  | 46 => ⟨S65536x32, .i1⟩
  | 47 => ⟨S65536x32x8x4, .f32⟩
  | 48 => ⟨S65536x32x8x4, .i1⟩
  | 49 => ⟨S_, .f32⟩
  | 50 => ⟨S65536x32x8x4, .f32⟩
  | 51 => ⟨S65536x32x8x4, .f32⟩
  | 52 => ⟨S65536x8x32, .f32⟩
  | 53 => ⟨S65536x32x8, .f32⟩
  | 54 => ⟨S65536x32x1, .i32⟩
  | 55 => ⟨S65536x32, .i32⟩
  | 56 => ⟨S_, .i32⟩
  | 57 => ⟨S_, .i32⟩
  | 58 => ⟨S_, .i32⟩
  | 59 => ⟨S65536x32, .i32⟩
  | 60 => ⟨S65536x32, .i32⟩
  | 61 => ⟨S_, .i32⟩
  | 62 => ⟨S65536x32, .i32⟩
  | 63 => ⟨S65536x32, .i32⟩
  | 64 => ⟨S65536x8x1x4, .f32⟩
  | 65 => ⟨S65536x8x4, .f32⟩
  | 66 => ⟨S_, .i32⟩
  | 67 => ⟨S65536x32, .i32⟩
  | 68 => ⟨S65536x32, .i1⟩
  | 69 => ⟨S_, .i32⟩
  | 70 => ⟨S65536x32, .i32⟩
  | 71 => ⟨S65536x32, .i32⟩
  | 72 => ⟨S65536x32, .i32⟩
  | 73 => ⟨S65536x32x1, .i32⟩
  | 74 => ⟨S1, .i32⟩
  | 75 => ⟨S_, .i32⟩
  | 76 => ⟨S65536x32x1, .i32⟩
  | 77 => ⟨S65536x32x1, .i1⟩
  | 78 => ⟨S1x1x1, .i32⟩
  | 79 => ⟨S65536x32x1, .i32⟩
  | 80 => ⟨S65536x32x1, .i1⟩
  | 81 => ⟨S65536x32x1, .i1⟩
  | 82 => ⟨S_, .i1⟩
  | 83 => ⟨S65536x32, .i1⟩
  | 84 => ⟨S65536x32x8x4, .f32⟩
  | 85 => ⟨S65536x32x8x4, .i1⟩
  | 86 => ⟨S_, .f32⟩
  | 87 => ⟨S65536x32x8x4, .f32⟩
  | 88 => ⟨S65536x32x8x4, .f32⟩
  | 89 => ⟨S65536x8x32, .f32⟩
  | 90 => ⟨S65536x32x8, .f32⟩
  | 91 => ⟨S65536x32x8, .f32⟩
  | 92 => ⟨S65536x32x1, .i32⟩
  | 93 => ⟨S65536x32, .i32⟩
  | 94 => ⟨S_, .i32⟩
  | 95 => ⟨S_, .i32⟩
  | 96 => ⟨S_, .i32⟩
  | 97 => ⟨S65536x32, .i32⟩
  | 98 => ⟨S65536x32, .i32⟩
  | 99 => ⟨S_, .i32⟩
  | 100 => ⟨S65536x32, .i32⟩
  | 101 => ⟨S65536x32, .i32⟩
  | 102 => ⟨S65536x8x1x4, .f32⟩
  | 103 => ⟨S65536x8x4, .f32⟩
  | 104 => ⟨S_, .i32⟩
  | 105 => ⟨S65536x32, .i32⟩
  | 106 => ⟨S65536x32, .i1⟩
  | 107 => ⟨S_, .i32⟩
  | 108 => ⟨S65536x32, .i32⟩
  | 109 => ⟨S65536x32, .i32⟩
  | 110 => ⟨S65536x32, .i32⟩
  | 111 => ⟨S65536x32x1, .i32⟩
  | 112 => ⟨S1, .i32⟩
  | 113 => ⟨S_, .i32⟩
  | 114 => ⟨S65536x32x1, .i32⟩
  | 115 => ⟨S65536x32x1, .i1⟩
  | 116 => ⟨S1x1x1, .i32⟩
  | 117 => ⟨S65536x32x1, .i32⟩
  | 118 => ⟨S65536x32x1, .i1⟩
  | 119 => ⟨S65536x32x1, .i1⟩
  | 120 => ⟨S_, .i1⟩
  | 121 => ⟨S65536x32, .i1⟩
  | 122 => ⟨S65536x32x8x4, .f32⟩
  | 123 => ⟨S65536x32x8x4, .i1⟩
  | 124 => ⟨S_, .f32⟩
  | 125 => ⟨S65536x32x8x4, .f32⟩
  | 126 => ⟨S65536x32x8x4, .f32⟩
  | 127 => ⟨S65536x8x32, .f32⟩
  | _ => ⟨S65536x32x3, .f32⟩

abbrev hbmTy0_1 (i : Nat) : BufTy := match i % 128 with
  | 0 => ⟨S65536x32x8, .f32⟩
  | 1 => ⟨S65536x32x8, .f32⟩
  | 2 => ⟨S65536x32x8, .f32⟩
  | 3 => ⟨S65536x32x8, .f32⟩
  | _ => ⟨S65536x32x3, .f32⟩

abbrev hbmTy (i : Nat) : BufTy := match i / 128 with
  | 0 => hbmTy0_0 i
  | 1 => hbmTy0_1 i
  | _ => ⟨S65536x32x3, .f32⟩

abbrev bufTy : (tb : Table) → Fin (tcTables nBuf tb) → BufTy
  | .hbm, ⟨i, _⟩ => hbmTy i
  | _, _ => ⟨S65536x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_c_2 : Ref sig .tc := ⟨.hbm, 56, rfl⟩
abbrev main_c_3 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_call3_c : Ref sig .tc := ⟨.hbm, 66, rfl⟩
abbrev main_call3_v0 : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_c_1 : Ref sig .tc := ⟨.hbm, 74, rfl⟩
abbrev main_call3_c_2 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_3 : Ref sig .tc := ⟨.hbm, 82, rfl⟩
abbrev main_call3_v12 : Ref sig .tc := ⟨.hbm, 83, rfl⟩
abbrev main_call3_v13 : Ref sig .tc := ⟨.hbm, 84, rfl⟩
abbrev main_call3_v14 : Ref sig .tc := ⟨.hbm, 85, rfl⟩
abbrev main_call3_cst : Ref sig .tc := ⟨.hbm, 86, rfl⟩
abbrev main_call3_v15 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_c_4 : Ref sig .tc := ⟨.hbm, 94, rfl⟩
abbrev main_c_5 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_call5_c : Ref sig .tc := ⟨.hbm, 104, rfl⟩
abbrev main_call5_v0 : Ref sig .tc := ⟨.hbm, 105, rfl⟩
abbrev main_call5_v1 : Ref sig .tc := ⟨.hbm, 106, rfl⟩
abbrev main_call5_c_0 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_v5 : Ref sig .tc := ⟨.hbm, 111, rfl⟩
abbrev main_call5_c_1 : Ref sig .tc := ⟨.hbm, 112, rfl⟩
abbrev main_call5_c_2 : Ref sig .tc := ⟨.hbm, 113, rfl⟩
abbrev main_call5_v6 : Ref sig .tc := ⟨.hbm, 114, rfl⟩
abbrev main_call5_v7 : Ref sig .tc := ⟨.hbm, 115, rfl⟩
abbrev main_call5_v8 : Ref sig .tc := ⟨.hbm, 116, rfl⟩
abbrev main_call5_v9 : Ref sig .tc := ⟨.hbm, 117, rfl⟩
abbrev main_call5_v10 : Ref sig .tc := ⟨.hbm, 118, rfl⟩
abbrev main_call5_v11 : Ref sig .tc := ⟨.hbm, 119, rfl⟩
abbrev main_call5_c_3 : Ref sig .tc := ⟨.hbm, 120, rfl⟩
abbrev main_call5_v12 : Ref sig .tc := ⟨.hbm, 121, rfl⟩
abbrev main_call5_v13 : Ref sig .tc := ⟨.hbm, 122, rfl⟩
abbrev main_call5_v14 : Ref sig .tc := ⟨.hbm, 123, rfl⟩
abbrev main_call5_cst : Ref sig .tc := ⟨.hbm, 124, rfl⟩
abbrev main_call5_v15 : Ref sig .tc := ⟨.hbm, 125, rfl⟩
abbrev main_v30 : Ref sig .tc := ⟨.hbm, 126, rfl⟩
abbrev main_v31 : Ref sig .tc := ⟨.hbm, 127, rfl⟩
abbrev main_v32 : Ref sig .tc := ⟨.hbm, 128, rfl⟩
abbrev main_v33 : Ref sig .tc := ⟨.hbm, 129, rfl⟩
abbrev main_v34 : Ref sig .tc := ⟨.hbm, 130, rfl⟩
abbrev main_v35 : Ref sig .tc := ⟨.hbm, 131, rfl⟩

abbrev nD : Nat := 1
abbrev τ : Topo := Topo.v7x

variable {F : FTy → Type} [FloatOps F]

class Facts₀ : Prop where
  shapeCasts_S3_S1x1x3 : S3.ShapeCasts S1x1x3
  bcast_S1x1x3_S65536x32x3_0_1_2 : S1x1x3.BroadcastsInDim S65536x32x3 (![0, 1, 2] : Fin 3 → Fin S65536x32x3.rank)
  bcast_S_S65536x32x3 : S_.BroadcastsInDim S65536x32x3 (![] : Fin 0 → Fin S65536x32x3.rank)
  shapeCasts_S65536x8x12_S65536x8x3x4 : S65536x8x12.ShapeCasts S65536x8x3x4
  slices_S65536x32x3_S65536x32x1_0_0_0 : S65536x32x3.Slices ![0, 0, 0] S65536x32x1
  shapeCasts_S65536x32x1_S65536x32 : S65536x32x1.ShapeCasts S65536x32
  bcast_S_S65536x32 : S_.BroadcastsInDim S65536x32 (![] : Fin 0 → Fin S65536x32.rank)
  slices_S65536x8x3x4_S65536x8x1x4_0_0_0_0 : S65536x8x3x4.Slices ![0, 0, 0, 0] S65536x8x1x4
  shapeCasts_S65536x8x1x4_S65536x8x4 : S65536x8x1x4.ShapeCasts S65536x8x4
  bcast_S65536x32_S65536x32x1_0_1 : S65536x32.BroadcastsInDim S65536x32x1 (![0, 1] : Fin 2 → Fin S65536x32x1.rank)
  bcast_S_S65536x32x1 : S_.BroadcastsInDim S65536x32x1 (![] : Fin 0 → Fin S65536x32x1.rank)
  bcast_S1_S1x1x1_2 : S1.BroadcastsInDim S1x1x1 (![2] : Fin 1 → Fin S1x1x1.rank)
  bcast_S1x1x1_S65536x32x1_0_1_2 : S1x1x1.BroadcastsInDim S65536x32x1 (![0, 1, 2] : Fin 3 → Fin S65536x32x1.rank)
  reducesTo_S65536x32x1_S65536x32_d2 : S65536x32x1.ReducesTo [2] S65536x32
  h_S_ : 0 < S_.numel
  bcast_S65536x32_S65536x32x8x4_0_1 : S65536x32.BroadcastsInDim S65536x32x8x4 (![0, 1] : Fin 2 → Fin S65536x32x8x4.rank)
  bcast_S_S65536x32x8x4 : S_.BroadcastsInDim S65536x32x8x4 (![] : Fin 0 → Fin S65536x32x8x4.rank)
  transposes_S65536x8x32_S65536x32x8_0_2_1 : S65536x8x32.Transposes [0, 2, 1] S65536x32x8
  slices_S65536x32x3_S65536x32x1_0_0_1 : S65536x32x3.Slices ![0, 0, 1] S65536x32x1
  slices_S65536x8x3x4_S65536x8x1x4_0_0_1_0 : S65536x8x3x4.Slices ![0, 0, 1, 0] S65536x8x1x4
  slices_S65536x32x3_S65536x32x1_0_0_2 : S65536x32x3.Slices ![0, 0, 2] S65536x32x1
  slices_S65536x8x3x4_S65536x8x1x4_0_0_2_0 : S65536x8x3x4.Slices ![0, 0, 2, 0] S65536x8x1x4
  bcast_S_S65536x32x8 : S_.BroadcastsInDim S65536x32x8 (![] : Fin 0 → Fin S65536x32x8.rank)
  gather_S753x8x4_S65536x32x1_S65536x32x8x4_23_0_n_n_0_2_184_wf : GatherDims.WF S753x8x4 S65536x32x1 S65536x32x8x4 [2, 3] [0] [] [0] [] 2 ![1, 8, 4]
  dot_S65536x8x4_S65536x32x8x4_S65536x8x32_2_3_n_1_01_02_wf : DotDims.WF S65536x8x4 S65536x32x8x4 S65536x8x32 [2] [3] [] [1] [0, 1] [0, 2]
  gather_S31x8x4_S65536x32x1_S65536x32x8x4_23_0_n_n_0_2_184_wf : GatherDims.WF S31x8x4 S65536x32x1 S65536x32x8x4 [2, 3] [0] [] [0] [] 2 ![1, 8, 4]

variable [Facts₀]

def gather_S753x8x4_S65536x32x1_S65536x32x8x4_23_0_n_n_0_2_184 : GatherDims S753x8x4 S65536x32x1 S65536x32x8x4 where
  offsetDims := [2, 3]
  collapsedSliceDims := [0]
  operandBatchingDims := []
  startIndicesBatchingDims := []
  startIndexMap := [0]
  indexVectorDim := 2
  sliceSizes := ![1, 8, 4]
  wf := gather_S753x8x4_S65536x32x1_S65536x32x8x4_23_0_n_n_0_2_184_wf
def dot_S65536x8x4_S65536x32x8x4_S65536x8x32_2_3_n_1_01_02 : DotDims S65536x8x4 S65536x32x8x4 S65536x8x32 where
  lhsContracting := [2]
  rhsContracting := [3]
  lhsNonContracting := []
  rhsNonContracting := [1]
  lhsBatch := [0, 1]
  rhsBatch := [0, 2]
  wf := dot_S65536x8x4_S65536x32x8x4_S65536x8x32_2_3_n_1_01_02_wf
def gather_S31x8x4_S65536x32x1_S65536x32x8x4_23_0_n_n_0_2_184 : GatherDims S31x8x4 S65536x32x1 S65536x32x8x4 where
  offsetDims := [2, 3]
  collapsedSliceDims := [0]
  operandBatchingDims := []
  startIndicesBatchingDims := []
  startIndexMap := [0]
  indexVectorDim := 2
  sliceSizes := ![1, 8, 4]
  wf := gather_S31x8x4_S65536x32x1_S65536x32x8x4_23_0_n_n_0_2_184_wf

class Facts : Prop extends Facts₀ where

variable [Facts]
-- ==== Proof.KSetup.lean ====
/-
  The kernel as printed, as the SparseCore launch theorem sees it: one vector-subcore kernel on 2 SparseCores × 16
  subcores. Tile (c, s) works on queries [(2 s + c) · 2048, (2 s + c + 1) · 2048): it READS the flattened relative
  positions, the flattened query features and the scaled, concatenated table (whole arrays, through read shares),
  and WRITES its own slab of 2048 · 256 consecutive words of the flat output. This module fixes the resource algebra
  (the handshakes' rounds beside the transfers' counters: the kernel only makes local copies and waits for them), the
  arrays' locations, the slabs, and what the launch's handshakes carry.
-/
import proofs.«204784_g45775761440795_cont_8to1c4_693_3_alg».proof.Kernel
import proofs.«204784_g45775761440795_cont_8to1c4_693_3_alg».proof.Proof.Gen.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flat relative positions, the flat query features, the scaled flat table and the flat output, as locations of
    device `d` (the TensorCore's names for the four operands of the call). -/
abbrev rpLoc (d : Dev nD) : Loc nD τ sig := (SparseCore.T d).loc main_v6
abbrev qfLoc (d : Dev nD) : Loc nD τ sig := (SparseCore.T d).loc main_v7
abbrev tbLoc (d : Dev nD) : Loc nD τ sig := (SparseCore.T d).loc main_v5
abbrev ouLoc (d : Dev nD) : Loc nD τ sig := (SparseCore.T d).loc main_v8

/-- The slab of the flat output that tile (c, s) writes: 524288 consecutive words from (2 s + c) · 524288. -/
def slab (c : Fin 2) (s : Fin 16) : Finset S16777216.Idx :=
  Finset.univ.filter fun j => (2 * s.val + c.val) * 524288 ≤ (j 0).val ∧ (j 0).val < (2 * s.val + c.val + 1) * 524288

/-- Tile (c, s)'s read share of an array every tile reads: SparseCore `c`'s half-share, dealt sixteen ways. -/
abbrev rdShare (c : Fin 2) (s : Fin 16) : PosShare TreeShare := Transfers.shareTok (Transfers.shareTok fullShare 2 c) 16 s

variable [FloatOps F]

/-- What tile (c, s) is handed: its read shares of the three input arrays at their contents `w6`, `w7`, `w5`, and its
    slab of the output at the contents `o0` the call found there. -/
def goRes (d : Dev nD) (w6 : Buf (Elt F) (rpLoc d)) (w7 : Buf (Elt F) (qfLoc d)) (w5 : Buf (Elt F) (tbLoc d)) (o0 : Buf (Elt F) (ouLoc d))
    (c : Fin 2) (s : Fin 16) : sProp 𝕄 :=
  iprop((rpLoc d ↦{rdShare c s} w6) ∗ (qfLoc d ↦{rdShare c s} w7) ∗ (tbLoc d ↦{rdShare c s} w5) ∗ (ouLoc d ↦[slab c s]{fullShare} o0))

/-- What it hands back: the shares, and its slab at the whole-array function `TO c s` (only the slab's words matter). -/
def tdRes (d : Dev nD) (w6 : Buf (Elt F) (rpLoc d)) (w7 : Buf (Elt F) (qfLoc d)) (w5 : Buf (Elt F) (tbLoc d))
    (TO : Fin 2 → Fin 16 → Buf (Elt F) (ouLoc d)) (c : Fin 2) (s : Fin 16) : sProp 𝕄 :=
  iprop((rpLoc d ↦{rdShare c s} w6) ∗ (qfLoc d ↦{rdShare c s} w7) ∗ (tbLoc d ↦{rdShare c s} w5) ∗ (ouLoc d ↦[slab c s]{fullShare} TO c s))

/-- The arrays' contents at the call, per device, and each tile's final function: the parameters of the handshakes' payloads. -/
structure CallData where
  w6 : (d : Dev nD) → Buf (Elt F) (rpLoc d)
  w7 : (d : Dev nD) → Buf (Elt F) (qfLoc d)
  w5 : (d : Dev nD) → Buf (Elt F) (tbLoc d)
  o0 : (d : Dev nD) → Buf (Elt F) (ouLoc d)
  TO : (d : Dev nD) → Fin 2 → Fin 16 → Buf (Elt F) (ouLoc d)

/-- The one call's payloads: a SparseCore is handed its sixteen tiles' holdings and hands back their returns; the kernel
    keeps no protocol of its own. -/
def P (cd : CallData (F := F)) : (K (F := F)).Pay (nD := nD) (Val := Elt F) (Name := ℕ) (U := UU) where
  st := fun q d c => match q with | 0 => bigSep Finset.univ fun s : Fin 16 => goRes d (cd.w6 d) (cd.w7 d) (cd.w5 d) (cd.o0 d) (Fin.cast nCore_zero c) s
  dn := fun q d c => match q with | 0 => bigSep Finset.univ fun s : Fin 16 => tdRes d (cd.w6 d) (cd.w7 d) (cd.w5 d) (cd.TO d) (Fin.cast nCore_zero c) s
  go := fun q d c s => match q with | 0 => goRes d (cd.w6 d) (cd.w7 d) (cd.w5 d) (cd.o0 d) (Fin.cast nCore_zero c) (Fin.cast nSub_zero s)
  td := fun q d c s => match q with | 0 => tdRes d (cd.w6 d) (cd.w7 d) (cd.w5 d) (cd.TO d) (Fin.cast nCore_zero c) (Fin.cast nSub_zero s)
  x := fun _ _ => iprop(emp)

instance P_storable (cd : CallData (F := F)) : (P cd).IsStorable where
  st q d c := match q with | 0 => by unfold P goRes; infer_instance
  dn q d c := match q with | 0 => by unfold P tdRes; infer_instance
  go q _ _ _ := match q with | 0 => by unfold P goRes; infer_instance
  td q _ _ _ := match q with | 0 => by unfold P tdRes; infer_instance

end Cert.Kernel.Tile

end
-- ==== Proof.KLaunchA.lean ====
/-
  The launch of the kernel, first part: the host terms (what @main's operations before the call leave in
  the kernel's operands, and the last reshape), and how the call's operands are dealt to the 2 × 16 tiles and
  gathered back. Every tile reads the three flat inputs whole, through a read share of its own (the full share
  halved per SparseCore, each half dealt sixteen ways), and writes its own slab of the flat output; the slabs are
  pairwise disjoint and cover the output, so what the call leaves is one array agreeing with each tile's final
  function on that tile's slab.
-/
import proofs.«204784_g45775761440795_cont_8to1c4_693_3_alg».proof.Proof.KSetup

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq seq after tcRefs)

variable {F : FTy → Type}

local notation "𝕄" => MT nD τ sig (HIx 1) (Elt F) ℕ UU ℕ

variable [FloatOps F]

/-! ## The host terms: what @main's operations before the call leave in the kernel's operands, and the last reshape -/

variable (m : (ℓ : Loc nD τ sig) → Buf (Elt F) ℓ)

/-- The flat relative positions when the call starts: the first argument, reshaped. -/
def w6Of (d : Dev nD) : Buf (Elt F) (rpLoc d) :=
  fun i => shapeCast S6291456 (m ((SparseCore.T d).loc main_arg0)) shapeCasts_S65536x32x3_S6291456 i

/-- The flat query features when the call starts: the second argument, reshaped. -/
def w7Of (d : Dev nD) : Buf (Elt F) (qfLoc d) :=
  fun i => shapeCast S6291456 (m ((SparseCore.T d).loc main_arg1)) shapeCasts_S65536x8x12_S6291456 i

/-- The flat table when the call starts: the three tables reshaped flat, concatenated, times the broadcast scalar. -/
def w5Of (d : Dev nD) : Buf (Elt F) (tbLoc d) :=
  mulf (concatenate S49184 0
      [⟨S24096, fun i => shapeCast S24096 (m ((SparseCore.T d).loc main_arg4)) shapeCasts_S753x8x4_S24096 i⟩,
       ⟨S24096, fun i => shapeCast S24096 (m ((SparseCore.T d).loc main_arg5)) shapeCasts_S753x8x4_S24096 i⟩,
       ⟨S992, fun i => shapeCast S992 (m ((SparseCore.T d).loc main_arg6)) shapeCasts_S31x8x4_S992 i⟩]
      concatenates_S24096_S24096_S992_S49184_d0)
    (broadcastInDim S49184 ![] bcast_S_S49184 (m ((SparseCore.T d).loc main_arg2)))

/-- The result's location on device `d`. -/
abbrev reLoc (d : Dev nD) : Loc nD τ sig := (SparseCore.T d).loc main_v9

/-- The result, from the flat output's contents: the last reshape. -/
def outOf {d : Dev nD} (g : Buf (Elt F) (ouLoc d)) : Buf (Elt F) (reLoc d) :=
  fun i => shapeCast S65536x32x8 g shapeCasts_S16777216_S65536x32x8 i

/-- The call's data: the operands at the host terms, the output at its launch contents, the tiles' final functions. -/
def callData (TO : (d : Dev nD) → Fin 2 → Fin 16 → Buf (Elt F) (ouLoc d)) : CallData (F := F) :=
  ⟨w6Of m, w7Of m, w5Of m, fun d => m (ouLoc d), TO⟩

/-! ## The payloads' fields, as equations -/

theorem P_st (cd : CallData (F := F)) (d : Dev nD) (c : Fin ((K (F := F)).nCore 0)) :
    (P cd).st 0 d c = bigSep Finset.univ fun s : Fin 16 => goRes d (cd.w6 d) (cd.w7 d) (cd.w5 d) (cd.o0 d) (Fin.cast nCore_zero c) s := rfl
theorem P_dn (cd : CallData (F := F)) (d : Dev nD) (c : Fin ((K (F := F)).nCore 0)) :
    (P cd).dn 0 d c = bigSep Finset.univ fun s : Fin 16 => tdRes d (cd.w6 d) (cd.w7 d) (cd.w5 d) (cd.TO d) (Fin.cast nCore_zero c) s := rfl
theorem P_go (cd : CallData (F := F)) (d : Dev nD) (c : Fin ((K (F := F)).nCore 0)) (i : Fin ((K (F := F)).nSub 0)) :
    (P cd).go 0 d c i = goRes d (cd.w6 d) (cd.w7 d) (cd.w5 d) (cd.o0 d) (Fin.cast nCore_zero c) (Fin.cast nSub_zero i) := rfl
theorem P_td (cd : CallData (F := F)) (d : Dev nD) (c : Fin ((K (F := F)).nCore 0)) (i : Fin ((K (F := F)).nSub 0)) :
    (P cd).td 0 d c i = tdRes d (cd.w6 d) (cd.w7 d) (cd.w5 d) (cd.TO d) (Fin.cast nCore_zero c) (Fin.cast nSub_zero i) := rfl
theorem P_x (cd : CallData (F := F)) (q : Fin 1) (thr : Thread nD τ) : (P cd).x q thr = iprop(emp) := rfl

omit [FloatOps F] in
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The slabs: pairwise disjoint, covering the flat output -/

/-- The slab of the tile named by a pair. -/
abbrev slabP (p : Fin 2 × Fin 16) : Finset S16777216.Idx := slab p.1 p.2

omit [FloatOps F] in
theorem mem_slab {c : Fin 2} {s : Fin 16} {j : S16777216.Idx} :
    j ∈ slab c s ↔ (2 * s.val + c.val) * 524288 ≤ (j 0).val ∧ (j 0).val < (2 * s.val + c.val + 1) * 524288 := by
  unfold slab; rw [Finset.mem_filter]; exact ⟨fun h => h.2, fun h => ⟨Finset.mem_univ _, h⟩⟩

omit [FloatOps F] in
theorem slabs_disjoint : ∀ p ∈ (Finset.univ : Finset (Fin 2 × Fin 16)), ∀ p' ∈ (Finset.univ : Finset (Fin 2 × Fin 16)), p ≠ p' → Disjoint (slabP p) (slabP p') := by
  intro p _ p' _ hne
  refine Finset.disjoint_left.mpr fun j hj hj' => hne ?_
  have h := mem_slab.mp hj
  have h' := mem_slab.mp hj'
  have h1 := p.1.isLt; have h2 := p.2.isLt; have h3 := p'.1.isLt; have h4 := p'.2.isLt
  exact Prod.ext (Fin.ext (by omega)) (Fin.ext (by omega))

omit [FloatOps F] in
theorem slabs_cover : (Finset.univ : Finset (Fin 2 × Fin 16)).biUnion slabP = Finset.univ := by
  refine Finset.eq_univ_iff_forall.mpr fun j => ?_
  have hj : (j 0).val < 16777216 := (j 0).isLt
  refine Finset.mem_biUnion.mpr ⟨(⟨(j 0).val / 524288 % 2, by omega⟩, ⟨(j 0).val / 524288 / 2, by omega⟩), Finset.mem_univ _, mem_slab.mpr ?_⟩
  constructor <;> (dsimp only) <;> omega

/-! ## An array every tile reads: the full share dealt to the 2 × 16 tiles, the remainders kept -/

section Shares

variable {ℓ : Loc nD τ sig} {f : Buf (Elt F) ℓ}

/-- What stays behind when every tile holds its read share of an array: the remainder of the halving per SparseCore,
    and of each half's dealing. -/
def rdRest (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTok fullShare 2 c) 16} f)

omit [FloatOps F] in
theorem rd_split :
    (ℓ ↦{fullShare} f : sProp 𝕄)
      ⊢ iprop(rdRest ℓ f ∗ bigSep Finset.univ fun c : Fin 2 => bigSep Finset.univ fun s : Fin 16 => ℓ ↦{rdShare c s} f) := by
  unfold rdRest
  refine (Transfers.pointsTo_toks_split fullShare 2).trans ?_
  refine (sep_mono_right (bigSep_mono fun c _ => Transfers.pointsTo_toks_split (Transfers.shareTok fullShare 2 c) 16)).trans ?_
  rw [bigSep_sep']
  iintro ⟨H0, H1, H2⟩
  isplitl [H0 H1]
  · isplitl [H0]; · iexact H0
    iexact H1
  iexact H2

omit [FloatOps F] in
theorem rd_join :
    iprop(rdRest ℓ f ∗ bigSep Finset.univ fun c : Fin 2 => bigSep Finset.univ fun s : Fin 16 => ℓ ↦{rdShare c s} f)
      ⊢ (ℓ ↦{fullShare} f : sProp 𝕄) := by
  have h : iprop((bigSep Finset.univ fun c : Fin 2 => (ℓ ↦{Transfers.shareDrop (Transfers.shareTok fullShare 2 c) 16} f : sProp 𝕄))
        ∗ bigSep Finset.univ fun c : Fin 2 => bigSep Finset.univ fun s : Fin 16 => ℓ ↦{rdShare c s} f)
      ⊢ bigSep Finset.univ fun c : Fin 2 => (ℓ ↦{Transfers.shareTok fullShare 2 c} f : sProp 𝕄) := by
    rw [← bigSep_sep']
    exact bigSep_mono fun c _ => Transfers.pointsTo_toks_join (Transfers.shareTok fullShare 2 c) 16
  unfold rdRest
  iintro ⟨⟨H0, H1⟩, H2⟩
  iapply (Transfers.pointsTo_toks_join fullShare 2)
  isplitl [H0]; · iexact H0
  iapply h
  isplitl [H1]; · iexact H1
  iexact H2

end Shares

/-! ## The flat output: its slabs dealt, and gathered at what the tiles left -/

omit [FloatOps F] in
theorem ou_split (d : Dev nD) (f : Buf (Elt F) (ouLoc d)) :
    (ouLoc d ↦{fullShare} f : sProp 𝕄)
      = bigSep Finset.univ fun c : Fin 2 => bigSep Finset.univ fun s : Fin 16 => ouLoc d ↦[slab c s]{fullShare} f := by
  rw [← bigSep_univ_prod (fun p : Fin 2 × Fin 16 => (ouLoc d ↦[slab p.1 p.2]{fullShare} f : sProp 𝕄)),
    ← pointsTo_biUnion Finset.univ (ℓ := ouLoc d) slabP slabs_disjoint, slabs_cover]

theorem ou_join (d : Dev nD) (fs : Fin 2 → Fin 16 → Buf (Elt F) (ouLoc d)) :
    (bigSep Finset.univ fun c : Fin 2 => bigSep Finset.univ fun s : Fin 16 => (ouLoc d ↦[slab c s]{fullShare} fs c s : sProp 𝕄))
      ⊢ iprop(∃ g : Buf (Elt F) (ouLoc d), ⌜∀ (c : Fin 2) (s : Fin 16), ∀ j ∈ slab c s, g j = fs c s j⌝ ∗ ouLoc d ↦{fullShare} g) := by
  rw [← bigSep_univ_prod (fun p : Fin 2 × Fin 16 => (ouLoc d ↦[slab p.1 p.2]{fullShare} fs p.1 p.2 : sProp 𝕄))]
  iintro H
  ihave H' := (pointsTo_biUnion_join Finset.univ (ℓ := ouLoc d) slabP (fun p => fs p.1 p.2) (fs 0 0) slabs_disjoint) $$ H
  icases H' with ⟨%g, %hg, Hg⟩
  rw [slabs_cover]
  iexists g; isplitr
  · ipureintro; exact fun c s j hj => hg (c, s) (Finset.mem_univ _) j hj
  · iexact Hg

/-! ## The call's operands, dealt and gathered -/

/-- The remainders of the three read arrays' shares, kept by the TensorCore across the call. -/
def callRest (d : Dev nD) (w6 : Buf (Elt F) (rpLoc d)) (w7 : Buf (Elt F) (qfLoc d)) (w5 : Buf (Elt F) (tbLoc d)) : sProp 𝕄 :=
  iprop(rdRest (rpLoc d) w6 ∗ rdRest (qfLoc d) w7 ∗ rdRest (tbLoc d) w5)

theorem goRes_all (d : Dev nD) (w6 : Buf (Elt F) (rpLoc d)) (w7 : Buf (Elt F) (qfLoc d)) (w5 : Buf (Elt F) (tbLoc d)) (o0 : Buf (Elt F) (ouLoc d)) :
    (bigSep Finset.univ fun c : Fin 2 => bigSep Finset.univ fun s : Fin 16 => goRes d w6 w7 w5 o0 c s)
      = iprop((bigSep Finset.univ fun c : Fin 2 => bigSep Finset.univ fun s : Fin 16 => rpLoc d ↦{rdShare c s} w6)
          ∗ (bigSep Finset.univ fun c : Fin 2 => bigSep Finset.univ fun s : Fin 16 => qfLoc d ↦{rdShare c s} w7)
          ∗ (bigSep Finset.univ fun c : Fin 2 => bigSep Finset.univ fun s : Fin 16 => tbLoc d ↦{rdShare c s} w5)
          ∗ (bigSep Finset.univ fun c : Fin 2 => bigSep Finset.univ fun s : Fin 16 => ouLoc d ↦[slab c s]{fullShare} o0)) := by
  unfold goRes
  simp only [bigSep_sep']

theorem tdRes_all (d : Dev nD) (w6 : Buf (Elt F) (rpLoc d)) (w7 : Buf (Elt F) (qfLoc d)) (w5 : Buf (Elt F) (tbLoc d))
    (TO : Fin 2 → Fin 16 → Buf (Elt F) (ouLoc d)) :
    (bigSep Finset.univ fun c : Fin 2 => bigSep Finset.univ fun s : Fin 16 => tdRes d w6 w7 w5 TO c s)
      = iprop((bigSep Finset.univ fun c : Fin 2 => bigSep Finset.univ fun s : Fin 16 => rpLoc d ↦{rdShare c s} w6)
          ∗ (bigSep Finset.univ fun c : Fin 2 => bigSep Finset.univ fun s : Fin 16 => qfLoc d ↦{rdShare c s} w7)
          ∗ (bigSep Finset.univ fun c : Fin 2 => bigSep Finset.univ fun s : Fin 16 => tbLoc d ↦{rdShare c s} w5)
          ∗ (bigSep Finset.univ fun c : Fin 2 => bigSep Finset.univ fun s : Fin 16 => ouLoc d ↦[slab c s]{fullShare} TO c s)) := by
  unfold tdRes
  simp only [bigSep_sep']

/-- The four operands whole are every tile's holding and the shares' remainders; -/
theorem call_split (d : Dev nD) (w6 : Buf (Elt F) (rpLoc d)) (w7 : Buf (Elt F) (qfLoc d)) (w5 : Buf (Elt F) (tbLoc d)) (o0 : Buf (Elt F) (ouLoc d)) :
    iprop((rpLoc d ↦{fullShare} w6) ∗ (qfLoc d ↦{fullShare} w7) ∗ (tbLoc d ↦{fullShare} w5) ∗ (ouLoc d ↦{fullShare} o0))
      ⊢ iprop(callRest d w6 w7 w5 ∗ bigSep Finset.univ fun c : Fin 2 => bigSep Finset.univ fun s : Fin 16 => goRes d w6 w7 w5 o0 c s) := by
  rw [goRes_all, ou_split]
  unfold callRest
  iintro ⟨H6, H7, H5, Ho⟩
  ihave H6' := (rd_split (ℓ := rpLoc d)) $$ H6
  ihave H7' := (rd_split (ℓ := qfLoc d)) $$ H7
  ihave H5' := (rd_split (ℓ := tbLoc d)) $$ H5
  icases H6' with ⟨R6, H6⟩
  icases H7' with ⟨R7, H7⟩
  icases H5' with ⟨R5, H5⟩
  isplitl [R6 R7 R5]
  · isplitl [R6]; · iexact R6
    isplitl [R7]; · iexact R7
    iexact R5
  isplitl [H6]; · iexact H6
  isplitl [H7]; · iexact H7
  isplitl [H5]; · iexact H5
  iexact Ho

/-- and the remainders with every tile's return are the three read arrays whole again, and the output whole at one
    array that agrees with each tile's final function on its slab. -/
theorem call_join (d : Dev nD) (w6 : Buf (Elt F) (rpLoc d)) (w7 : Buf (Elt F) (qfLoc d)) (w5 : Buf (Elt F) (tbLoc d))
    (TO : Fin 2 → Fin 16 → Buf (Elt F) (ouLoc d)) :
    iprop(callRest d w6 w7 w5 ∗ bigSep Finset.univ fun c : Fin 2 => bigSep Finset.univ fun s : Fin 16 => tdRes d w6 w7 w5 TO c s)
      ⊢ iprop((rpLoc d ↦{fullShare} w6) ∗ (qfLoc d ↦{fullShare} w7) ∗ (tbLoc d ↦{fullShare} w5)
          ∗ ∃ g : Buf (Elt F) (ouLoc d), ⌜∀ (c : Fin 2) (s : Fin 16), ∀ j ∈ slab c s, g j = TO c s j⌝ ∗ ouLoc d ↦{fullShare} g) := by
  rw [tdRes_all]
  unfold callRest
  iintro ⟨⟨R6, R7, R5⟩, H6, H7, H5, Ho⟩
  isplitl [R6 H6]
  · iapply (rd_join (ℓ := rpLoc d)); isplitl [R6]; · iexact R6
    iexact H6
  isplitl [R7 H7]
  · iapply (rd_join (ℓ := qfLoc d)); isplitl [R7]; · iexact R7
    iexact H7
  isplitl [R5 H5]
  · iapply (rd_join (ℓ := tbLoc d)); isplitl [R5]; · iexact R5
    iexact H5
  iapply (ou_join d TO); iexact Ho

/-! ## The launch theorem's obligations: a SparseCore's operands are its sixteen tiles' -/

theorem vecSplit (cd : CallData (F := F)) : (K (F := F)).VecSplit' (P cd) 0 := by
  intro d c
  rw [P_st, P_dn]
  simp only [P_go, P_td]
  rw [bigSep_subs (F := F) (fun s => goRes d (cd.w6 d) (cd.w7 d) (cd.w5 d) (cd.o0 d) (Fin.cast nCore_zero c) s),
    bigSep_subs (F := F) (fun s => tdRes d (cd.w6 d) (cd.w7 d) (cd.w5 d) (cd.TO d) (Fin.cast nCore_zero c) s)]
  iintro H; imodintro
  isplitl [H]; · iexact H
  iintro H; iexact H

theorem st0_eq (cd : CallData (F := F)) (d : Dev nD) :
    (bigSep Finset.univ fun c : Fin ((K (F := F)).nCore 0) => (P cd).st 0 d c)
      = bigSep Finset.univ fun c : Fin 2 => bigSep Finset.univ fun s : Fin 16 => goRes d (cd.w6 d) (cd.w7 d) (cd.w5 d) (cd.o0 d) c s := by
  simp only [P_st]
  exact bigSep_cores (F := F) (fun c => bigSep Finset.univ fun s : Fin 16 => goRes d (cd.w6 d) (cd.w7 d) (cd.w5 d) (cd.o0 d) c s)
theorem dn0_eq (cd : CallData (F := F)) (d : Dev nD) :
    (bigSep Finset.univ fun c : Fin ((K (F := F)).nCore 0) => (P cd).dn 0 d c)
      = bigSep Finset.univ fun c : Fin 2 => bigSep Finset.univ fun s : Fin 16 => tdRes d (cd.w6 d) (cd.w7 d) (cd.w5 d) (cd.TO d) c s := by
  simp only [P_dn]
  exact bigSep_cores (F := F) (fun c => bigSep Finset.univ fun s : Fin 16 => tdRes d (cd.w6 d) (cd.w7 d) (cd.w5 d) (cd.TO d) c s)

/-! ## The launch element: the handshakes' rounds; the kernel keeps no protocol of its own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (cd : CallData (F := F)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P cd).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Tile

end
-- ==== Proof.LibLaneRanges.lean ====
/-
  Lane ranges of a sixteen-lane index vector, over the integer operations of the vector unit read as machine words.
  Three families of index vectors, each the form a subcore's indexed load or store builds from its lane number:
  a STRIDED vector lane · c + s (the lane sequence times a stride, plus a scalar offset), a SPLAT z + s (one word
  in every lane), and a CLIPPED BUCKET (min hi (max 0 X)) · 32 + off + w for ANY words X (whatever a float-to-int
  conversion produced, the two signed comparisons put the bucket in [0, hi]). For each: every lane, read unsigned,
  is below the stated extent N — given one inequality between literals. The scalar offset is the chain
  ((k · M + a) + b) (+ c) a counted loop's trip k < 64 builds, all in 32-bit wrapping arithmetic, which the
  inequality shows never wraps.
-/
import Idealize.ShloMosaic.PureOps
import Idealize.ShloMosaic.Lib.Scf

noncomputable section

namespace Cert.LaneRanges

open Idealize.ShloMosaic

/-- Sixteen lanes. -/
abbrev L16 : Shape := ⟨1, ![16]⟩

/-- Every lane of `v`, read unsigned, is below `N`. -/
def InRange (N : Nat) (v : IVec L16 32) : Prop := ∀ x : L16.Idx, (v x).toNat < N

/-- The form an indexed load's or store's side condition takes for a rank-one base of extent `N`. -/
theorem chk_of {N : Nat} {v : IVec L16 32} (h : InRange N v) :
    ∀ (a : Fin 1) (x : L16.Idx), ((![v] : Fin 1 → IVec L16 32) a x).toNat < (⟨1, ![N]⟩ : Shape).size a := by
  intro a x
  obtain rfl : a = 0 := Subsingleton.elim _ _
  exact h x

theorem lane_lt (x : L16.Idx) : (x 0).val < 16 := (x 0).isLt

/-- The lane sequence: lane `x` holds its own number. -/
theorem iota_toNat (h : L16.Iotas .scVector 32 [0]) (x : L16.Idx) :
    (iota .scVector L16 32 [0] h x).toNat = (x 0).val := by
  have hx := lane_lt x
  show (BitVec.ofNat 32 (0 * L16.size 0 + (x 0).val)).toNat = (x 0).val
  rw [BitVec.toNat_ofNat, Nat.zero_mul, Nat.zero_add]
  exact Nat.mod_eq_of_lt (by omega)

/-- A counted loop's induction variable from 0 by 1 at trip `k` is `k`. -/
theorem iv_toNat (k : Nat) (hk : k < 64) : (Scf.iv (0#32) (1#32) k).toNat = k := by
  unfold Scf.iv
  simp only [BitVec.toNat_add, BitVec.toNat_mul, BitVec.toNat_ofNat]
  omega

/-- The scalar chain (k · M + a) + b does not wrap when its value, at the last trip, is small. -/
theorem chain2_toNat (k : Nat) (hk : k < 64) (M a b : BitVec 32) (h : 63 * M.toNat + a.toNat + b.toNat < 2 ^ 32) :
    (Scalar.addi (Scalar.addi (Scalar.muli (Scf.iv (0#32) (1#32) k) M) a) b).toNat = k * M.toNat + a.toNat + b.toNat := by
  have hkM : k * M.toNat ≤ 63 * M.toNat := Nat.mul_le_mul_right _ (by omega)
  show ((Scf.iv (0#32) (1#32) k * M + a) + b).toNat = _
  rw [BitVec.toNat_add, BitVec.toNat_add, BitVec.toNat_mul, iv_toNat k hk]
  generalize k * M.toNat = t at *
  omega

theorem chain3_toNat (k : Nat) (hk : k < 64) (M a b c : BitVec 32) (h : 63 * M.toNat + a.toNat + b.toNat + c.toNat < 2 ^ 32) :
    (Scalar.addi (Scalar.addi (Scalar.addi (Scalar.muli (Scf.iv (0#32) (1#32) k) M) a) b) c).toNat
      = k * M.toNat + a.toNat + b.toNat + c.toNat := by
  have hkM : k * M.toNat ≤ 63 * M.toNat := Nat.mul_le_mul_right _ (by omega)
  show (((Scf.iv (0#32) (1#32) k * M + a) + b) + c).toNat = _
  rw [BitVec.toNat_add, BitVec.toNat_add, BitVec.toNat_add, BitVec.toNat_mul, iv_toNat k hk]
  generalize k * M.toNat = t at *
  omega

/-- STRIDED: lane · c + ((k · M + a) + b), every lane below `N`. -/
theorem strided2 (N : Nat) (h : L16.Iotas .scVector 32 [0]) (c : BitVec 32) (k : Nat) (hk : k < 64) (M a b : BitVec 32)
    (hN : 15 * c.toNat + 63 * M.toNat + a.toNat + b.toNat < N) (hN' : N ≤ 2 ^ 32) :
    InRange N (addi (muli (iota .scVector L16 32 [0] h) (broadcast L16 c))
      (broadcast L16 (Scalar.addi (Scalar.addi (Scalar.muli (Scf.iv (0#32) (1#32) k) M) a) b))) := by
  intro x
  have hx := lane_lt x
  have hs := chain2_toNat k hk M a b (by omega)
  have hkM : k * M.toNat ≤ 63 * M.toNat := Nat.mul_le_mul_right _ (by omega)
  have hxc : (x 0).val * c.toNat ≤ 15 * c.toNat := Nat.mul_le_mul_right _ (by omega)
  show (iota .scVector L16 32 [0] h x * c + Scalar.addi (Scalar.addi (Scalar.muli (Scf.iv (0#32) (1#32) k) M) a) b).toNat < N
  rw [BitVec.toNat_add, BitVec.toNat_mul, iota_toNat, hs]
  generalize k * M.toNat = t at *
  generalize (x 0).val * c.toNat = u at *
  omega

/-- SPLAT: z + (((k · M + a) + b) + c) in every lane, below `N`. -/
theorem splat3 (N : Nat) (z : BitVec 32) (k : Nat) (hk : k < 64) (M a b c : BitVec 32)
    (hN : z.toNat + 63 * M.toNat + a.toNat + b.toNat + c.toNat < N) (hN' : N ≤ 2 ^ 32) :
    InRange N (addi (broadcast L16 z)
      (broadcast L16 (Scalar.addi (Scalar.addi (Scalar.addi (Scalar.muli (Scf.iv (0#32) (1#32) k) M) a) b) c))) := by
  intro x
  have hs := chain3_toNat k hk M a b c (by omega)
  have hkM : k * M.toNat ≤ 63 * M.toNat := Nat.mul_le_mul_right _ (by omega)
  show (z + Scalar.addi (Scalar.addi (Scalar.addi (Scalar.muli (Scf.iv (0#32) (1#32) k) M) a) b) c).toNat < N
  rw [BitVec.toNat_add, hs]
  generalize k * M.toNat = t at *
  omega

/-- The signed clip min hi (max 0 X) of ANY word X lies in [0, hi] when hi is a non-negative word. -/
theorem clip_toNat_le (hi X : BitVec 32) (hhi : hi.toNat < 2 ^ 31) :
    (IntOp.minsi hi (IntOp.maxsi (0#32) X)).toNat ≤ hi.toNat := by
  have key : ∀ a b : BitVec 32, a.slt b = true ↔ a.toInt < b.toInt := fun a b => by
    rw [BitVec.slt_eq_decide, decide_eq_true_eq]
  have tI : ∀ a : BitVec 32, a.toInt = if 2 * a.toNat < 2 ^ 32 then (a.toNat : Int) else (a.toNat : Int) - 2 ^ 32 :=
    fun a => BitVec.toInt_eq_toNat_cond a
  unfold IntOp.minsi IntOp.maxsi
  by_cases h1 : X.slt (0#32) = true
  · rw [if_pos h1]
    by_cases h2 : hi.slt (0#32) = true
    · rw [if_pos h2]
    · rw [if_neg h2]
      show (0#32 : BitVec 32).toNat ≤ _
      simp
  · rw [if_neg h1]
    by_cases h2 : hi.slt X = true
    · rw [if_pos h2]
    · rw [if_neg h2]
      rw [key] at h1 h2
      have e1 := tI X
      have e2 := tI hi
      have e3 : (0#32 : BitVec 32).toInt = 0 := by decide
      have hX := X.isLt
      split at e1 <;> split at e2 <;> omega

/-- CLIPPED BUCKET: (min hi (max 0 X)) · 32 + off + w, every lane below `N`, whatever the words `X`. -/
theorem bucket (N : Nat) (hi off w : BitVec 32) (X : IVec L16 32) (hhi : hi.toNat < 2 ^ 31)
    (hN : hi.toNat * 32 + off.toNat + w.toNat < N) (hN' : N ≤ 2 ^ 32) :
    InRange N (addi (addi (muli (minsi (broadcast L16 hi) (maxsi (broadcast L16 (0#32)) X)) (broadcast L16 (32#32))) (broadcast L16 off))
      (broadcast L16 w)) := by
  intro x
  have hc := clip_toNat_le hi (X x) hhi
  show (IntOp.minsi hi (IntOp.maxsi (0#32) (X x)) * 32#32 + off + w).toNat < N
  rw [BitVec.toNat_add, BitVec.toNat_add, BitVec.toNat_mul]
  simp only [BitVec.toNat_ofNat]
  omega

/-- The common form of all three families: a vector `A` whose lanes are at most `B`, plus one scalar in every lane. -/
theorem add_bcast (N B : Nat) (A : IVec L16 32) (s : BitVec 32) (hA : ∀ x : L16.Idx, (A x).toNat ≤ B) (hs : B + s.toNat < N) :
    InRange N (addi A (broadcast L16 s)) := by
  intro x
  have := hA x
  show (A x + s).toNat < N
  rw [BitVec.toNat_add]
  exact lt_of_le_of_lt (Nat.mod_le _ _) (by omega)

/-- A splat's lanes are its word. -/
theorem splat_le (z : BitVec 32) : ∀ x : L16.Idx, (broadcast L16 z x).toNat ≤ z.toNat := fun _ => le_rfl

/-- The lane sequence times a stride `c`: lane 15 is the largest. -/
theorem lanes_le (h : L16.Iotas .scVector 32 [0]) (c : BitVec 32) :
    ∀ x : L16.Idx, (muli (iota .scVector L16 32 [0] h) (broadcast L16 c) x).toNat ≤ 15 * c.toNat := by
  intro x
  have hx := lane_lt x
  show (iota .scVector L16 32 [0] h x * c).toNat ≤ _
  rw [BitVec.toNat_mul, iota_toNat]
  exact le_trans (Nat.mod_le _ _) (Nat.mul_le_mul_right _ (by omega))

/-- `B` plus the scalar chain (k · M + a) + b stays below `N`. -/
theorem chain2_lt (B N k : Nat) (hk : k < 64) (M a b : BitVec 32) (h : B + 63 * M.toNat + a.toNat + b.toNat < N) (hN : N ≤ 2 ^ 32) :
    B + (Scalar.addi (Scalar.addi (Scalar.muli (Scf.iv (0#32) (1#32) k) M) a) b).toNat < N := by
  have hkM : k * M.toNat ≤ 63 * M.toNat := Nat.mul_le_mul_right _ (by omega)
  rw [chain2_toNat k hk M a b (by omega)]
  generalize k * M.toNat = t at *
  omega

/-- `B` plus the scalar chain ((k · M + a) + b) + c stays below `N`. -/
theorem chain3_lt (B N k : Nat) (hk : k < 64) (M a b c : BitVec 32) (h : B + 63 * M.toNat + a.toNat + b.toNat + c.toNat < N) (hN : N ≤ 2 ^ 32) :
    B + (Scalar.addi (Scalar.addi (Scalar.addi (Scalar.muli (Scf.iv (0#32) (1#32) k) M) a) b) c).toNat < N := by
  have hkM : k * M.toNat ≤ 63 * M.toNat := Nat.mul_le_mul_right _ (by omega)
  rw [chain3_toNat k hk M a b c (by omega)]
  generalize k * M.toNat = t at *
  omega

/-- A vector whose every lane is the word 0. -/
theorem le_zero_of_lanes (A : IVec L16 32) (h : ∀ x : L16.Idx, (A x).toNat = 0) : ∀ x : L16.Idx, (A x).toNat ≤ 0 :=
  fun x => Nat.le_of_eq (h x)

end Cert.LaneRanges

end
-- ==== Proof.KQTrip.lean ====
/-
  One trip of the per-query loop on a tile: for the query at position k of the chunk, six indexed loads of the
  staged relative positions (lanes 3·lane + offset), their clipped table buckets, ninety-six splat loads of the
  staged query features, one hundred and ninety-two indexed loads of the staged table at bucket · 32 + offset + w,
  the sixteen accumulators, and sixteen indexed stores (lanes 8·lane + offset) into the staged output. Every index
  vector is in range: the lane families of LibLaneRanges, each from one inequality between literals.
-/
import proofs.«204784_g45775761440795_cont_8to1c4_693_3_alg».proof.Proof.KSetup
import proofs.«204784_g45775761440795_cont_8to1c4_693_3_alg».proof.Proof.Gen.Kernel.Skeleton
import proofs.«204784_g45775761440795_cont_8to1c4_693_3_alg».proof.Proof.LibLaneRanges

noncomputable section

namespace Cert.Kernel.Tile

open Cert.Kernel Cert.Kernel.Gen Cert.LaneRanges

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "rpW" => (Memref.whole Cert.Kernel.main_v6_scv : Memref Cert.Kernel.sig Kind.scVector Space.hbm Cert.Kernel.S6291456 EltTy.f32)
local notation "qfW" => (Memref.whole Cert.Kernel.main_v7_scv : Memref Cert.Kernel.sig Kind.scVector Space.hbm Cert.Kernel.S6291456 EltTy.f32)
local notation "tbW" => (Memref.whole Cert.Kernel.main_v5_scv : Memref Cert.Kernel.sig Kind.scVector Space.hbm Cert.Kernel.S49184 EltTy.f32)
local notation "ouW" => (Memref.whole Cert.Kernel.main_v8_scv : Memref Cert.Kernel.sig Kind.scVector Space.hbm Cert.Kernel.S16777216 EltTy.f32)
local notation "s0W" => (Memref.whole Cert.Kernel.cc0_scratch0 : Memref Cert.Kernel.sig Kind.scVector Space.vmem Cert.Kernel.S49184 EltTy.f32)
local notation "s1W" => (Memref.whole Cert.Kernel.cc0_scratch1 : Memref Cert.Kernel.sig Kind.scVector Space.vmem Cert.Kernel.S6144 EltTy.f32)
local notation "s2W" => (Memref.whole Cert.Kernel.cc0_scratch2 : Memref Cert.Kernel.sig Kind.scVector Space.vmem Cert.Kernel.S6144 EltTy.f32)
local notation "s3W" => (Memref.whole Cert.Kernel.cc0_scratch3 : Memref Cert.Kernel.sig Kind.scVector Space.vmem Cert.Kernel.S16384 EltTy.f32)

variable [FloatOps F]

abbrev cV (L : grid0.Coords) : Fin τ.nSC := (L 0).castLE hcore0
abbrev jV (L : grid0.Coords) : Fin τ.nSub := (L 1).castLE hsub0

/-- A trip of the per-query loop is one of at most sixty-four. -/
theorem trip_lt (k : Fin k0_t2_loop.trips) : (k : Nat) < 64 := lt_of_lt_of_le k.isLt k0_t2_abs.2.1

/-- The lane sequence times 3, and times 8: the two strided bases of the trip's index vectors. -/
theorem lane3_le : ∀ x : L16.Idx, ((k0_pay1 : IVec S16 32) x).toNat ≤ 15 * (3#32 : BitVec 32).toNat := lanes_le _ (3#32)
theorem lane8_le : ∀ x : L16.Idx, ((k0_pay2 : IVec S16 32) x).toNat ≤ 15 * (8#32 : BitVec 32).toNat := lanes_le _ (8#32)

/-- Every index vector of the trip is in range: a table bucket, a strided output vector, or — against the staged
    positions and features — the lane sequence times 3 or a splat, plus the trip's scalar offset. -/
macro "lane_chk" : tactic => `(tactic| first
  | (refine chk_of (N := 49184) ?_; exact bucket 49184 _ _ _ _ (by decide) (by decide) (by decide))
  | (refine chk_of (N := 16384) ?_; exact strided2 16384 _ _ _ (trip_lt _) _ _ _ (by decide) (by decide))
  | (refine chk_of (N := 6144) ?_; apply add_bcast 6144; first
      | ((with_reducible exact lane3_le); exact chain2_lt _ 6144 _ (trip_lt _) _ _ _ (by decide) (by decide))
      | ((exact le_zero_of_lanes _ (fun _ => rfl)); exact chain3_lt 0 6144 _ (trip_lt _) _ _ _ _ (by decide) (by decide))))

/-- Past an indexed load or store (a plain load, or a load and a store, of the whole scratch), run on to the next. -/
macro "step_gather" : tactic => `(tactic| ((first | unfold SparseCore.vectorLoadIdx | unfold SparseCore.vectorStoreIdx); sl_exec_parts (disch := lane_chk)))

set_option sl_exec.dischHeartbeats 200000 in
set_option maxHeartbeats 8000000 in
/-- One trip of the per-query loop, from the four staged buffers held whole: the table, the positions and the features
    are read only; the staged output ends at `G k ft fr fq fo`, the function the run finds (sixteen indexed stores over
    what it held, each of an accumulator of twelve products of gathered words): the witness of the subtype. -/
def qTrip (d : Dev nD) (L : grid0.Coords) :
    { G : Fin k0_t2_loop.trips → Buf (Elt F) ((s0W).view.loc (V d (cV L) (jV L))) → Buf (Elt F) ((s1W).view.loc (V d (cV L) (jV L)))
          → Buf (Elt F) ((s2W).view.loc (V d (cV L) (jV L))) → Buf (Elt F) ((s3W).view.loc (V d (cV L) (jV L)))
          → Buf (Elt F) ((s3W).view.loc (V d (cV L) (jV L))) //
      ∀ (k : Fin k0_t2_loop.trips) (acc : BitVec 32)
        (ft : Buf (Elt F) ((s0W).view.loc (V d (cV L) (jV L)))) (fr : Buf (Elt F) ((s1W).view.loc (V d (cV L) (jV L))))
        (fq : Buf (Elt F) ((s2W).view.loc (V d (cV L) (jV L)))) (fo : Buf (Elt F) ((s3W).view.loc (V d (cV L) (jV L)))),
        iprop(((s0W).view.loc (V d (cV L) (jV L)) ↦{fullShare} ft) ∗ ((s1W).view.loc (V d (cV L) (jV L)) ↦{fullShare} fr)
            ∗ ((s2W).view.loc (V d (cV L) (jV L)) ↦{fullShare} fq) ∗ ((s3W).view.loc (V d (cV L) (jV L)) ↦{fullShare} fo) : sProp 𝕄)
          ⊢ wp frame (wpE (defs₀ (F := F)) 𝒱₀ (V d (cV L) (jV L)) none) Set.univ
              (k0_t2_body L rpW (Memref.isWhole_whole _) qfW (Memref.isWhole_whole _) tbW (Memref.isWhole_whole _) ouW (Memref.isWhole_whole _)
                s0W (Memref.isWhole_whole _) s1W (Memref.isWhole_whole _) s2W (Memref.isWhole_whole _) s3W (Memref.isWhole_whole _)
                cc0_scoped0 cc0_scoped1 cc0_scoped2 cc0_scoped3 k acc)
              (fun _ => iprop(((s0W).view.loc (V d (cV L) (jV L)) ↦{fullShare} ft) ∗ ((s1W).view.loc (V d (cV L) (jV L)) ↦{fullShare} fr)
                ∗ ((s2W).view.loc (V d (cV L) (jV L)) ↦{fullShare} fq) ∗ ((s3W).view.loc (V d (cV L) (jV L)) ↦{fullShare} G k ft fr fq fo))) } := by
  refine ⟨?_, fun k acc ft fr fq fo => ?run⟩
  case run =>
    iintro ⟨H0, H1, H2, H3⟩
    unfold k0_t2_body
    sl_exec_parts (disch := lane_chk)
    repeat step_gather
    sl_step
    isplitl [H0]; · iexact H0
    isplitl [H1]; · iexact H1
    isplitl [H2]; · iexact H2
    iexact H3

end Cert.Kernel.Tile

end
-- ==== Proof.KTileA.lean ====
/-
  A tile's task, first part: the tile's own semaphores and scratch buffers; the thirty-two chunks of its slab (pairwise
  disjoint, covering it); what its buffers hold along its work — the fetches' landings, the per-query trips folded,
  the staged output chunk after chunk — and its final function of the flat output, with the agreement of a chunk's
  write-out with it on the chunk's words.
-/
import proofs.«204784_g45775761440795_cont_8to1c4_693_3_alg».proof.Proof.KLaunchA
import proofs.«204784_g45775761440795_cont_8to1c4_693_3_alg».proof.Proof.KQTrip
import Idealize.ShloMosaic.Lib.ValueIdx
import Idealize.ShloMosaic.Lib.Tactic

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "rpW" => (Memref.whole Cert.Kernel.main_v6_scv : Memref Cert.Kernel.sig Kind.scVector Space.hbm Cert.Kernel.S6291456 EltTy.f32)
local notation "qfW" => (Memref.whole Cert.Kernel.main_v7_scv : Memref Cert.Kernel.sig Kind.scVector Space.hbm Cert.Kernel.S6291456 EltTy.f32)
local notation "tbW" => (Memref.whole Cert.Kernel.main_v5_scv : Memref Cert.Kernel.sig Kind.scVector Space.hbm Cert.Kernel.S49184 EltTy.f32)
local notation "ouW" => (Memref.whole Cert.Kernel.main_v8_scv : Memref Cert.Kernel.sig Kind.scVector Space.hbm Cert.Kernel.S16777216 EltTy.f32)
local notation "s0W" => (Memref.whole Cert.Kernel.cc0_scratch0 : Memref Cert.Kernel.sig Kind.scVector Space.vmem Cert.Kernel.S49184 EltTy.f32)
local notation "s1W" => (Memref.whole Cert.Kernel.cc0_scratch1 : Memref Cert.Kernel.sig Kind.scVector Space.vmem Cert.Kernel.S6144 EltTy.f32)
local notation "s2W" => (Memref.whole Cert.Kernel.cc0_scratch2 : Memref Cert.Kernel.sig Kind.scVector Space.vmem Cert.Kernel.S6144 EltTy.f32)
local notation "s3W" => (Memref.whole Cert.Kernel.cc0_scratch3 : Memref Cert.Kernel.sig Kind.scVector Space.vmem Cert.Kernel.S16384 EltTy.f32)

variable [FloatOps F]

/-! ## The tile's own semaphores and scratch buffers -/

section Own

variable (d : Dev nD) (L : grid0.Coords)

/-- The tile's DMA semaphore number `n`, as a cell. -/
abbrev sem0 : GSem nD τ sig := (V d (cV L) (jV L), .dma cc0_scoped0.sem)
abbrev sem1 : GSem nD τ sig := (V d (cV L) (jV L), .dma cc0_scoped1.sem)
abbrev sem2 : GSem nD τ sig := (V d (cV L) (jV L), .dma cc0_scoped2.sem)
abbrev sem3 : GSem nD τ sig := (V d (cV L) (jV L), .dma cc0_scoped3.sem)

omit [FloatOps F] in
theorem ownSems0_V :
    (ownSems0 (V d (cV L) (jV L)) : sProp 𝕄)
      = iprop(semVal (sem0 d L) 0 ∗ semVal (sem1 d L) 0 ∗ semVal (sem2 d L) 0 ∗ semVal (sem3 d L) 0
          ∗ bigSep (((((ownCells (V d (cV L) (jV L))).erase (sem0 d L)).erase (sem1 d L)).erase (sem2 d L)).erase (sem3 d L))
              fun g => semVal g 0) := by
  unfold SparseCore.Cfg.ownSems0
  rw [SparseCore.bigSep_erase' ((mem_ownCells (g := sem0 d L)).mpr ⟨rfl, by
      show (SemLoc.dma cc0_scoped0.sem : SemLoc sig).isScoped .scVector = true; decide⟩),
    SparseCore.bigSep_erase' (Finset.mem_erase.mpr ⟨by simp [sem0, sem1]; decide, (mem_ownCells (g := sem1 d L)).mpr ⟨rfl, by
      show (SemLoc.dma cc0_scoped1.sem : SemLoc sig).isScoped .scVector = true; decide⟩⟩),
    SparseCore.bigSep_erase' (Finset.mem_erase.mpr ⟨by simp [sem1, sem2]; decide, Finset.mem_erase.mpr ⟨by simp [sem0, sem2]; decide,
      (mem_ownCells (g := sem2 d L)).mpr ⟨rfl, by show (SemLoc.dma cc0_scoped2.sem : SemLoc sig).isScoped .scVector = true; decide⟩⟩⟩),
    SparseCore.bigSep_erase' (Finset.mem_erase.mpr ⟨by simp [sem2, sem3]; decide, Finset.mem_erase.mpr ⟨by simp [sem1, sem3]; decide,
      Finset.mem_erase.mpr ⟨by simp [sem0, sem3]; decide,
      (mem_ownCells (g := sem3 d L)).mpr ⟨rfl, by show (SemLoc.dma cc0_scoped3.sem : SemLoc sig).isScoped .scVector = true; decide⟩⟩⟩⟩)]

omit [FloatOps F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

end Own

omit [FloatOps F] in
theorem bound_zero : grid0.bound 0 = 2 := rfl
omit [FloatOps F] in
theorem bound_one : grid0.bound 1 = 16 := rfl
/-- The tile's SparseCore and subcore, as the launch numbers them. -/
abbrev cL (L : grid0.Coords) : Fin 2 := Fin.cast bound_zero (L 0)
abbrev sL (L : grid0.Coords) : Fin 16 := Fin.cast bound_one (L 1)

/-! ## The chunks of a tile's work: thirty-two trips, each over sixty-four queries -/

section Geometry

variable (L : grid0.Coords)

omit [FloatOps F] in
theorem trips1 : k0_t1_loop.trips = 32 := by decide
omit [FloatOps F] in
theorem trips2 : k0_t2_loop.trips = 64 := by decide

/-- Trip `k`'s slice of the flat output, of the flat relative positions, of the flat query features, as the program slices them. -/
abbrev ouChunk (k : Fin k0_t1_loop.trips) : Memref sig .scVector .hbm S16384 .f32 :=
  (ouW).slice (Rect.unit (s := S16777216) (k0_off2 L k) S16384.size (Facts₀.k0_off2_inb L k)) (fun _ => rfl)
abbrev rpChunk (k : Fin k0_t1_loop.trips) : Memref sig .scVector .hbm S6144 .f32 :=
  (rpW).slice (Rect.unit (s := S6291456) (k0_off1 L k) S6144.size (Facts₀.k0_off1_inb L k)) (fun _ => rfl)
abbrev qfChunk (k : Fin k0_t1_loop.trips) : Memref sig .scVector .hbm S6144 .f32 :=
  (qfW).slice (Rect.unit (s := S6291456) (k0_off1 L k) S6144.size (Facts₀.k0_off1_inb L k)) (fun _ => rfl)

/-- The words of the flat output trip `k` writes. -/
def chunkSet (k : Fin k0_t1_loop.trips) : Finset S16777216.Idx := (ouChunk L k).view.set

omit [FloatOps F] in
theorem mem_chunkSet {k : Fin k0_t1_loop.trips} {j : S16777216.Idx} :
    j ∈ chunkSet L k ↔ 1048576 * (L 1).val + 524288 * (L 0).val + 16384 * k.val ≤ (j 0).val
      ∧ (j 0).val < 1048576 * (L 1).val + 524288 * (L 0).val + 16384 * k.val + 16384 := by
  unfold chunkSet
  show j ∈ ((View.whole (main_v8_scv : Ref sig .scVector)).slice
      (Rect.unit (s := S16777216) (k0_off2 L k) S16384.size (Facts₀.k0_off2_inb L k))).set ↔ _
  rw [View.set_slice_whole, Rect.mem_set_unit, k0_off2_eq]
  exact Fin.forall_fin_one (p := fun a : Fin 1 =>
    (![1048576 * (L 1).val + 524288 * (L 0).val + 16384 * k.val] : Fin 1 → ℕ) a ≤ (j a).val
      ∧ (j a).val < (![1048576 * (L 1).val + 524288 * (L 0).val + 16384 * k.val] : Fin 1 → ℕ) a + S16384.size a)

omit [FloatOps F] in
theorem chunks_disjoint : ∀ k ∈ (Finset.univ : Finset (Fin k0_t1_loop.trips)), ∀ k' ∈ (Finset.univ : Finset (Fin k0_t1_loop.trips)),
    k ≠ k' → Disjoint (chunkSet L k) (chunkSet L k') := by
  intro k _ k' _ hne
  refine Finset.disjoint_left.mpr fun j hj hj' => hne (Fin.ext ?_)
  have h := (mem_chunkSet L).mp hj
  have h' := (mem_chunkSet L).mp hj'
  omega

omit [FloatOps F] in
theorem chunks_cover : (Finset.univ : Finset (Fin k0_t1_loop.trips)).biUnion (chunkSet L) = slab (cL L) (sL L) := by
  ext j
  rw [Finset.mem_biUnion, mem_slab]
  have h0 : (L 0).val < 2 := (L 0).isLt
  have h1 : (L 1).val < 16 := (L 1).isLt
  constructor
  · rintro ⟨k, -, hk⟩
    have h := (mem_chunkSet L).mp hk
    have hk32 : k.val < 32 := lt_of_lt_of_eq k.isLt trips1
    show (2 * (L 1).val + (L 0).val) * 524288 ≤ (j 0).val ∧ (j 0).val < (2 * (L 1).val + (L 0).val + 1) * 524288
    omega
  · intro h
    have h' : (2 * (L 1).val + (L 0).val) * 524288 ≤ (j 0).val ∧ (j 0).val < (2 * (L 1).val + (L 0).val + 1) * 524288 := h
    refine ⟨⟨((j 0).val - (2 * (L 1).val + (L 0).val) * 524288) / 16384, by rw [trips1]; omega⟩, Finset.mem_univ _, (mem_chunkSet L).mpr ?_⟩
    dsimp only
    omega

end Geometry

/-! ## What the tile's buffers hold along its work -/

section Contents

open Idealize.ShloMosaic.ValueIdx

variable (d : Dev nD) (L : grid0.Coords)

/-- What the table's fetch lands in the staged table, and what trip `k`'s two fetches land in the staged positions and
    features: the arrays read through the slices the program copies. -/
def tbLand (w5 : Buf (Elt F) (tbLoc d)) : Buf (Elt F) ((s0W).view.loc (V d (cV L) (jV L))) := (tbW).view.read (Elt F) w5
def rpRead (k : Fin k0_t1_loop.trips) (w6 : Buf (Elt F) (rpLoc d)) : Buf (Elt F) ((s1W).view.loc (V d (cV L) (jV L))) :=
  (rpChunk L k).view.read (Elt F) w6
def qfRead (k : Fin k0_t1_loop.trips) (w7 : Buf (Elt F) (qfLoc d)) : Buf (Elt F) ((s2W).view.loc (V d (cV L) (jV L))) :=
  (qfChunk L k).view.read (Elt F) w7

/-- The staged output after `n` trips of the per-query loop, from `fo`: the trips' functions folded. -/
def qFold (ft : Buf (Elt F) ((s0W).view.loc (V d (cV L) (jV L)))) (fr : Buf (Elt F) ((s1W).view.loc (V d (cV L) (jV L))))
    (fq : Buf (Elt F) ((s2W).view.loc (V d (cV L) (jV L)))) (fo : Buf (Elt F) ((s3W).view.loc (V d (cV L) (jV L)))) :
    ℕ → Buf (Elt F) ((s3W).view.loc (V d (cV L) (jV L)))
  | 0 => fo
  | n + 1 => if h : n < k0_t2_loop.trips then (qTrip (F := F) d L).1 ⟨n, h⟩ ft fr fq (qFold ft fr fq fo n) else qFold ft fr fq fo n

section
variable (ft : Buf (Elt F) ((s0W).view.loc (V d (cV L) (jV L)))) (fr : Buf (Elt F) ((s1W).view.loc (V d (cV L) (jV L))))
  (fq : Buf (Elt F) ((s2W).view.loc (V d (cV L) (jV L)))) (fo : Buf (Elt F) ((s3W).view.loc (V d (cV L) (jV L))))
theorem qFold_zero : qFold d L ft fr fq fo 0 = fo := rfl
theorem qFold_succ (k : Fin k0_t2_loop.trips) :
    qFold d L ft fr fq fo (k.val + 1) = (qTrip (F := F) d L).1 k ft fr fq (qFold d L ft fr fq fo k.val) := by
  show (if h : k.val < k0_t2_loop.trips then (qTrip (F := F) d L).1 ⟨k.val, h⟩ ft fr fq (qFold d L ft fr fq fo k.val) else _) = _
  rw [dif_pos k.isLt]
end

/-- The staged output after `k` chunks: each chunk's sixty-four trips over the table and the chunk's positions and
    features, from what the chunk before left (a constant word before the first). -/
def stagedOut (w6 : Buf (Elt F) (rpLoc d)) (w7 : Buf (Elt F) (qfLoc d)) (w5 : Buf (Elt F) (tbLoc d)) :
    ℕ → Buf (Elt F) ((s3W).view.loc (V d (cV L) (jV L)))
  | 0 => fun _ => (FloatOps.ofBits FTy.f32 0 : F .f32)
  | k + 1 => if h : k < k0_t1_loop.trips then
      qFold d L (tbLand d L w5) (rpRead d L ⟨k, h⟩ w6) (qfRead d L ⟨k, h⟩ w7) (stagedOut w6 w7 w5 k) 64
    else stagedOut w6 w7 w5 k

theorem stagedOut_succ (w6 : Buf (Elt F) (rpLoc d)) (w7 : Buf (Elt F) (qfLoc d)) (w5 : Buf (Elt F) (tbLoc d)) (k : Fin k0_t1_loop.trips) :
    stagedOut d L w6 w7 w5 (k.val + 1)
      = qFold d L (tbLand d L w5) (rpRead d L k w6) (qfRead d L k w7) (stagedOut d L w6 w7 w5 k.val) 64 := by
  show (if h : k.val < k0_t1_loop.trips then
      qFold d L (tbLand d L w5) (rpRead d L ⟨k.val, h⟩ w6) (qfRead d L ⟨k.val, h⟩ w7) (stagedOut d L w6 w7 w5 k.val) 64 else _) = _
  rw [dif_pos k.isLt]

/-- The tile's final function of the flat output: in its slab, word `r` of chunk `k` is word `r` of the staged output
    after chunk `k`; the launch contents elsewhere. -/
def tileOut (w6 : Buf (Elt F) (rpLoc d)) (w7 : Buf (Elt F) (qfLoc d)) (w5 : Buf (Elt F) (tbLoc d)) (o0 : Buf (Elt F) (ouLoc d)) :
    Buf (Elt F) (ouLoc d) :=
  fun j =>
    if (2 * (L 1).val + (L 0).val) * 524288 ≤ (j 0).val ∧ (j 0).val < (2 * (L 1).val + (L 0).val + 1) * 524288 then
      stagedOut d L w6 w7 w5 (((j 0).val - (2 * (L 1).val + (L 0).val) * 524288) / 16384 + 1)
        (ix1 ⟨((j 0).val - (2 * (L 1).val + (L 0).val) * 524288) % 16384, Nat.mod_lt _ (by decide)⟩)
    else o0 j

/-- A chunk's write-out of the whole staged output leaves, at the chunk's word `x`, the staged output's word `x`. -/
theorem wrote_at (k : Fin k0_t1_loop.trips) (o : Buf (Elt F) (ouLoc d)) (X : Buf (Elt F) ((s3W).view.loc (V d (cV L) (jV L)))) (x : S16384.Idx) :
    (ouChunk L k).view.writes (Elt F) o [⟨Rect.whole S16384, (s3W).view.read (Elt F) X⟩] ((ouChunk L k).view.emb x) = X x := by
  have hw := View.read_writes_cons_emb (v := (ouChunk L k).view) (f := o) (Rect.whole S16384) ((s3W).view.read (Elt F) X) [] x
  rw [Rect.emb_whole_apply, View.read_apply, cast_eq] at hw
  exact hw

/-- Chunk `k`'s write-out of the staged output after that chunk leaves, on the chunk's words, the tile's final function. -/
theorem wrote_eq (w6 : Buf (Elt F) (rpLoc d)) (w7 : Buf (Elt F) (qfLoc d)) (w5 : Buf (Elt F) (tbLoc d)) (o0 : Buf (Elt F) (ouLoc d))
    (k : Fin k0_t1_loop.trips) (o : Buf (Elt F) (ouLoc d)) :
    ∀ j ∈ chunkSet L k,
      (ouChunk L k).view.writes (Elt F) o [⟨Rect.whole S16384, (s3W).view.read (Elt F) (stagedOut d L w6 w7 w5 (k.val + 1))⟩] j
        = tileOut d L w6 w7 w5 o0 j := by
  intro j hj
  have hk32 : k.val < 32 := lt_of_lt_of_eq k.isLt trips1
  have h0 : (L 0).val < 2 := (L 0).isLt
  have h1 : (L 1).val < 16 := (L 1).isLt
  obtain ⟨x, -, rfl⟩ := Finset.mem_map.mp hj
  have hx : (x 0).val < 16384 := (x 0).isLt
  have he : (((ouChunk L k).view.emb x) 0).val = 1048576 * (L 1).val + 524288 * (L 0).val + 16384 * k.val + (x 0).val := by
    show (k0_off2 L k) 0 + 1 * (x 0).val = _
    rw [k0_off2_eq]; show 1048576 * (L 1).val + 524288 * (L 0).val + 16384 * k.val + 1 * (x 0).val = _; omega
  rw [wrote_at]
  unfold tileOut
  rw [if_pos (by rw [he]; omega)]
  have e1 : ((((ouChunk L k).view.emb x) 0).val - (2 * (L 1).val + (L 0).val) * 524288) / 16384 + 1 = k.val + 1 := by rw [he]; omega
  have e2 : ((((ouChunk L k).view.emb x) 0).val - (2 * (L 1).val + (L 0).val) * 524288) % 16384 = (x 0).val := by rw [he]; omega
  have e3 : (ix1 ⟨((((ouChunk L k).view.emb x) 0).val - (2 * (L 1).val + (L 0).val) * 524288) % 16384, Nat.mod_lt _ (by decide)⟩ : S16384.Idx) = x := by
    funext a; match a with | ⟨0, _⟩ => exact Fin.ext e2
  rw [e1, e3]

end Contents

end Cert.Kernel.Tile

end
-- ==== Proof.KTile.lean ====
/-
  A tile's task, second part: the body run. The table is staged once; each of the thirty-two chunks stages its
  positions and features, runs the sixty-four per-query trips (one trip's run is the region of the inner loop), and
  writes the staged output to its chunk of the slab. The slab's chunks are held apart, each at the launch contents
  until its trip and at the tile's final function after it.
-/
import proofs.«204784_g45775761440795_cont_8to1c4_693_3_alg».proof.Proof.KTileA
import Idealize.ShloMosaic.Lib.Tactic

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "rpW" => (Memref.whole Cert.Kernel.main_v6_scv : Memref Cert.Kernel.sig Kind.scVector Space.hbm Cert.Kernel.S6291456 EltTy.f32)
local notation "qfW" => (Memref.whole Cert.Kernel.main_v7_scv : Memref Cert.Kernel.sig Kind.scVector Space.hbm Cert.Kernel.S6291456 EltTy.f32)
local notation "tbW" => (Memref.whole Cert.Kernel.main_v5_scv : Memref Cert.Kernel.sig Kind.scVector Space.hbm Cert.Kernel.S49184 EltTy.f32)
local notation "ouW" => (Memref.whole Cert.Kernel.main_v8_scv : Memref Cert.Kernel.sig Kind.scVector Space.hbm Cert.Kernel.S16777216 EltTy.f32)
local notation "s0W" => (Memref.whole Cert.Kernel.cc0_scratch0 : Memref Cert.Kernel.sig Kind.scVector Space.vmem Cert.Kernel.S49184 EltTy.f32)
local notation "s1W" => (Memref.whole Cert.Kernel.cc0_scratch1 : Memref Cert.Kernel.sig Kind.scVector Space.vmem Cert.Kernel.S6144 EltTy.f32)
local notation "s2W" => (Memref.whole Cert.Kernel.cc0_scratch2 : Memref Cert.Kernel.sig Kind.scVector Space.vmem Cert.Kernel.S6144 EltTy.f32)
local notation "s3W" => (Memref.whole Cert.Kernel.cc0_scratch3 : Memref Cert.Kernel.sig Kind.scVector Space.vmem Cert.Kernel.S16384 EltTy.f32)

variable [FloatOps F]

/-! ## The tile's task -/

section Body

variable (d : Dev nD) (L : grid0.Coords)

local notation "thrV" => (V d (cV L) (jV L))

omit [FloatOps F] in
theorem pts_rp (q : PosShare TreeShare) (f : Buf (Elt F) (rpLoc d)) :
    ((rpW).view.loc thrV ↦{q} f : sProp 𝕄) = rpLoc d ↦{q} f := by
  simp only [Memref.view_whole, View.set_whole]
omit [FloatOps F] in
theorem pts_qf (q : PosShare TreeShare) (f : Buf (Elt F) (qfLoc d)) :
    ((qfW).view.loc thrV ↦{q} f : sProp 𝕄) = qfLoc d ↦{q} f := by
  simp only [Memref.view_whole, View.set_whole]
omit [FloatOps F] in
theorem pts_tb (q : PosShare TreeShare) (f : Buf (Elt F) (tbLoc d)) :
    ((tbW).view.loc thrV ↦{q} f : sProp 𝕄) = tbLoc d ↦{q} f := by
  simp only [Memref.view_whole, View.set_whole]
omit [FloatOps F] in
theorem pts_s0 (f : Buf (Elt F) (Thread.loc thrV cc0_scratch0)) :
    ((s0W).view.loc thrV ↦{fullShare} f : sProp 𝕄) = Thread.loc thrV cc0_scratch0 ↦{fullShare} f := rfl
omit [FloatOps F] in
theorem pts_s1 (f : Buf (Elt F) (Thread.loc thrV cc0_scratch1)) :
    ((s1W).view.loc thrV ↦{fullShare} f : sProp 𝕄) = Thread.loc thrV cc0_scratch1 ↦{fullShare} f := rfl
omit [FloatOps F] in
theorem pts_s2 (f : Buf (Elt F) (Thread.loc thrV cc0_scratch2)) :
    ((s2W).view.loc thrV ↦{fullShare} f : sProp 𝕄) = Thread.loc thrV cc0_scratch2 ↦{fullShare} f := rfl
omit [FloatOps F] in
theorem pts_s3 (f : Buf (Elt F) (Thread.loc thrV cc0_scratch3)) :
    ((s3W).view.loc thrV ↦{fullShare} f : sProp 𝕄) = Thread.loc thrV cc0_scratch3 ↦{fullShare} f := rfl
omit [FloatOps F] in
/-- A chunk of the flat output as the tile's slice memref addresses it. -/
theorem pts_ou (k : Fin k0_t1_loop.trips) (f : Buf (Elt F) (ouLoc d)) :
    ((ouChunk L k).view.loc thrV ↦[(ouChunk L k).view.set]{fullShare} f : sProp 𝕄) = ouLoc d ↦[chunkSet L k]{fullShare} f := rfl

omit [FloatOps F] in
/-- A whole scratch buffer overwritten whole holds what was written. -/
theorem land0 (f w : Buf (Elt F) ((s0W).view.loc thrV)) :
    ((s0W).view.loc thrV ↦{fullShare} View.write (Elt F) (s0W).view f w Finset.univ : sProp 𝕄) = (s0W).view.loc thrV ↦{fullShare} w :=
  congrArg (fun g => ((s0W).view.loc thrV ↦{fullShare} g : sProp 𝕄)) (View.write_whole_univ (cc0_scratch0 : Ref sig .scVector) f w)
omit [FloatOps F] in
theorem land1 (f w : Buf (Elt F) ((s1W).view.loc thrV)) :
    ((s1W).view.loc thrV ↦{fullShare} View.write (Elt F) (s1W).view f w Finset.univ : sProp 𝕄) = (s1W).view.loc thrV ↦{fullShare} w :=
  congrArg (fun g => ((s1W).view.loc thrV ↦{fullShare} g : sProp 𝕄)) (View.write_whole_univ (cc0_scratch1 : Ref sig .scVector) f w)
omit [FloatOps F] in
theorem land2 (f w : Buf (Elt F) ((s2W).view.loc thrV)) :
    ((s2W).view.loc thrV ↦{fullShare} View.write (Elt F) (s2W).view f w Finset.univ : sProp 𝕄) = (s2W).view.loc thrV ↦{fullShare} w :=
  congrArg (fun g => ((s2W).view.loc thrV ↦{fullShare} g : sProp 𝕄)) (View.write_whole_univ (cc0_scratch2 : Ref sig .scVector) f w)

variable (w6 : Buf (Elt F) (rpLoc d)) (w7 : Buf (Elt F) (qfLoc d)) (w5 : Buf (Elt F) (tbLoc d)) (o0 : Buf (Elt F) (ouLoc d))

/-- What chunk `i` of the slab holds before trip `k`: the final function once its trip is past, the launch contents before. -/
def chunkF (k : ℕ) (i : Fin k0_t1_loop.trips) : Buf (Elt F) (ouLoc d) := if i.val < k then tileOut d L w6 w7 w5 o0 else o0

set_option maxRecDepth 8192 in
/-- The slab is its thirty-two chunks. -/
theorem ou_chunks (f : Buf (Elt F) (ouLoc d)) :
    (ouLoc d ↦[slab (cL L) (sL L)]{fullShare} f : sProp 𝕄) = bigSep Finset.univ fun i : Fin k0_t1_loop.trips => ouLoc d ↦[chunkSet L i]{fullShare} f := by
  rw [← pointsTo_biUnion Finset.univ (ℓ := ouLoc d) (chunkSet L) (chunks_disjoint L), chunks_cover]

theorem chunks_init :
    (ouLoc d ↦[slab (cL L) (sL L)]{fullShare} o0 : sProp 𝕄)
      = bigSep Finset.univ fun i : Fin k0_t1_loop.trips => ouLoc d ↦[chunkSet L i]{fullShare} chunkF d L w6 w7 w5 o0 0 i := by
  rw [ou_chunks]
  exact bigSep_congr fun i _ => by unfold chunkF; rw [if_neg (Nat.not_lt_zero _)]

theorem chunks_done :
    (bigSep Finset.univ fun i : Fin k0_t1_loop.trips => (ouLoc d ↦[chunkSet L i]{fullShare} chunkF d L w6 w7 w5 o0 k0_t1_loop.trips i : sProp 𝕄))
      = ouLoc d ↦[slab (cL L) (sL L)]{fullShare} tileOut d L w6 w7 w5 o0 := by
  rw [ou_chunks]
  exact bigSep_congr fun i _ => by unfold chunkF; rw [if_pos i.isLt]

theorem chunks_take (k : Fin k0_t1_loop.trips) :
    (bigSep Finset.univ fun i : Fin k0_t1_loop.trips => (ouLoc d ↦[chunkSet L i]{fullShare} chunkF d L w6 w7 w5 o0 k.val i : sProp 𝕄))
      = iprop((ouLoc d ↦[chunkSet L k]{fullShare} o0)
          ∗ bigSep (Finset.univ.erase k) fun i : Fin k0_t1_loop.trips => ouLoc d ↦[chunkSet L i]{fullShare} chunkF d L w6 w7 w5 o0 k.val i) := by
  rw [SparseCore.bigSep_erase' (Finset.mem_univ k)]
  unfold chunkF; rw [if_neg (Nat.lt_irrefl _)]

theorem chunks_put (k : Fin k0_t1_loop.trips) :
    (bigSep Finset.univ fun i : Fin k0_t1_loop.trips => (ouLoc d ↦[chunkSet L i]{fullShare} chunkF d L w6 w7 w5 o0 (k.val + 1) i : sProp 𝕄))
      = iprop((ouLoc d ↦[chunkSet L k]{fullShare} tileOut d L w6 w7 w5 o0)
          ∗ bigSep (Finset.univ.erase k) fun i : Fin k0_t1_loop.trips => ouLoc d ↦[chunkSet L i]{fullShare} chunkF d L w6 w7 w5 o0 k.val i) := by
  rw [SparseCore.bigSep_erase' (Finset.mem_univ k)]
  have e1 : chunkF d L w6 w7 w5 o0 (k.val + 1) k = tileOut d L w6 w7 w5 o0 := by
    unfold chunkF; rw [if_pos (Nat.lt_succ_self _)]
  have e2 : (bigSep (Finset.univ.erase k) fun i : Fin k0_t1_loop.trips => (ouLoc d ↦[chunkSet L i]{fullShare} chunkF d L w6 w7 w5 o0 (k.val + 1) i : sProp 𝕄))
      = bigSep (Finset.univ.erase k) fun i : Fin k0_t1_loop.trips => ouLoc d ↦[chunkSet L i]{fullShare} chunkF d L w6 w7 w5 o0 k.val i := by
    refine bigSep_congr fun i hi => ?_
    have hne : i.val ≠ k.val := fun e => (Finset.mem_erase.mp hi).1 (Fin.ext e)
    unfold chunkF
    by_cases h : i.val < k.val
    · rw [if_pos h, if_pos (by omega)]
    · rw [if_neg h, if_neg (by omega)]
  rw [e1, e2]

/-- The hypothesis on the trips' functions: sixty-four trips leave a staged output that does not depend on what the
    scratch held before them. -/
def TripsOverwrite : Prop :=
  ∀ (d : Dev nD) (L : grid0.Coords) (ft : Buf (Elt F) ((s0W).view.loc (V d (cV L) (jV L)))) (fr : Buf (Elt F) ((s1W).view.loc (V d (cV L) (jV L))))
    (fq : Buf (Elt F) ((s2W).view.loc (V d (cV L) (jV L)))) (fo fo' : Buf (Elt F) ((s3W).view.loc (V d (cV L) (jV L)))),
    qFold d L ft fr fq fo 64 = qFold d L ft fr fq fo' 64

/-- Chunk `k` written out from the staged output its sixty-four trips left holds the tile's final function. -/
theorem chunk_done (hG : TripsOverwrite (F := F)) (k : Fin k0_t1_loop.trips) (fo : Buf (Elt F) ((s3W).view.loc thrV)) (o : Buf (Elt F) (ouLoc d))
    (X : (Rect.whole S16384).shape.Idx → Elt F EltTy.f32)
    (hX : X = (s3W).view.read (Elt F) (qFold d L (tbLand d L w5) (rpRead d L k w6) (qfRead d L k w7) fo k0_t2_loop.trips)) :
    ((ouChunk L k).view.loc thrV ↦[(ouChunk L k).view.set]{fullShare}
        (ouChunk L k).view.writes (Elt F) o [⟨Rect.whole S16384, X⟩] : sProp 𝕄)
      = ouLoc d ↦[chunkSet L k]{fullShare} tileOut d L w6 w7 w5 o0 := by
  subst hX
  show (ouLoc d ↦[chunkSet L k]{fullShare} _ : sProp 𝕄) = _
  have e : qFold d L (tbLand d L w5) (rpRead d L k w6) (qfRead d L k w7) fo k0_t2_loop.trips = stagedOut d L w6 w7 w5 (k.val + 1) := by
    rw [stagedOut_succ, trips2]; exact hG d L _ _ _ _ _
  rw [e]
  exact pointsTo_congr (wrote_eq d L w6 w7 w5 o0 k o)

/-- The per-query loop's invariant: the staged table, positions and features as the trips found them, the staged output
    at the fold of the trips past. -/
def inv2 (ft : Buf (Elt F) ((s0W).view.loc thrV)) (fr : Buf (Elt F) ((s1W).view.loc thrV)) (fq : Buf (Elt F) ((s2W).view.loc thrV))
    (fo : Buf (Elt F) ((s3W).view.loc thrV)) (n : ℕ) (_ : BitVec 32) : sProp 𝕄 :=
  iprop(((s0W).view.loc thrV ↦{fullShare} ft) ∗ ((s1W).view.loc thrV ↦{fullShare} fr) ∗ ((s2W).view.loc thrV ↦{fullShare} fq)
    ∗ ((s3W).view.loc thrV ↦{fullShare} qFold d L ft fr fq fo n))

/-- The chunk loop's invariant: the read shares, the staged table at the flat table, the three other scratch buffers at
    some contents, the three semaphores' counters at zero, the slab's chunks written up to the trip, and what the tile owes. -/
def inv1 (O : CellTallies nD τ sig (HIx 1)) (W : Waits sig (HIx 1)) (k : ℕ) (_ : BitVec 32) : sProp 𝕄 :=
  iprop(Transfers.MayWaits thrV (none : HIx 1) O
    ∗ ((rpW).view.loc thrV ↦{rdShare (cL L) (sL L)} w6) ∗ ((qfW).view.loc thrV ↦{rdShare (cL L) (sL L)} w7)
    ∗ ((s0W).view.loc thrV ↦{fullShare} tbLand d L w5)
    ∗ (∃ fr, (s1W).view.loc thrV ↦{fullShare} fr) ∗ (∃ fq, (s2W).view.loc thrV ↦{fullShare} fq) ∗ (∃ fo, (s3W).view.loc thrV ↦{fullShare} fo)
    ∗ semVal (thrV, SemLoc.dma cc0_scoped1.sem) 0 ∗ semVal (thrV, SemLoc.dma cc0_scoped2.sem) 0 ∗ semVal (thrV, SemLoc.dma cc0_scoped3.sem) 0
    ∗ (bigSep Finset.univ fun i : Fin k0_t1_loop.trips => ouLoc d ↦[chunkSet L i]{fullShare} chunkF d L w6 w7 w5 o0 k i)
    ∗ ∃ W', ⌜∀ p ∈ W', p ∈ W ∨ p.2 = none⌝ ∗ owes thrV O W')

set_option maxHeartbeats 4000000 in
/-- The task on vector subcore `(L 0, L 1)` of device `d`: the table staged; per chunk, the positions and features
    staged, sixty-four per-query trips, the staged output written out; the slab ends at the tile's final function. -/
theorem tile_body (hF : (K (F := F)).Facts) (hG : TripsOverwrite (F := F)) (O : CellTallies nD τ sig (HIx 1)) (W : Waits sig (HIx 1))
    (hO : ∀ g, O g none = 0) :
    iprop(levAts (K (F := F)).L (K (F := F)).lev ∗ emp ∗ goRes d w6 w7 w5 o0 (cL L) (sL L)
        ∗ scopedBufs thrV ∗ scopedSems0 thrV ∗ owes thrV O W)
      ⊢ wp frame (wpE (defs₀ (F := F)) 𝒱₀ thrV none) Set.univ
          (cc0__sc_body L rpW (Memref.isWhole_whole _) qfW (Memref.isWhole_whole _) tbW (Memref.isWhole_whole _) ouW (Memref.isWhole_whole _)
            s0W (Memref.isWhole_whole _) s1W (Memref.isWhole_whole _) s2W (Memref.isWhole_whole _) s3W (Memref.isWhole_whole _)
            cc0_scoped0 cc0_scoped1 cc0_scoped2 cc0_scoped3)
          fun _ => iprop(((rpLoc d ↦{rdShare (cL L) (sL L)} w6) ∗ (qfLoc d ↦{rdShare (cL L) (sL L)} w7) ∗ (tbLoc d ↦{rdShare (cL L) (sL L)} w5)
              ∗ (ouLoc d ↦[slab (cL L) (sL L)]{fullShare} tileOut d L w6 w7 w5 o0))
            ∗ scopedBufs thrV ∗ scopedSems0 thrV ∗ ∃ W', ⌜∀ p ∈ W', p ∈ W ∨ p.2 = none⌝ ∗ owes thrV O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold goRes
  iintro ⟨#Hlv, -, ⟨H6, H7, H5, Ho⟩, ⟨⟨%f0, Hs0⟩, ⟨%f1, Hs1⟩, ⟨%f2, Hs2⟩, ⟨%f3, Hs3⟩, Hbufs⟩, ⟨Hm0, Hm1, Hm2, Hm3, Hsems⟩, HO⟩
  ihave Hmw := ((K (F := F)).mayWaits_none (thr := thrV) hO) $$ Hlv
  ihave H6' := (Entails.of_eq (pts_rp (F := F) d L _ _).symm) $$ H6
  ihave H7' := (Entails.of_eq (pts_qf (F := F) d L _ _).symm) $$ H7
  ihave H5' := (Entails.of_eq (pts_tb (F := F) d L _ _).symm) $$ H5
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  -- the table staged
  sl_exec
  ihave Hs0'' := (Entails.of_eq (land0 (F := F) d L _ _)) $$ Hs0'
  ihave Hch := (Entails.of_eq (chunks_init d L w6 w7 w5 o0)) $$ Ho
  sl_for (inv1 d L w6 w7 w5 o0 O W) $$ [Hmw H6' H7' Hs0'' Hs1' Hs2' Hs3' Hm1 Hm2 Hm3 Hch HO]
  case region =>
    intro k acc
    unfold inv1
    iintro ⟨#Hmw, H6, H7, Hs0, ⟨%fr, Hs1⟩, ⟨%fq, Hs2⟩, ⟨%fo, Hs3⟩, Hm1, Hm2, Hm3, Hch, %W', %hW', HO⟩
    ihave Hch' := (Entails.of_eq (chunks_take d L w6 w7 w5 o0 k)) $$ Hch
    icases Hch' with ⟨Hk, Hrest⟩
    ihave Hk' := (Entails.of_eq (pts_ou (F := F) d L k _).symm) $$ Hk
    -- the chunk's positions and features staged
    sl_exec (disch := first | exact View.amount_pos _ _ (show 0 < S6144.numel by decide) | exact View.amount_pos _ _ (show 0 < S16384.numel by decide))
    ihave Hs1' := (Entails.of_eq (land1 (F := F) d L _ _)) $$ Hs1
    ihave Hs2' := (Entails.of_eq (land2 (F := F) d L _ _)) $$ Hs2
    -- the per-query trips
    sl_for (inv2 d L (tbLand d L w5) (rpRead d L k w6) (qfRead d L k w7) fo) $$ [Hs0 Hs1' Hs2' Hs3]
    case region =>
      intro n acc2
      unfold inv2
      rw [qFold_succ]
      exact (qTrip (F := F) d L).2 n acc2 _ _ _ _
    · unfold inv2
      isplitl [Hs0]; · iexact Hs0
      isplitl [Hs1']; · iexact Hs1'
      isplitl [Hs2']; · iexact Hs2'
      iexact Hs3
    iintro %_ HI2
    unfold inv2
    icases HI2 with ⟨Hs0, Hs1, Hs2, Hs3⟩
    -- the staged output written out
    sl_exec (disch := first | exact View.amount_pos _ _ (show 0 < S6144.numel by decide) | exact View.amount_pos _ _ (show 0 < S16384.numel by decide))
    sl_step
    ihave Hk'' := (Entails.of_eq (chunk_done d L w6 w7 w5 o0 hG k fo o0 _ ?hX)) $$ Hk'
    case hX => rfl
    isplitr; · iexact Hmw
    isplitl [H6]; · iexact H6
    isplitl [H7]; · iexact H7
    isplitl [Hs0]; · iexact Hs0
    isplitl [Hs1]; · iexists _; iexact Hs1
    isplitl [Hs2]; · iexists _; iexact Hs2
    isplitl [Hs3]; · iexists _; iexact Hs3
    isplitl [Hm1]; · iexact Hm1
    isplitl [Hm2]; · iexact Hm2
    isplitl [Hm3]; · iexact Hm3
    isplitl [Hk'' Hrest]
    · rw [chunks_put]
      isplitl [Hk'']; · iexact Hk''
      iexact Hrest
    iexists (insert (SemLoc.dma cc0_scoped3.sem, (default : HIx 1)) (insert (SemLoc.dma cc0_scoped2.sem, (default : HIx 1))
      (insert (SemLoc.dma cc0_scoped1.sem, (default : HIx 1)) W'))); isplitr
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      · exact hW' p hp
    · iexact HO
  · unfold inv1
    isplitr; · iexact Hmw
    isplitl [H6']; · iexact H6'
    isplitl [H7']; · iexact H7'
    isplitl [Hs0'']; · iexact Hs0''
    isplitl [Hs1']; · iexists _; iexact Hs1'
    isplitl [Hs2']; · iexists _; iexact Hs2'
    isplitl [Hs3']; · iexists _; iexact Hs3'
    isplitl [Hm1]; · iexact Hm1
    isplitl [Hm2]; · iexact Hm2
    isplitl [Hm3]; · iexact Hm3
    isplitl [Hch]; · iexact Hch
    iexists (insert (SemLoc.dma cc0_scoped0.sem, (default : HIx 1)) W); isplitr
    · ipureintro; intro p hp
      rcases Finset.mem_insert.mp hp with hp | hp
      · exact .inr (hp ▸ rfl)
      · exact .inl hp
    · iexact HO
  iintro %_ HI
  unfold inv1
  icases HI with ⟨-, H6, H7, Hs0, ⟨%fr, Hs1⟩, ⟨%fq, Hs2⟩, ⟨%fo, Hs3⟩, Hm1, Hm2, Hm3, Hch, %W', %hW', HO⟩
  sl_exec
  sl_step
  ihave Hou := (Entails.of_eq (chunks_done d L w6 w7 w5 o0)) $$ Hch
  isplitl [H6 H7 H5' Hou]
  · isplitl [H6]; · iapply (Entails.of_eq (pts_rp (F := F) d L _ _)); iexact H6
    isplitl [H7]; · iapply (Entails.of_eq (pts_qf (F := F) d L _ _)); iexact H7
    isplitl [H5']; · iapply (Entails.of_eq (pts_tb (F := F) d L _ _)); iexact H5'
    iexact Hou
  isplitl [Hs0 Hs1 Hs2 Hs3 Hbufs]
  · isplitl [Hs0]; · iexists _; iexact Hs0
    isplitl [Hs1]; · iexists _; iexact Hs1
    isplitl [Hs2]; · iexists _; iexact Hs2
    isplitl [Hs3]; · iexists _; iexact Hs3
    iexact Hbufs
  isplitl [Hm0 Hm1 Hm2 Hm3 Hsems]
  · isplitl [Hm0]; · iexact Hm0
    isplitl [Hm1]; · iexact Hm1
    isplitl [Hm2]; · iexact Hm2
    isplitl [Hm3]; · iexact Hm3
    iexact Hsems
  iexists W'; isplitr
  · ipureintro; exact hW'
  · iexact HO

end Body

end Cert.Kernel.Tile

end
-- ==== Proof.KLaunchB.lean ====
/-
  The launch of the kernel, second part: @main on the TensorCore. Its eight operations before the call run
  as one straight line over all of the TensorCore's arrays; the call takes the three flat inputs and the flat output,
  dealt to the tiles, and brings them back, the output at one array that agrees with each tile's final function on
  its slab; the last reshape runs over all the arrays again. What is left reads, against the final memory, the seven
  arguments at their launch contents and the result as the reshape of that array.
-/
import proofs.«204784_g45775761440795_cont_8to1c4_693_3_alg».proof.Proof.KLaunchA

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq seq after tcRefs)

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## @main's operations -/

/-- A TensorCore reference, as a buffer of the device. -/
abbrev dv (b : Ref sig .tc) : DevRef τ sig := Proc.devRef .tc b

abbrev op0 : HloOp τ sig (Elt F) := StableHlo.reshape main_arg4 main_v0 rfl shapeCasts_S753x8x4_S24096
abbrev op1 : HloOp τ sig (Elt F) := StableHlo.reshape main_arg5 main_v1 rfl shapeCasts_S753x8x4_S24096
abbrev op2 : HloOp τ sig (Elt F) := StableHlo.reshape main_arg6 main_v2 rfl shapeCasts_S31x8x4_S992
abbrev op3 : HloOp τ sig (Elt F) :=
  StableHlo.nary ![main_v0, main_v1, main_v2] main_v3
    (fun u => concatenate S49184 0 [⟨S24096, u 0⟩, ⟨S24096, u 1⟩, ⟨S992, u 2⟩] concatenates_S24096_S24096_S992_S49184_d0)
abbrev op4 : HloOp τ sig (Elt F) :=
  StableHlo.unary main_arg2 main_v4
    (broadcastInDim S49184 ![] bcast_S_S49184 : (⟨S_, .f32⟩ : BufTy).Contents (Elt F) → (⟨S49184, .f32⟩ : BufTy).Contents (Elt F))
abbrev op5 : HloOp τ sig (Elt F) :=
  StableHlo.binary main_v3 main_v4 main_v5
    (mulf : (⟨S49184, .f32⟩ : BufTy).Contents (Elt F) → (⟨S49184, .f32⟩ : BufTy).Contents (Elt F) → (⟨S49184, .f32⟩ : BufTy).Contents (Elt F))
abbrev op6 : HloOp τ sig (Elt F) := StableHlo.reshape main_arg0 main_v6 rfl shapeCasts_S65536x32x3_S6291456
abbrev op7 : HloOp τ sig (Elt F) := StableHlo.reshape main_arg1 main_v7 rfl shapeCasts_S65536x8x12_S6291456
/-- The last reshape, of the flat output. -/
abbrev opR : HloOp τ sig (Elt F) := StableHlo.reshape main_v8 main_v9 rfl shapeCasts_S16777216_S65536x32x8

/-- The operations before the call, in order. -/
def hostOps : List (HloOp τ sig (Elt F)) := [op0, op1, op2, op3, op4, op5, op6, op7]

/-- @main is that line, the call, the last reshape. -/
theorem main_eq (d : Dev nD) :
    main (F := F) d = (seq hostOps >>= fun _ => (K (F := F)).run d 0 >>= fun _ => (hlo rfl opR fun _ => .ret (⟨⟩ : PUnit)) >>= fun _ => pure ⟨⟩) := by
  simp only [main, hostOps, seq, bind_assoc, pure_bind]

theorem hostOps_sub : ∀ op ∈ (hostOps : List (HloOp τ sig (Elt F))), op.bufs ⊆ tcRefs τ sig := by
  intro op hop
  simp only [hostOps, List.mem_cons, List.not_mem_nil, or_false] at hop
  rcases hop with rfl | rfl | rfl | rfl | rfl | rfl | rfl | rfl
  · exact StableHlo.reshape_bufs_sub ..
  · exact StableHlo.reshape_bufs_sub ..
  · exact StableHlo.reshape_bufs_sub ..
  · exact StableHlo.nary_bufs_sub ..
  · exact StableHlo.unary_bufs_sub ..
  · exact StableHlo.binary_bufs_sub ..
  · exact StableHlo.reshape_bufs_sub ..
  · exact StableHlo.reshape_bufs_sub ..

theorem hostOps_fresh : ∀ op ∈ (hostOps : List (HloOp τ sig (Elt F))), op.fresh = ∅ := by
  intro op hop
  simp only [hostOps, List.mem_cons, List.not_mem_nil, or_false] at hop
  rcases hop with rfl | rfl | rfl | rfl | rfl | rfl | rfl | rfl <;> rfl

theorem opR_sub : (opR (F := F)).bufs ⊆ tcRefs τ sig := StableHlo.reshape_bufs_sub ..

/-! ## The arrays' contents along @main -/

/-- At the launch; -/
abbrev V0 (d : Dev nD) : Valuation τ sig (Elt F) := fun b => m (d, b)
/-- when the call starts; -/
def V1 (d : Dev nD) : Valuation τ sig (Elt F) := after hostOps (V0 m d)
/-- when it has returned, the flat output at `g`; -/
def V2 (d : Dev nD) (g : Buf (Elt F) (ouLoc d)) : Valuation τ sig (Elt F) := Function.update (V1 m d) (dv main_v8) g
/-- at the end. -/
def Vf (d : Dev nD) (g : Buf (Elt F) (ouLoc d)) : Valuation τ sig (Elt F) := (opR (F := F)).result (V2 m d g)

/-- A concatenation's result over a literal family of three operands, each operand's contents at its own reference. -/
theorem nary3_result {x a b y : Ref sig .tc}
    (f : ((k : Fin 3) → ((![x, a, b] : Fin 3 → Ref sig .tc) k).ty.Contents (Elt F)) → y.ty.Contents (Elt F)) (hxs hy)
    (W : Valuation τ sig (Elt F)) :
    (StableHlo.nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [StableHlo.nary_result]; congr 1; funext k; fin_cases k <;> rfl

theorem V1_v6 (d : Dev nD) : V1 m d (dv main_v6) = w6Of m d := by
  unfold V1 hostOps
  simp only [StableHlo.after_cons, StableHlo.after_nil]
  repeat (first
    | rw [StableHlo.reshape_result]
    | (rw [StableHlo.reshape_result_ne]; rotate_left; decide)
    | (rw [StableHlo.unary_result_ne]; rotate_left; decide)
    | (rw [StableHlo.binary_result_ne]; rotate_left; decide)
    | (rw [StableHlo.nary_result_ne]; rotate_left; decide))
  rfl

theorem V1_v7 (d : Dev nD) : V1 m d (dv main_v7) = w7Of m d := by
  unfold V1 hostOps
  simp only [StableHlo.after_cons, StableHlo.after_nil]
  repeat (first
    | rw [StableHlo.reshape_result]
    | (rw [StableHlo.reshape_result_ne]; rotate_left; decide)
    | (rw [StableHlo.unary_result_ne]; rotate_left; decide)
    | (rw [StableHlo.binary_result_ne]; rotate_left; decide)
    | (rw [StableHlo.nary_result_ne]; rotate_left; decide))
  rfl

theorem V1_v5 (d : Dev nD) : V1 m d (dv main_v5) = w5Of m d := by
  unfold V1 hostOps
  simp only [StableHlo.after_cons, StableHlo.after_nil]
  repeat (first
    | rw [nary3_result]
    | rw [StableHlo.reshape_result]
    | rw [StableHlo.unary_result]
    | rw [StableHlo.binary_result]
    | (rw [StableHlo.reshape_result_ne]; rotate_left; decide)
    | (rw [StableHlo.unary_result_ne]; rotate_left; decide)
    | (rw [StableHlo.binary_result_ne]; rotate_left; decide)
    | (rw [StableHlo.nary_result_ne]; rotate_left; decide))
  rfl

/-- A reference no operation before the call writes is at its launch contents when the call starts. -/
theorem V1_keep (d : Dev nD) (r : Ref sig .tc)
    (hr : r ∉ [main_v0, main_v1, main_v2, main_v3, main_v4, main_v5, main_v6, main_v7]) : V1 m d (dv r) = m (d, dv r) := by
  unfold V1
  refine StableHlo.after_of_forall_not_mem hostOps (V0 m d) fun op hop hb => hr ?_
  simp only [hostOps, List.mem_cons, List.not_mem_nil, or_false] at hop
  rcases hop with rfl | rfl | rfl | rfl | rfl | rfl | rfl | rfl <;>
    (simp only [StableHlo.reshape_writes, StableHlo.nary_writes, StableHlo.unary_writes, StableHlo.binary_writes, Finset.mem_singleton] at hb
     have := Proc.devRef_injective _ hb
     subst this
     decide)

theorem V2_v8 (d : Dev nD) (g : Buf (Elt F) (ouLoc d)) : V2 m d g (dv main_v8) = g := Function.update_self _ _ _
theorem V2_ne (d : Dev nD) (g : Buf (Elt F) (ouLoc d)) {r : Ref sig .tc} (h : r ≠ main_v8) : V2 m d g (dv r) = V1 m d (dv r) :=
  Function.update_of_ne (StableHlo.devRef_ne_of_ne h) _ _

theorem Vf_v9 (d : Dev nD) (g : Buf (Elt F) (ouLoc d)) : Vf m d g (dv main_v9) = outOf g := by
  unfold Vf
  rw [StableHlo.reshape_result, V2_v8]
  rfl

theorem Vf_arg (d : Dev nD) (g : Buf (Elt F) (ouLoc d)) (r : Ref sig .tc) (h9 : r ≠ main_v9) (h8 : r ≠ main_v8)
    (hr : r ∉ [main_v0, main_v1, main_v2, main_v3, main_v4, main_v5, main_v6, main_v7]) : Vf m d g (dv r) = m (d, dv r) := by
  unfold Vf
  rw [StableHlo.reshape_result_ne (h := h9), V2_ne m d g h8, V1_keep m d r hr]

/-! ## All of the TensorCore's arrays, and the call's four among them -/

theorem scopedRefs_eq : (Finset.univ.filter fun b : Ref sig .tc => b.isScoped) = ∅ := by decide

omit [FloatOps F] in
theorem unscoped_held (d : Dev nD) :
    (unscopedBufs d (fun b => m ((SparseCore.T d).loc b)) : sProp 𝕄) = held (T d) (tcRefs τ sig) (V0 m d) := by
  unfold unscopedBufs held tcRefs
  rw [show (Finset.univ.filter fun b : Ref sig .tc => ¬ b.isScoped) = Finset.univ from
      Finset.filter_true_of_mem fun b _ hb => by
        have : b ∈ (Finset.univ.filter fun b : Ref sig .tc => b.isScoped) := Finset.mem_filter.mpr ⟨Finset.mem_univ b, hb⟩
        rw [scopedRefs_eq] at this; exact absurd this (Finset.notMem_empty b),
    bigSep_map]
  rfl

/-- The call's four operands. -/
abbrev T4 : Finset (DevRef τ sig) := {dv main_v6, dv main_v7, dv main_v5, dv main_v8}

theorem T4_sub : T4 ⊆ tcRefs τ sig := by
  intro b hb
  simp only [T4, Finset.mem_insert, Finset.mem_singleton] at hb
  rcases hb with rfl | rfl | rfl | rfl <;> exact StableHlo.devRef_mem_tcRefs _

omit [FloatOps F] in
theorem held_T4 (d : Dev nD) (W : Valuation τ sig (Elt F)) :
    (held (T d) T4 W : sProp 𝕄)
      = iprop((rpLoc d ↦{fullShare} W (dv main_v6)) ∗ (qfLoc d ↦{fullShare} W (dv main_v7)) ∗ (tbLoc d ↦{fullShare} W (dv main_v5))
          ∗ (ouLoc d ↦{fullShare} W (dv main_v8))) := by
  unfold held T4
  rw [SparseCore.bigSep_insert' (by decide), SparseCore.bigSep_insert' (by decide), SparseCore.bigSep_insert' (by decide), bigSep_singleton]

/-- All the arrays when the call starts: the call's operands at the host terms, and the rest. -/
theorem held_V1 (d : Dev nD) :
    (held (T d) (tcRefs τ sig) (V1 m d) : sProp 𝕄)
      = iprop(((rpLoc d ↦{fullShare} w6Of m d) ∗ (qfLoc d ↦{fullShare} w7Of m d) ∗ (tbLoc d ↦{fullShare} w5Of m d)
          ∗ (ouLoc d ↦{fullShare} m (ouLoc d))) ∗ held (T d) (tcRefs τ sig \ T4) (V1 m d)) := by
  rw [StableHlo.held_sub_split (T d) T4_sub, held_T4, V1_v6, V1_v7, V1_v5, V1_keep m d main_v8 (by decide)]

/-- All the arrays when it has returned, the flat output at `g`. -/
theorem held_V2 (d : Dev nD) (g : Buf (Elt F) (ouLoc d)) :
    (held (T d) (tcRefs τ sig) (V2 m d g) : sProp 𝕄)
      = iprop(((rpLoc d ↦{fullShare} w6Of m d) ∗ (qfLoc d ↦{fullShare} w7Of m d) ∗ (tbLoc d ↦{fullShare} w5Of m d)
          ∗ (ouLoc d ↦{fullShare} g)) ∗ held (T d) (tcRefs τ sig \ T4) (V1 m d)) := by
  rw [StableHlo.held_sub_split (T d) T4_sub, held_T4, V2_v8, V2_ne m d g (show main_v6 ≠ main_v8 by decide),
    V2_ne m d g (show main_v7 ≠ main_v8 by decide), V2_ne m d g (show main_v5 ≠ main_v8 by decide), V1_v6, V1_v7, V1_v5,
    StableHlo.held_congr (T d) (S := tcRefs τ sig \ T4) (V := V2 m d g) (V' := V1 m d) fun b hb =>
      Function.update_of_ne (fun e => (Finset.mem_sdiff.mp hb).2 (by rw [e]; simp [T4])) _ _]

theorem held_after (d : Dev nD) :
    (held (T d) (tcRefs τ sig) (after hostOps (V0 m d)) : sProp 𝕄)
      = iprop(((rpLoc d ↦{fullShare} w6Of m d) ∗ (qfLoc d ↦{fullShare} w7Of m d) ∗ (tbLoc d ↦{fullShare} w5Of m d)
          ∗ (ouLoc d ↦{fullShare} m (ouLoc d))) ∗ held (T d) (tcRefs τ sig \ T4) (V1 m d)) := held_V1 m d

variable (TO : (d : Dev nD) → Fin 2 → Fin 16 → Buf (Elt F) (ouLoc d))

theorem st0_call (d : Dev nD) :
    (bigSep Finset.univ fun c : Fin ((K (F := F)).nCore 0) => (P (callData m TO)).st 0 d c)
      = bigSep Finset.univ fun c : Fin 2 => bigSep Finset.univ fun s : Fin 16 => goRes d (w6Of m d) (w7Of m d) (w5Of m d) (m (ouLoc d)) c s :=
  st0_eq (callData m TO) d
theorem dn0_call (d : Dev nD) :
    (bigSep Finset.univ fun c : Fin ((K (F := F)).nCore 0) => (P (callData m TO)).dn 0 d c)
      = bigSep Finset.univ fun c : Fin 2 => bigSep Finset.univ fun s : Fin 16 => tdRes d (w6Of m d) (w7Of m d) (w5Of m d) (TO d) c s :=
  dn0_eq (callData m TO) d

/-! ## @main on the TensorCore -/

/-- What @main leaves the claim: all the TensorCore's arrays at their final contents, for a flat output `g` that agrees
    with each tile's final function on its slab. -/
def FIN (d : Dev nD) : sProp 𝕄 :=
  iprop(∃ g : Buf (Elt F) (ouLoc d), ⌜∀ (c : Fin 2) (s : Fin 16), ∀ j ∈ slab c s, g j = TO d c s j⌝ ∗ held (T d) (tcRefs τ sig) (Vf m d g))

theorem hmain (κ : GSem nD τ sig → ℕ) (d : Dev nD) :
    iprop((K (F := F)).ctx EH (P (callData m TO)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m TO d) := by
  unfold SparseCore.Cfg.tcRes
  rw [unscoped_held, main_eq]
  iintro ⟨#Hctx, Hst, ⟨Hb, Hheld, -, -⟩, -⟩
  -- the operations before the call, over all the arrays
  iapply (wp_seq 𝒱 none Set.univ d (tcRefs τ sig) _ hostOps hostOps_sub hostOps_fresh (V0 m d)) $$ [Hb Hheld]
  · isplitl [Hb]; · iexact Hb
    iexact Hheld
  iintro ⟨Hb, Hheld⟩
  ihave Hh := (Entails.of_eq (held_after m d)) $$ Hheld
  icases Hh with ⟨⟨H6, H7, H5, Ho⟩, Hrest⟩
  -- the call: the four operands dealt to the tiles, the shares' remainders kept
  ihave Hsp := (call_split d (w6Of m d) (w7Of m d) (w5Of m d) (m (ouLoc d))) $$ [H6 H7 H5 Ho]
  · isplitl [H6]; · iexact H6
    isplitl [H7]; · iexact H7
    isplitl [H5]; · iexact H5
    iexact Ho
  icases Hsp with ⟨Hkeep, Hgo⟩
  simp only [wp_bind, wp_pure]
  iapply ((K (F := F)).wp_run (D (F := F)) 𝒱 (EH := EH) (P := P (callData m TO)) κ d 0) $$ [Hst Hgo Hb Hkeep Hrest]
  isplitr; · iexact Hctx
  isplitl [Hst]; · iexact Hst
  isplitl [Hgo]
  · rw [st0_call]; iexact Hgo
  iintro ⟨Hst, Hdn⟩
  ihave Hdn' := (Entails.of_eq (dn0_call m TO d)) $$ Hdn
  ihave Hj := (call_join d (w6Of m d) (w7Of m d) (w5Of m d) (TO d)) $$ [Hkeep Hdn']
  · isplitl [Hkeep]; · iexact Hkeep
    iexact Hdn'
  icases Hj with ⟨H6, H7, H5, %g, %hg, Ho⟩
  ihave Hheld := (Entails.of_eq (held_V2 m d g).symm) $$ [H6 H7 H5 Ho Hrest]
  · isplitl [H6 H7 H5 Ho]
    · isplitl [H6]; · iexact H6
      isplitl [H7]; · iexact H7
      isplitl [H5]; · iexact H5
      iexact Ho
    iexact Hrest
  -- the last reshape, over all the arrays
  iapply (wp_hlo_within 𝒱 (SparseCore.T d) none Set.univ (op := opR) (S := tcRefs τ sig) opR_sub (V := V2 m d g)) $$ [Hb Hheld]
  · isplitl [Hb]; · iexact Hb
    iexact Hheld
  iintro ⟨Hb, Hheld⟩
  rw [wp_ret]; imodintro; imodintro
  isplitl [Hst]; · iexact Hst
  unfold FIN
  iexists g; isplitr
  · ipureintro; exact hg
  iexact Hheld

/-- What the claim reads off the final memory of device `d`. -/
def fq (d : Dev nD) (s' : Phys nD τ sig (Elt F)) : Prop :=
  (∃ g : Buf (Elt F) (ouLoc d), s'.mem.mem ((d.tc : Thread nD τ).loc main_v9) = outOf g
      ∧ ∀ (c : Fin 2) (s : Fin 16), ∀ j ∈ slab c s, g j = TO d c s j)
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5)
    ∧ s'.mem.mem ((d.tc : Thread nD τ).loc main_arg6) = m ((d.tc : Thread nD τ).loc main_arg6)

theorem hfin (d : Dev nD) (s' : Phys nD τ sig (Elt F)) : iprop(FIN m TO d ∗ SI s') ⊢ (⌜fq m TO d s'⌝ : sProp 𝕄) := by
  unfold FIN held
  iintro ⟨⟨%g, %hg, H⟩, HSI⟩
  ihave %h := (SI_pointsTo_bufs_agree (c := d) (qs := fun _ => fullShare) (F := Vf m d g) (tcRefs τ sig)) $$ [HSI H]
  · isplitl [HSI]; · iexact HSI
    iexact H
  ipureintro
  have ha : ∀ r : Ref sig .tc, r ≠ main_v9 → r ≠ main_v8 → r ∉ [main_v0, main_v1, main_v2, main_v3, main_v4, main_v5, main_v6, main_v7] →
      s'.mem.mem ((d.tc : Thread nD τ).loc r) = m ((d.tc : Thread nD τ).loc r) :=
    fun r h9 h8 hr => (h _ (StableHlo.devRef_mem_tcRefs r)).trans (Vf_arg m d g r h9 h8 hr)
  exact ⟨⟨g, (h _ (StableHlo.devRef_mem_tcRefs main_v9)).trans (Vf_v9 m d g), hg⟩,
    ha main_arg0 (by decide) (by decide) (by decide), ha main_arg1 (by decide) (by decide) (by decide),
    ha main_arg2 (by decide) (by decide) (by decide), ha main_arg3 (by decide) (by decide) (by decide),
    ha main_arg4 (by decide) (by decide) (by decide), ha main_arg5 (by decide) (by decide) (by decide),
    ha main_arg6 (by decide) (by decide) (by decide)⟩

end Cert.Kernel.Tile

end
-- ==== Proof.KLaunch.lean ====
/-
  The launch of the kernel: from one vector subcore's obligation to the run of the whole program.
  @main on the TensorCore reshapes the relative positions and the query features flat, reshapes the three tables
  flat, concatenates them and scales the result by the broadcast scalar, calls the kernel on the 2 × 16 vector
  subcores, and reshapes the flat output. Every tile reads the three flat inputs whole, through a read share of
  its own, and writes its own slab of the flat output; the slabs are pairwise disjoint and cover the output, so
  what the call leaves is one array agreeing with each tile's final function on that tile's slab.
-/
import proofs.«204784_g45775761440795_cont_8to1c4_693_3_alg».proof.Proof.KLaunchB

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq seq after tcRefs)

variable {F : FTy → Type}

local notation "𝕄" => MT nD τ sig (HIx 1) (Elt F) ℕ UU ℕ

variable [FloatOps F]

variable (m : (ℓ : Loc nD τ sig) → Buf (Elt F) ℓ)

/-! ## The program's run -/

/-- From one vector subcore's obligation: every weakly fair execution of the whole program terminates, nothing
    faulting; the result is the reshape of a flat output that agrees with each tile's final function on its slab, and
    the seven arguments are unchanged. -/
theorem run_main [∀ e, Nonempty (Elt F e)] (ρ : Dev nD → PrngReg) (TO : (d : Dev nD) → Fin 2 → Fin 16 → Buf (Elt F) (ouLoc d))
    (htile : (K (F := F)).TileObl (D (F := F)) 𝒱 (P (callData m TO)) v₀ 0) :
    θ_run (Cert.Kernel.defs (F := F)) (Cert.Kernel.threads (F := F)) ⟨m, fun _ => 0, ρ⟩ (fun r => ∀ c : Dev nD,
      (∃ g : Buf (Elt F) (ouLoc c), r.2.mem ((c.tc : Thread nD τ).loc main_v9) = outOf g
          ∧ ∀ (cc : Fin 2) (s : Fin 16), ∀ j ∈ slab cc s, g j = TO c cc s j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  SparseCore.Cfg.θ_run_sc (K := K (F := F)) (D := D (F := F)) (𝒱 := 𝒱) (EH := EH) (P := P (callData m TO)) facts v₀
    (fun q hq => match q with | 0 => nomatch hq)
    (fun q _ => match q with | 0 => htile)
    (fun q _ => match q with | 0 => SparseCore.Cfg.VecSplit.of_plain (vecSplit (callData m TO)))
    m ρ main (fun _ => iprop(emp)) (FIN m TO) (u₀ (F := F)) (sep_elim_left.trans (hu₀ (callData m TO))) (hmain m ρ TO) (fq m TO) (hfin m TO)
    _ (fun _ h => h)

end Cert.Kernel.Tile

end
-- ==== Proof.KTileRun.lean ====
/-
  A tile's task, third part: the task as the launch theorem's obligation for every tile of the grid, and the
  program's run from it.
-/
import proofs.«204784_g45775761440795_cont_8to1c4_693_3_alg».proof.Proof.KTile
import proofs.«204784_g45775761440795_cont_8to1c4_693_3_alg».proof.Proof.KLaunch
import Idealize.ShloMosaic.Lib.Tactic

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "rpW" => (Memref.whole Cert.Kernel.main_v6_scv : Memref Cert.Kernel.sig Kind.scVector Space.hbm Cert.Kernel.S6291456 EltTy.f32)
local notation "qfW" => (Memref.whole Cert.Kernel.main_v7_scv : Memref Cert.Kernel.sig Kind.scVector Space.hbm Cert.Kernel.S6291456 EltTy.f32)
local notation "tbW" => (Memref.whole Cert.Kernel.main_v5_scv : Memref Cert.Kernel.sig Kind.scVector Space.hbm Cert.Kernel.S49184 EltTy.f32)
local notation "ouW" => (Memref.whole Cert.Kernel.main_v8_scv : Memref Cert.Kernel.sig Kind.scVector Space.hbm Cert.Kernel.S16777216 EltTy.f32)
local notation "s0W" => (Memref.whole Cert.Kernel.cc0_scratch0 : Memref Cert.Kernel.sig Kind.scVector Space.vmem Cert.Kernel.S49184 EltTy.f32)
local notation "s1W" => (Memref.whole Cert.Kernel.cc0_scratch1 : Memref Cert.Kernel.sig Kind.scVector Space.vmem Cert.Kernel.S6144 EltTy.f32)
local notation "s2W" => (Memref.whole Cert.Kernel.cc0_scratch2 : Memref Cert.Kernel.sig Kind.scVector Space.vmem Cert.Kernel.S6144 EltTy.f32)
local notation "s3W" => (Memref.whole Cert.Kernel.cc0_scratch3 : Memref Cert.Kernel.sig Kind.scVector Space.vmem Cert.Kernel.S16384 EltTy.f32)

variable [FloatOps F]

/-! ## The launch theorem's obligation -/

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          rpW (Memref.isWhole_whole _) qfW (Memref.isWhole_whole _) tbW (Memref.isWhole_whole _) ouW (Memref.isWhole_whole _)
          s0W (Memref.isWhole_whole _) s1W (Memref.isWhole_whole _) s2W (Memref.isWhole_whole _) s3W (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (m : (ℓ : Loc nD τ sig) → Buf (Elt F) ℓ)

/-- Every tile's final function of the flat output, from the launch memory. -/
def tileOuts (d : Dev nD) (c : Fin 2) (s : Fin 16) : Buf (Elt F) (ouLoc d) :=
  tileOut d (coordsV c s) (w6Of m d) (w7Of m d) (w5Of m d) (m (ouLoc d))

theorem tileObl (hG : TripsOverwrite (F := F)) : (K (F := F)).TileObl (D (F := F)) 𝒱 (P (callData m (tileOuts m))) v₀ 0 := by
  intro d c i O W hO _ _
  -- this kernel owes nothing for a protocol of its own
  simp only [show (P (callData m (tileOuts m))).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x, P_go, P_td]
  unfold tdRes
  exact (tile_body d (coordsV ⟨_, hc.1⟩ ⟨_, hc.2⟩) (w6Of m d) (w7Of m d) (w5Of m d) (m (ouLoc d)) facts hG O W hO).trans
    (wp_mono frame _ _ fun _ => obl_post)

/-! ## The program's run -/

/-- Every weakly fair execution of the whole program terminates, nothing faulting; the result is the reshape of a flat
    output that is, on each tile's slab, that tile's final function; the seven arguments are unchanged. -/
theorem run [∀ e, Nonempty (Elt F e)] (hG : TripsOverwrite (F := F)) (ρ : Dev nD → PrngReg) :
    θ_run (Cert.Kernel.defs (F := F)) (Cert.Kernel.threads (F := F)) ⟨m, fun _ => 0, ρ⟩ (fun r => ∀ c : Dev nD,
      (∃ g : Buf (Elt F) (ouLoc c), r.2.mem ((c.tc : Thread nD τ).loc main_v9) = outOf g
          ∧ ∀ (cc : Fin 2) (s : Fin 16), ∀ j ∈ slab cc s, g j = tileOuts m c cc s j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_main m ρ (tileOuts m) (tileObl m hG)

end Cert.Kernel.Tile

end
-- ==== Proof.KQValue.lean ====
/-
  The value one trip of the per-query loop computes, lane by lane. For the query at position k of the staged chunk,
  neighbour l = 16 · lg + lane and head h, the accumulator is the left fold, from the zero word, of twelve products
  (table word) · (feature word): direction outer, component inner. The table word is word h · 4 + c of the row of
  the bucket of the neighbour's relative position along the direction — (y + extent) / 0.4 truncated and clipped —,
  in the direction's table; the feature word is word k · 96 + h · 12 + 4 · direction + c of the staged features.
  Every index is read off the machine-word arithmetic of the trip by the lane-range lemmas: no chain wraps.
-/
import proofs.«204784_g45775761440795_cont_8to1c4_693_3_alg».proof.Proof.KQTrip
import Idealize.ShloMosaic.Lib.ValueIdx

noncomputable section

namespace Cert.Kernel.Tile

open Cert.Kernel Cert.Kernel.Gen Cert.LaneRanges
open Idealize.ShloMosaic Idealize.ShloMosaic.ValueIdx

variable {F : FTy → Type} [FloatOps F]

/-- Per direction (x, y, z): the largest bucket, the bits of the range's extent added before the division, and the
    word offset of the direction's table. -/
def hiW : Fin 3 → BitVec 32 := ![752#32, 752#32, 30#32]
def mdW : Fin 3 → BitVec 32 := ![0x43166666#32, 0x43166666#32, 0x40C00000#32]
def toffW : Fin 3 → BitVec 32 := ![0#32, 24096#32, 48192#32]

/-- The clipped bucket of a relative position `y` along direction `dd`: (y + extent) / 0.4 truncated to a word,
    clipped to [0, hi]. -/
def bucketWord (dd : Fin 3) (y : F .f32) : BitVec 32 :=
  IntOp.minsi (hiW dd) (IntOp.maxsi 0#32 (FloatOps.fptosi 32
    (FloatOps.divf (FloatOps.addf y (FloatOps.ofBits .f32 (mdW dd))) (FloatOps.ofBits .f32 0x3ECCCCCD#32))))

/-- The first table word of the bucket's row: bucket · 32 + the direction's offset. -/
def bucketBase (dd : Fin 3) (y : F .f32) : BitVec 32 := IntOp.addi (IntOp.muli (bucketWord dd y) 32#32) (toffW dd)

theorem hiW_lt (dd : Fin 3) : (hiW dd).toNat < 2 ^ 31 := by fin_cases dd <;> decide

theorem bucketWord_le (dd : Fin 3) (y : F .f32) : (bucketWord dd y).toNat ≤ (hiW dd).toNat :=
  clip_toNat_le (hiW dd) _ (hiW_lt dd)

theorem row_lt (dd : Fin 3) : (hiW dd).toNat * 32 + (toffW dd).toNat + 31 < 49184 := by fin_cases dd <;> decide

theorem tab_lt (dd : Fin 3) (y : F .f32) (w : Fin 32) : (bucketWord dd y).toNat * 32 + (toffW dd).toNat + w.val < 49184 := by
  have h := bucketWord_le dd y
  have hr := row_lt dd
  have hw := w.isLt
  omega

/-- Word of the staged positions: neighbour 16·lg + lane of query k, direction dd. -/
def posIx (k : Fin k0_t2_loop.trips) (lg : Fin 2) (dd : Fin 3) (lane : Fin 16) : S6144.Idx :=
  ix1 ⟨lane.val * 3 + (k.val * 96 + lg.val * 48 + dd.val), by
    have := trip_lt k; have := lane.isLt; have := lg.isLt; have := dd.isLt; omega⟩

/-- Word of the staged features: head h, direction dd, component c of query k. -/
def featIx (k : Fin k0_t2_loop.trips) (h : Fin 8) (dd : Fin 3) (c : Fin 4) : S6144.Idx :=
  ix1 ⟨k.val * 96 + h.val * 12 + dd.val * 4 + c.val, by
    have := trip_lt k; have := h.isLt; have := c.isLt; have := dd.isLt; omega⟩

/-- Word w of the table row of position `y`'s bucket along direction dd. -/
def tabIx (dd : Fin 3) (y : F .f32) (w : Fin 32) : S49184.Idx :=
  ix1 ⟨(bucketWord dd y).toNat * 32 + (toffW dd).toNat + w.val, tab_lt dd y w⟩

/-- The zero an accumulator starts from. -/
def zeroW : F .f32 := FloatOps.ofBits .f32 0#32

/-- Twelve terms added one by one onto `z`, direction outer, component inner. -/
def sum12 (z : F .f32) (p : Fin 3 → Fin 4 → F .f32) : F .f32 :=
  FloatOps.addf (FloatOps.addf (FloatOps.addf (FloatOps.addf (FloatOps.addf (FloatOps.addf (FloatOps.addf (FloatOps.addf
    (FloatOps.addf (FloatOps.addf (FloatOps.addf (FloatOps.addf z (p 0 0)) (p 0 1)) (p 0 2)) (p 0 3))
      (p 1 0)) (p 1 1)) (p 1 2)) (p 1 3)) (p 2 0)) (p 2 1)) (p 2 2)) (p 2 3)

/-- The accumulator of head h for neighbour 16·lg + lane of query k: the twelve products (table word) · (feature word). -/
def kqA (ft : Vec F S49184 .f32) (fr fq : Vec F S6144 .f32) (k : Fin k0_t2_loop.trips) (lg : Fin 2) (lane : Fin 16) (h : Fin 8) : F .f32 :=
  sum12 zeroW (fun dd c => FloatOps.mulf
    (ft (tabIx dd (fr (posIx k lg dd lane)) ⟨h.val * 4 + c.val, by have := h.isLt; have := c.isLt; omega⟩))
    (fq (featIx k h dd c)))

theorem sum12_eq (z a00 a01 a02 a03 a10 a11 a12 a13 a20 a21 a22 a23 : F .f32) (p : Fin 3 → Fin 4 → F .f32)
    (hz : z = zeroW) (h00 : a00 = p 0 0) (h01 : a01 = p 0 1) (h02 : a02 = p 0 2) (h03 : a03 = p 0 3)
    (h10 : a10 = p 1 0) (h11 : a11 = p 1 1) (h12 : a12 = p 1 2) (h13 : a13 = p 1 3)
    (h20 : a20 = p 2 0) (h21 : a21 = p 2 1) (h22 : a22 = p 2 2) (h23 : a23 = p 2 3) :
    FloatOps.addf (FloatOps.addf (FloatOps.addf (FloatOps.addf (FloatOps.addf (FloatOps.addf (FloatOps.addf (FloatOps.addf
      (FloatOps.addf (FloatOps.addf (FloatOps.addf (FloatOps.addf z a00) a01) a02) a03) a10) a11) a12) a13) a20) a21) a22) a23
      = sum12 zeroW p := by
  subst hz h00 h01 h02 h03 h10 h11 h12 h13 h20 h21 h22 h23
  rfl

/-- A gathered word: lane x of an indexed load from a rank-one buffer is the word at the lane's index. -/
theorem load_leaf {N : Nat} (f' f : Vec F ⟨1, ![N]⟩ .f32) (v : IVec S16 32)
    (hv : ∀ a x, ((![v] : Fin 1 → IVec S16 32) a x).toNat < (⟨1, ![N]⟩ : Shape).size a) (x : S16.Idx)
    (i : (⟨1, ![N]⟩ : Shape).Idx) (ef : f' = f) (ei : (v x).toNat = (i 0).val) :
    loadIdx f' ![v] hv x = f i := by
  subst ef
  unfold loadIdx
  congr 1
  funext a
  obtain rfl : a = 0 := Subsingleton.elim _ _
  exact Fin.ext ei

/-- The table index bucket · 32 + offset + w does not wrap. -/
theorem tab_toNat (dd : Fin 3) (y : F .f32) (w : BitVec 32) (wn : Fin 32) (ew : w.toNat = wn.val) :
    (IntOp.addi (bucketBase dd y) w).toNat = ((tabIx dd y wn) 0).val := by
  have h := bucketWord_le dd y
  have hr := row_lt dd
  have hw := wn.isLt
  show ((bucketWord dd y * 32#32 + toffW dd) + w).toNat = (bucketWord dd y).toNat * 32 + (toffW dd).toNat + wn.val
  rw [BitVec.toNat_add, BitVec.toNat_add, BitVec.toNat_mul, ew]
  simp only [BitVec.toNat_ofNat]
  omega

/-- One product of an accumulator at lane x: the gathered table word times the gathered feature word. -/
theorem prod_leaf (ft' ft : Vec F S49184 .f32) (fq' fq : Vec F S6144 .f32) (vT vS : IVec S16 32)
    (hT : ∀ a x, ((![vT] : Fin 1 → IVec S16 32) a x).toNat < S49184.size a)
    (hS : ∀ a x, ((![vS] : Fin 1 → IVec S16 32) a x).toNat < S6144.size a) (x : S16.Idx)
    (B w : BitVec 32) (dd : Fin 3) (y : F .f32) (wn : Fin 32) (iS : S6144.Idx)
    (eft : ft' = ft) (efq : fq' = fq)
    (eT : vT x = IntOp.addi B w) (eB : B = bucketBase dd y) (ew : w.toNat = wn.val)
    (eS : (vS x).toNat = (iS 0).val) :
    FloatOps.mulf (loadIdx ft' ![vT] hT x) (loadIdx fq' ![vS] hS x) = FloatOps.mulf (ft (tabIx dd y wn)) (fq iS) := by
  rw [load_leaf ft' ft vT hT x (tabIx dd y wn) eft (by rw [eT, eB]; exact tab_toNat dd y w wn ew),
    load_leaf fq' fq vS hS x iS efq eS]

/-- The bucket base of a gathered position. -/
theorem bucket_leaf (fr' fr : Vec F S6144 .f32) (vP : IVec S16 32)
    (hP : ∀ a x, ((![vP] : Fin 1 → IVec S16 32) a x).toNat < S6144.size a) (x : S16.Idx) (dd : Fin 3) (i : S6144.Idx)
    (efr : fr' = fr) (eP : (vP x).toNat = (i 0).val) :
    bucketBase dd (loadIdx fr' ![vP] hP x) = bucketBase dd (fr i) := by
  rw [load_leaf fr' fr vP hP x i efr eP]

/-- Lane x of the strided vector lane · c + ((k · M + a) + b), read unsigned. -/
theorem strided2_toNat (h : L16.Iotas .scVector 32 [0]) (c : BitVec 32) (k : Nat) (hk : k < 64) (M a b : BitVec 32)
    (hN : 15 * c.toNat + 63 * M.toNat + a.toNat + b.toNat < 2 ^ 32) (x : L16.Idx) (n : Nat)
    (hn : (x 0).val * c.toNat + (k * M.toNat + a.toNat + b.toNat) = n) :
    (addi (muli (iota .scVector L16 32 [0] h) (broadcast L16 c))
      (broadcast L16 (Scalar.addi (Scalar.addi (Scalar.muli (Scf.iv (0#32) (1#32) k) M) a) b)) x).toNat = n := by
  have hx := lane_lt x
  have hs := chain2_toNat k hk M a b (by omega)
  have hkM : k * M.toNat ≤ 63 * M.toNat := Nat.mul_le_mul_right _ (by omega)
  have hxc : (x 0).val * c.toNat ≤ 15 * c.toNat := Nat.mul_le_mul_right _ (by omega)
  show (iota .scVector L16 32 [0] h x * c + Scalar.addi (Scalar.addi (Scalar.muli (Scf.iv (0#32) (1#32) k) M) a) b).toNat = n
  rw [BitVec.toNat_add, BitVec.toNat_mul, iota_toNat, hs, ← hn]
  generalize k * M.toNat = t at *
  generalize (x 0).val * c.toNat = u at *
  omega

/-- Lane x of the splat 0 + (((k · M + a) + b) + c), read unsigned. -/
theorem splat3_toNat (k : Nat) (hk : k < 64) (M a b c : BitVec 32)
    (hN : 63 * M.toNat + a.toNat + b.toNat + c.toNat < 2 ^ 32) (x : L16.Idx) (n : Nat)
    (hn : k * M.toNat + a.toNat + b.toNat + c.toNat = n) :
    (addi (broadcast L16 (0#32))
      (broadcast L16 (Scalar.addi (Scalar.addi (Scalar.addi (Scalar.muli (Scf.iv (0#32) (1#32) k) M) a) b) c)) x).toNat = n := by
  have hs := chain3_toNat k hk M a b c (by omega)
  have hkM : k * M.toNat ≤ 63 * M.toNat := Nat.mul_le_mul_right _ (by omega)
  show (0#32 + Scalar.addi (Scalar.addi (Scalar.addi (Scalar.muli (Scf.iv (0#32) (1#32) k) M) a) b) c).toNat = n
  rw [BitVec.toNat_add, hs, ← hn]
  simp only [BitVec.toNat_ofNat]
  generalize k * M.toNat = t at *
  omega

/-- The closed form over the neighbour l < 32 of the query: lane group l / 16, lane l % 16. -/
def kq (ft : Vec F S49184 .f32) (fr fq : Vec F S6144 .f32) (k : Fin k0_t2_loop.trips) (l : Fin 32) (h : Fin 8) : F .f32 :=
  kqA ft fr fq k ⟨l.val / 16, by have := l.isLt; omega⟩ ⟨l.val % 16, Nat.mod_lt _ (by decide)⟩ h

variable (d : Dev nD) (L : grid0.Coords) (k : Fin k0_t2_loop.trips)
  (ft : Vec F S49184 .f32) (fr fq : Vec F S6144 .f32)

/-- The six bucket bases of the trip at lane x: direction dd, lane group lg. -/
theorem bkt_0_0 (x : S16.Idx) : qTrip.sl.r d L k fr x = bucketBase 0 (fr (posIx k 0 0 (x 0))) := by
  refine Eq.trans (b := bucketBase 0 (loadIdx (F := F) (s := S6144) (e := .f32) _ ![qTrip.sl.v21 k] _ x)) rfl
    (bucket_leaf _ fr _ _ x 0 _ (Memref.readAt_whole _ _ _) ?_)
  exact strided2_toNat _ (3#32) k (trip_lt k) (96#32) _ _ (by decide) x _ rfl

theorem bkt_0_1 (x : S16.Idx) : qTrip.sl.r_1 d L k fr x = bucketBase 0 (fr (posIx k 1 0 (x 0))) := by
  refine Eq.trans (b := bucketBase 0 (loadIdx (F := F) (s := S6144) (e := .f32) _ ![qTrip.sl.v39 k] _ x)) rfl
    (bucket_leaf _ fr _ _ x 0 _ (Memref.readAt_whole _ _ _) ?_)
  exact strided2_toNat _ (3#32) k (trip_lt k) (96#32) _ _ (by decide) x _ rfl

theorem bkt_1_0 (x : S16.Idx) : qTrip.sl.r_2 d L k fr x = bucketBase 1 (fr (posIx k 0 1 (x 0))) := by
  refine Eq.trans (b := bucketBase 1 (loadIdx (F := F) (s := S6144) (e := .f32) _ ![qTrip.sl.v57 k] _ x)) rfl
    (bucket_leaf _ fr _ _ x 1 _ (Memref.readAt_whole _ _ _) ?_)
  exact strided2_toNat _ (3#32) k (trip_lt k) (96#32) _ _ (by decide) x _ rfl

theorem bkt_1_1 (x : S16.Idx) : qTrip.sl.r_3 d L k fr x = bucketBase 1 (fr (posIx k 1 1 (x 0))) := by
  refine Eq.trans (b := bucketBase 1 (loadIdx (F := F) (s := S6144) (e := .f32) _ ![qTrip.sl.v75 k] _ x)) rfl
    (bucket_leaf _ fr _ _ x 1 _ (Memref.readAt_whole _ _ _) ?_)
  exact strided2_toNat _ (3#32) k (trip_lt k) (96#32) _ _ (by decide) x _ rfl

theorem bkt_2_0 (x : S16.Idx) : qTrip.sl.r_5 d L k fr x = bucketBase 2 (fr (posIx k 0 2 (x 0))) := by
  refine Eq.trans (b := bucketBase 2 (loadIdx (F := F) (s := S6144) (e := .f32) _ ![qTrip.sl.v93 k] _ x)) rfl
    (bucket_leaf _ fr _ _ x 2 _ (Memref.readAt_whole _ _ _) ?_)
  exact strided2_toNat _ (3#32) k (trip_lt k) (96#32) _ _ (by decide) x _ rfl

theorem bkt_2_1 (x : S16.Idx) : qTrip.sl.r_6 d L k fr x = bucketBase 2 (fr (posIx k 1 2 (x 0))) := by
  refine Eq.trans (b := bucketBase 2 (loadIdx (F := F) (s := S6144) (e := .f32) _ ![qTrip.sl.v111 k] _ x)) rfl
    (bucket_leaf _ fr _ _ x 2 _ (Memref.readAt_whole _ _ _) ?_)
  exact strided2_toNat _ (3#32) k (trip_lt k) (96#32) _ _ (by decide) x _ rfl

/-- One product: the table word of the bucket whose base is given by `b`, times the feature word. -/
macro "prod_tac" b:term : tactic => `(tactic|
  exact prod_leaf _ _ _ _ _ _ _ _ _ _ _ _ _ _ _ (Memref.readAt_whole _ _ _) (Memref.readAt_whole _ _ _) rfl $b rfl
    (splat3_toNat _ (trip_lt _) (96#32) _ _ _ (by decide) _ _ rfl))

/-- An accumulator at lane x is the closed form: the zero word, then twelve products, the bucket bases of the
    accumulator's lane group given per direction. -/
macro "acc_tac" b0:term "," b1:term "," b2:term : tactic => `(tactic|
  (refine sum12_eq _ _ _ _ _ _ _ _ _ _ _ _ _ _ rfl ?_ ?_ ?_ ?_ ?_ ?_ ?_ ?_ ?_ ?_ ?_ ?_
   · prod_tac $b0
   · prod_tac $b0
   · prod_tac $b0
   · prod_tac $b0
   · prod_tac $b1
   · prod_tac $b1
   · prod_tac $b1
   · prod_tac $b1
   · prod_tac $b2
   · prod_tac $b2
   · prod_tac $b2
   · prod_tac $b2))

end Cert.Kernel.Tile

end
-- ==== Proof.KQAcc.lean ====
/-
  The sixteen accumulators of a trip, each at a lane: head h (0 … 7), lane group lg (0, 1). Each is the closed form
  of the trip's value at neighbour 16 · lg + lane: its twelve products are read one by one off the trip's loads.
-/
import proofs.«204784_g45775761440795_cont_8to1c4_693_3_alg».proof.Proof.KQValue

set_option maxHeartbeats 400000

noncomputable section

namespace Cert.Kernel.Tile

open Cert.Kernel Cert.Kernel.Gen Cert.LaneRanges
open Idealize.ShloMosaic Idealize.ShloMosaic.ValueIdx

variable {F : FTy → Type} [FloatOps F]

variable (d : Dev nD) (L : grid0.Coords) (k : Fin k0_t2_loop.trips)
  (ft : Vec F S49184 .f32) (fr fq : Vec F S6144 .f32)

theorem acc_0_0 (x : S16.Idx) : qTrip.sl.r_106 d L k ft fr fq x = kqA ft fr fq k 0 (x 0) 0 := by
  acc_tac (bkt_0_0 d L k fr x), (bkt_1_0 d L k fr x), (bkt_2_0 d L k fr x)

theorem acc_0_1 (x : S16.Idx) : qTrip.sl.r_107 d L k ft fr fq x = kqA ft fr fq k 1 (x 0) 0 := by
  acc_tac (bkt_0_1 d L k fr x), (bkt_1_1 d L k fr x), (bkt_2_1 d L k fr x)

theorem acc_1_0 (x : S16.Idx) : qTrip.sl.r_112 d L k ft fr fq x = kqA ft fr fq k 0 (x 0) 1 := by
  acc_tac (bkt_0_0 d L k fr x), (bkt_1_0 d L k fr x), (bkt_2_0 d L k fr x)

theorem acc_1_1 (x : S16.Idx) : qTrip.sl.r_113 d L k ft fr fq x = kqA ft fr fq k 1 (x 0) 1 := by
  acc_tac (bkt_0_1 d L k fr x), (bkt_1_1 d L k fr x), (bkt_2_1 d L k fr x)

theorem acc_2_0 (x : S16.Idx) : qTrip.sl.r_118 d L k ft fr fq x = kqA ft fr fq k 0 (x 0) 2 := by
  acc_tac (bkt_0_0 d L k fr x), (bkt_1_0 d L k fr x), (bkt_2_0 d L k fr x)

theorem acc_2_1 (x : S16.Idx) : qTrip.sl.r_119 d L k ft fr fq x = kqA ft fr fq k 1 (x 0) 2 := by
  acc_tac (bkt_0_1 d L k fr x), (bkt_1_1 d L k fr x), (bkt_2_1 d L k fr x)

theorem acc_3_0 (x : S16.Idx) : qTrip.sl.r_123 d L k ft fr fq x = kqA ft fr fq k 0 (x 0) 3 := by
  acc_tac (bkt_0_0 d L k fr x), (bkt_1_0 d L k fr x), (bkt_2_0 d L k fr x)

theorem acc_3_1 (x : S16.Idx) : qTrip.sl.r_124 d L k ft fr fq x = kqA ft fr fq k 1 (x 0) 3 := by
  acc_tac (bkt_0_1 d L k fr x), (bkt_1_1 d L k fr x), (bkt_2_1 d L k fr x)

theorem acc_4_0 (x : S16.Idx) : qTrip.sl.r_128 d L k ft fr fq x = kqA ft fr fq k 0 (x 0) 4 := by
  acc_tac (bkt_0_0 d L k fr x), (bkt_1_0 d L k fr x), (bkt_2_0 d L k fr x)

theorem acc_4_1 (x : S16.Idx) : qTrip.sl.r_129 d L k ft fr fq x = kqA ft fr fq k 1 (x 0) 4 := by
  acc_tac (bkt_0_1 d L k fr x), (bkt_1_1 d L k fr x), (bkt_2_1 d L k fr x)

theorem acc_5_0 (x : S16.Idx) : qTrip.sl.r_135 d L k ft fr fq x = kqA ft fr fq k 0 (x 0) 5 := by
  acc_tac (bkt_0_0 d L k fr x), (bkt_1_0 d L k fr x), (bkt_2_0 d L k fr x)

theorem acc_5_1 (x : S16.Idx) : qTrip.sl.r_136 d L k ft fr fq x = kqA ft fr fq k 1 (x 0) 5 := by
  acc_tac (bkt_0_1 d L k fr x), (bkt_1_1 d L k fr x), (bkt_2_1 d L k fr x)

theorem acc_6_0 (x : S16.Idx) : qTrip.sl.r_143 d L k ft fr fq x = kqA ft fr fq k 0 (x 0) 6 := by
  acc_tac (bkt_0_0 d L k fr x), (bkt_1_0 d L k fr x), (bkt_2_0 d L k fr x)

theorem acc_6_1 (x : S16.Idx) : qTrip.sl.r_144 d L k ft fr fq x = kqA ft fr fq k 1 (x 0) 6 := by
  acc_tac (bkt_0_1 d L k fr x), (bkt_1_1 d L k fr x), (bkt_2_1 d L k fr x)

theorem acc_7_0 (x : S16.Idx) : qTrip.sl.r_148 d L k ft fr fq x = kqA ft fr fq k 0 (x 0) 7 := by
  acc_tac (bkt_0_0 d L k fr x), (bkt_1_0 d L k fr x), (bkt_2_0 d L k fr x)

theorem acc_7_1 (x : S16.Idx) : qTrip.sl.r_149 d L k ft fr fq x = kqA ft fr fq k 1 (x 0) 7 := by
  acc_tac (bkt_0_1 d L k fr x), (bkt_1_1 d L k fr x), (bkt_2_1 d L k fr x)

end Cert.Kernel.Tile

end
-- ==== Proof.LibStoreIdx.lean ====
/-
  What an unmasked, non-accumulating indexed store leaves at an index. The store takes the lanes of the stored
  vector in ascending order and writes each at the index its index vectors name, so the contents after it at an
  index j are: what was there before, when no lane names j; the word of the lane that names j, when one lane
  does and no other. The rank-one forms read the one coordinate of j, and the strided index vectors
  lane · c + s — whose sixteen lanes are pairwise distinct — are the case at hand.
-/
import Idealize.ShloMosaic.PureOps

noncomputable section

namespace Cert.StoreIdx

open Idealize.ShloMosaic

variable {F : FTy → Type} [FloatOps F] {s : Shape} {e : EltTy} {d : Fin 1 → Nat}

/-- Lane `k` names the index `j`: on every axis of the base, the lane's index word is `j`'s coordinate. -/
def Hits (idxs : Fin s.rank → IVec ⟨1, d⟩ 32) (k : Fin (d 0)) (j : s.Idx) : Prop :=
  ∀ a, (j a).val = (idxs a (Shape.ofLane k)).toNat

/-- One lane's step of the store: the lane's word at the index it names, the rest as before. -/
def step (idxs : Fin s.rank → IVec ⟨1, d⟩ 32) (v : Vec F ⟨1, d⟩ e) (g : Vec F s e) (k : Fin (d 0)) : Vec F s e :=
  fun j => if (∀ a, (j a).val = (idxs a (Shape.ofLane k)).toNat) then v (Shape.ofLane k) else g j

/-- The unmasked, non-accumulating store is the fold of the lane steps. -/
theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (step idxs v) f := by
  unfold storeIdx
  congr 1

/-- Lanes that do not name `j` leave it alone. -/
theorem foldl_miss (idxs : Fin s.rank → IVec ⟨1, d⟩ 32) (v : Vec F ⟨1, d⟩ e) (j : s.Idx) :
    ∀ (l : List (Fin (d 0))) (g : Vec F s e), (∀ k ∈ l, ¬ Hits idxs k j) → l.foldl (step idxs v) g j = g j := by
  intro l
  induction l with
  | nil => intro g _; rfl
  | cons k l ih =>
    intro g hl
    rw [List.foldl_cons, ih _ (fun k' hk' => hl k' (List.mem_cons_of_mem _ hk'))]
    exact if_neg (hl k List.mem_cons_self)

/-- When the one lane among `l` that names `j` is `k0`, the fold leaves that lane's word at `j`. -/
theorem foldl_hit (idxs : Fin s.rank → IVec ⟨1, d⟩ 32) (v : Vec F ⟨1, d⟩ e) (j : s.Idx) (k0 : Fin (d 0))
    (h0 : Hits idxs k0 j) :
    ∀ (l : List (Fin (d 0))) (g : Vec F s e), k0 ∈ l → (∀ k ∈ l, Hits idxs k j → k = k0) →
      l.foldl (step idxs v) g j = v (Shape.ofLane k0) := by
  intro l
  induction l with
  | nil => intro g hm; cases hm
  | cons k l ih =>
    intro g hm hu
    rw [List.foldl_cons]
    by_cases hk0 : k0 ∈ l
    · exact ih _ hk0 (fun k' hk' => hu k' (List.mem_cons_of_mem _ hk'))
    · have hk : k = k0 := by
        rcases List.mem_cons.mp hm with h | h
        · exact h.symm
        · exact absurd h hk0
      subst hk
      rw [foldl_miss idxs v j l _ (fun k' hk' hh => hk0 (hu k' (List.mem_cons_of_mem _ hk') hh ▸ hk'))]
      exact if_pos h0

/-- (a) An index no lane names keeps what it held. -/
theorem storeIdx_miss (f : Vec F s e) (idxs : Fin s.rank → IVec ⟨1, d⟩ 32) (v : Vec F ⟨1, d⟩ e)
    (h : ∀ a x, (idxs a x).toNat < s.size a) (j : s.Idx) (hj : ∀ k, ¬ Hits idxs k j) :
    storeIdx f idxs v (fun _ => 1#1) false h j = f j := by
  rw [storeIdx_eq_foldl]
  exact foldl_miss idxs v j _ f (fun k _ => hj k)

/-- (b) An index named by lane `k0` and by no other lane holds that lane's word. -/
theorem storeIdx_hit (f : Vec F s e) (idxs : Fin s.rank → IVec ⟨1, d⟩ 32) (v : Vec F ⟨1, d⟩ e)
    (h : ∀ a x, (idxs a x).toNat < s.size a) (j : s.Idx) (k0 : Fin (d 0)) (h0 : Hits idxs k0 j)
    (hu : ∀ k, Hits idxs k j → k = k0) :
    storeIdx f idxs v (fun _ => 1#1) false h j = v (Shape.ofLane k0) := by
  rw [storeIdx_eq_foldl]
  exact foldl_hit idxs v j k0 h0 _ f (List.mem_finRange k0) (fun k _ => hu k)

/-! ### A rank-one base and a strided index vector -/

/-- For a rank-one base, a lane names `j` when its index word is `j`'s one coordinate. -/
theorem hits_rank1 {N : Nat} (idx : IVec ⟨1, d⟩ 32) (k : Fin (d 0)) (j : (⟨1, ![N]⟩ : Shape).Idx) :
    Hits (s := ⟨1, ![N]⟩) ![idx] k j ↔ (j 0).val = (idx (Shape.ofLane k)).toNat := by
  constructor
  · intro hh; exact hh 0
  · intro hh a
    obtain rfl : a = 0 := Subsingleton.elim _ _
    exact hh

/-- The lanes `c · lane + s` of a strided index vector (`0 < c`) are pairwise distinct, so the store leaves at `j`:
    lane `(j − s) / c`'s word when `j` is `s` plus a multiple of `c` below the lane count, what was there otherwise. -/
theorem storeIdx_strided {N : Nat} (f : Vec F ⟨1, ![N]⟩ e) (idx : IVec ⟨1, d⟩ 32) (v : Vec F ⟨1, d⟩ e)
    (h : ∀ a x, ((![idx] : Fin 1 → IVec ⟨1, d⟩ 32) a x).toNat < (⟨1, ![N]⟩ : Shape).size a) (c s : Nat) (hc : 0 < c)
    (hidx : ∀ k : Fin (d 0), (idx (Shape.ofLane k)).toNat = c * k.val + s) (j : (⟨1, ![N]⟩ : Shape).Idx) :
    storeIdx (s := ⟨1, ![N]⟩) f ![idx] v (fun _ => 1#1) false h j =
      if hj : s ≤ (j 0).val ∧ ((j 0).val - s) % c = 0 ∧ ((j 0).val - s) / c < d 0 then
        v (Shape.ofLane ⟨((j 0).val - s) / c, hj.2.2⟩) else f j := by
  by_cases hj : s ≤ (j 0).val ∧ ((j 0).val - s) % c = 0 ∧ ((j 0).val - s) / c < d 0
  · rw [dif_pos hj]
    obtain ⟨h1, h2, h3⟩ := hj
    have hmul : c * (((j 0).val - s) / c) = (j 0).val - s := Nat.mul_div_cancel' (Nat.dvd_of_mod_eq_zero h2)
    refine storeIdx_hit f ![idx] v h j ⟨((j 0).val - s) / c, h3⟩ ?_ ?_
    · rw [hits_rank1, hidx]
      show (j 0).val = c * (((j 0).val - s) / c) + s
      omega
    · intro k hk
      rw [hits_rank1, hidx] at hk
      apply Fin.ext
      show k.val = ((j 0).val - s) / c
      rw [hk, Nat.add_sub_cancel, Nat.mul_div_cancel_left _ hc]
  · rw [dif_neg hj]
    refine storeIdx_miss f ![idx] v h j (fun k hk => hj ?_)
    rw [hits_rank1, hidx] at hk
    rw [hk, Nat.add_sub_cancel, Nat.mul_div_cancel_left _ hc, Nat.mul_mod_right]
    exact ⟨Nat.le_add_left _ _, rfl, k.isLt⟩

end Cert.StoreIdx

end
-- ==== Proof.KQApply.lean ====
/-
  What one trip of the per-query loop leaves in the staged output, word by word. The trip's sixteen indexed stores
  write the words k · 256 + l · 8 + h (neighbour l < 32, head h < 8), each exactly once — store (h, lg) writes its
  lane l mod 16 at stride 8 from k · 256 + lg · 128 + h —, each with the closed form of the trip's value there; every
  other word keeps what it held.
-/
import proofs.«204784_g45775761440795_cont_8to1c4_693_3_alg».proof.Proof.KQAcc
import proofs.«204784_g45775761440795_cont_8to1c4_693_3_alg».proof.Proof.LibStoreIdx

noncomputable section

namespace Cert.Kernel.Tile

open Cert.Kernel Cert.Kernel.Gen Cert.LaneRanges Cert.StoreIdx
open Idealize.ShloMosaic Idealize.ShloMosaic.ValueIdx

variable {F : FTy → Type} [FloatOps F]

/-- What an indexed store of sixteen lanes at the words s, s + 8, …, s + 120 leaves: lane (j − s) / 8's word at such
    a word j, what was there elsewhere. -/
def stp (g : Vec F S16384 .f32) (s : Nat) (a : Vec F S16 .f32) : Vec F S16384 .f32 := fun j =>
  if hj : s ≤ (j 0).val ∧ ((j 0).val - s) % 8 = 0 ∧ ((j 0).val - s) / 8 < 16 then
    a (Shape.ofLane (d := ![16]) ⟨((j 0).val - s) / 8, hj.2.2⟩) else g j

theorem piece_step (g : Vec F S16384 .f32) (v : IVec S16 32) (a : Vec F S16 .f32)
    (h : ∀ a x, ((![v] : Fin 1 → IVec S16 32) a x).toNat < S16384.size a) (s : Nat)
    (hv : ∀ l : Fin 16, (v (Shape.ofLane (d := ![16]) l)).toNat = 8 * l.val + s) :
    storeIdx g ![v] a (fun _ => 1#1) false h = stp g s a :=
  funext fun j => storeIdx_strided g v a h 8 s (by decide) hv j

/-- The newest whole-buffer piece is the buffer's contents. -/
theorem writes_whole_head (fo w : Vec F S16384 .f32) (Lp : List (View.Piece (Elt F) S16384 .f32)) :
    (View.whole cc0_scratch3).writes (Elt F) fo (⟨Rect.whole S16384, w⟩ :: Lp) = w := by
  exact (View.write_univ_eq_writes_whole (View.whole cc0_scratch3) fo Lp w).symm.trans (View.write_whole_univ cc0_scratch3 _ w)

theorem writes_step (fo g : Vec F S16384 .f32) (v : IVec S16 32) (a : Vec F S16 .f32)
    (h : ∀ a x, ((![v] : Fin 1 → IVec S16 32) a x).toNat < S16384.size a) (Lp : List (View.Piece (Elt F) S16384 .f32)) (s : Nat)
    (hv : ∀ l : Fin 16, (v (Shape.ofLane (d := ![16]) l)).toNat = 8 * l.val + s) :
    (View.whole cc0_scratch3).writes (Elt F) fo (⟨Rect.whole S16384, storeIdx g ![v] a (fun _ => 1#1) false h⟩ :: Lp) = stp g s a := by
  rw [writes_whole_head, piece_step g v a h s hv]

theorem cov_step (g : Vec F S16384 .f32) (v : IVec S16 32) (a : Vec F S16 .f32)
    (h : ∀ a x, ((![v] : Fin 1 → IVec S16 32) a x).toNat < S16384.size a) (Lp : List (View.Piece (Elt F) S16384 .f32)) (s : Nat)
    (hv : ∀ l : Fin 16, (v (Shape.ofLane (d := ![16]) l)).toNat = 8 * l.val + s) :
    (Memref.whole cc0_scratch3).view.readCov (⟨Rect.whole S16384, storeIdx g ![v] a (fun _ => 1#1) false h⟩ :: Lp) (LoadRect.whole S16384)
      = stp g s a := by
  unfold View.readCov
  exact (Memref.readAt_whole (Elt F) cc0_scratch3 _).trans (writes_step _ g v a h Lp s hv)

variable (d : Dev nD) (L : grid0.Coords) (k : Fin k0_t2_loop.trips)
  (ft : Vec F S49184 .f32) (fr fq : Vec F S6144 .f32) (fo : Vec F S16384 .f32)

/-! ### The sixteen store index vectors: lane l names the word 8 · l + (k · 256 + lg · 128 + h) -/

theorem st_idx_0_0 (l : Fin 16) :
    (qTrip.sl.v1779 k (Shape.ofLane (d := ![16]) l)).toNat = 8 * l.val + (k.val * 256 + 0 + 0) :=
  strided2_toNat _ (8#32) k (trip_lt k) (256#32) _ _ (by decide) (Shape.ofLane (d := ![16]) l) _
    (by show l.val * 8 + (k.val * 256 + 0 + 0) = _; omega)

theorem st_idx_0_1 (l : Fin 16) :
    (qTrip.sl.v1783 k (Shape.ofLane (d := ![16]) l)).toNat = 8 * l.val + (k.val * 256 + 128 + 0) :=
  strided2_toNat _ (8#32) k (trip_lt k) (256#32) _ _ (by decide) (Shape.ofLane (d := ![16]) l) _
    (by show l.val * 8 + (k.val * 256 + 128 + 0) = _; omega)

theorem st_idx_1_0 (l : Fin 16) :
    (qTrip.sl.v1787 k (Shape.ofLane (d := ![16]) l)).toNat = 8 * l.val + (k.val * 256 + 0 + 1) :=
  strided2_toNat _ (8#32) k (trip_lt k) (256#32) _ _ (by decide) (Shape.ofLane (d := ![16]) l) _
    (by show l.val * 8 + (k.val * 256 + 0 + 1) = _; omega)

theorem st_idx_1_1 (l : Fin 16) :
    (qTrip.sl.v1791 k (Shape.ofLane (d := ![16]) l)).toNat = 8 * l.val + (k.val * 256 + 128 + 1) :=
  strided2_toNat _ (8#32) k (trip_lt k) (256#32) _ _ (by decide) (Shape.ofLane (d := ![16]) l) _
    (by show l.val * 8 + (k.val * 256 + 128 + 1) = _; omega)

theorem st_idx_2_0 (l : Fin 16) :
    (qTrip.sl.v1795 k (Shape.ofLane (d := ![16]) l)).toNat = 8 * l.val + (k.val * 256 + 0 + 2) :=
  strided2_toNat _ (8#32) k (trip_lt k) (256#32) _ _ (by decide) (Shape.ofLane (d := ![16]) l) _
    (by show l.val * 8 + (k.val * 256 + 0 + 2) = _; omega)

theorem st_idx_2_1 (l : Fin 16) :
    (qTrip.sl.v1799 k (Shape.ofLane (d := ![16]) l)).toNat = 8 * l.val + (k.val * 256 + 128 + 2) :=
  strided2_toNat _ (8#32) k (trip_lt k) (256#32) _ _ (by decide) (Shape.ofLane (d := ![16]) l) _
    (by show l.val * 8 + (k.val * 256 + 128 + 2) = _; omega)

theorem st_idx_3_0 (l : Fin 16) :
    (qTrip.sl.v1803 k (Shape.ofLane (d := ![16]) l)).toNat = 8 * l.val + (k.val * 256 + 0 + 3) :=
  strided2_toNat _ (8#32) k (trip_lt k) (256#32) _ _ (by decide) (Shape.ofLane (d := ![16]) l) _
    (by show l.val * 8 + (k.val * 256 + 0 + 3) = _; omega)

theorem st_idx_3_1 (l : Fin 16) :
    (qTrip.sl.v1807 k (Shape.ofLane (d := ![16]) l)).toNat = 8 * l.val + (k.val * 256 + 128 + 3) :=
  strided2_toNat _ (8#32) k (trip_lt k) (256#32) _ _ (by decide) (Shape.ofLane (d := ![16]) l) _
    (by show l.val * 8 + (k.val * 256 + 128 + 3) = _; omega)

theorem st_idx_4_0 (l : Fin 16) :
    (qTrip.sl.v1811 k (Shape.ofLane (d := ![16]) l)).toNat = 8 * l.val + (k.val * 256 + 0 + 4) :=
  strided2_toNat _ (8#32) k (trip_lt k) (256#32) _ _ (by decide) (Shape.ofLane (d := ![16]) l) _
    (by show l.val * 8 + (k.val * 256 + 0 + 4) = _; omega)

theorem st_idx_4_1 (l : Fin 16) :
    (qTrip.sl.v1815 k (Shape.ofLane (d := ![16]) l)).toNat = 8 * l.val + (k.val * 256 + 128 + 4) :=
  strided2_toNat _ (8#32) k (trip_lt k) (256#32) _ _ (by decide) (Shape.ofLane (d := ![16]) l) _
    (by show l.val * 8 + (k.val * 256 + 128 + 4) = _; omega)

theorem st_idx_5_0 (l : Fin 16) :
    (qTrip.sl.v1819 k (Shape.ofLane (d := ![16]) l)).toNat = 8 * l.val + (k.val * 256 + 0 + 5) :=
  strided2_toNat _ (8#32) k (trip_lt k) (256#32) _ _ (by decide) (Shape.ofLane (d := ![16]) l) _
    (by show l.val * 8 + (k.val * 256 + 0 + 5) = _; omega)

theorem st_idx_5_1 (l : Fin 16) :
    (qTrip.sl.v1823 k (Shape.ofLane (d := ![16]) l)).toNat = 8 * l.val + (k.val * 256 + 128 + 5) :=
  strided2_toNat _ (8#32) k (trip_lt k) (256#32) _ _ (by decide) (Shape.ofLane (d := ![16]) l) _
    (by show l.val * 8 + (k.val * 256 + 128 + 5) = _; omega)

theorem st_idx_6_0 (l : Fin 16) :
    (qTrip.sl.v1827 k (Shape.ofLane (d := ![16]) l)).toNat = 8 * l.val + (k.val * 256 + 0 + 6) :=
  strided2_toNat _ (8#32) k (trip_lt k) (256#32) _ _ (by decide) (Shape.ofLane (d := ![16]) l) _
    (by show l.val * 8 + (k.val * 256 + 0 + 6) = _; omega)

theorem st_idx_6_1 (l : Fin 16) :
    (qTrip.sl.v1831 k (Shape.ofLane (d := ![16]) l)).toNat = 8 * l.val + (k.val * 256 + 128 + 6) :=
  strided2_toNat _ (8#32) k (trip_lt k) (256#32) _ _ (by decide) (Shape.ofLane (d := ![16]) l) _
    (by show l.val * 8 + (k.val * 256 + 128 + 6) = _; omega)

theorem st_idx_7_0 (l : Fin 16) :
    (qTrip.sl.v1835 k (Shape.ofLane (d := ![16]) l)).toNat = 8 * l.val + (k.val * 256 + 0 + 7) :=
  strided2_toNat _ (8#32) k (trip_lt k) (256#32) _ _ (by decide) (Shape.ofLane (d := ![16]) l) _
    (by show l.val * 8 + (k.val * 256 + 0 + 7) = _; omega)

theorem st_idx_7_1 (l : Fin 16) :
    (qTrip.sl.v1839 k (Shape.ofLane (d := ![16]) l)).toNat = 8 * l.val + (k.val * 256 + 128 + 7) :=
  strided2_toNat _ (8#32) k (trip_lt k) (256#32) _ _ (by decide) (Shape.ofLane (d := ![16]) l) _
    (by show l.val * 8 + (k.val * 256 + 128 + 7) = _; omega)

/-! ### The staged output after each store -/

theorem f0_eq : qTrip.sl.f d L k ft fr fq fo = stp fo (k.val * 256 + 0 + 0) (qTrip.sl.r_106 d L k ft fr fq) :=
  (cov_step _ _ _ _ _ _ (st_idx_0_0 k)).trans
    (congrArg (fun g => stp g _ _) (Memref.readAt_whole (Elt F) cc0_scratch3 fo))

theorem f1_eq : qTrip.sl.f_1 d L k ft fr fq fo =
    stp (qTrip.sl.f d L k ft fr fq fo) (k.val * 256 + 128 + 0) (qTrip.sl.r_107 d L k ft fr fq) :=
  cov_step _ _ _ _ _ _ (st_idx_0_1 k)

theorem f2_eq : qTrip.sl.f_2 d L k ft fr fq fo =
    stp (qTrip.sl.f_1 d L k ft fr fq fo) (k.val * 256 + 0 + 1) (qTrip.sl.r_112 d L k ft fr fq) :=
  cov_step _ _ _ _ _ _ (st_idx_1_0 k)

theorem f3_eq : qTrip.sl.f_3 d L k ft fr fq fo =
    stp (qTrip.sl.f_2 d L k ft fr fq fo) (k.val * 256 + 128 + 1) (qTrip.sl.r_113 d L k ft fr fq) :=
  cov_step _ _ _ _ _ _ (st_idx_1_1 k)

theorem f4_eq : qTrip.sl.f_4 d L k ft fr fq fo =
    stp (qTrip.sl.f_3 d L k ft fr fq fo) (k.val * 256 + 0 + 2) (qTrip.sl.r_118 d L k ft fr fq) :=
  cov_step _ _ _ _ _ _ (st_idx_2_0 k)

theorem f5_eq : qTrip.sl.f_5 d L k ft fr fq fo =
    stp (qTrip.sl.f_4 d L k ft fr fq fo) (k.val * 256 + 128 + 2) (qTrip.sl.r_119 d L k ft fr fq) :=
  cov_step _ _ _ _ _ _ (st_idx_2_1 k)

theorem f6_eq : qTrip.sl.f_6 d L k ft fr fq fo =
    stp (qTrip.sl.f_5 d L k ft fr fq fo) (k.val * 256 + 0 + 3) (qTrip.sl.r_123 d L k ft fr fq) :=
  cov_step _ _ _ _ _ _ (st_idx_3_0 k)

theorem f7_eq : qTrip.sl.f_7 d L k ft fr fq fo =
    stp (qTrip.sl.f_6 d L k ft fr fq fo) (k.val * 256 + 128 + 3) (qTrip.sl.r_124 d L k ft fr fq) :=
  cov_step _ _ _ _ _ _ (st_idx_3_1 k)

theorem f8_eq : qTrip.sl.f_8 d L k ft fr fq fo =
    stp (qTrip.sl.f_7 d L k ft fr fq fo) (k.val * 256 + 0 + 4) (qTrip.sl.r_128 d L k ft fr fq) :=
  cov_step _ _ _ _ _ _ (st_idx_4_0 k)

theorem f9_eq : qTrip.sl.f_9 d L k ft fr fq fo =
    stp (qTrip.sl.f_8 d L k ft fr fq fo) (k.val * 256 + 128 + 4) (qTrip.sl.r_129 d L k ft fr fq) :=
  cov_step _ _ _ _ _ _ (st_idx_4_1 k)

theorem f10_eq : qTrip.sl.f_10 d L k ft fr fq fo =
    stp (qTrip.sl.f_9 d L k ft fr fq fo) (k.val * 256 + 0 + 5) (qTrip.sl.r_135 d L k ft fr fq) :=
  cov_step _ _ _ _ _ _ (st_idx_5_0 k)

theorem f11_eq : qTrip.sl.f_11 d L k ft fr fq fo =
    stp (qTrip.sl.f_10 d L k ft fr fq fo) (k.val * 256 + 128 + 5) (qTrip.sl.r_136 d L k ft fr fq) :=
  cov_step _ _ _ _ _ _ (st_idx_5_1 k)

theorem f12_eq : qTrip.sl.f_12 d L k ft fr fq fo =
    stp (qTrip.sl.f_11 d L k ft fr fq fo) (k.val * 256 + 0 + 6) (qTrip.sl.r_143 d L k ft fr fq) :=
  cov_step _ _ _ _ _ _ (st_idx_6_0 k)

theorem f13_eq : qTrip.sl.f_13 d L k ft fr fq fo =
    stp (qTrip.sl.f_12 d L k ft fr fq fo) (k.val * 256 + 128 + 6) (qTrip.sl.r_144 d L k ft fr fq) :=
  cov_step _ _ _ _ _ _ (st_idx_6_1 k)

theorem f14_eq : qTrip.sl.f_14 d L k ft fr fq fo =
    stp (qTrip.sl.f_13 d L k ft fr fq fo) (k.val * 256 + 0 + 7) (qTrip.sl.r_148 d L k ft fr fq) :=
  cov_step _ _ _ _ _ _ (st_idx_7_0 k)

set_option maxRecDepth 100000 in
theorem G_eq : (qTrip d L).1 k ft fr fq fo =
    stp (qTrip.sl.f_14 d L k ft fr fq fo) (k.val * 256 + 128 + 7) (qTrip.sl.r_149 d L k ft fr fq) := by
  unfold qTrip
  dsimp only
  exact writes_step _ _ _ _ _ _ _ (st_idx_7_1 k)

theorem stp_miss (g : Vec F S16384 .f32) (s : Nat) (a : Vec F S16 .f32) (j : S16384.Idx)
    (h : ¬ (s ≤ (j 0).val ∧ ((j 0).val - s) % 8 = 0 ∧ ((j 0).val - s) / 8 < 16)) : stp g s a j = g j := dif_neg h

theorem stp_hit (g : Vec F S16384 .f32) (s : Nat) (a : Vec F S16 .f32) (j : S16384.Idx)
    (h : s ≤ (j 0).val ∧ ((j 0).val - s) % 8 = 0 ∧ ((j 0).val - s) / 8 < 16) (y : F .f32)
    (hy : ∀ hl : ((j 0).val - s) / 8 < 16, a (Shape.ofLane (d := ![16]) ⟨((j 0).val - s) / 8, hl⟩) = y) :
    stp g s a j = y := (dif_pos h).trans (hy _)

theorem kqA_congr (lg lg' : Fin 2) (lane lane' : Fin 16) (h h' : Fin 8)
    (e1 : lg.val = lg'.val) (e2 : lane.val = lane'.val) (e3 : h.val = h'.val) :
    kqA ft fr fq k lg lane h = kqA ft fr fq k lg' lane' h' := by
  obtain rfl := Fin.ext e1
  obtain rfl := Fin.ext e2
  obtain rfl := Fin.ext e3
  rfl

/-- The newest store misses the word: look at what was there before it. -/
macro "peel" : tactic => `(tactic| (refine (stp_miss _ _ _ _ ?_).trans ?_; · omega))

/-- The word a hitting store wrote is the closed form at the word's neighbour and head. -/
macro "hit_tac" : tactic => `(tactic|
  ((first
      | rw [acc_0_0] | rw [acc_0_1] | rw [acc_1_0] | rw [acc_1_1] | rw [acc_2_0] | rw [acc_2_1] | rw [acc_3_0] | rw [acc_3_1]
      | rw [acc_4_0] | rw [acc_4_1] | rw [acc_5_0] | rw [acc_5_1] | rw [acc_6_0] | rw [acc_6_1] | rw [acc_7_0] | rw [acc_7_1])
   refine kqA_congr _ _ _ _ _ _ _ _ _ _ ?_ ?_ ?_ <;> (dsimp only [Shape.ofLane, Fin.coe_cast]; omega)))

set_option maxHeartbeats 4000000 in
/-- One trip at a word of the staged output: the words k · 256 … k · 256 + 255 hold the closed form (neighbour
    (r − k · 256) / 8, head (r − k · 256) % 8), every other word what it held. -/
theorem qTrip_apply (r : Fin 16384) :
    (qTrip d L).1 k ft fr fq fo (ix1 r) =
      if hr : k.val * 256 ≤ r.val ∧ r.val < k.val * 256 + 256 then
        kq ft fr fq k ⟨(r.val - k.val * 256) / 8, by omega⟩ ⟨(r.val - k.val * 256) % 8, Nat.mod_lt _ (by decide)⟩
      else fo (ix1 r) := by
  rw [G_eq, f14_eq, f13_eq, f12_eq, f11_eq, f10_eq, f9_eq, f8_eq, f7_eq, f6_eq, f5_eq, f4_eq, f3_eq, f2_eq, f1_eq, f0_eq]
  have hk := trip_lt k
  have hr := r.isLt
  have e0 : ((ix1 r : S16384.Idx) 0).val = r.val := rfl
  by_cases hin : k.val * 256 ≤ r.val ∧ r.val < k.val * 256 + 256
  · rw [dif_pos hin]
    obtain ⟨h1, h2⟩ := hin
    unfold kq
    obtain ⟨H, eH⟩ : ∃ H, (r.val - k.val * 256) % 8 = H := ⟨_, rfl⟩
    obtain ⟨G, eG⟩ : ∃ G, (r.val - k.val * 256) / 128 = G := ⟨_, rfl⟩
    have hH : H < 8 := by omega
    have hG : G < 2 := by omega
    interval_cases H <;> interval_cases G <;>
      ((repeat peel); refine stp_hit _ _ _ _ (by omega) _ ?_; intro hl; hit_tac)
  · rw [dif_neg hin]
    iterate 16 peel
    rfl

end Cert.Kernel.Tile

end
-- ==== Proof.KQFold.lean ====
/-
  The sixty-four trips of a chunk, folded: after n trips every word below 256 · n of the staged output holds the
  closed form of its query (word / 256), neighbour ((word % 256) / 8) and head (word % 8), and every other word
  still holds what the buffer held before the first trip. After all sixty-four nothing of the prior contents is left.
-/
import proofs.«204784_g45775761440795_cont_8to1c4_693_3_alg».proof.Proof.KTileA
import proofs.«204784_g45775761440795_cont_8to1c4_693_3_alg».proof.Proof.KQApply

noncomputable section

namespace Cert.Kernel.Tile

open Cert.Kernel Cert.Kernel.Gen
open Idealize.ShloMosaic Idealize.ShloMosaic.ValueIdx
open Idealize.ShloMosaic.SparseCore (S V T)

variable {F : FTy → Type} [FloatOps F]

local notation "s0W" => (Memref.whole Cert.Kernel.cc0_scratch0 : Memref Cert.Kernel.sig Kind.scVector Space.vmem Cert.Kernel.S49184 EltTy.f32)
local notation "s1W" => (Memref.whole Cert.Kernel.cc0_scratch1 : Memref Cert.Kernel.sig Kind.scVector Space.vmem Cert.Kernel.S6144 EltTy.f32)
local notation "s2W" => (Memref.whole Cert.Kernel.cc0_scratch2 : Memref Cert.Kernel.sig Kind.scVector Space.vmem Cert.Kernel.S6144 EltTy.f32)
local notation "s3W" => (Memref.whole Cert.Kernel.cc0_scratch3 : Memref Cert.Kernel.sig Kind.scVector Space.vmem Cert.Kernel.S16384 EltTy.f32)

theorem kq_congr (ft : Vec F S49184 .f32) (fr fq : Vec F S6144 .f32) (k k' : Fin k0_t2_loop.trips) (l l' : Fin 32) (h h' : Fin 8)
    (e1 : k.val = k'.val) (e2 : l.val = l'.val) (e3 : h.val = h'.val) : kq ft fr fq k l h = kq ft fr fq k' l' h' := by
  obtain rfl := Fin.ext e1
  obtain rfl := Fin.ext e2
  obtain rfl := Fin.ext e3
  rfl

variable (d : Dev nD) (L : grid0.Coords)
  (ft : Vec F S49184 .f32) (fr fq : Vec F S6144 .f32) (fo : Vec F S16384 .f32)

/-- After n ≤ 64 trips: the words below 256 · n hold the closed form, the others what was there before. -/
theorem qFold_inv (n : Nat) (hn : n ≤ 64) (r : Fin 16384) :
    qFold d L ft fr fq fo n (ix1 r) =
      if r.val < n * 256 then
        kq ft fr fq ⟨r.val / 256, by rw [trips2]; have := r.isLt; omega⟩
          ⟨(r.val % 256) / 8, by have := Nat.mod_lt r.val (show 0 < 256 by decide); omega⟩ ⟨r.val % 8, Nat.mod_lt _ (by decide)⟩
      else fo (ix1 r) := by
  induction n with
  | zero => rw [qFold_zero, if_neg (by omega)]
  | succ n ih =>
    have hlt : n < k0_t2_loop.trips := by rw [trips2]; omega
    have e := qFold_succ d L ft fr fq fo ⟨n, hlt⟩
    rw [show (⟨n, hlt⟩ : Fin k0_t2_loop.trips).val + 1 = n + 1 from rfl] at e
    rw [e, qTrip_apply d L ⟨n, hlt⟩ ft fr fq (qFold d L ft fr fq fo n) r]
    by_cases hin : n * 256 ≤ r.val ∧ r.val < n * 256 + 256
    · rw [dif_pos hin, if_pos (by omega)]
      exact kq_congr ft fr fq _ _ _ _ _ _ (by show n = r.val / 256; omega)
        (by show (r.val - n * 256) / 8 = (r.val % 256) / 8; omega) (by show (r.val - n * 256) % 8 = r.val % 8; omega)
    · rw [dif_neg hin, ih (by omega)]
      by_cases hlo : r.val < n * 256
      · rw [if_pos hlo, if_pos (by omega)]
      · rw [if_neg hlo, if_neg (by omega)]

/-- (a) After the sixty-four trips every word of the staged output is the closed form. -/
theorem qFold_apply (r : Fin 16384) :
    qFold d L ft fr fq fo 64 (ix1 r) =
      kq ft fr fq ⟨r.val / 256, by rw [trips2]; have := r.isLt; omega⟩
        ⟨(r.val % 256) / 8, by have := Nat.mod_lt r.val (show 0 < 256 by decide); omega⟩ ⟨r.val % 8, Nat.mod_lt _ (by decide)⟩ := by
  rw [qFold_inv d L ft fr fq fo 64 (le_refl _) r, if_pos (by have := r.isLt; omega)]

/-- (b) Sixty-four trips leave a staged output that does not depend on what the buffer held before them. -/
theorem tripsOverwrite :
    ∀ (d : Dev nD) (L : grid0.Coords) (ft : Buf (Elt F) ((s0W).view.loc (V d (cV L) (jV L)))) (fr : Buf (Elt F) ((s1W).view.loc (V d (cV L) (jV L))))
      (fq : Buf (Elt F) ((s2W).view.loc (V d (cV L) (jV L)))) (fo fo' : Buf (Elt F) ((s3W).view.loc (V d (cV L) (jV L)))),
      qFold d L ft fr fq fo 64 = qFold d L ft fr fq fo' 64 := by
  intro d L ft fr fq fo fo'
  funext j
  have ej : j = ix1 (j 0) := eq_ix1 (n := 16384) j
  rw [ej]
  exact (qFold_apply d L ft fr fq fo (j 0)).trans (qFold_apply d L ft fr fq fo' (j 0)).symm

end Cert.Kernel.Tile

end
-- ==== Proof.KISetup.lean ====
/-
  The idealized kernel as the SparseCore launch theorem sees it: one vector-subcore kernel on 2 SparseCores × 16
  subcores. Tile (c, s) works on queries [(2 s + c) · 2048, (2 s + c + 1) · 2048): it READS the flattened relative
  positions, the flattened query features and the scaled, concatenated table (whole arrays, through read shares),
  and WRITES its own slab of 2048 · 256 consecutive words of the flat output. This module fixes the resource algebra
  (the handshakes' rounds beside the transfers' counters: the kernel only makes local copies and waits for them), the
  arrays' locations, the slabs, and what the launch's handshakes carry.
-/
import proofs.«204784_g45775761440795_cont_8to1c4_693_3_alg».proof.KernelIdeal
import proofs.«204784_g45775761440795_cont_8to1c4_693_3_alg».proof.Proof.Gen.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flat relative positions, the flat query features, the scaled flat table and the flat output, as locations of
    device `d` (the TensorCore's names for the four operands of the call). -/
abbrev rpLoc (d : Dev nD) : Loc nD τ sig := (SparseCore.T d).loc main_v6
abbrev qfLoc (d : Dev nD) : Loc nD τ sig := (SparseCore.T d).loc main_v7
abbrev tbLoc (d : Dev nD) : Loc nD τ sig := (SparseCore.T d).loc main_v5
abbrev ouLoc (d : Dev nD) : Loc nD τ sig := (SparseCore.T d).loc main_v8

/-- The slab of the flat output that tile (c, s) writes: 524288 consecutive words from (2 s + c) · 524288. -/
def slab (c : Fin 2) (s : Fin 16) : Finset S16777216.Idx :=
  Finset.univ.filter fun j => (2 * s.val + c.val) * 524288 ≤ (j 0).val ∧ (j 0).val < (2 * s.val + c.val + 1) * 524288

/-- Tile (c, s)'s read share of an array every tile reads: SparseCore `c`'s half-share, dealt sixteen ways. -/
abbrev rdShare (c : Fin 2) (s : Fin 16) : PosShare TreeShare := Transfers.shareTok (Transfers.shareTok fullShare 2 c) 16 s

variable [FloatOps F]

/-- What tile (c, s) is handed: its read shares of the three input arrays at their contents `w6`, `w7`, `w5`, and its
    slab of the output at the contents `o0` the call found there. -/
def goRes (d : Dev nD) (w6 : Buf (Elt F) (rpLoc d)) (w7 : Buf (Elt F) (qfLoc d)) (w5 : Buf (Elt F) (tbLoc d)) (o0 : Buf (Elt F) (ouLoc d))
    (c : Fin 2) (s : Fin 16) : sProp 𝕄 :=
  iprop((rpLoc d ↦{rdShare c s} w6) ∗ (qfLoc d ↦{rdShare c s} w7) ∗ (tbLoc d ↦{rdShare c s} w5) ∗ (ouLoc d ↦[slab c s]{fullShare} o0))

/-- What it hands back: the shares, and its slab at the whole-array function `TO c s` (only the slab's words matter). -/
def tdRes (d : Dev nD) (w6 : Buf (Elt F) (rpLoc d)) (w7 : Buf (Elt F) (qfLoc d)) (w5 : Buf (Elt F) (tbLoc d))
    (TO : Fin 2 → Fin 16 → Buf (Elt F) (ouLoc d)) (c : Fin 2) (s : Fin 16) : sProp 𝕄 :=
  iprop((rpLoc d ↦{rdShare c s} w6) ∗ (qfLoc d ↦{rdShare c s} w7) ∗ (tbLoc d ↦{rdShare c s} w5) ∗ (ouLoc d ↦[slab c s]{fullShare} TO c s))

/-- The arrays' contents at the call, per device, and each tile's final function: the parameters of the handshakes' payloads. -/
structure CallData where
  w6 : (d : Dev nD) → Buf (Elt F) (rpLoc d)
  w7 : (d : Dev nD) → Buf (Elt F) (qfLoc d)
  w5 : (d : Dev nD) → Buf (Elt F) (tbLoc d)
  o0 : (d : Dev nD) → Buf (Elt F) (ouLoc d)
  TO : (d : Dev nD) → Fin 2 → Fin 16 → Buf (Elt F) (ouLoc d)

/-- The one call's payloads: a SparseCore is handed its sixteen tiles' holdings and hands back their returns; the kernel
    keeps no protocol of its own. -/
def P (cd : CallData (F := F)) : (K (F := F)).Pay (nD := nD) (Val := Elt F) (Name := ℕ) (U := UU) where
  st := fun q d c => match q with | 0 => bigSep Finset.univ fun s : Fin 16 => goRes d (cd.w6 d) (cd.w7 d) (cd.w5 d) (cd.o0 d) (Fin.cast nCore_zero c) s
  dn := fun q d c => match q with | 0 => bigSep Finset.univ fun s : Fin 16 => tdRes d (cd.w6 d) (cd.w7 d) (cd.w5 d) (cd.TO d) (Fin.cast nCore_zero c) s
  go := fun q d c s => match q with | 0 => goRes d (cd.w6 d) (cd.w7 d) (cd.w5 d) (cd.o0 d) (Fin.cast nCore_zero c) (Fin.cast nSub_zero s)
  td := fun q d c s => match q with | 0 => tdRes d (cd.w6 d) (cd.w7 d) (cd.w5 d) (cd.TO d) (Fin.cast nCore_zero c) (Fin.cast nSub_zero s)
  x := fun _ _ => iprop(emp)

instance P_storable (cd : CallData (F := F)) : (P cd).IsStorable where
  st q d c := match q with | 0 => by unfold P goRes; infer_instance
  dn q d c := match q with | 0 => by unfold P tdRes; infer_instance
  go q _ _ _ := match q with | 0 => by unfold P goRes; infer_instance
  td q _ _ _ := match q with | 0 => by unfold P tdRes; infer_instance

end Cert.KernelIdeal.Tile

end
-- ==== Proof.KILaunchA.lean ====
/-
  The launch of the idealized kernel, first part: the host terms (what @main's operations before the call leave in
  the kernel's operands, and the last reshape), and how the call's operands are dealt to the 2 × 16 tiles and
  gathered back. Every tile reads the three flat inputs whole, through a read share of its own (the full share
  halved per SparseCore, each half dealt sixteen ways), and writes its own slab of the flat output; the slabs are
  pairwise disjoint and cover the output, so what the call leaves is one array agreeing with each tile's final
  function on that tile's slab.
-/
import proofs.«204784_g45775761440795_cont_8to1c4_693_3_alg».proof.Proof.KISetup

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq seq after tcRefs)

variable {F : FTy → Type}

local notation "𝕄" => MT nD τ sig (HIx 1) (Elt F) ℕ UU ℕ

variable [FloatOps F]

/-! ## The host terms: what @main's operations before the call leave in the kernel's operands, and the last reshape -/

variable (m : (ℓ : Loc nD τ sig) → Buf (Elt F) ℓ)

/-- The flat relative positions when the call starts: the first argument, reshaped. -/
def w6Of (d : Dev nD) : Buf (Elt F) (rpLoc d) :=
  fun i => shapeCast S6291456 (m ((SparseCore.T d).loc main_arg0)) shapeCasts_S65536x32x3_S6291456 i

/-- The flat query features when the call starts: the second argument, reshaped. -/
def w7Of (d : Dev nD) : Buf (Elt F) (qfLoc d) :=
  fun i => shapeCast S6291456 (m ((SparseCore.T d).loc main_arg1)) shapeCasts_S65536x8x12_S6291456 i

/-- The flat table when the call starts: the three tables reshaped flat, concatenated, times the broadcast scalar. -/
def w5Of (d : Dev nD) : Buf (Elt F) (tbLoc d) :=
  mulf (concatenate S49184 0
      [⟨S24096, fun i => shapeCast S24096 (m ((SparseCore.T d).loc main_arg4)) shapeCasts_S753x8x4_S24096 i⟩,
       ⟨S24096, fun i => shapeCast S24096 (m ((SparseCore.T d).loc main_arg5)) shapeCasts_S753x8x4_S24096 i⟩,
       ⟨S992, fun i => shapeCast S992 (m ((SparseCore.T d).loc main_arg6)) shapeCasts_S31x8x4_S992 i⟩]
      concatenates_S24096_S24096_S992_S49184_d0)
    (broadcastInDim S49184 ![] bcast_S_S49184 (m ((SparseCore.T d).loc main_arg2)))

/-- The result's location on device `d`. -/
abbrev reLoc (d : Dev nD) : Loc nD τ sig := (SparseCore.T d).loc main_v9

/-- The result, from the flat output's contents: the last reshape. -/
def outOf {d : Dev nD} (g : Buf (Elt F) (ouLoc d)) : Buf (Elt F) (reLoc d) :=
  fun i => shapeCast S65536x32x8 g shapeCasts_S16777216_S65536x32x8 i

/-- The call's data: the operands at the host terms, the output at its launch contents, the tiles' final functions. -/
def callData (TO : (d : Dev nD) → Fin 2 → Fin 16 → Buf (Elt F) (ouLoc d)) : CallData (F := F) :=
  ⟨w6Of m, w7Of m, w5Of m, fun d => m (ouLoc d), TO⟩

/-! ## The payloads' fields, as equations -/

theorem P_st (cd : CallData (F := F)) (d : Dev nD) (c : Fin ((K (F := F)).nCore 0)) :
    (P cd).st 0 d c = bigSep Finset.univ fun s : Fin 16 => goRes d (cd.w6 d) (cd.w7 d) (cd.w5 d) (cd.o0 d) (Fin.cast nCore_zero c) s := rfl
theorem P_dn (cd : CallData (F := F)) (d : Dev nD) (c : Fin ((K (F := F)).nCore 0)) :
    (P cd).dn 0 d c = bigSep Finset.univ fun s : Fin 16 => tdRes d (cd.w6 d) (cd.w7 d) (cd.w5 d) (cd.TO d) (Fin.cast nCore_zero c) s := rfl
theorem P_go (cd : CallData (F := F)) (d : Dev nD) (c : Fin ((K (F := F)).nCore 0)) (i : Fin ((K (F := F)).nSub 0)) :
    (P cd).go 0 d c i = goRes d (cd.w6 d) (cd.w7 d) (cd.w5 d) (cd.o0 d) (Fin.cast nCore_zero c) (Fin.cast nSub_zero i) := rfl
theorem P_td (cd : CallData (F := F)) (d : Dev nD) (c : Fin ((K (F := F)).nCore 0)) (i : Fin ((K (F := F)).nSub 0)) :
    (P cd).td 0 d c i = tdRes d (cd.w6 d) (cd.w7 d) (cd.w5 d) (cd.TO d) (Fin.cast nCore_zero c) (Fin.cast nSub_zero i) := rfl
theorem P_x (cd : CallData (F := F)) (q : Fin 1) (thr : Thread nD τ) : (P cd).x q thr = iprop(emp) := rfl

omit [FloatOps F] in
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The slabs: pairwise disjoint, covering the flat output -/

/-- The slab of the tile named by a pair. -/
abbrev slabP (p : Fin 2 × Fin 16) : Finset S16777216.Idx := slab p.1 p.2

omit [FloatOps F] in
theorem mem_slab {c : Fin 2} {s : Fin 16} {j : S16777216.Idx} :
    j ∈ slab c s ↔ (2 * s.val + c.val) * 524288 ≤ (j 0).val ∧ (j 0).val < (2 * s.val + c.val + 1) * 524288 := by
  unfold slab; rw [Finset.mem_filter]; exact ⟨fun h => h.2, fun h => ⟨Finset.mem_univ _, h⟩⟩

omit [FloatOps F] in
theorem slabs_disjoint : ∀ p ∈ (Finset.univ : Finset (Fin 2 × Fin 16)), ∀ p' ∈ (Finset.univ : Finset (Fin 2 × Fin 16)), p ≠ p' → Disjoint (slabP p) (slabP p') := by
  intro p _ p' _ hne
  refine Finset.disjoint_left.mpr fun j hj hj' => hne ?_
  have h := mem_slab.mp hj
  have h' := mem_slab.mp hj'
  have h1 := p.1.isLt; have h2 := p.2.isLt; have h3 := p'.1.isLt; have h4 := p'.2.isLt
  exact Prod.ext (Fin.ext (by omega)) (Fin.ext (by omega))

omit [FloatOps F] in
theorem slabs_cover : (Finset.univ : Finset (Fin 2 × Fin 16)).biUnion slabP = Finset.univ := by
  refine Finset.eq_univ_iff_forall.mpr fun j => ?_
  have hj : (j 0).val < 16777216 := (j 0).isLt
  refine Finset.mem_biUnion.mpr ⟨(⟨(j 0).val / 524288 % 2, by omega⟩, ⟨(j 0).val / 524288 / 2, by omega⟩), Finset.mem_univ _, mem_slab.mpr ?_⟩
  constructor <;> (dsimp only) <;> omega

/-! ## An array every tile reads: the full share dealt to the 2 × 16 tiles, the remainders kept -/

section Shares

variable {ℓ : Loc nD τ sig} {f : Buf (Elt F) ℓ}

/-- What stays behind when every tile holds its read share of an array: the remainder of the halving per SparseCore,
    and of each half's dealing. -/
def rdRest (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTok fullShare 2 c) 16} f)

omit [FloatOps F] in
theorem rd_split :
    (ℓ ↦{fullShare} f : sProp 𝕄)
      ⊢ iprop(rdRest ℓ f ∗ bigSep Finset.univ fun c : Fin 2 => bigSep Finset.univ fun s : Fin 16 => ℓ ↦{rdShare c s} f) := by
  unfold rdRest
  refine (Transfers.pointsTo_toks_split fullShare 2).trans ?_
  refine (sep_mono_right (bigSep_mono fun c _ => Transfers.pointsTo_toks_split (Transfers.shareTok fullShare 2 c) 16)).trans ?_
  rw [bigSep_sep']
  iintro ⟨H0, H1, H2⟩
  isplitl [H0 H1]
  · isplitl [H0]; · iexact H0
    iexact H1
  iexact H2

omit [FloatOps F] in
theorem rd_join :
    iprop(rdRest ℓ f ∗ bigSep Finset.univ fun c : Fin 2 => bigSep Finset.univ fun s : Fin 16 => ℓ ↦{rdShare c s} f)
      ⊢ (ℓ ↦{fullShare} f : sProp 𝕄) := by
  have h : iprop((bigSep Finset.univ fun c : Fin 2 => (ℓ ↦{Transfers.shareDrop (Transfers.shareTok fullShare 2 c) 16} f : sProp 𝕄))
        ∗ bigSep Finset.univ fun c : Fin 2 => bigSep Finset.univ fun s : Fin 16 => ℓ ↦{rdShare c s} f)
      ⊢ bigSep Finset.univ fun c : Fin 2 => (ℓ ↦{Transfers.shareTok fullShare 2 c} f : sProp 𝕄) := by
    rw [← bigSep_sep']
    exact bigSep_mono fun c _ => Transfers.pointsTo_toks_join (Transfers.shareTok fullShare 2 c) 16
  unfold rdRest
  iintro ⟨⟨H0, H1⟩, H2⟩
  iapply (Transfers.pointsTo_toks_join fullShare 2)
  isplitl [H0]; · iexact H0
  iapply h
  isplitl [H1]; · iexact H1
  iexact H2

end Shares

/-! ## The flat output: its slabs dealt, and gathered at what the tiles left -/

omit [FloatOps F] in
theorem ou_split (d : Dev nD) (f : Buf (Elt F) (ouLoc d)) :
    (ouLoc d ↦{fullShare} f : sProp 𝕄)
      = bigSep Finset.univ fun c : Fin 2 => bigSep Finset.univ fun s : Fin 16 => ouLoc d ↦[slab c s]{fullShare} f := by
  rw [← bigSep_univ_prod (fun p : Fin 2 × Fin 16 => (ouLoc d ↦[slab p.1 p.2]{fullShare} f : sProp 𝕄)),
    ← pointsTo_biUnion Finset.univ (ℓ := ouLoc d) slabP slabs_disjoint, slabs_cover]

theorem ou_join (d : Dev nD) (fs : Fin 2 → Fin 16 → Buf (Elt F) (ouLoc d)) :
    (bigSep Finset.univ fun c : Fin 2 => bigSep Finset.univ fun s : Fin 16 => (ouLoc d ↦[slab c s]{fullShare} fs c s : sProp 𝕄))
      ⊢ iprop(∃ g : Buf (Elt F) (ouLoc d), ⌜∀ (c : Fin 2) (s : Fin 16), ∀ j ∈ slab c s, g j = fs c s j⌝ ∗ ouLoc d ↦{fullShare} g) := by
  rw [← bigSep_univ_prod (fun p : Fin 2 × Fin 16 => (ouLoc d ↦[slab p.1 p.2]{fullShare} fs p.1 p.2 : sProp 𝕄))]
  iintro H
  ihave H' := (pointsTo_biUnion_join Finset.univ (ℓ := ouLoc d) slabP (fun p => fs p.1 p.2) (fs 0 0) slabs_disjoint) $$ H
  icases H' with ⟨%g, %hg, Hg⟩
  rw [slabs_cover]
  iexists g; isplitr
  · ipureintro; exact fun c s j hj => hg (c, s) (Finset.mem_univ _) j hj
  · iexact Hg

/-! ## The call's operands, dealt and gathered -/

/-- The remainders of the three read arrays' shares, kept by the TensorCore across the call. -/
def callRest (d : Dev nD) (w6 : Buf (Elt F) (rpLoc d)) (w7 : Buf (Elt F) (qfLoc d)) (w5 : Buf (Elt F) (tbLoc d)) : sProp 𝕄 :=
  iprop(rdRest (rpLoc d) w6 ∗ rdRest (qfLoc d) w7 ∗ rdRest (tbLoc d) w5)

theorem goRes_all (d : Dev nD) (w6 : Buf (Elt F) (rpLoc d)) (w7 : Buf (Elt F) (qfLoc d)) (w5 : Buf (Elt F) (tbLoc d)) (o0 : Buf (Elt F) (ouLoc d)) :
    (bigSep Finset.univ fun c : Fin 2 => bigSep Finset.univ fun s : Fin 16 => goRes d w6 w7 w5 o0 c s)
      = iprop((bigSep Finset.univ fun c : Fin 2 => bigSep Finset.univ fun s : Fin 16 => rpLoc d ↦{rdShare c s} w6)
          ∗ (bigSep Finset.univ fun c : Fin 2 => bigSep Finset.univ fun s : Fin 16 => qfLoc d ↦{rdShare c s} w7)
          ∗ (bigSep Finset.univ fun c : Fin 2 => bigSep Finset.univ fun s : Fin 16 => tbLoc d ↦{rdShare c s} w5)
          ∗ (bigSep Finset.univ fun c : Fin 2 => bigSep Finset.univ fun s : Fin 16 => ouLoc d ↦[slab c s]{fullShare} o0)) := by
  unfold goRes
  simp only [bigSep_sep']

theorem tdRes_all (d : Dev nD) (w6 : Buf (Elt F) (rpLoc d)) (w7 : Buf (Elt F) (qfLoc d)) (w5 : Buf (Elt F) (tbLoc d))
    (TO : Fin 2 → Fin 16 → Buf (Elt F) (ouLoc d)) :
    (bigSep Finset.univ fun c : Fin 2 => bigSep Finset.univ fun s : Fin 16 => tdRes d w6 w7 w5 TO c s)
      = iprop((bigSep Finset.univ fun c : Fin 2 => bigSep Finset.univ fun s : Fin 16 => rpLoc d ↦{rdShare c s} w6)
          ∗ (bigSep Finset.univ fun c : Fin 2 => bigSep Finset.univ fun s : Fin 16 => qfLoc d ↦{rdShare c s} w7)
          ∗ (bigSep Finset.univ fun c : Fin 2 => bigSep Finset.univ fun s : Fin 16 => tbLoc d ↦{rdShare c s} w5)
          ∗ (bigSep Finset.univ fun c : Fin 2 => bigSep Finset.univ fun s : Fin 16 => ouLoc d ↦[slab c s]{fullShare} TO c s)) := by
  unfold tdRes
  simp only [bigSep_sep']

/-- The four operands whole are every tile's holding and the shares' remainders; -/
theorem call_split (d : Dev nD) (w6 : Buf (Elt F) (rpLoc d)) (w7 : Buf (Elt F) (qfLoc d)) (w5 : Buf (Elt F) (tbLoc d)) (o0 : Buf (Elt F) (ouLoc d)) :
    iprop((rpLoc d ↦{fullShare} w6) ∗ (qfLoc d ↦{fullShare} w7) ∗ (tbLoc d ↦{fullShare} w5) ∗ (ouLoc d ↦{fullShare} o0))
      ⊢ iprop(callRest d w6 w7 w5 ∗ bigSep Finset.univ fun c : Fin 2 => bigSep Finset.univ fun s : Fin 16 => goRes d w6 w7 w5 o0 c s) := by
  rw [goRes_all, ou_split]
  unfold callRest
  iintro ⟨H6, H7, H5, Ho⟩
  ihave H6' := (rd_split (ℓ := rpLoc d)) $$ H6
  ihave H7' := (rd_split (ℓ := qfLoc d)) $$ H7
  ihave H5' := (rd_split (ℓ := tbLoc d)) $$ H5
  icases H6' with ⟨R6, H6⟩
  icases H7' with ⟨R7, H7⟩
  icases H5' with ⟨R5, H5⟩
  isplitl [R6 R7 R5]
  · isplitl [R6]; · iexact R6
    isplitl [R7]; · iexact R7
    iexact R5
  isplitl [H6]; · iexact H6
  isplitl [H7]; · iexact H7
  isplitl [H5]; · iexact H5
  iexact Ho

/-- and the remainders with every tile's return are the three read arrays whole again, and the output whole at one
    array that agrees with each tile's final function on its slab. -/
theorem call_join (d : Dev nD) (w6 : Buf (Elt F) (rpLoc d)) (w7 : Buf (Elt F) (qfLoc d)) (w5 : Buf (Elt F) (tbLoc d))
    (TO : Fin 2 → Fin 16 → Buf (Elt F) (ouLoc d)) :
    iprop(callRest d w6 w7 w5 ∗ bigSep Finset.univ fun c : Fin 2 => bigSep Finset.univ fun s : Fin 16 => tdRes d w6 w7 w5 TO c s)
      ⊢ iprop((rpLoc d ↦{fullShare} w6) ∗ (qfLoc d ↦{fullShare} w7) ∗ (tbLoc d ↦{fullShare} w5)
          ∗ ∃ g : Buf (Elt F) (ouLoc d), ⌜∀ (c : Fin 2) (s : Fin 16), ∀ j ∈ slab c s, g j = TO c s j⌝ ∗ ouLoc d ↦{fullShare} g) := by
  rw [tdRes_all]
  unfold callRest
  iintro ⟨⟨R6, R7, R5⟩, H6, H7, H5, Ho⟩
  isplitl [R6 H6]
  · iapply (rd_join (ℓ := rpLoc d)); isplitl [R6]; · iexact R6
    iexact H6
  isplitl [R7 H7]
  · iapply (rd_join (ℓ := qfLoc d)); isplitl [R7]; · iexact R7
    iexact H7
  isplitl [R5 H5]
  · iapply (rd_join (ℓ := tbLoc d)); isplitl [R5]; · iexact R5
    iexact H5
  iapply (ou_join d TO); iexact Ho

/-! ## The launch theorem's obligations: a SparseCore's operands are its sixteen tiles' -/

theorem vecSplit (cd : CallData (F := F)) : (K (F := F)).VecSplit' (P cd) 0 := by
  intro d c
  rw [P_st, P_dn]
  simp only [P_go, P_td]
  rw [bigSep_subs (F := F) (fun s => goRes d (cd.w6 d) (cd.w7 d) (cd.w5 d) (cd.o0 d) (Fin.cast nCore_zero c) s),
    bigSep_subs (F := F) (fun s => tdRes d (cd.w6 d) (cd.w7 d) (cd.w5 d) (cd.TO d) (Fin.cast nCore_zero c) s)]
  iintro H; imodintro
  isplitl [H]; · iexact H
  iintro H; iexact H

theorem st0_eq (cd : CallData (F := F)) (d : Dev nD) :
    (bigSep Finset.univ fun c : Fin ((K (F := F)).nCore 0) => (P cd).st 0 d c)
      = bigSep Finset.univ fun c : Fin 2 => bigSep Finset.univ fun s : Fin 16 => goRes d (cd.w6 d) (cd.w7 d) (cd.w5 d) (cd.o0 d) c s := by
  simp only [P_st]
  exact bigSep_cores (F := F) (fun c => bigSep Finset.univ fun s : Fin 16 => goRes d (cd.w6 d) (cd.w7 d) (cd.w5 d) (cd.o0 d) c s)
theorem dn0_eq (cd : CallData (F := F)) (d : Dev nD) :
    (bigSep Finset.univ fun c : Fin ((K (F := F)).nCore 0) => (P cd).dn 0 d c)
      = bigSep Finset.univ fun c : Fin 2 => bigSep Finset.univ fun s : Fin 16 => tdRes d (cd.w6 d) (cd.w7 d) (cd.w5 d) (cd.TO d) c s := by
  simp only [P_dn]
  exact bigSep_cores (F := F) (fun c => bigSep Finset.univ fun s : Fin 16 => tdRes d (cd.w6 d) (cd.w7 d) (cd.w5 d) (cd.TO d) c s)

/-! ## The launch element: the handshakes' rounds; the kernel keeps no protocol of its own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (cd : CallData (F := F)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P cd).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Tile

end
-- ==== Proof.KIQTrip.lean ====
/-
  One trip of the per-query loop on a tile: for the query at position k of the chunk, six indexed loads of the
  staged relative positions (lanes 3·lane + offset), their clipped table buckets, ninety-six splat loads of the
  staged query features, one hundred and ninety-two indexed loads of the staged table at bucket · 32 + offset + w,
  the sixteen accumulators, and sixteen indexed stores (lanes 8·lane + offset) into the staged output. Every index
  vector is in range: the lane families of LibLaneRanges, each from one inequality between literals.
-/
import proofs.«204784_g45775761440795_cont_8to1c4_693_3_alg».proof.Proof.KISetup
import proofs.«204784_g45775761440795_cont_8to1c4_693_3_alg».proof.Proof.Gen.KernelIdeal.Skeleton
import proofs.«204784_g45775761440795_cont_8to1c4_693_3_alg».proof.Proof.LibLaneRanges

noncomputable section

namespace Cert.KernelIdeal.Tile

open Cert.KernelIdeal Cert.KernelIdeal.Gen Cert.LaneRanges

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "rpW" => (Memref.whole Cert.KernelIdeal.main_v6_scv : Memref Cert.KernelIdeal.sig Kind.scVector Space.hbm Cert.KernelIdeal.S6291456 EltTy.f32)
local notation "qfW" => (Memref.whole Cert.KernelIdeal.main_v7_scv : Memref Cert.KernelIdeal.sig Kind.scVector Space.hbm Cert.KernelIdeal.S6291456 EltTy.f32)
local notation "tbW" => (Memref.whole Cert.KernelIdeal.main_v5_scv : Memref Cert.KernelIdeal.sig Kind.scVector Space.hbm Cert.KernelIdeal.S49184 EltTy.f32)
local notation "ouW" => (Memref.whole Cert.KernelIdeal.main_v8_scv : Memref Cert.KernelIdeal.sig Kind.scVector Space.hbm Cert.KernelIdeal.S16777216 EltTy.f32)
local notation "s0W" => (Memref.whole Cert.KernelIdeal.cc0_scratch0 : Memref Cert.KernelIdeal.sig Kind.scVector Space.vmem Cert.KernelIdeal.S49184 EltTy.f32)
local notation "s1W" => (Memref.whole Cert.KernelIdeal.cc0_scratch1 : Memref Cert.KernelIdeal.sig Kind.scVector Space.vmem Cert.KernelIdeal.S6144 EltTy.f32)
local notation "s2W" => (Memref.whole Cert.KernelIdeal.cc0_scratch2 : Memref Cert.KernelIdeal.sig Kind.scVector Space.vmem Cert.KernelIdeal.S6144 EltTy.f32)
local notation "s3W" => (Memref.whole Cert.KernelIdeal.cc0_scratch3 : Memref Cert.KernelIdeal.sig Kind.scVector Space.vmem Cert.KernelIdeal.S16384 EltTy.f32)

variable [FloatOps F]

abbrev cV (L : grid0.Coords) : Fin τ.nSC := (L 0).castLE hcore0
abbrev jV (L : grid0.Coords) : Fin τ.nSub := (L 1).castLE hsub0

/-- A trip of the per-query loop is one of at most sixty-four. -/
theorem trip_lt (k : Fin k0_t2_loop.trips) : (k : Nat) < 64 := lt_of_lt_of_le k.isLt k0_t2_abs.2.1

/-- The lane sequence times 3, and times 8: the two strided bases of the trip's index vectors. -/
theorem lane3_le : ∀ x : L16.Idx, ((k0_pay1 : IVec S16 32) x).toNat ≤ 15 * (3#32 : BitVec 32).toNat := lanes_le _ (3#32)
theorem lane8_le : ∀ x : L16.Idx, ((k0_pay2 : IVec S16 32) x).toNat ≤ 15 * (8#32 : BitVec 32).toNat := lanes_le _ (8#32)

/-- Every index vector of the trip is in range: a table bucket, a strided output vector, or — against the staged
    positions and features — the lane sequence times 3 or a splat, plus the trip's scalar offset. -/
macro "lane_chk" : tactic => `(tactic| first
  | (refine chk_of (N := 49184) ?_; exact bucket 49184 _ _ _ _ (by decide) (by decide) (by decide))
  | (refine chk_of (N := 16384) ?_; exact strided2 16384 _ _ _ (trip_lt _) _ _ _ (by decide) (by decide))
  | (refine chk_of (N := 6144) ?_; apply add_bcast 6144; first
      | ((with_reducible exact lane3_le); exact chain2_lt _ 6144 _ (trip_lt _) _ _ _ (by decide) (by decide))
      | ((exact le_zero_of_lanes _ (fun _ => rfl)); exact chain3_lt 0 6144 _ (trip_lt _) _ _ _ _ (by decide) (by decide))))

/-- Past an indexed load or store (a plain load, or a load and a store, of the whole scratch), run on to the next. -/
macro "step_gather" : tactic => `(tactic| ((first | unfold SparseCore.vectorLoadIdx | unfold SparseCore.vectorStoreIdx); sl_exec_parts (disch := lane_chk)))

set_option sl_exec.dischHeartbeats 200000 in
set_option maxHeartbeats 8000000 in
/-- One trip of the per-query loop, from the four staged buffers held whole: the table, the positions and the features
    are read only; the staged output ends at `G k ft fr fq fo`, the function the run finds (sixteen indexed stores over
    what it held, each of an accumulator of twelve products of gathered words): the witness of the subtype. -/
def qTrip (d : Dev nD) (L : grid0.Coords) :
    { G : Fin k0_t2_loop.trips → Buf (Elt F) ((s0W).view.loc (V d (cV L) (jV L))) → Buf (Elt F) ((s1W).view.loc (V d (cV L) (jV L)))
          → Buf (Elt F) ((s2W).view.loc (V d (cV L) (jV L))) → Buf (Elt F) ((s3W).view.loc (V d (cV L) (jV L)))
          → Buf (Elt F) ((s3W).view.loc (V d (cV L) (jV L))) //
      ∀ (k : Fin k0_t2_loop.trips) (acc : BitVec 32)
        (ft : Buf (Elt F) ((s0W).view.loc (V d (cV L) (jV L)))) (fr : Buf (Elt F) ((s1W).view.loc (V d (cV L) (jV L))))
        (fq : Buf (Elt F) ((s2W).view.loc (V d (cV L) (jV L)))) (fo : Buf (Elt F) ((s3W).view.loc (V d (cV L) (jV L)))),
        iprop(((s0W).view.loc (V d (cV L) (jV L)) ↦{fullShare} ft) ∗ ((s1W).view.loc (V d (cV L) (jV L)) ↦{fullShare} fr)
            ∗ ((s2W).view.loc (V d (cV L) (jV L)) ↦{fullShare} fq) ∗ ((s3W).view.loc (V d (cV L) (jV L)) ↦{fullShare} fo) : sProp 𝕄)
          ⊢ wp frame (wpE (defs₀ (F := F)) 𝒱₀ (V d (cV L) (jV L)) none) Set.univ
              (k0_t2_body L rpW (Memref.isWhole_whole _) qfW (Memref.isWhole_whole _) tbW (Memref.isWhole_whole _) ouW (Memref.isWhole_whole _)
                s0W (Memref.isWhole_whole _) s1W (Memref.isWhole_whole _) s2W (Memref.isWhole_whole _) s3W (Memref.isWhole_whole _)
                cc0_scoped0 cc0_scoped1 cc0_scoped2 cc0_scoped3 k acc)
              (fun _ => iprop(((s0W).view.loc (V d (cV L) (jV L)) ↦{fullShare} ft) ∗ ((s1W).view.loc (V d (cV L) (jV L)) ↦{fullShare} fr)
                ∗ ((s2W).view.loc (V d (cV L) (jV L)) ↦{fullShare} fq) ∗ ((s3W).view.loc (V d (cV L) (jV L)) ↦{fullShare} G k ft fr fq fo))) } := by
  refine ⟨?_, fun k acc ft fr fq fo => ?run⟩
  case run =>
    iintro ⟨H0, H1, H2, H3⟩
    unfold k0_t2_body
    sl_exec_parts (disch := lane_chk)
    repeat step_gather
    sl_step
    isplitl [H0]; · iexact H0
    isplitl [H1]; · iexact H1
    isplitl [H2]; · iexact H2
    iexact H3

end Cert.KernelIdeal.Tile

end
-- ==== Proof.KITileA.lean ====
/-
  A tile's task, first part: the tile's own semaphores and scratch buffers; the thirty-two chunks of its slab (pairwise
  disjoint, covering it); what its buffers hold along its work — the fetches' landings, the per-query trips folded,
  the staged output chunk after chunk — and its final function of the flat output, with the agreement of a chunk's
  write-out with it on the chunk's words.
-/
import proofs.«204784_g45775761440795_cont_8to1c4_693_3_alg».proof.Proof.KILaunchA
import proofs.«204784_g45775761440795_cont_8to1c4_693_3_alg».proof.Proof.KIQTrip
import Idealize.ShloMosaic.Lib.ValueIdx
import Idealize.ShloMosaic.Lib.Tactic

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "rpW" => (Memref.whole Cert.KernelIdeal.main_v6_scv : Memref Cert.KernelIdeal.sig Kind.scVector Space.hbm Cert.KernelIdeal.S6291456 EltTy.f32)
local notation "qfW" => (Memref.whole Cert.KernelIdeal.main_v7_scv : Memref Cert.KernelIdeal.sig Kind.scVector Space.hbm Cert.KernelIdeal.S6291456 EltTy.f32)
local notation "tbW" => (Memref.whole Cert.KernelIdeal.main_v5_scv : Memref Cert.KernelIdeal.sig Kind.scVector Space.hbm Cert.KernelIdeal.S49184 EltTy.f32)
local notation "ouW" => (Memref.whole Cert.KernelIdeal.main_v8_scv : Memref Cert.KernelIdeal.sig Kind.scVector Space.hbm Cert.KernelIdeal.S16777216 EltTy.f32)
local notation "s0W" => (Memref.whole Cert.KernelIdeal.cc0_scratch0 : Memref Cert.KernelIdeal.sig Kind.scVector Space.vmem Cert.KernelIdeal.S49184 EltTy.f32)
local notation "s1W" => (Memref.whole Cert.KernelIdeal.cc0_scratch1 : Memref Cert.KernelIdeal.sig Kind.scVector Space.vmem Cert.KernelIdeal.S6144 EltTy.f32)
local notation "s2W" => (Memref.whole Cert.KernelIdeal.cc0_scratch2 : Memref Cert.KernelIdeal.sig Kind.scVector Space.vmem Cert.KernelIdeal.S6144 EltTy.f32)
local notation "s3W" => (Memref.whole Cert.KernelIdeal.cc0_scratch3 : Memref Cert.KernelIdeal.sig Kind.scVector Space.vmem Cert.KernelIdeal.S16384 EltTy.f32)

variable [FloatOps F]

/-! ## The tile's own semaphores and scratch buffers -/

section Own

variable (d : Dev nD) (L : grid0.Coords)

/-- The tile's DMA semaphore number `n`, as a cell. -/
abbrev sem0 : GSem nD τ sig := (V d (cV L) (jV L), .dma cc0_scoped0.sem)
abbrev sem1 : GSem nD τ sig := (V d (cV L) (jV L), .dma cc0_scoped1.sem)
abbrev sem2 : GSem nD τ sig := (V d (cV L) (jV L), .dma cc0_scoped2.sem)
abbrev sem3 : GSem nD τ sig := (V d (cV L) (jV L), .dma cc0_scoped3.sem)

omit [FloatOps F] in
theorem ownSems0_V :
    (ownSems0 (V d (cV L) (jV L)) : sProp 𝕄)
      = iprop(semVal (sem0 d L) 0 ∗ semVal (sem1 d L) 0 ∗ semVal (sem2 d L) 0 ∗ semVal (sem3 d L) 0
          ∗ bigSep (((((ownCells (V d (cV L) (jV L))).erase (sem0 d L)).erase (sem1 d L)).erase (sem2 d L)).erase (sem3 d L))
              fun g => semVal g 0) := by
  unfold SparseCore.Cfg.ownSems0
  rw [SparseCore.bigSep_erase' ((mem_ownCells (g := sem0 d L)).mpr ⟨rfl, by
      show (SemLoc.dma cc0_scoped0.sem : SemLoc sig).isScoped .scVector = true; decide⟩),
    SparseCore.bigSep_erase' (Finset.mem_erase.mpr ⟨by simp [sem0, sem1]; decide, (mem_ownCells (g := sem1 d L)).mpr ⟨rfl, by
      show (SemLoc.dma cc0_scoped1.sem : SemLoc sig).isScoped .scVector = true; decide⟩⟩),
    SparseCore.bigSep_erase' (Finset.mem_erase.mpr ⟨by simp [sem1, sem2]; decide, Finset.mem_erase.mpr ⟨by simp [sem0, sem2]; decide,
      (mem_ownCells (g := sem2 d L)).mpr ⟨rfl, by show (SemLoc.dma cc0_scoped2.sem : SemLoc sig).isScoped .scVector = true; decide⟩⟩⟩),
    SparseCore.bigSep_erase' (Finset.mem_erase.mpr ⟨by simp [sem2, sem3]; decide, Finset.mem_erase.mpr ⟨by simp [sem1, sem3]; decide,
      Finset.mem_erase.mpr ⟨by simp [sem0, sem3]; decide,
      (mem_ownCells (g := sem3 d L)).mpr ⟨rfl, by show (SemLoc.dma cc0_scoped3.sem : SemLoc sig).isScoped .scVector = true; decide⟩⟩⟩⟩)]

omit [FloatOps F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

end Own

omit [FloatOps F] in
theorem bound_zero : grid0.bound 0 = 2 := rfl
omit [FloatOps F] in
theorem bound_one : grid0.bound 1 = 16 := rfl
/-- The tile's SparseCore and subcore, as the launch numbers them. -/
abbrev cL (L : grid0.Coords) : Fin 2 := Fin.cast bound_zero (L 0)
abbrev sL (L : grid0.Coords) : Fin 16 := Fin.cast bound_one (L 1)

/-! ## The chunks of a tile's work: thirty-two trips, each over sixty-four queries -/

section Geometry

variable (L : grid0.Coords)

omit [FloatOps F] in
theorem trips1 : k0_t1_loop.trips = 32 := by decide
omit [FloatOps F] in
theorem trips2 : k0_t2_loop.trips = 64 := by decide

/-- Trip `k`'s slice of the flat output, of the flat relative positions, of the flat query features, as the program slices them. -/
abbrev ouChunk (k : Fin k0_t1_loop.trips) : Memref sig .scVector .hbm S16384 .f32 :=
  (ouW).slice (Rect.unit (s := S16777216) (k0_off2 L k) S16384.size (Facts₀.k0_off2_inb L k)) (fun _ => rfl)
abbrev rpChunk (k : Fin k0_t1_loop.trips) : Memref sig .scVector .hbm S6144 .f32 :=
  (rpW).slice (Rect.unit (s := S6291456) (k0_off1 L k) S6144.size (Facts₀.k0_off1_inb L k)) (fun _ => rfl)
abbrev qfChunk (k : Fin k0_t1_loop.trips) : Memref sig .scVector .hbm S6144 .f32 :=
  (qfW).slice (Rect.unit (s := S6291456) (k0_off1 L k) S6144.size (Facts₀.k0_off1_inb L k)) (fun _ => rfl)

/-- The words of the flat output trip `k` writes. -/
def chunkSet (k : Fin k0_t1_loop.trips) : Finset S16777216.Idx := (ouChunk L k).view.set

omit [FloatOps F] in
theorem mem_chunkSet {k : Fin k0_t1_loop.trips} {j : S16777216.Idx} :
    j ∈ chunkSet L k ↔ 1048576 * (L 1).val + 524288 * (L 0).val + 16384 * k.val ≤ (j 0).val
      ∧ (j 0).val < 1048576 * (L 1).val + 524288 * (L 0).val + 16384 * k.val + 16384 := by
  unfold chunkSet
  show j ∈ ((View.whole (main_v8_scv : Ref sig .scVector)).slice
      (Rect.unit (s := S16777216) (k0_off2 L k) S16384.size (Facts₀.k0_off2_inb L k))).set ↔ _
  rw [View.set_slice_whole, Rect.mem_set_unit, k0_off2_eq]
  exact Fin.forall_fin_one (p := fun a : Fin 1 =>
    (![1048576 * (L 1).val + 524288 * (L 0).val + 16384 * k.val] : Fin 1 → ℕ) a ≤ (j a).val
      ∧ (j a).val < (![1048576 * (L 1).val + 524288 * (L 0).val + 16384 * k.val] : Fin 1 → ℕ) a + S16384.size a)

omit [FloatOps F] in
theorem chunks_disjoint : ∀ k ∈ (Finset.univ : Finset (Fin k0_t1_loop.trips)), ∀ k' ∈ (Finset.univ : Finset (Fin k0_t1_loop.trips)),
    k ≠ k' → Disjoint (chunkSet L k) (chunkSet L k') := by
  intro k _ k' _ hne
  refine Finset.disjoint_left.mpr fun j hj hj' => hne (Fin.ext ?_)
  have h := (mem_chunkSet L).mp hj
  have h' := (mem_chunkSet L).mp hj'
  omega

omit [FloatOps F] in
theorem chunks_cover : (Finset.univ : Finset (Fin k0_t1_loop.trips)).biUnion (chunkSet L) = slab (cL L) (sL L) := by
  ext j
  rw [Finset.mem_biUnion, mem_slab]
  have h0 : (L 0).val < 2 := (L 0).isLt
  have h1 : (L 1).val < 16 := (L 1).isLt
  constructor
  · rintro ⟨k, -, hk⟩
    have h := (mem_chunkSet L).mp hk
    have hk32 : k.val < 32 := lt_of_lt_of_eq k.isLt trips1
    show (2 * (L 1).val + (L 0).val) * 524288 ≤ (j 0).val ∧ (j 0).val < (2 * (L 1).val + (L 0).val + 1) * 524288
    omega
  · intro h
    have h' : (2 * (L 1).val + (L 0).val) * 524288 ≤ (j 0).val ∧ (j 0).val < (2 * (L 1).val + (L 0).val + 1) * 524288 := h
    refine ⟨⟨((j 0).val - (2 * (L 1).val + (L 0).val) * 524288) / 16384, by rw [trips1]; omega⟩, Finset.mem_univ _, (mem_chunkSet L).mpr ?_⟩
    dsimp only
    omega

end Geometry

/-! ## What the tile's buffers hold along its work -/

section Contents

open Idealize.ShloMosaic.ValueIdx

variable (d : Dev nD) (L : grid0.Coords)

/-- What the table's fetch lands in the staged table, and what trip `k`'s two fetches land in the staged positions and
    features: the arrays read through the slices the program copies. -/
def tbLand (w5 : Buf (Elt F) (tbLoc d)) : Buf (Elt F) ((s0W).view.loc (V d (cV L) (jV L))) := (tbW).view.read (Elt F) w5
def rpRead (k : Fin k0_t1_loop.trips) (w6 : Buf (Elt F) (rpLoc d)) : Buf (Elt F) ((s1W).view.loc (V d (cV L) (jV L))) :=
  (rpChunk L k).view.read (Elt F) w6
def qfRead (k : Fin k0_t1_loop.trips) (w7 : Buf (Elt F) (qfLoc d)) : Buf (Elt F) ((s2W).view.loc (V d (cV L) (jV L))) :=
  (qfChunk L k).view.read (Elt F) w7

/-- The staged output after `n` trips of the per-query loop, from `fo`: the trips' functions folded. -/
def qFold (ft : Buf (Elt F) ((s0W).view.loc (V d (cV L) (jV L)))) (fr : Buf (Elt F) ((s1W).view.loc (V d (cV L) (jV L))))
    (fq : Buf (Elt F) ((s2W).view.loc (V d (cV L) (jV L)))) (fo : Buf (Elt F) ((s3W).view.loc (V d (cV L) (jV L)))) :
    ℕ → Buf (Elt F) ((s3W).view.loc (V d (cV L) (jV L)))
  | 0 => fo
  | n + 1 => if h : n < k0_t2_loop.trips then (qTrip (F := F) d L).1 ⟨n, h⟩ ft fr fq (qFold ft fr fq fo n) else qFold ft fr fq fo n

section
variable (ft : Buf (Elt F) ((s0W).view.loc (V d (cV L) (jV L)))) (fr : Buf (Elt F) ((s1W).view.loc (V d (cV L) (jV L))))
  (fq : Buf (Elt F) ((s2W).view.loc (V d (cV L) (jV L)))) (fo : Buf (Elt F) ((s3W).view.loc (V d (cV L) (jV L))))
theorem qFold_zero : qFold d L ft fr fq fo 0 = fo := rfl
theorem qFold_succ (k : Fin k0_t2_loop.trips) :
    qFold d L ft fr fq fo (k.val + 1) = (qTrip (F := F) d L).1 k ft fr fq (qFold d L ft fr fq fo k.val) := by
  show (if h : k.val < k0_t2_loop.trips then (qTrip (F := F) d L).1 ⟨k.val, h⟩ ft fr fq (qFold d L ft fr fq fo k.val) else _) = _
  rw [dif_pos k.isLt]
end

/-- The staged output after `k` chunks: each chunk's sixty-four trips over the table and the chunk's positions and
    features, from what the chunk before left (a constant word before the first). -/
def stagedOut (w6 : Buf (Elt F) (rpLoc d)) (w7 : Buf (Elt F) (qfLoc d)) (w5 : Buf (Elt F) (tbLoc d)) :
    ℕ → Buf (Elt F) ((s3W).view.loc (V d (cV L) (jV L)))
  | 0 => fun _ => (FloatOps.ofBits FTy.f32 0 : F .f32)
  | k + 1 => if h : k < k0_t1_loop.trips then
      qFold d L (tbLand d L w5) (rpRead d L ⟨k, h⟩ w6) (qfRead d L ⟨k, h⟩ w7) (stagedOut w6 w7 w5 k) 64
    else stagedOut w6 w7 w5 k

theorem stagedOut_succ (w6 : Buf (Elt F) (rpLoc d)) (w7 : Buf (Elt F) (qfLoc d)) (w5 : Buf (Elt F) (tbLoc d)) (k : Fin k0_t1_loop.trips) :
    stagedOut d L w6 w7 w5 (k.val + 1)
      = qFold d L (tbLand d L w5) (rpRead d L k w6) (qfRead d L k w7) (stagedOut d L w6 w7 w5 k.val) 64 := by
  show (if h : k.val < k0_t1_loop.trips then
      qFold d L (tbLand d L w5) (rpRead d L ⟨k.val, h⟩ w6) (qfRead d L ⟨k.val, h⟩ w7) (stagedOut d L w6 w7 w5 k.val) 64 else _) = _
  rw [dif_pos k.isLt]

/-- The tile's final function of the flat output: in its slab, word `r` of chunk `k` is word `r` of the staged output
    after chunk `k`; the launch contents elsewhere. -/
def tileOut (w6 : Buf (Elt F) (rpLoc d)) (w7 : Buf (Elt F) (qfLoc d)) (w5 : Buf (Elt F) (tbLoc d)) (o0 : Buf (Elt F) (ouLoc d)) :
    Buf (Elt F) (ouLoc d) :=
  fun j =>
    if (2 * (L 1).val + (L 0).val) * 524288 ≤ (j 0).val ∧ (j 0).val < (2 * (L 1).val + (L 0).val + 1) * 524288 then
      stagedOut d L w6 w7 w5 (((j 0).val - (2 * (L 1).val + (L 0).val) * 524288) / 16384 + 1)
        (ix1 ⟨((j 0).val - (2 * (L 1).val + (L 0).val) * 524288) % 16384, Nat.mod_lt _ (by decide)⟩)
    else o0 j

/-- A chunk's write-out of the whole staged output leaves, at the chunk's word `x`, the staged output's word `x`. -/
theorem wrote_at (k : Fin k0_t1_loop.trips) (o : Buf (Elt F) (ouLoc d)) (X : Buf (Elt F) ((s3W).view.loc (V d (cV L) (jV L)))) (x : S16384.Idx) :
    (ouChunk L k).view.writes (Elt F) o [⟨Rect.whole S16384, (s3W).view.read (Elt F) X⟩] ((ouChunk L k).view.emb x) = X x := by
  have hw := View.read_writes_cons_emb (v := (ouChunk L k).view) (f := o) (Rect.whole S16384) ((s3W).view.read (Elt F) X) [] x
  rw [Rect.emb_whole_apply, View.read_apply, cast_eq] at hw
  exact hw

/-- Chunk `k`'s write-out of the staged output after that chunk leaves, on the chunk's words, the tile's final function. -/
theorem wrote_eq (w6 : Buf (Elt F) (rpLoc d)) (w7 : Buf (Elt F) (qfLoc d)) (w5 : Buf (Elt F) (tbLoc d)) (o0 : Buf (Elt F) (ouLoc d))
    (k : Fin k0_t1_loop.trips) (o : Buf (Elt F) (ouLoc d)) :
    ∀ j ∈ chunkSet L k,
      (ouChunk L k).view.writes (Elt F) o [⟨Rect.whole S16384, (s3W).view.read (Elt F) (stagedOut d L w6 w7 w5 (k.val + 1))⟩] j
        = tileOut d L w6 w7 w5 o0 j := by
  intro j hj
  have hk32 : k.val < 32 := lt_of_lt_of_eq k.isLt trips1
  have h0 : (L 0).val < 2 := (L 0).isLt
  have h1 : (L 1).val < 16 := (L 1).isLt
  obtain ⟨x, -, rfl⟩ := Finset.mem_map.mp hj
  have hx : (x 0).val < 16384 := (x 0).isLt
  have he : (((ouChunk L k).view.emb x) 0).val = 1048576 * (L 1).val + 524288 * (L 0).val + 16384 * k.val + (x 0).val := by
    show (k0_off2 L k) 0 + 1 * (x 0).val = _
    rw [k0_off2_eq]; show 1048576 * (L 1).val + 524288 * (L 0).val + 16384 * k.val + 1 * (x 0).val = _; omega
  rw [wrote_at]
  unfold tileOut
  rw [if_pos (by rw [he]; omega)]
  have e1 : ((((ouChunk L k).view.emb x) 0).val - (2 * (L 1).val + (L 0).val) * 524288) / 16384 + 1 = k.val + 1 := by rw [he]; omega
  have e2 : ((((ouChunk L k).view.emb x) 0).val - (2 * (L 1).val + (L 0).val) * 524288) % 16384 = (x 0).val := by rw [he]; omega
  have e3 : (ix1 ⟨((((ouChunk L k).view.emb x) 0).val - (2 * (L 1).val + (L 0).val) * 524288) % 16384, Nat.mod_lt _ (by decide)⟩ : S16384.Idx) = x := by
    funext a; match a with | ⟨0, _⟩ => exact Fin.ext e2
  rw [e1, e3]

end Contents

end Cert.KernelIdeal.Tile

end
-- ==== Proof.KITile.lean ====
/-
  A tile's task, second part: the body run. The table is staged once; each of the thirty-two chunks stages its
  positions and features, runs the sixty-four per-query trips (one trip's run is the region of the inner loop), and
  writes the staged output to its chunk of the slab. The slab's chunks are held apart, each at the launch contents
  until its trip and at the tile's final function after it.
-/
import proofs.«204784_g45775761440795_cont_8to1c4_693_3_alg».proof.Proof.KITileA
import Idealize.ShloMosaic.Lib.Tactic

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "rpW" => (Memref.whole Cert.KernelIdeal.main_v6_scv : Memref Cert.KernelIdeal.sig Kind.scVector Space.hbm Cert.KernelIdeal.S6291456 EltTy.f32)
local notation "qfW" => (Memref.whole Cert.KernelIdeal.main_v7_scv : Memref Cert.KernelIdeal.sig Kind.scVector Space.hbm Cert.KernelIdeal.S6291456 EltTy.f32)
local notation "tbW" => (Memref.whole Cert.KernelIdeal.main_v5_scv : Memref Cert.KernelIdeal.sig Kind.scVector Space.hbm Cert.KernelIdeal.S49184 EltTy.f32)
local notation "ouW" => (Memref.whole Cert.KernelIdeal.main_v8_scv : Memref Cert.KernelIdeal.sig Kind.scVector Space.hbm Cert.KernelIdeal.S16777216 EltTy.f32)
local notation "s0W" => (Memref.whole Cert.KernelIdeal.cc0_scratch0 : Memref Cert.KernelIdeal.sig Kind.scVector Space.vmem Cert.KernelIdeal.S49184 EltTy.f32)
local notation "s1W" => (Memref.whole Cert.KernelIdeal.cc0_scratch1 : Memref Cert.KernelIdeal.sig Kind.scVector Space.vmem Cert.KernelIdeal.S6144 EltTy.f32)
local notation "s2W" => (Memref.whole Cert.KernelIdeal.cc0_scratch2 : Memref Cert.KernelIdeal.sig Kind.scVector Space.vmem Cert.KernelIdeal.S6144 EltTy.f32)
local notation "s3W" => (Memref.whole Cert.KernelIdeal.cc0_scratch3 : Memref Cert.KernelIdeal.sig Kind.scVector Space.vmem Cert.KernelIdeal.S16384 EltTy.f32)

variable [FloatOps F]

/-! ## The tile's task -/

section Body

variable (d : Dev nD) (L : grid0.Coords)

local notation "thrV" => (V d (cV L) (jV L))

omit [FloatOps F] in
theorem pts_rp (q : PosShare TreeShare) (f : Buf (Elt F) (rpLoc d)) :
    ((rpW).view.loc thrV ↦{q} f : sProp 𝕄) = rpLoc d ↦{q} f := by
  simp only [Memref.view_whole, View.set_whole]
omit [FloatOps F] in
theorem pts_qf (q : PosShare TreeShare) (f : Buf (Elt F) (qfLoc d)) :
    ((qfW).view.loc thrV ↦{q} f : sProp 𝕄) = qfLoc d ↦{q} f := by
  simp only [Memref.view_whole, View.set_whole]
omit [FloatOps F] in
theorem pts_tb (q : PosShare TreeShare) (f : Buf (Elt F) (tbLoc d)) :
    ((tbW).view.loc thrV ↦{q} f : sProp 𝕄) = tbLoc d ↦{q} f := by
  simp only [Memref.view_whole, View.set_whole]
omit [FloatOps F] in
theorem pts_s0 (f : Buf (Elt F) (Thread.loc thrV cc0_scratch0)) :
    ((s0W).view.loc thrV ↦{fullShare} f : sProp 𝕄) = Thread.loc thrV cc0_scratch0 ↦{fullShare} f := rfl
omit [FloatOps F] in
theorem pts_s1 (f : Buf (Elt F) (Thread.loc thrV cc0_scratch1)) :
    ((s1W).view.loc thrV ↦{fullShare} f : sProp 𝕄) = Thread.loc thrV cc0_scratch1 ↦{fullShare} f := rfl
omit [FloatOps F] in
theorem pts_s2 (f : Buf (Elt F) (Thread.loc thrV cc0_scratch2)) :
    ((s2W).view.loc thrV ↦{fullShare} f : sProp 𝕄) = Thread.loc thrV cc0_scratch2 ↦{fullShare} f := rfl
omit [FloatOps F] in
theorem pts_s3 (f : Buf (Elt F) (Thread.loc thrV cc0_scratch3)) :
    ((s3W).view.loc thrV ↦{fullShare} f : sProp 𝕄) = Thread.loc thrV cc0_scratch3 ↦{fullShare} f := rfl
omit [FloatOps F] in
/-- A chunk of the flat output as the tile's slice memref addresses it. -/
theorem pts_ou (k : Fin k0_t1_loop.trips) (f : Buf (Elt F) (ouLoc d)) :
    ((ouChunk L k).view.loc thrV ↦[(ouChunk L k).view.set]{fullShare} f : sProp 𝕄) = ouLoc d ↦[chunkSet L k]{fullShare} f := rfl

omit [FloatOps F] in
/-- A whole scratch buffer overwritten whole holds what was written. -/
theorem land0 (f w : Buf (Elt F) ((s0W).view.loc thrV)) :
    ((s0W).view.loc thrV ↦{fullShare} View.write (Elt F) (s0W).view f w Finset.univ : sProp 𝕄) = (s0W).view.loc thrV ↦{fullShare} w :=
  congrArg (fun g => ((s0W).view.loc thrV ↦{fullShare} g : sProp 𝕄)) (View.write_whole_univ (cc0_scratch0 : Ref sig .scVector) f w)
omit [FloatOps F] in
theorem land1 (f w : Buf (Elt F) ((s1W).view.loc thrV)) :
    ((s1W).view.loc thrV ↦{fullShare} View.write (Elt F) (s1W).view f w Finset.univ : sProp 𝕄) = (s1W).view.loc thrV ↦{fullShare} w :=
  congrArg (fun g => ((s1W).view.loc thrV ↦{fullShare} g : sProp 𝕄)) (View.write_whole_univ (cc0_scratch1 : Ref sig .scVector) f w)
omit [FloatOps F] in
theorem land2 (f w : Buf (Elt F) ((s2W).view.loc thrV)) :
    ((s2W).view.loc thrV ↦{fullShare} View.write (Elt F) (s2W).view f w Finset.univ : sProp 𝕄) = (s2W).view.loc thrV ↦{fullShare} w :=
  congrArg (fun g => ((s2W).view.loc thrV ↦{fullShare} g : sProp 𝕄)) (View.write_whole_univ (cc0_scratch2 : Ref sig .scVector) f w)

variable (w6 : Buf (Elt F) (rpLoc d)) (w7 : Buf (Elt F) (qfLoc d)) (w5 : Buf (Elt F) (tbLoc d)) (o0 : Buf (Elt F) (ouLoc d))

/-- What chunk `i` of the slab holds before trip `k`: the final function once its trip is past, the launch contents before. -/
def chunkF (k : ℕ) (i : Fin k0_t1_loop.trips) : Buf (Elt F) (ouLoc d) := if i.val < k then tileOut d L w6 w7 w5 o0 else o0

set_option maxRecDepth 8192 in
/-- The slab is its thirty-two chunks. -/
theorem ou_chunks (f : Buf (Elt F) (ouLoc d)) :
    (ouLoc d ↦[slab (cL L) (sL L)]{fullShare} f : sProp 𝕄) = bigSep Finset.univ fun i : Fin k0_t1_loop.trips => ouLoc d ↦[chunkSet L i]{fullShare} f := by
  rw [← pointsTo_biUnion Finset.univ (ℓ := ouLoc d) (chunkSet L) (chunks_disjoint L), chunks_cover]

theorem chunks_init :
    (ouLoc d ↦[slab (cL L) (sL L)]{fullShare} o0 : sProp 𝕄)
      = bigSep Finset.univ fun i : Fin k0_t1_loop.trips => ouLoc d ↦[chunkSet L i]{fullShare} chunkF d L w6 w7 w5 o0 0 i := by
  rw [ou_chunks]
  exact bigSep_congr fun i _ => by unfold chunkF; rw [if_neg (Nat.not_lt_zero _)]

theorem chunks_done :
    (bigSep Finset.univ fun i : Fin k0_t1_loop.trips => (ouLoc d ↦[chunkSet L i]{fullShare} chunkF d L w6 w7 w5 o0 k0_t1_loop.trips i : sProp 𝕄))
      = ouLoc d ↦[slab (cL L) (sL L)]{fullShare} tileOut d L w6 w7 w5 o0 := by
  rw [ou_chunks]
  exact bigSep_congr fun i _ => by unfold chunkF; rw [if_pos i.isLt]

theorem chunks_take (k : Fin k0_t1_loop.trips) :
    (bigSep Finset.univ fun i : Fin k0_t1_loop.trips => (ouLoc d ↦[chunkSet L i]{fullShare} chunkF d L w6 w7 w5 o0 k.val i : sProp 𝕄))
      = iprop((ouLoc d ↦[chunkSet L k]{fullShare} o0)
          ∗ bigSep (Finset.univ.erase k) fun i : Fin k0_t1_loop.trips => ouLoc d ↦[chunkSet L i]{fullShare} chunkF d L w6 w7 w5 o0 k.val i) := by
  rw [SparseCore.bigSep_erase' (Finset.mem_univ k)]
  unfold chunkF; rw [if_neg (Nat.lt_irrefl _)]

theorem chunks_put (k : Fin k0_t1_loop.trips) :
    (bigSep Finset.univ fun i : Fin k0_t1_loop.trips => (ouLoc d ↦[chunkSet L i]{fullShare} chunkF d L w6 w7 w5 o0 (k.val + 1) i : sProp 𝕄))
      = iprop((ouLoc d ↦[chunkSet L k]{fullShare} tileOut d L w6 w7 w5 o0)
          ∗ bigSep (Finset.univ.erase k) fun i : Fin k0_t1_loop.trips => ouLoc d ↦[chunkSet L i]{fullShare} chunkF d L w6 w7 w5 o0 k.val i) := by
  rw [SparseCore.bigSep_erase' (Finset.mem_univ k)]
  have e1 : chunkF d L w6 w7 w5 o0 (k.val + 1) k = tileOut d L w6 w7 w5 o0 := by
    unfold chunkF; rw [if_pos (Nat.lt_succ_self _)]
  have e2 : (bigSep (Finset.univ.erase k) fun i : Fin k0_t1_loop.trips => (ouLoc d ↦[chunkSet L i]{fullShare} chunkF d L w6 w7 w5 o0 (k.val + 1) i : sProp 𝕄))
      = bigSep (Finset.univ.erase k) fun i : Fin k0_t1_loop.trips => ouLoc d ↦[chunkSet L i]{fullShare} chunkF d L w6 w7 w5 o0 k.val i := by
    refine bigSep_congr fun i hi => ?_
    have hne : i.val ≠ k.val := fun e => (Finset.mem_erase.mp hi).1 (Fin.ext e)
    unfold chunkF
    by_cases h : i.val < k.val
    · rw [if_pos h, if_pos (by omega)]
    · rw [if_neg h, if_neg (by omega)]
  rw [e1, e2]

/-- The hypothesis on the trips' functions: sixty-four trips leave a staged output that does not depend on what the
    scratch held before them. -/
def TripsOverwrite : Prop :=
  ∀ (d : Dev nD) (L : grid0.Coords) (ft : Buf (Elt F) ((s0W).view.loc (V d (cV L) (jV L)))) (fr : Buf (Elt F) ((s1W).view.loc (V d (cV L) (jV L))))
    (fq : Buf (Elt F) ((s2W).view.loc (V d (cV L) (jV L)))) (fo fo' : Buf (Elt F) ((s3W).view.loc (V d (cV L) (jV L)))),
    qFold d L ft fr fq fo 64 = qFold d L ft fr fq fo' 64

/-- Chunk `k` written out from the staged output its sixty-four trips left holds the tile's final function. -/
theorem chunk_done (hG : TripsOverwrite (F := F)) (k : Fin k0_t1_loop.trips) (fo : Buf (Elt F) ((s3W).view.loc thrV)) (o : Buf (Elt F) (ouLoc d))
    (X : (Rect.whole S16384).shape.Idx → Elt F EltTy.f32)
    (hX : X = (s3W).view.read (Elt F) (qFold d L (tbLand d L w5) (rpRead d L k w6) (qfRead d L k w7) fo k0_t2_loop.trips)) :
    ((ouChunk L k).view.loc thrV ↦[(ouChunk L k).view.set]{fullShare}
        (ouChunk L k).view.writes (Elt F) o [⟨Rect.whole S16384, X⟩] : sProp 𝕄)
      = ouLoc d ↦[chunkSet L k]{fullShare} tileOut d L w6 w7 w5 o0 := by
  subst hX
  show (ouLoc d ↦[chunkSet L k]{fullShare} _ : sProp 𝕄) = _
  have e : qFold d L (tbLand d L w5) (rpRead d L k w6) (qfRead d L k w7) fo k0_t2_loop.trips = stagedOut d L w6 w7 w5 (k.val + 1) := by
    rw [stagedOut_succ, trips2]; exact hG d L _ _ _ _ _
  rw [e]
  exact pointsTo_congr (wrote_eq d L w6 w7 w5 o0 k o)

/-- The per-query loop's invariant: the staged table, positions and features as the trips found them, the staged output
    at the fold of the trips past. -/
def inv2 (ft : Buf (Elt F) ((s0W).view.loc thrV)) (fr : Buf (Elt F) ((s1W).view.loc thrV)) (fq : Buf (Elt F) ((s2W).view.loc thrV))
    (fo : Buf (Elt F) ((s3W).view.loc thrV)) (n : ℕ) (_ : BitVec 32) : sProp 𝕄 :=
  iprop(((s0W).view.loc thrV ↦{fullShare} ft) ∗ ((s1W).view.loc thrV ↦{fullShare} fr) ∗ ((s2W).view.loc thrV ↦{fullShare} fq)
    ∗ ((s3W).view.loc thrV ↦{fullShare} qFold d L ft fr fq fo n))

/-- The chunk loop's invariant: the read shares, the staged table at the flat table, the three other scratch buffers at
    some contents, the three semaphores' counters at zero, the slab's chunks written up to the trip, and what the tile owes. -/
def inv1 (O : CellTallies nD τ sig (HIx 1)) (W : Waits sig (HIx 1)) (k : ℕ) (_ : BitVec 32) : sProp 𝕄 :=
  iprop(Transfers.MayWaits thrV (none : HIx 1) O
    ∗ ((rpW).view.loc thrV ↦{rdShare (cL L) (sL L)} w6) ∗ ((qfW).view.loc thrV ↦{rdShare (cL L) (sL L)} w7)
    ∗ ((s0W).view.loc thrV ↦{fullShare} tbLand d L w5)
    ∗ (∃ fr, (s1W).view.loc thrV ↦{fullShare} fr) ∗ (∃ fq, (s2W).view.loc thrV ↦{fullShare} fq) ∗ (∃ fo, (s3W).view.loc thrV ↦{fullShare} fo)
    ∗ semVal (thrV, SemLoc.dma cc0_scoped1.sem) 0 ∗ semVal (thrV, SemLoc.dma cc0_scoped2.sem) 0 ∗ semVal (thrV, SemLoc.dma cc0_scoped3.sem) 0
    ∗ (bigSep Finset.univ fun i : Fin k0_t1_loop.trips => ouLoc d ↦[chunkSet L i]{fullShare} chunkF d L w6 w7 w5 o0 k i)
    ∗ ∃ W', ⌜∀ p ∈ W', p ∈ W ∨ p.2 = none⌝ ∗ owes thrV O W')

set_option maxHeartbeats 4000000 in
/-- The task on vector subcore `(L 0, L 1)` of device `d`: the table staged; per chunk, the positions and features
    staged, sixty-four per-query trips, the staged output written out; the slab ends at the tile's final function. -/
theorem tile_body (hF : (K (F := F)).Facts) (hG : TripsOverwrite (F := F)) (O : CellTallies nD τ sig (HIx 1)) (W : Waits sig (HIx 1))
    (hO : ∀ g, O g none = 0) :
    iprop(levAts (K (F := F)).L (K (F := F)).lev ∗ emp ∗ goRes d w6 w7 w5 o0 (cL L) (sL L)
        ∗ scopedBufs thrV ∗ scopedSems0 thrV ∗ owes thrV O W)
      ⊢ wp frame (wpE (defs₀ (F := F)) 𝒱₀ thrV none) Set.univ
          (cc0__sc_body L rpW (Memref.isWhole_whole _) qfW (Memref.isWhole_whole _) tbW (Memref.isWhole_whole _) ouW (Memref.isWhole_whole _)
            s0W (Memref.isWhole_whole _) s1W (Memref.isWhole_whole _) s2W (Memref.isWhole_whole _) s3W (Memref.isWhole_whole _)
            cc0_scoped0 cc0_scoped1 cc0_scoped2 cc0_scoped3)
          fun _ => iprop(((rpLoc d ↦{rdShare (cL L) (sL L)} w6) ∗ (qfLoc d ↦{rdShare (cL L) (sL L)} w7) ∗ (tbLoc d ↦{rdShare (cL L) (sL L)} w5)
              ∗ (ouLoc d ↦[slab (cL L) (sL L)]{fullShare} tileOut d L w6 w7 w5 o0))
            ∗ scopedBufs thrV ∗ scopedSems0 thrV ∗ ∃ W', ⌜∀ p ∈ W', p ∈ W ∨ p.2 = none⌝ ∗ owes thrV O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold goRes
  iintro ⟨#Hlv, -, ⟨H6, H7, H5, Ho⟩, ⟨⟨%f0, Hs0⟩, ⟨%f1, Hs1⟩, ⟨%f2, Hs2⟩, ⟨%f3, Hs3⟩, Hbufs⟩, ⟨Hm0, Hm1, Hm2, Hm3, Hsems⟩, HO⟩
  ihave Hmw := ((K (F := F)).mayWaits_none (thr := thrV) hO) $$ Hlv
  ihave H6' := (Entails.of_eq (pts_rp (F := F) d L _ _).symm) $$ H6
  ihave H7' := (Entails.of_eq (pts_qf (F := F) d L _ _).symm) $$ H7
  ihave H5' := (Entails.of_eq (pts_tb (F := F) d L _ _).symm) $$ H5
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  -- the table staged
  sl_exec
  ihave Hs0'' := (Entails.of_eq (land0 (F := F) d L _ _)) $$ Hs0'
  ihave Hch := (Entails.of_eq (chunks_init d L w6 w7 w5 o0)) $$ Ho
  sl_for (inv1 d L w6 w7 w5 o0 O W) $$ [Hmw H6' H7' Hs0'' Hs1' Hs2' Hs3' Hm1 Hm2 Hm3 Hch HO]
  case region =>
    intro k acc
    unfold inv1
    iintro ⟨#Hmw, H6, H7, Hs0, ⟨%fr, Hs1⟩, ⟨%fq, Hs2⟩, ⟨%fo, Hs3⟩, Hm1, Hm2, Hm3, Hch, %W', %hW', HO⟩
    ihave Hch' := (Entails.of_eq (chunks_take d L w6 w7 w5 o0 k)) $$ Hch
    icases Hch' with ⟨Hk, Hrest⟩
    ihave Hk' := (Entails.of_eq (pts_ou (F := F) d L k _).symm) $$ Hk
    -- the chunk's positions and features staged
    sl_exec (disch := first | exact View.amount_pos _ _ (show 0 < S6144.numel by decide) | exact View.amount_pos _ _ (show 0 < S16384.numel by decide))
    ihave Hs1' := (Entails.of_eq (land1 (F := F) d L _ _)) $$ Hs1
    ihave Hs2' := (Entails.of_eq (land2 (F := F) d L _ _)) $$ Hs2
    -- the per-query trips
    sl_for (inv2 d L (tbLand d L w5) (rpRead d L k w6) (qfRead d L k w7) fo) $$ [Hs0 Hs1' Hs2' Hs3]
    case region =>
      intro n acc2
      unfold inv2
      rw [qFold_succ]
      exact (qTrip (F := F) d L).2 n acc2 _ _ _ _
    · unfold inv2
      isplitl [Hs0]; · iexact Hs0
      isplitl [Hs1']; · iexact Hs1'
      isplitl [Hs2']; · iexact Hs2'
      iexact Hs3
    iintro %_ HI2
    unfold inv2
    icases HI2 with ⟨Hs0, Hs1, Hs2, Hs3⟩
    -- the staged output written out
    sl_exec (disch := first | exact View.amount_pos _ _ (show 0 < S6144.numel by decide) | exact View.amount_pos _ _ (show 0 < S16384.numel by decide))
    sl_step
    ihave Hk'' := (Entails.of_eq (chunk_done d L w6 w7 w5 o0 hG k fo o0 _ ?hX)) $$ Hk'
    case hX => rfl
    isplitr; · iexact Hmw
    isplitl [H6]; · iexact H6
    isplitl [H7]; · iexact H7
    isplitl [Hs0]; · iexact Hs0
    isplitl [Hs1]; · iexists _; iexact Hs1
    isplitl [Hs2]; · iexists _; iexact Hs2
    isplitl [Hs3]; · iexists _; iexact Hs3
    isplitl [Hm1]; · iexact Hm1
    isplitl [Hm2]; · iexact Hm2
    isplitl [Hm3]; · iexact Hm3
    isplitl [Hk'' Hrest]
    · rw [chunks_put]
      isplitl [Hk'']; · iexact Hk''
      iexact Hrest
    iexists (insert (SemLoc.dma cc0_scoped3.sem, (default : HIx 1)) (insert (SemLoc.dma cc0_scoped2.sem, (default : HIx 1))
      (insert (SemLoc.dma cc0_scoped1.sem, (default : HIx 1)) W'))); isplitr
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      · exact hW' p hp
    · iexact HO
  · unfold inv1
    isplitr; · iexact Hmw
    isplitl [H6']; · iexact H6'
    isplitl [H7']; · iexact H7'
    isplitl [Hs0'']; · iexact Hs0''
    isplitl [Hs1']; · iexists _; iexact Hs1'
    isplitl [Hs2']; · iexists _; iexact Hs2'
    isplitl [Hs3']; · iexists _; iexact Hs3'
    isplitl [Hm1]; · iexact Hm1
    isplitl [Hm2]; · iexact Hm2
    isplitl [Hm3]; · iexact Hm3
    isplitl [Hch]; · iexact Hch
    iexists (insert (SemLoc.dma cc0_scoped0.sem, (default : HIx 1)) W); isplitr
    · ipureintro; intro p hp
      rcases Finset.mem_insert.mp hp with hp | hp
      · exact .inr (hp ▸ rfl)
      · exact .inl hp
    · iexact HO
  iintro %_ HI
  unfold inv1
  icases HI with ⟨-, H6, H7, Hs0, ⟨%fr, Hs1⟩, ⟨%fq, Hs2⟩, ⟨%fo, Hs3⟩, Hm1, Hm2, Hm3, Hch, %W', %hW', HO⟩
  sl_exec
  sl_step
  ihave Hou := (Entails.of_eq (chunks_done d L w6 w7 w5 o0)) $$ Hch
  isplitl [H6 H7 H5' Hou]
  · isplitl [H6]; · iapply (Entails.of_eq (pts_rp (F := F) d L _ _)); iexact H6
    isplitl [H7]; · iapply (Entails.of_eq (pts_qf (F := F) d L _ _)); iexact H7
    isplitl [H5']; · iapply (Entails.of_eq (pts_tb (F := F) d L _ _)); iexact H5'
    iexact Hou
  isplitl [Hs0 Hs1 Hs2 Hs3 Hbufs]
  · isplitl [Hs0]; · iexists _; iexact Hs0
    isplitl [Hs1]; · iexists _; iexact Hs1
    isplitl [Hs2]; · iexists _; iexact Hs2
    isplitl [Hs3]; · iexists _; iexact Hs3
    iexact Hbufs
  isplitl [Hm0 Hm1 Hm2 Hm3 Hsems]
  · isplitl [Hm0]; · iexact Hm0
    isplitl [Hm1]; · iexact Hm1
    isplitl [Hm2]; · iexact Hm2
    isplitl [Hm3]; · iexact Hm3
    iexact Hsems
  iexists W'; isplitr
  · ipureintro; exact hW'
  · iexact HO

end Body

end Cert.KernelIdeal.Tile

end
-- ==== Proof.KILaunchB.lean ====
/-
  The launch of the idealized kernel, second part: @main on the TensorCore. Its eight operations before the call run
  as one straight line over all of the TensorCore's arrays; the call takes the three flat inputs and the flat output,
  dealt to the tiles, and brings them back, the output at one array that agrees with each tile's final function on
  its slab; the last reshape runs over all the arrays again. What is left reads, against the final memory, the seven
  arguments at their launch contents and the result as the reshape of that array.
-/
import proofs.«204784_g45775761440795_cont_8to1c4_693_3_alg».proof.Proof.KILaunchA

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq seq after tcRefs)

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## @main's operations -/

/-- A TensorCore reference, as a buffer of the device. -/
abbrev dv (b : Ref sig .tc) : DevRef τ sig := Proc.devRef .tc b

abbrev op0 : HloOp τ sig (Elt F) := StableHlo.reshape main_arg4 main_v0 rfl shapeCasts_S753x8x4_S24096
abbrev op1 : HloOp τ sig (Elt F) := StableHlo.reshape main_arg5 main_v1 rfl shapeCasts_S753x8x4_S24096
abbrev op2 : HloOp τ sig (Elt F) := StableHlo.reshape main_arg6 main_v2 rfl shapeCasts_S31x8x4_S992
abbrev op3 : HloOp τ sig (Elt F) :=
  StableHlo.nary ![main_v0, main_v1, main_v2] main_v3
    (fun u => concatenate S49184 0 [⟨S24096, u 0⟩, ⟨S24096, u 1⟩, ⟨S992, u 2⟩] concatenates_S24096_S24096_S992_S49184_d0)
abbrev op4 : HloOp τ sig (Elt F) :=
  StableHlo.unary main_arg2 main_v4
    (broadcastInDim S49184 ![] bcast_S_S49184 : (⟨S_, .f32⟩ : BufTy).Contents (Elt F) → (⟨S49184, .f32⟩ : BufTy).Contents (Elt F))
abbrev op5 : HloOp τ sig (Elt F) :=
  StableHlo.binary main_v3 main_v4 main_v5
    (mulf : (⟨S49184, .f32⟩ : BufTy).Contents (Elt F) → (⟨S49184, .f32⟩ : BufTy).Contents (Elt F) → (⟨S49184, .f32⟩ : BufTy).Contents (Elt F))
abbrev op6 : HloOp τ sig (Elt F) := StableHlo.reshape main_arg0 main_v6 rfl shapeCasts_S65536x32x3_S6291456
abbrev op7 : HloOp τ sig (Elt F) := StableHlo.reshape main_arg1 main_v7 rfl shapeCasts_S65536x8x12_S6291456
/-- The last reshape, of the flat output. -/
abbrev opR : HloOp τ sig (Elt F) := StableHlo.reshape main_v8 main_v9 rfl shapeCasts_S16777216_S65536x32x8

/-- The operations before the call, in order. -/
def hostOps : List (HloOp τ sig (Elt F)) := [op0, op1, op2, op3, op4, op5, op6, op7]

/-- @main is that line, the call, the last reshape. -/
theorem main_eq (d : Dev nD) :
    main (F := F) d = (seq hostOps >>= fun _ => (K (F := F)).run d 0 >>= fun _ => (hlo rfl opR fun _ => .ret (⟨⟩ : PUnit)) >>= fun _ => pure ⟨⟩) := by
  simp only [main, hostOps, seq, bind_assoc, pure_bind]

theorem hostOps_sub : ∀ op ∈ (hostOps : List (HloOp τ sig (Elt F))), op.bufs ⊆ tcRefs τ sig := by
  intro op hop
  simp only [hostOps, List.mem_cons, List.not_mem_nil, or_false] at hop
  rcases hop with rfl | rfl | rfl | rfl | rfl | rfl | rfl | rfl
  · exact StableHlo.reshape_bufs_sub ..
  · exact StableHlo.reshape_bufs_sub ..
  · exact StableHlo.reshape_bufs_sub ..
  · exact StableHlo.nary_bufs_sub ..
  · exact StableHlo.unary_bufs_sub ..
  · exact StableHlo.binary_bufs_sub ..
  · exact StableHlo.reshape_bufs_sub ..
  · exact StableHlo.reshape_bufs_sub ..

theorem hostOps_fresh : ∀ op ∈ (hostOps : List (HloOp τ sig (Elt F))), op.fresh = ∅ := by
  intro op hop
  simp only [hostOps, List.mem_cons, List.not_mem_nil, or_false] at hop
  rcases hop with rfl | rfl | rfl | rfl | rfl | rfl | rfl | rfl <;> rfl

theorem opR_sub : (opR (F := F)).bufs ⊆ tcRefs τ sig := StableHlo.reshape_bufs_sub ..

/-! ## The arrays' contents along @main -/

/-- At the launch; -/
abbrev V0 (d : Dev nD) : Valuation τ sig (Elt F) := fun b => m (d, b)
/-- when the call starts; -/
def V1 (d : Dev nD) : Valuation τ sig (Elt F) := after hostOps (V0 m d)
/-- when it has returned, the flat output at `g`; -/
def V2 (d : Dev nD) (g : Buf (Elt F) (ouLoc d)) : Valuation τ sig (Elt F) := Function.update (V1 m d) (dv main_v8) g
/-- at the end. -/
def Vf (d : Dev nD) (g : Buf (Elt F) (ouLoc d)) : Valuation τ sig (Elt F) := (opR (F := F)).result (V2 m d g)

/-- A concatenation's result over a literal family of three operands, each operand's contents at its own reference. -/
theorem nary3_result {x a b y : Ref sig .tc}
    (f : ((k : Fin 3) → ((![x, a, b] : Fin 3 → Ref sig .tc) k).ty.Contents (Elt F)) → y.ty.Contents (Elt F)) (hxs hy)
    (W : Valuation τ sig (Elt F)) :
    (StableHlo.nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [StableHlo.nary_result]; congr 1; funext k; fin_cases k <;> rfl

theorem V1_v6 (d : Dev nD) : V1 m d (dv main_v6) = w6Of m d := by
  unfold V1 hostOps
  simp only [StableHlo.after_cons, StableHlo.after_nil]
  repeat (first
    | rw [StableHlo.reshape_result]
    | (rw [StableHlo.reshape_result_ne]; rotate_left; decide)
    | (rw [StableHlo.unary_result_ne]; rotate_left; decide)
    | (rw [StableHlo.binary_result_ne]; rotate_left; decide)
    | (rw [StableHlo.nary_result_ne]; rotate_left; decide))
  rfl

theorem V1_v7 (d : Dev nD) : V1 m d (dv main_v7) = w7Of m d := by
  unfold V1 hostOps
  simp only [StableHlo.after_cons, StableHlo.after_nil]
  repeat (first
    | rw [StableHlo.reshape_result]
    | (rw [StableHlo.reshape_result_ne]; rotate_left; decide)
    | (rw [StableHlo.unary_result_ne]; rotate_left; decide)
    | (rw [StableHlo.binary_result_ne]; rotate_left; decide)
    | (rw [StableHlo.nary_result_ne]; rotate_left; decide))
  rfl

theorem V1_v5 (d : Dev nD) : V1 m d (dv main_v5) = w5Of m d := by
  unfold V1 hostOps
  simp only [StableHlo.after_cons, StableHlo.after_nil]
  repeat (first
    | rw [nary3_result]
    | rw [StableHlo.reshape_result]
    | rw [StableHlo.unary_result]
    | rw [StableHlo.binary_result]
    | (rw [StableHlo.reshape_result_ne]; rotate_left; decide)
    | (rw [StableHlo.unary_result_ne]; rotate_left; decide)
    | (rw [StableHlo.binary_result_ne]; rotate_left; decide)
    | (rw [StableHlo.nary_result_ne]; rotate_left; decide))
  rfl

/-- A reference no operation before the call writes is at its launch contents when the call starts. -/
theorem V1_keep (d : Dev nD) (r : Ref sig .tc)
    (hr : r ∉ [main_v0, main_v1, main_v2, main_v3, main_v4, main_v5, main_v6, main_v7]) : V1 m d (dv r) = m (d, dv r) := by
  unfold V1
  refine StableHlo.after_of_forall_not_mem hostOps (V0 m d) fun op hop hb => hr ?_
  simp only [hostOps, List.mem_cons, List.not_mem_nil, or_false] at hop
  rcases hop with rfl | rfl | rfl | rfl | rfl | rfl | rfl | rfl <;>
    (simp only [StableHlo.reshape_writes, StableHlo.nary_writes, StableHlo.unary_writes, StableHlo.binary_writes, Finset.mem_singleton] at hb
     have := Proc.devRef_injective _ hb
     subst this
     decide)

theorem V2_v8 (d : Dev nD) (g : Buf (Elt F) (ouLoc d)) : V2 m d g (dv main_v8) = g := Function.update_self _ _ _
theorem V2_ne (d : Dev nD) (g : Buf (Elt F) (ouLoc d)) {r : Ref sig .tc} (h : r ≠ main_v8) : V2 m d g (dv r) = V1 m d (dv r) :=
  Function.update_of_ne (StableHlo.devRef_ne_of_ne h) _ _

theorem Vf_v9 (d : Dev nD) (g : Buf (Elt F) (ouLoc d)) : Vf m d g (dv main_v9) = outOf g := by
  unfold Vf
  rw [StableHlo.reshape_result, V2_v8]
  rfl

theorem Vf_arg (d : Dev nD) (g : Buf (Elt F) (ouLoc d)) (r : Ref sig .tc) (h9 : r ≠ main_v9) (h8 : r ≠ main_v8)
    (hr : r ∉ [main_v0, main_v1, main_v2, main_v3, main_v4, main_v5, main_v6, main_v7]) : Vf m d g (dv r) = m (d, dv r) := by
  unfold Vf
  rw [StableHlo.reshape_result_ne (h := h9), V2_ne m d g h8, V1_keep m d r hr]

/-! ## All of the TensorCore's arrays, and the call's four among them -/

theorem scopedRefs_eq : (Finset.univ.filter fun b : Ref sig .tc => b.isScoped) = ∅ := by decide

omit [FloatOps F] in
theorem unscoped_held (d : Dev nD) :
    (unscopedBufs d (fun b => m ((SparseCore.T d).loc b)) : sProp 𝕄) = held (T d) (tcRefs τ sig) (V0 m d) := by
  unfold unscopedBufs held tcRefs
  rw [show (Finset.univ.filter fun b : Ref sig .tc => ¬ b.isScoped) = Finset.univ from
      Finset.filter_true_of_mem fun b _ hb => by
        have : b ∈ (Finset.univ.filter fun b : Ref sig .tc => b.isScoped) := Finset.mem_filter.mpr ⟨Finset.mem_univ b, hb⟩
        rw [scopedRefs_eq] at this; exact absurd this (Finset.notMem_empty b),
    bigSep_map]
  rfl

/-- The call's four operands. -/
abbrev T4 : Finset (DevRef τ sig) := {dv main_v6, dv main_v7, dv main_v5, dv main_v8}

theorem T4_sub : T4 ⊆ tcRefs τ sig := by
  intro b hb
  simp only [T4, Finset.mem_insert, Finset.mem_singleton] at hb
  rcases hb with rfl | rfl | rfl | rfl <;> exact StableHlo.devRef_mem_tcRefs _

omit [FloatOps F] in
theorem held_T4 (d : Dev nD) (W : Valuation τ sig (Elt F)) :
    (held (T d) T4 W : sProp 𝕄)
      = iprop((rpLoc d ↦{fullShare} W (dv main_v6)) ∗ (qfLoc d ↦{fullShare} W (dv main_v7)) ∗ (tbLoc d ↦{fullShare} W (dv main_v5))
          ∗ (ouLoc d ↦{fullShare} W (dv main_v8))) := by
  unfold held T4
  rw [SparseCore.bigSep_insert' (by decide), SparseCore.bigSep_insert' (by decide), SparseCore.bigSep_insert' (by decide), bigSep_singleton]

/-- All the arrays when the call starts: the call's operands at the host terms, and the rest. -/
theorem held_V1 (d : Dev nD) :
    (held (T d) (tcRefs τ sig) (V1 m d) : sProp 𝕄)
      = iprop(((rpLoc d ↦{fullShare} w6Of m d) ∗ (qfLoc d ↦{fullShare} w7Of m d) ∗ (tbLoc d ↦{fullShare} w5Of m d)
          ∗ (ouLoc d ↦{fullShare} m (ouLoc d))) ∗ held (T d) (tcRefs τ sig \ T4) (V1 m d)) := by
  rw [StableHlo.held_sub_split (T d) T4_sub, held_T4, V1_v6, V1_v7, V1_v5, V1_keep m d main_v8 (by decide)]

/-- All the arrays when it has returned, the flat output at `g`. -/
theorem held_V2 (d : Dev nD) (g : Buf (Elt F) (ouLoc d)) :
    (held (T d) (tcRefs τ sig) (V2 m d g) : sProp 𝕄)
      = iprop(((rpLoc d ↦{fullShare} w6Of m d) ∗ (qfLoc d ↦{fullShare} w7Of m d) ∗ (tbLoc d ↦{fullShare} w5Of m d)
          ∗ (ouLoc d ↦{fullShare} g)) ∗ held (T d) (tcRefs τ sig \ T4) (V1 m d)) := by
  rw [StableHlo.held_sub_split (T d) T4_sub, held_T4, V2_v8, V2_ne m d g (show main_v6 ≠ main_v8 by decide),
    V2_ne m d g (show main_v7 ≠ main_v8 by decide), V2_ne m d g (show main_v5 ≠ main_v8 by decide), V1_v6, V1_v7, V1_v5,
    StableHlo.held_congr (T d) (S := tcRefs τ sig \ T4) (V := V2 m d g) (V' := V1 m d) fun b hb =>
      Function.update_of_ne (fun e => (Finset.mem_sdiff.mp hb).2 (by rw [e]; simp [T4])) _ _]

theorem held_after (d : Dev nD) :
    (held (T d) (tcRefs τ sig) (after hostOps (V0 m d)) : sProp 𝕄)
      = iprop(((rpLoc d ↦{fullShare} w6Of m d) ∗ (qfLoc d ↦{fullShare} w7Of m d) ∗ (tbLoc d ↦{fullShare} w5Of m d)
          ∗ (ouLoc d ↦{fullShare} m (ouLoc d))) ∗ held (T d) (tcRefs τ sig \ T4) (V1 m d)) := held_V1 m d

variable (TO : (d : Dev nD) → Fin 2 → Fin 16 → Buf (Elt F) (ouLoc d))

theorem st0_call (d : Dev nD) :
    (bigSep Finset.univ fun c : Fin ((K (F := F)).nCore 0) => (P (callData m TO)).st 0 d c)
      = bigSep Finset.univ fun c : Fin 2 => bigSep Finset.univ fun s : Fin 16 => goRes d (w6Of m d) (w7Of m d) (w5Of m d) (m (ouLoc d)) c s :=
  st0_eq (callData m TO) d
theorem dn0_call (d : Dev nD) :
    (bigSep Finset.univ fun c : Fin ((K (F := F)).nCore 0) => (P (callData m TO)).dn 0 d c)
      = bigSep Finset.univ fun c : Fin 2 => bigSep Finset.univ fun s : Fin 16 => tdRes d (w6Of m d) (w7Of m d) (w5Of m d) (TO d) c s :=
  dn0_eq (callData m TO) d

/-! ## @main on the TensorCore -/

/-- What @main leaves the claim: all the TensorCore's arrays at their final contents, for a flat output `g` that agrees
    with each tile's final function on its slab. -/
def FIN (d : Dev nD) : sProp 𝕄 :=
  iprop(∃ g : Buf (Elt F) (ouLoc d), ⌜∀ (c : Fin 2) (s : Fin 16), ∀ j ∈ slab c s, g j = TO d c s j⌝ ∗ held (T d) (tcRefs τ sig) (Vf m d g))

theorem hmain (κ : GSem nD τ sig → ℕ) (d : Dev nD) :
    iprop((K (F := F)).ctx EH (P (callData m TO)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m TO d) := by
  unfold SparseCore.Cfg.tcRes
  rw [unscoped_held, main_eq]
  iintro ⟨#Hctx, Hst, ⟨Hb, Hheld, -, -⟩, -⟩
  -- the operations before the call, over all the arrays
  iapply (wp_seq 𝒱 none Set.univ d (tcRefs τ sig) _ hostOps hostOps_sub hostOps_fresh (V0 m d)) $$ [Hb Hheld]
  · isplitl [Hb]; · iexact Hb
    iexact Hheld
  iintro ⟨Hb, Hheld⟩
  ihave Hh := (Entails.of_eq (held_after m d)) $$ Hheld
  icases Hh with ⟨⟨H6, H7, H5, Ho⟩, Hrest⟩
  -- the call: the four operands dealt to the tiles, the shares' remainders kept
  ihave Hsp := (call_split d (w6Of m d) (w7Of m d) (w5Of m d) (m (ouLoc d))) $$ [H6 H7 H5 Ho]
  · isplitl [H6]; · iexact H6
    isplitl [H7]; · iexact H7
    isplitl [H5]; · iexact H5
    iexact Ho
  icases Hsp with ⟨Hkeep, Hgo⟩
  simp only [wp_bind, wp_pure]
  iapply ((K (F := F)).wp_run (D (F := F)) 𝒱 (EH := EH) (P := P (callData m TO)) κ d 0) $$ [Hst Hgo Hb Hkeep Hrest]
  isplitr; · iexact Hctx
  isplitl [Hst]; · iexact Hst
  isplitl [Hgo]
  · rw [st0_call]; iexact Hgo
  iintro ⟨Hst, Hdn⟩
  ihave Hdn' := (Entails.of_eq (dn0_call m TO d)) $$ Hdn
  ihave Hj := (call_join d (w6Of m d) (w7Of m d) (w5Of m d) (TO d)) $$ [Hkeep Hdn']
  · isplitl [Hkeep]; · iexact Hkeep
    iexact Hdn'
  icases Hj with ⟨H6, H7, H5, %g, %hg, Ho⟩
  ihave Hheld := (Entails.of_eq (held_V2 m d g).symm) $$ [H6 H7 H5 Ho Hrest]
  · isplitl [H6 H7 H5 Ho]
    · isplitl [H6]; · iexact H6
      isplitl [H7]; · iexact H7
      isplitl [H5]; · iexact H5
      iexact Ho
    iexact Hrest
  -- the last reshape, over all the arrays
  iapply (wp_hlo_within 𝒱 (SparseCore.T d) none Set.univ (op := opR) (S := tcRefs τ sig) opR_sub (V := V2 m d g)) $$ [Hb Hheld]
  · isplitl [Hb]; · iexact Hb
    iexact Hheld
  iintro ⟨Hb, Hheld⟩
  rw [wp_ret]; imodintro; imodintro
  isplitl [Hst]; · iexact Hst
  unfold FIN
  iexists g; isplitr
  · ipureintro; exact hg
  iexact Hheld

/-- What the claim reads off the final memory of device `d`. -/
def fq (d : Dev nD) (s' : Phys nD τ sig (Elt F)) : Prop :=
  (∃ g : Buf (Elt F) (ouLoc d), s'.mem.mem ((d.tc : Thread nD τ).loc main_v9) = outOf g
      ∧ ∀ (c : Fin 2) (s : Fin 16), ∀ j ∈ slab c s, g j = TO d c s j)
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5)
    ∧ s'.mem.mem ((d.tc : Thread nD τ).loc main_arg6) = m ((d.tc : Thread nD τ).loc main_arg6)

theorem hfin (d : Dev nD) (s' : Phys nD τ sig (Elt F)) : iprop(FIN m TO d ∗ SI s') ⊢ (⌜fq m TO d s'⌝ : sProp 𝕄) := by
  unfold FIN held
  iintro ⟨⟨%g, %hg, H⟩, HSI⟩
  ihave %h := (SI_pointsTo_bufs_agree (c := d) (qs := fun _ => fullShare) (F := Vf m d g) (tcRefs τ sig)) $$ [HSI H]
  · isplitl [HSI]; · iexact HSI
    iexact H
  ipureintro
  have ha : ∀ r : Ref sig .tc, r ≠ main_v9 → r ≠ main_v8 → r ∉ [main_v0, main_v1, main_v2, main_v3, main_v4, main_v5, main_v6, main_v7] →
      s'.mem.mem ((d.tc : Thread nD τ).loc r) = m ((d.tc : Thread nD τ).loc r) :=
    fun r h9 h8 hr => (h _ (StableHlo.devRef_mem_tcRefs r)).trans (Vf_arg m d g r h9 h8 hr)
  exact ⟨⟨g, (h _ (StableHlo.devRef_mem_tcRefs main_v9)).trans (Vf_v9 m d g), hg⟩,
    ha main_arg0 (by decide) (by decide) (by decide), ha main_arg1 (by decide) (by decide) (by decide),
    ha main_arg2 (by decide) (by decide) (by decide), ha main_arg3 (by decide) (by decide) (by decide),
    ha main_arg4 (by decide) (by decide) (by decide), ha main_arg5 (by decide) (by decide) (by decide),
    ha main_arg6 (by decide) (by decide) (by decide)⟩

end Cert.KernelIdeal.Tile

end
-- ==== Proof.KILaunch.lean ====
/-
  The launch of the idealized kernel: from one vector subcore's obligation to the run of the whole program.
  @main on the TensorCore reshapes the relative positions and the query features flat, reshapes the three tables
  flat, concatenates them and scales the result by the broadcast scalar, calls the kernel on the 2 × 16 vector
  subcores, and reshapes the flat output. Every tile reads the three flat inputs whole, through a read share of
  its own, and writes its own slab of the flat output; the slabs are pairwise disjoint and cover the output, so
  what the call leaves is one array agreeing with each tile's final function on that tile's slab.
-/
import proofs.«204784_g45775761440795_cont_8to1c4_693_3_alg».proof.Proof.KILaunchB

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq seq after tcRefs)

variable {F : FTy → Type}

local notation "𝕄" => MT nD τ sig (HIx 1) (Elt F) ℕ UU ℕ

variable [FloatOps F]

variable (m : (ℓ : Loc nD τ sig) → Buf (Elt F) ℓ)

/-! ## The program's run -/

/-- From one vector subcore's obligation: every weakly fair execution of the whole program terminates, nothing
    faulting; the result is the reshape of a flat output that agrees with each tile's final function on its slab, and
    the seven arguments are unchanged. -/
theorem run_main [∀ e, Nonempty (Elt F e)] (ρ : Dev nD → PrngReg) (TO : (d : Dev nD) → Fin 2 → Fin 16 → Buf (Elt F) (ouLoc d))
    (htile : (K (F := F)).TileObl (D (F := F)) 𝒱 (P (callData m TO)) v₀ 0) :
    θ_run (Cert.KernelIdeal.defs (F := F)) (Cert.KernelIdeal.threads (F := F)) ⟨m, fun _ => 0, ρ⟩ (fun r => ∀ c : Dev nD,
      (∃ g : Buf (Elt F) (ouLoc c), r.2.mem ((c.tc : Thread nD τ).loc main_v9) = outOf g
          ∧ ∀ (cc : Fin 2) (s : Fin 16), ∀ j ∈ slab cc s, g j = TO c cc s j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  SparseCore.Cfg.θ_run_sc (K := K (F := F)) (D := D (F := F)) (𝒱 := 𝒱) (EH := EH) (P := P (callData m TO)) facts v₀
    (fun q hq => match q with | 0 => nomatch hq)
    (fun q _ => match q with | 0 => htile)
    (fun q _ => match q with | 0 => SparseCore.Cfg.VecSplit.of_plain (vecSplit (callData m TO)))
    m ρ main (fun _ => iprop(emp)) (FIN m TO) (u₀ (F := F)) (sep_elim_left.trans (hu₀ (callData m TO))) (hmain m ρ TO) (fq m TO) (hfin m TO)
    _ (fun _ h => h)

end Cert.KernelIdeal.Tile

end
-- ==== Proof.KITileRun.lean ====
/-
  A tile's task, third part: the task as the launch theorem's obligation for every tile of the grid, and the
  program's run from it.
-/
import proofs.«204784_g45775761440795_cont_8to1c4_693_3_alg».proof.Proof.KITile
import proofs.«204784_g45775761440795_cont_8to1c4_693_3_alg».proof.Proof.KILaunch
import Idealize.ShloMosaic.Lib.Tactic

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "rpW" => (Memref.whole Cert.KernelIdeal.main_v6_scv : Memref Cert.KernelIdeal.sig Kind.scVector Space.hbm Cert.KernelIdeal.S6291456 EltTy.f32)
local notation "qfW" => (Memref.whole Cert.KernelIdeal.main_v7_scv : Memref Cert.KernelIdeal.sig Kind.scVector Space.hbm Cert.KernelIdeal.S6291456 EltTy.f32)
local notation "tbW" => (Memref.whole Cert.KernelIdeal.main_v5_scv : Memref Cert.KernelIdeal.sig Kind.scVector Space.hbm Cert.KernelIdeal.S49184 EltTy.f32)
local notation "ouW" => (Memref.whole Cert.KernelIdeal.main_v8_scv : Memref Cert.KernelIdeal.sig Kind.scVector Space.hbm Cert.KernelIdeal.S16777216 EltTy.f32)
local notation "s0W" => (Memref.whole Cert.KernelIdeal.cc0_scratch0 : Memref Cert.KernelIdeal.sig Kind.scVector Space.vmem Cert.KernelIdeal.S49184 EltTy.f32)
local notation "s1W" => (Memref.whole Cert.KernelIdeal.cc0_scratch1 : Memref Cert.KernelIdeal.sig Kind.scVector Space.vmem Cert.KernelIdeal.S6144 EltTy.f32)
local notation "s2W" => (Memref.whole Cert.KernelIdeal.cc0_scratch2 : Memref Cert.KernelIdeal.sig Kind.scVector Space.vmem Cert.KernelIdeal.S6144 EltTy.f32)
local notation "s3W" => (Memref.whole Cert.KernelIdeal.cc0_scratch3 : Memref Cert.KernelIdeal.sig Kind.scVector Space.vmem Cert.KernelIdeal.S16384 EltTy.f32)

variable [FloatOps F]

/-! ## The launch theorem's obligation -/

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          rpW (Memref.isWhole_whole _) qfW (Memref.isWhole_whole _) tbW (Memref.isWhole_whole _) ouW (Memref.isWhole_whole _)
          s0W (Memref.isWhole_whole _) s1W (Memref.isWhole_whole _) s2W (Memref.isWhole_whole _) s3W (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (m : (ℓ : Loc nD τ sig) → Buf (Elt F) ℓ)

/-- Every tile's final function of the flat output, from the launch memory. -/
def tileOuts (d : Dev nD) (c : Fin 2) (s : Fin 16) : Buf (Elt F) (ouLoc d) :=
  tileOut d (coordsV c s) (w6Of m d) (w7Of m d) (w5Of m d) (m (ouLoc d))

theorem tileObl (hG : TripsOverwrite (F := F)) : (K (F := F)).TileObl (D (F := F)) 𝒱 (P (callData m (tileOuts m))) v₀ 0 := by
  intro d c i O W hO _ _
  -- this kernel owes nothing for a protocol of its own
  simp only [show (P (callData m (tileOuts m))).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x, P_go, P_td]
  unfold tdRes
  exact (tile_body d (coordsV ⟨_, hc.1⟩ ⟨_, hc.2⟩) (w6Of m d) (w7Of m d) (w5Of m d) (m (ouLoc d)) facts hG O W hO).trans
    (wp_mono frame _ _ fun _ => obl_post)

/-! ## The program's run -/

/-- Every weakly fair execution of the whole program terminates, nothing faulting; the result is the reshape of a flat
    output that is, on each tile's slab, that tile's final function; the seven arguments are unchanged. -/
theorem run [∀ e, Nonempty (Elt F e)] (hG : TripsOverwrite (F := F)) (ρ : Dev nD → PrngReg) :
    θ_run (Cert.KernelIdeal.defs (F := F)) (Cert.KernelIdeal.threads (F := F)) ⟨m, fun _ => 0, ρ⟩ (fun r => ∀ c : Dev nD,
      (∃ g : Buf (Elt F) (ouLoc c), r.2.mem ((c.tc : Thread nD τ).loc main_v9) = outOf g
          ∧ ∀ (cc : Fin 2) (s : Fin 16), ∀ j ∈ slab cc s, g j = tileOuts m c cc s j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_main m ρ (tileOuts m) (tileObl m hG)

end Cert.KernelIdeal.Tile

end
-- ==== Proof.KIQValue.lean ====
/-
  The value one trip of the per-query loop computes, lane by lane. For the query at position k of the staged chunk,
  neighbour l = 16 · lg + lane and head h, the accumulator is the left fold, from the zero word, of twelve products
  (table word) · (feature word): direction outer, component inner. The table word is word h · 4 + c of the row of
  the bucket of the neighbour's relative position along the direction — (y + extent) / 0.4 truncated and clipped —,
  in the direction's table; the feature word is word k · 96 + h · 12 + 4 · direction + c of the staged features.
  Every index is read off the machine-word arithmetic of the trip by the lane-range lemmas: no chain wraps.
-/
import proofs.«204784_g45775761440795_cont_8to1c4_693_3_alg».proof.Proof.KIQTrip
import Idealize.ShloMosaic.Lib.ValueIdx

noncomputable section

namespace Cert.KernelIdeal.Tile

open Cert.KernelIdeal Cert.KernelIdeal.Gen Cert.LaneRanges
open Idealize.ShloMosaic Idealize.ShloMosaic.ValueIdx

variable {F : FTy → Type} [FloatOps F]

/-- Per direction (x, y, z): the largest bucket, the bits of the range's extent added before the division, and the
    word offset of the direction's table. -/
def hiW : Fin 3 → BitVec 32 := ![752#32, 752#32, 30#32]
def mdW : Fin 3 → BitVec 32 := ![0x43166666#32, 0x43166666#32, 0x40C00000#32]
def toffW : Fin 3 → BitVec 32 := ![0#32, 24096#32, 48192#32]

/-- The clipped bucket of a relative position `y` along direction `dd`: (y + extent) / 0.4 truncated to a word,
    clipped to [0, hi]. -/
def bucketWord (dd : Fin 3) (y : F .f32) : BitVec 32 :=
  IntOp.minsi (hiW dd) (IntOp.maxsi 0#32 (FloatOps.fptosi 32
    (FloatOps.divf (FloatOps.addf y (FloatOps.ofBits .f32 (mdW dd))) (FloatOps.ofBits .f32 0x3ECCCCCD#32))))

/-- The first table word of the bucket's row: bucket · 32 + the direction's offset. -/
def bucketBase (dd : Fin 3) (y : F .f32) : BitVec 32 := IntOp.addi (IntOp.muli (bucketWord dd y) 32#32) (toffW dd)

theorem hiW_lt (dd : Fin 3) : (hiW dd).toNat < 2 ^ 31 := by fin_cases dd <;> decide

theorem bucketWord_le (dd : Fin 3) (y : F .f32) : (bucketWord dd y).toNat ≤ (hiW dd).toNat :=
  clip_toNat_le (hiW dd) _ (hiW_lt dd)

theorem row_lt (dd : Fin 3) : (hiW dd).toNat * 32 + (toffW dd).toNat + 31 < 49184 := by fin_cases dd <;> decide

theorem tab_lt (dd : Fin 3) (y : F .f32) (w : Fin 32) : (bucketWord dd y).toNat * 32 + (toffW dd).toNat + w.val < 49184 := by
  have h := bucketWord_le dd y
  have hr := row_lt dd
  have hw := w.isLt
  omega

/-- Word of the staged positions: neighbour 16·lg + lane of query k, direction dd. -/
def posIx (k : Fin k0_t2_loop.trips) (lg : Fin 2) (dd : Fin 3) (lane : Fin 16) : S6144.Idx :=
  ix1 ⟨lane.val * 3 + (k.val * 96 + lg.val * 48 + dd.val), by
    have := trip_lt k; have := lane.isLt; have := lg.isLt; have := dd.isLt; omega⟩

/-- Word of the staged features: head h, direction dd, component c of query k. -/
def featIx (k : Fin k0_t2_loop.trips) (h : Fin 8) (dd : Fin 3) (c : Fin 4) : S6144.Idx :=
  ix1 ⟨k.val * 96 + h.val * 12 + dd.val * 4 + c.val, by
    have := trip_lt k; have := h.isLt; have := c.isLt; have := dd.isLt; omega⟩

/-- Word w of the table row of position `y`'s bucket along direction dd. -/
def tabIx (dd : Fin 3) (y : F .f32) (w : Fin 32) : S49184.Idx :=
  ix1 ⟨(bucketWord dd y).toNat * 32 + (toffW dd).toNat + w.val, tab_lt dd y w⟩

/-- The zero an accumulator starts from. -/
def zeroW : F .f32 := FloatOps.ofBits .f32 0#32

/-- Twelve terms added one by one onto `z`, direction outer, component inner. -/
def sum12 (z : F .f32) (p : Fin 3 → Fin 4 → F .f32) : F .f32 :=
  FloatOps.addf (FloatOps.addf (FloatOps.addf (FloatOps.addf (FloatOps.addf (FloatOps.addf (FloatOps.addf (FloatOps.addf
    (FloatOps.addf (FloatOps.addf (FloatOps.addf (FloatOps.addf z (p 0 0)) (p 0 1)) (p 0 2)) (p 0 3))
      (p 1 0)) (p 1 1)) (p 1 2)) (p 1 3)) (p 2 0)) (p 2 1)) (p 2 2)) (p 2 3)

/-- The accumulator of head h for neighbour 16·lg + lane of query k: the twelve products (table word) · (feature word). -/
def kqA (ft : Vec F S49184 .f32) (fr fq : Vec F S6144 .f32) (k : Fin k0_t2_loop.trips) (lg : Fin 2) (lane : Fin 16) (h : Fin 8) : F .f32 :=
  sum12 zeroW (fun dd c => FloatOps.mulf
    (ft (tabIx dd (fr (posIx k lg dd lane)) ⟨h.val * 4 + c.val, by have := h.isLt; have := c.isLt; omega⟩))
    (fq (featIx k h dd c)))

theorem sum12_eq (z a00 a01 a02 a03 a10 a11 a12 a13 a20 a21 a22 a23 : F .f32) (p : Fin 3 → Fin 4 → F .f32)
    (hz : z = zeroW) (h00 : a00 = p 0 0) (h01 : a01 = p 0 1) (h02 : a02 = p 0 2) (h03 : a03 = p 0 3)
    (h10 : a10 = p 1 0) (h11 : a11 = p 1 1) (h12 : a12 = p 1 2) (h13 : a13 = p 1 3)
    (h20 : a20 = p 2 0) (h21 : a21 = p 2 1) (h22 : a22 = p 2 2) (h23 : a23 = p 2 3) :
    FloatOps.addf (FloatOps.addf (FloatOps.addf (FloatOps.addf (FloatOps.addf (FloatOps.addf (FloatOps.addf (FloatOps.addf
      (FloatOps.addf (FloatOps.addf (FloatOps.addf (FloatOps.addf z a00) a01) a02) a03) a10) a11) a12) a13) a20) a21) a22) a23
      = sum12 zeroW p := by
  subst hz h00 h01 h02 h03 h10 h11 h12 h13 h20 h21 h22 h23
  rfl

/-- A gathered word: lane x of an indexed load from a rank-one buffer is the word at the lane's index. -/
theorem load_leaf {N : Nat} (f' f : Vec F ⟨1, ![N]⟩ .f32) (v : IVec S16 32)
    (hv : ∀ a x, ((![v] : Fin 1 → IVec S16 32) a x).toNat < (⟨1, ![N]⟩ : Shape).size a) (x : S16.Idx)
    (i : (⟨1, ![N]⟩ : Shape).Idx) (ef : f' = f) (ei : (v x).toNat = (i 0).val) :
    loadIdx f' ![v] hv x = f i := by
  subst ef
  unfold loadIdx
  congr 1
  funext a
  obtain rfl : a = 0 := Subsingleton.elim _ _
  exact Fin.ext ei

/-- The table index bucket · 32 + offset + w does not wrap. -/
theorem tab_toNat (dd : Fin 3) (y : F .f32) (w : BitVec 32) (wn : Fin 32) (ew : w.toNat = wn.val) :
    (IntOp.addi (bucketBase dd y) w).toNat = ((tabIx dd y wn) 0).val := by
  have h := bucketWord_le dd y
  have hr := row_lt dd
  have hw := wn.isLt
  show ((bucketWord dd y * 32#32 + toffW dd) + w).toNat = (bucketWord dd y).toNat * 32 + (toffW dd).toNat + wn.val
  rw [BitVec.toNat_add, BitVec.toNat_add, BitVec.toNat_mul, ew]
  simp only [BitVec.toNat_ofNat]
  omega

/-- One product of an accumulator at lane x: the gathered table word times the gathered feature word. -/
theorem prod_leaf (ft' ft : Vec F S49184 .f32) (fq' fq : Vec F S6144 .f32) (vT vS : IVec S16 32)
    (hT : ∀ a x, ((![vT] : Fin 1 → IVec S16 32) a x).toNat < S49184.size a)
    (hS : ∀ a x, ((![vS] : Fin 1 → IVec S16 32) a x).toNat < S6144.size a) (x : S16.Idx)
    (B w : BitVec 32) (dd : Fin 3) (y : F .f32) (wn : Fin 32) (iS : S6144.Idx)
    (eft : ft' = ft) (efq : fq' = fq)
    (eT : vT x = IntOp.addi B w) (eB : B = bucketBase dd y) (ew : w.toNat = wn.val)
    (eS : (vS x).toNat = (iS 0).val) :
    FloatOps.mulf (loadIdx ft' ![vT] hT x) (loadIdx fq' ![vS] hS x) = FloatOps.mulf (ft (tabIx dd y wn)) (fq iS) := by
  rw [load_leaf ft' ft vT hT x (tabIx dd y wn) eft (by rw [eT, eB]; exact tab_toNat dd y w wn ew),
    load_leaf fq' fq vS hS x iS efq eS]

/-- The bucket base of a gathered position. -/
theorem bucket_leaf (fr' fr : Vec F S6144 .f32) (vP : IVec S16 32)
    (hP : ∀ a x, ((![vP] : Fin 1 → IVec S16 32) a x).toNat < S6144.size a) (x : S16.Idx) (dd : Fin 3) (i : S6144.Idx)
    (efr : fr' = fr) (eP : (vP x).toNat = (i 0).val) :
    bucketBase dd (loadIdx fr' ![vP] hP x) = bucketBase dd (fr i) := by
  rw [load_leaf fr' fr vP hP x i efr eP]

/-- Lane x of the strided vector lane · c + ((k · M + a) + b), read unsigned. -/
theorem strided2_toNat (h : L16.Iotas .scVector 32 [0]) (c : BitVec 32) (k : Nat) (hk : k < 64) (M a b : BitVec 32)
    (hN : 15 * c.toNat + 63 * M.toNat + a.toNat + b.toNat < 2 ^ 32) (x : L16.Idx) (n : Nat)
    (hn : (x 0).val * c.toNat + (k * M.toNat + a.toNat + b.toNat) = n) :
    (addi (muli (iota .scVector L16 32 [0] h) (broadcast L16 c))
      (broadcast L16 (Scalar.addi (Scalar.addi (Scalar.muli (Scf.iv (0#32) (1#32) k) M) a) b)) x).toNat = n := by
  have hx := lane_lt x
  have hs := chain2_toNat k hk M a b (by omega)
  have hkM : k * M.toNat ≤ 63 * M.toNat := Nat.mul_le_mul_right _ (by omega)
  have hxc : (x 0).val * c.toNat ≤ 15 * c.toNat := Nat.mul_le_mul_right _ (by omega)
  show (iota .scVector L16 32 [0] h x * c + Scalar.addi (Scalar.addi (Scalar.muli (Scf.iv (0#32) (1#32) k) M) a) b).toNat = n
  rw [BitVec.toNat_add, BitVec.toNat_mul, iota_toNat, hs, ← hn]
  generalize k * M.toNat = t at *
  generalize (x 0).val * c.toNat = u at *
  omega

/-- Lane x of the splat 0 + (((k · M + a) + b) + c), read unsigned. -/
theorem splat3_toNat (k : Nat) (hk : k < 64) (M a b c : BitVec 32)
    (hN : 63 * M.toNat + a.toNat + b.toNat + c.toNat < 2 ^ 32) (x : L16.Idx) (n : Nat)
    (hn : k * M.toNat + a.toNat + b.toNat + c.toNat = n) :
    (addi (broadcast L16 (0#32))
      (broadcast L16 (Scalar.addi (Scalar.addi (Scalar.addi (Scalar.muli (Scf.iv (0#32) (1#32) k) M) a) b) c)) x).toNat = n := by
  have hs := chain3_toNat k hk M a b c (by omega)
  have hkM : k * M.toNat ≤ 63 * M.toNat := Nat.mul_le_mul_right _ (by omega)
  show (0#32 + Scalar.addi (Scalar.addi (Scalar.addi (Scalar.muli (Scf.iv (0#32) (1#32) k) M) a) b) c).toNat = n
  rw [BitVec.toNat_add, hs, ← hn]
  simp only [BitVec.toNat_ofNat]
  generalize k * M.toNat = t at *
  omega

/-- The closed form over the neighbour l < 32 of the query: lane group l / 16, lane l % 16. -/
def kq (ft : Vec F S49184 .f32) (fr fq : Vec F S6144 .f32) (k : Fin k0_t2_loop.trips) (l : Fin 32) (h : Fin 8) : F .f32 :=
  kqA ft fr fq k ⟨l.val / 16, by have := l.isLt; omega⟩ ⟨l.val % 16, Nat.mod_lt _ (by decide)⟩ h

variable (d : Dev nD) (L : grid0.Coords) (k : Fin k0_t2_loop.trips)
  (ft : Vec F S49184 .f32) (fr fq : Vec F S6144 .f32)

/-- The six bucket bases of the trip at lane x: direction dd, lane group lg. -/
theorem bkt_0_0 (x : S16.Idx) : qTrip.sl.r d L k fr x = bucketBase 0 (fr (posIx k 0 0 (x 0))) := by
  refine Eq.trans (b := bucketBase 0 (loadIdx (F := F) (s := S6144) (e := .f32) _ ![qTrip.sl.v21 k] _ x)) rfl
    (bucket_leaf _ fr _ _ x 0 _ (Memref.readAt_whole _ _ _) ?_)
  exact strided2_toNat _ (3#32) k (trip_lt k) (96#32) _ _ (by decide) x _ rfl

theorem bkt_0_1 (x : S16.Idx) : qTrip.sl.r_1 d L k fr x = bucketBase 0 (fr (posIx k 1 0 (x 0))) := by
  refine Eq.trans (b := bucketBase 0 (loadIdx (F := F) (s := S6144) (e := .f32) _ ![qTrip.sl.v39 k] _ x)) rfl
    (bucket_leaf _ fr _ _ x 0 _ (Memref.readAt_whole _ _ _) ?_)
  exact strided2_toNat _ (3#32) k (trip_lt k) (96#32) _ _ (by decide) x _ rfl

theorem bkt_1_0 (x : S16.Idx) : qTrip.sl.r_2 d L k fr x = bucketBase 1 (fr (posIx k 0 1 (x 0))) := by
  refine Eq.trans (b := bucketBase 1 (loadIdx (F := F) (s := S6144) (e := .f32) _ ![qTrip.sl.v57 k] _ x)) rfl
    (bucket_leaf _ fr _ _ x 1 _ (Memref.readAt_whole _ _ _) ?_)
  exact strided2_toNat _ (3#32) k (trip_lt k) (96#32) _ _ (by decide) x _ rfl

theorem bkt_1_1 (x : S16.Idx) : qTrip.sl.r_3 d L k fr x = bucketBase 1 (fr (posIx k 1 1 (x 0))) := by
  refine Eq.trans (b := bucketBase 1 (loadIdx (F := F) (s := S6144) (e := .f32) _ ![qTrip.sl.v75 k] _ x)) rfl
    (bucket_leaf _ fr _ _ x 1 _ (Memref.readAt_whole _ _ _) ?_)
  exact strided2_toNat _ (3#32) k (trip_lt k) (96#32) _ _ (by decide) x _ rfl

theorem bkt_2_0 (x : S16.Idx) : qTrip.sl.r_5 d L k fr x = bucketBase 2 (fr (posIx k 0 2 (x 0))) := by
  refine Eq.trans (b := bucketBase 2 (loadIdx (F := F) (s := S6144) (e := .f32) _ ![qTrip.sl.v93 k] _ x)) rfl
    (bucket_leaf _ fr _ _ x 2 _ (Memref.readAt_whole _ _ _) ?_)
  exact strided2_toNat _ (3#32) k (trip_lt k) (96#32) _ _ (by decide) x _ rfl

theorem bkt_2_1 (x : S16.Idx) : qTrip.sl.r_6 d L k fr x = bucketBase 2 (fr (posIx k 1 2 (x 0))) := by
  refine Eq.trans (b := bucketBase 2 (loadIdx (F := F) (s := S6144) (e := .f32) _ ![qTrip.sl.v111 k] _ x)) rfl
    (bucket_leaf _ fr _ _ x 2 _ (Memref.readAt_whole _ _ _) ?_)
  exact strided2_toNat _ (3#32) k (trip_lt k) (96#32) _ _ (by decide) x _ rfl

/-- One product: the table word of the bucket whose base is given by `b`, times the feature word. -/
macro "prod_tac" b:term : tactic => `(tactic|
  exact prod_leaf _ _ _ _ _ _ _ _ _ _ _ _ _ _ _ (Memref.readAt_whole _ _ _) (Memref.readAt_whole _ _ _) rfl $b rfl
    (splat3_toNat _ (trip_lt _) (96#32) _ _ _ (by decide) _ _ rfl))

/-- An accumulator at lane x is the closed form: the zero word, then twelve products, the bucket bases of the
    accumulator's lane group given per direction. -/
macro "acc_tac" b0:term "," b1:term "," b2:term : tactic => `(tactic|
  (refine sum12_eq _ _ _ _ _ _ _ _ _ _ _ _ _ _ rfl ?_ ?_ ?_ ?_ ?_ ?_ ?_ ?_ ?_ ?_ ?_ ?_
   · prod_tac $b0
   · prod_tac $b0
   · prod_tac $b0
   · prod_tac $b0
   · prod_tac $b1
   · prod_tac $b1
   · prod_tac $b1
   · prod_tac $b1
   · prod_tac $b2
   · prod_tac $b2
   · prod_tac $b2
   · prod_tac $b2))

end Cert.KernelIdeal.Tile

end
-- ==== Proof.KIQAcc.lean ====
/-
  The sixteen accumulators of a trip, each at a lane: head h (0 … 7), lane group lg (0, 1). Each is the closed form
  of the trip's value at neighbour 16 · lg + lane: its twelve products are read one by one off the trip's loads.
-/
import proofs.«204784_g45775761440795_cont_8to1c4_693_3_alg».proof.Proof.KIQValue

set_option maxHeartbeats 400000

noncomputable section

namespace Cert.KernelIdeal.Tile

open Cert.KernelIdeal Cert.KernelIdeal.Gen Cert.LaneRanges
open Idealize.ShloMosaic Idealize.ShloMosaic.ValueIdx

variable {F : FTy → Type} [FloatOps F]

variable (d : Dev nD) (L : grid0.Coords) (k : Fin k0_t2_loop.trips)
  (ft : Vec F S49184 .f32) (fr fq : Vec F S6144 .f32)

theorem acc_0_0 (x : S16.Idx) : qTrip.sl.r_106 d L k ft fr fq x = kqA ft fr fq k 0 (x 0) 0 := by
  acc_tac (bkt_0_0 d L k fr x), (bkt_1_0 d L k fr x), (bkt_2_0 d L k fr x)

theorem acc_0_1 (x : S16.Idx) : qTrip.sl.r_107 d L k ft fr fq x = kqA ft fr fq k 1 (x 0) 0 := by
  acc_tac (bkt_0_1 d L k fr x), (bkt_1_1 d L k fr x), (bkt_2_1 d L k fr x)

theorem acc_1_0 (x : S16.Idx) : qTrip.sl.r_112 d L k ft fr fq x = kqA ft fr fq k 0 (x 0) 1 := by
  acc_tac (bkt_0_0 d L k fr x), (bkt_1_0 d L k fr x), (bkt_2_0 d L k fr x)

theorem acc_1_1 (x : S16.Idx) : qTrip.sl.r_113 d L k ft fr fq x = kqA ft fr fq k 1 (x 0) 1 := by
  acc_tac (bkt_0_1 d L k fr x), (bkt_1_1 d L k fr x), (bkt_2_1 d L k fr x)

theorem acc_2_0 (x : S16.Idx) : qTrip.sl.r_118 d L k ft fr fq x = kqA ft fr fq k 0 (x 0) 2 := by
  acc_tac (bkt_0_0 d L k fr x), (bkt_1_0 d L k fr x), (bkt_2_0 d L k fr x)

theorem acc_2_1 (x : S16.Idx) : qTrip.sl.r_119 d L k ft fr fq x = kqA ft fr fq k 1 (x 0) 2 := by
  acc_tac (bkt_0_1 d L k fr x), (bkt_1_1 d L k fr x), (bkt_2_1 d L k fr x)

theorem acc_3_0 (x : S16.Idx) : qTrip.sl.r_123 d L k ft fr fq x = kqA ft fr fq k 0 (x 0) 3 := by
  acc_tac (bkt_0_0 d L k fr x), (bkt_1_0 d L k fr x), (bkt_2_0 d L k fr x)

theorem acc_3_1 (x : S16.Idx) : qTrip.sl.r_124 d L k ft fr fq x = kqA ft fr fq k 1 (x 0) 3 := by
  acc_tac (bkt_0_1 d L k fr x), (bkt_1_1 d L k fr x), (bkt_2_1 d L k fr x)

theorem acc_4_0 (x : S16.Idx) : qTrip.sl.r_128 d L k ft fr fq x = kqA ft fr fq k 0 (x 0) 4 := by
  acc_tac (bkt_0_0 d L k fr x), (bkt_1_0 d L k fr x), (bkt_2_0 d L k fr x)

theorem acc_4_1 (x : S16.Idx) : qTrip.sl.r_129 d L k ft fr fq x = kqA ft fr fq k 1 (x 0) 4 := by
  acc_tac (bkt_0_1 d L k fr x), (bkt_1_1 d L k fr x), (bkt_2_1 d L k fr x)

theorem acc_5_0 (x : S16.Idx) : qTrip.sl.r_135 d L k ft fr fq x = kqA ft fr fq k 0 (x 0) 5 := by
  acc_tac (bkt_0_0 d L k fr x), (bkt_1_0 d L k fr x), (bkt_2_0 d L k fr x)

theorem acc_5_1 (x : S16.Idx) : qTrip.sl.r_136 d L k ft fr fq x = kqA ft fr fq k 1 (x 0) 5 := by
  acc_tac (bkt_0_1 d L k fr x), (bkt_1_1 d L k fr x), (bkt_2_1 d L k fr x)

theorem acc_6_0 (x : S16.Idx) : qTrip.sl.r_143 d L k ft fr fq x = kqA ft fr fq k 0 (x 0) 6 := by
  acc_tac (bkt_0_0 d L k fr x), (bkt_1_0 d L k fr x), (bkt_2_0 d L k fr x)

theorem acc_6_1 (x : S16.Idx) : qTrip.sl.r_144 d L k ft fr fq x = kqA ft fr fq k 1 (x 0) 6 := by
  acc_tac (bkt_0_1 d L k fr x), (bkt_1_1 d L k fr x), (bkt_2_1 d L k fr x)

theorem acc_7_0 (x : S16.Idx) : qTrip.sl.r_148 d L k ft fr fq x = kqA ft fr fq k 0 (x 0) 7 := by
  acc_tac (bkt_0_0 d L k fr x), (bkt_1_0 d L k fr x), (bkt_2_0 d L k fr x)

theorem acc_7_1 (x : S16.Idx) : qTrip.sl.r_149 d L k ft fr fq x = kqA ft fr fq k 1 (x 0) 7 := by
  acc_tac (bkt_0_1 d L k fr x), (bkt_1_1 d L k fr x), (bkt_2_1 d L k fr x)

end Cert.KernelIdeal.Tile

end
-- ==== Proof.KIQApply.lean ====
/-
  What one trip of the per-query loop leaves in the staged output, word by word. The trip's sixteen indexed stores
  write the words k · 256 + l · 8 + h (neighbour l < 32, head h < 8), each exactly once — store (h, lg) writes its
  lane l mod 16 at stride 8 from k · 256 + lg · 128 + h —, each with the closed form of the trip's value there; every
  other word keeps what it held.
-/
import proofs.«204784_g45775761440795_cont_8to1c4_693_3_alg».proof.Proof.KIQAcc
import proofs.«204784_g45775761440795_cont_8to1c4_693_3_alg».proof.Proof.LibStoreIdx

noncomputable section

namespace Cert.KernelIdeal.Tile

open Cert.KernelIdeal Cert.KernelIdeal.Gen Cert.LaneRanges Cert.StoreIdx
open Idealize.ShloMosaic Idealize.ShloMosaic.ValueIdx

variable {F : FTy → Type} [FloatOps F]

/-- What an indexed store of sixteen lanes at the words s, s + 8, …, s + 120 leaves: lane (j − s) / 8's word at such
    a word j, what was there elsewhere. -/
def stp (g : Vec F S16384 .f32) (s : Nat) (a : Vec F S16 .f32) : Vec F S16384 .f32 := fun j =>
  if hj : s ≤ (j 0).val ∧ ((j 0).val - s) % 8 = 0 ∧ ((j 0).val - s) / 8 < 16 then
    a (Shape.ofLane (d := ![16]) ⟨((j 0).val - s) / 8, hj.2.2⟩) else g j

theorem piece_step (g : Vec F S16384 .f32) (v : IVec S16 32) (a : Vec F S16 .f32)
    (h : ∀ a x, ((![v] : Fin 1 → IVec S16 32) a x).toNat < S16384.size a) (s : Nat)
    (hv : ∀ l : Fin 16, (v (Shape.ofLane (d := ![16]) l)).toNat = 8 * l.val + s) :
    storeIdx g ![v] a (fun _ => 1#1) false h = stp g s a :=
  funext fun j => storeIdx_strided g v a h 8 s (by decide) hv j

/-- The newest whole-buffer piece is the buffer's contents. -/
theorem writes_whole_head (fo w : Vec F S16384 .f32) (Lp : List (View.Piece (Elt F) S16384 .f32)) :
    (View.whole cc0_scratch3).writes (Elt F) fo (⟨Rect.whole S16384, w⟩ :: Lp) = w := by
  exact (View.write_univ_eq_writes_whole (View.whole cc0_scratch3) fo Lp w).symm.trans (View.write_whole_univ cc0_scratch3 _ w)

theorem writes_step (fo g : Vec F S16384 .f32) (v : IVec S16 32) (a : Vec F S16 .f32)
    (h : ∀ a x, ((![v] : Fin 1 → IVec S16 32) a x).toNat < S16384.size a) (Lp : List (View.Piece (Elt F) S16384 .f32)) (s : Nat)
    (hv : ∀ l : Fin 16, (v (Shape.ofLane (d := ![16]) l)).toNat = 8 * l.val + s) :
    (View.whole cc0_scratch3).writes (Elt F) fo (⟨Rect.whole S16384, storeIdx g ![v] a (fun _ => 1#1) false h⟩ :: Lp) = stp g s a := by
  rw [writes_whole_head, piece_step g v a h s hv]

theorem cov_step (g : Vec F S16384 .f32) (v : IVec S16 32) (a : Vec F S16 .f32)
    (h : ∀ a x, ((![v] : Fin 1 → IVec S16 32) a x).toNat < S16384.size a) (Lp : List (View.Piece (Elt F) S16384 .f32)) (s : Nat)
    (hv : ∀ l : Fin 16, (v (Shape.ofLane (d := ![16]) l)).toNat = 8 * l.val + s) :
    (Memref.whole cc0_scratch3).view.readCov (⟨Rect.whole S16384, storeIdx g ![v] a (fun _ => 1#1) false h⟩ :: Lp) (LoadRect.whole S16384)
      = stp g s a := by
  unfold View.readCov
  exact (Memref.readAt_whole (Elt F) cc0_scratch3 _).trans (writes_step _ g v a h Lp s hv)

variable (d : Dev nD) (L : grid0.Coords) (k : Fin k0_t2_loop.trips)
  (ft : Vec F S49184 .f32) (fr fq : Vec F S6144 .f32) (fo : Vec F S16384 .f32)

/-! ### The sixteen store index vectors: lane l names the word 8 · l + (k · 256 + lg · 128 + h) -/

theorem st_idx_0_0 (l : Fin 16) :
    (qTrip.sl.v1779 k (Shape.ofLane (d := ![16]) l)).toNat = 8 * l.val + (k.val * 256 + 0 + 0) :=
  strided2_toNat _ (8#32) k (trip_lt k) (256#32) _ _ (by decide) (Shape.ofLane (d := ![16]) l) _
    (by show l.val * 8 + (k.val * 256 + 0 + 0) = _; omega)

theorem st_idx_0_1 (l : Fin 16) :
    (qTrip.sl.v1783 k (Shape.ofLane (d := ![16]) l)).toNat = 8 * l.val + (k.val * 256 + 128 + 0) :=
  strided2_toNat _ (8#32) k (trip_lt k) (256#32) _ _ (by decide) (Shape.ofLane (d := ![16]) l) _
    (by show l.val * 8 + (k.val * 256 + 128 + 0) = _; omega)

theorem st_idx_1_0 (l : Fin 16) :
    (qTrip.sl.v1787 k (Shape.ofLane (d := ![16]) l)).toNat = 8 * l.val + (k.val * 256 + 0 + 1) :=
  strided2_toNat _ (8#32) k (trip_lt k) (256#32) _ _ (by decide) (Shape.ofLane (d := ![16]) l) _
    (by show l.val * 8 + (k.val * 256 + 0 + 1) = _; omega)

theorem st_idx_1_1 (l : Fin 16) :
    (qTrip.sl.v1791 k (Shape.ofLane (d := ![16]) l)).toNat = 8 * l.val + (k.val * 256 + 128 + 1) :=
  strided2_toNat _ (8#32) k (trip_lt k) (256#32) _ _ (by decide) (Shape.ofLane (d := ![16]) l) _
    (by show l.val * 8 + (k.val * 256 + 128 + 1) = _; omega)

theorem st_idx_2_0 (l : Fin 16) :
    (qTrip.sl.v1795 k (Shape.ofLane (d := ![16]) l)).toNat = 8 * l.val + (k.val * 256 + 0 + 2) :=
  strided2_toNat _ (8#32) k (trip_lt k) (256#32) _ _ (by decide) (Shape.ofLane (d := ![16]) l) _
    (by show l.val * 8 + (k.val * 256 + 0 + 2) = _; omega)

theorem st_idx_2_1 (l : Fin 16) :
    (qTrip.sl.v1799 k (Shape.ofLane (d := ![16]) l)).toNat = 8 * l.val + (k.val * 256 + 128 + 2) :=
  strided2_toNat _ (8#32) k (trip_lt k) (256#32) _ _ (by decide) (Shape.ofLane (d := ![16]) l) _
    (by show l.val * 8 + (k.val * 256 + 128 + 2) = _; omega)

theorem st_idx_3_0 (l : Fin 16) :
    (qTrip.sl.v1803 k (Shape.ofLane (d := ![16]) l)).toNat = 8 * l.val + (k.val * 256 + 0 + 3) :=
  strided2_toNat _ (8#32) k (trip_lt k) (256#32) _ _ (by decide) (Shape.ofLane (d := ![16]) l) _
    (by show l.val * 8 + (k.val * 256 + 0 + 3) = _; omega)

theorem st_idx_3_1 (l : Fin 16) :
    (qTrip.sl.v1807 k (Shape.ofLane (d := ![16]) l)).toNat = 8 * l.val + (k.val * 256 + 128 + 3) :=
  strided2_toNat _ (8#32) k (trip_lt k) (256#32) _ _ (by decide) (Shape.ofLane (d := ![16]) l) _
    (by show l.val * 8 + (k.val * 256 + 128 + 3) = _; omega)

theorem st_idx_4_0 (l : Fin 16) :
    (qTrip.sl.v1811 k (Shape.ofLane (d := ![16]) l)).toNat = 8 * l.val + (k.val * 256 + 0 + 4) :=
  strided2_toNat _ (8#32) k (trip_lt k) (256#32) _ _ (by decide) (Shape.ofLane (d := ![16]) l) _
    (by show l.val * 8 + (k.val * 256 + 0 + 4) = _; omega)

theorem st_idx_4_1 (l : Fin 16) :
    (qTrip.sl.v1815 k (Shape.ofLane (d := ![16]) l)).toNat = 8 * l.val + (k.val * 256 + 128 + 4) :=
  strided2_toNat _ (8#32) k (trip_lt k) (256#32) _ _ (by decide) (Shape.ofLane (d := ![16]) l) _
    (by show l.val * 8 + (k.val * 256 + 128 + 4) = _; omega)

theorem st_idx_5_0 (l : Fin 16) :
    (qTrip.sl.v1819 k (Shape.ofLane (d := ![16]) l)).toNat = 8 * l.val + (k.val * 256 + 0 + 5) :=
  strided2_toNat _ (8#32) k (trip_lt k) (256#32) _ _ (by decide) (Shape.ofLane (d := ![16]) l) _
    (by show l.val * 8 + (k.val * 256 + 0 + 5) = _; omega)

theorem st_idx_5_1 (l : Fin 16) :
    (qTrip.sl.v1823 k (Shape.ofLane (d := ![16]) l)).toNat = 8 * l.val + (k.val * 256 + 128 + 5) :=
  strided2_toNat _ (8#32) k (trip_lt k) (256#32) _ _ (by decide) (Shape.ofLane (d := ![16]) l) _
    (by show l.val * 8 + (k.val * 256 + 128 + 5) = _; omega)

theorem st_idx_6_0 (l : Fin 16) :
    (qTrip.sl.v1827 k (Shape.ofLane (d := ![16]) l)).toNat = 8 * l.val + (k.val * 256 + 0 + 6) :=
  strided2_toNat _ (8#32) k (trip_lt k) (256#32) _ _ (by decide) (Shape.ofLane (d := ![16]) l) _
    (by show l.val * 8 + (k.val * 256 + 0 + 6) = _; omega)

theorem st_idx_6_1 (l : Fin 16) :
    (qTrip.sl.v1831 k (Shape.ofLane (d := ![16]) l)).toNat = 8 * l.val + (k.val * 256 + 128 + 6) :=
  strided2_toNat _ (8#32) k (trip_lt k) (256#32) _ _ (by decide) (Shape.ofLane (d := ![16]) l) _
    (by show l.val * 8 + (k.val * 256 + 128 + 6) = _; omega)

theorem st_idx_7_0 (l : Fin 16) :
    (qTrip.sl.v1835 k (Shape.ofLane (d := ![16]) l)).toNat = 8 * l.val + (k.val * 256 + 0 + 7) :=
  strided2_toNat _ (8#32) k (trip_lt k) (256#32) _ _ (by decide) (Shape.ofLane (d := ![16]) l) _
    (by show l.val * 8 + (k.val * 256 + 0 + 7) = _; omega)

theorem st_idx_7_1 (l : Fin 16) :
    (qTrip.sl.v1839 k (Shape.ofLane (d := ![16]) l)).toNat = 8 * l.val + (k.val * 256 + 128 + 7) :=
  strided2_toNat _ (8#32) k (trip_lt k) (256#32) _ _ (by decide) (Shape.ofLane (d := ![16]) l) _
    (by show l.val * 8 + (k.val * 256 + 128 + 7) = _; omega)

/-! ### The staged output after each store -/

theorem f0_eq : qTrip.sl.f d L k ft fr fq fo = stp fo (k.val * 256 + 0 + 0) (qTrip.sl.r_106 d L k ft fr fq) :=
  (cov_step _ _ _ _ _ _ (st_idx_0_0 k)).trans
    (congrArg (fun g => stp g _ _) (Memref.readAt_whole (Elt F) cc0_scratch3 fo))

theorem f1_eq : qTrip.sl.f_1 d L k ft fr fq fo =
    stp (qTrip.sl.f d L k ft fr fq fo) (k.val * 256 + 128 + 0) (qTrip.sl.r_107 d L k ft fr fq) :=
  cov_step _ _ _ _ _ _ (st_idx_0_1 k)

theorem f2_eq : qTrip.sl.f_2 d L k ft fr fq fo =
    stp (qTrip.sl.f_1 d L k ft fr fq fo) (k.val * 256 + 0 + 1) (qTrip.sl.r_112 d L k ft fr fq) :=
  cov_step _ _ _ _ _ _ (st_idx_1_0 k)

theorem f3_eq : qTrip.sl.f_3 d L k ft fr fq fo =
    stp (qTrip.sl.f_2 d L k ft fr fq fo) (k.val * 256 + 128 + 1) (qTrip.sl.r_113 d L k ft fr fq) :=
  cov_step _ _ _ _ _ _ (st_idx_1_1 k)

theorem f4_eq : qTrip.sl.f_4 d L k ft fr fq fo =
    stp (qTrip.sl.f_3 d L k ft fr fq fo) (k.val * 256 + 0 + 2) (qTrip.sl.r_118 d L k ft fr fq) :=
  cov_step _ _ _ _ _ _ (st_idx_2_0 k)

theorem f5_eq : qTrip.sl.f_5 d L k ft fr fq fo =
    stp (qTrip.sl.f_4 d L k ft fr fq fo) (k.val * 256 + 128 + 2) (qTrip.sl.r_119 d L k ft fr fq) :=
  cov_step _ _ _ _ _ _ (st_idx_2_1 k)

theorem f6_eq : qTrip.sl.f_6 d L k ft fr fq fo =
    stp (qTrip.sl.f_5 d L k ft fr fq fo) (k.val * 256 + 0 + 3) (qTrip.sl.r_123 d L k ft fr fq) :=
  cov_step _ _ _ _ _ _ (st_idx_3_0 k)

theorem f7_eq : qTrip.sl.f_7 d L k ft fr fq fo =
    stp (qTrip.sl.f_6 d L k ft fr fq fo) (k.val * 256 + 128 + 3) (qTrip.sl.r_124 d L k ft fr fq) :=
  cov_step _ _ _ _ _ _ (st_idx_3_1 k)

theorem f8_eq : qTrip.sl.f_8 d L k ft fr fq fo =
    stp (qTrip.sl.f_7 d L k ft fr fq fo) (k.val * 256 + 0 + 4) (qTrip.sl.r_128 d L k ft fr fq) :=
  cov_step _ _ _ _ _ _ (st_idx_4_0 k)

theorem f9_eq : qTrip.sl.f_9 d L k ft fr fq fo =
    stp (qTrip.sl.f_8 d L k ft fr fq fo) (k.val * 256 + 128 + 4) (qTrip.sl.r_129 d L k ft fr fq) :=
  cov_step _ _ _ _ _ _ (st_idx_4_1 k)

theorem f10_eq : qTrip.sl.f_10 d L k ft fr fq fo =
    stp (qTrip.sl.f_9 d L k ft fr fq fo) (k.val * 256 + 0 + 5) (qTrip.sl.r_135 d L k ft fr fq) :=
  cov_step _ _ _ _ _ _ (st_idx_5_0 k)

theorem f11_eq : qTrip.sl.f_11 d L k ft fr fq fo =
    stp (qTrip.sl.f_10 d L k ft fr fq fo) (k.val * 256 + 128 + 5) (qTrip.sl.r_136 d L k ft fr fq) :=
  cov_step _ _ _ _ _ _ (st_idx_5_1 k)

theorem f12_eq : qTrip.sl.f_12 d L k ft fr fq fo =
    stp (qTrip.sl.f_11 d L k ft fr fq fo) (k.val * 256 + 0 + 6) (qTrip.sl.r_143 d L k ft fr fq) :=
  cov_step _ _ _ _ _ _ (st_idx_6_0 k)

theorem f13_eq : qTrip.sl.f_13 d L k ft fr fq fo =
    stp (qTrip.sl.f_12 d L k ft fr fq fo) (k.val * 256 + 128 + 6) (qTrip.sl.r_144 d L k ft fr fq) :=
  cov_step _ _ _ _ _ _ (st_idx_6_1 k)

theorem f14_eq : qTrip.sl.f_14 d L k ft fr fq fo =
    stp (qTrip.sl.f_13 d L k ft fr fq fo) (k.val * 256 + 0 + 7) (qTrip.sl.r_148 d L k ft fr fq) :=
  cov_step _ _ _ _ _ _ (st_idx_7_0 k)

set_option maxRecDepth 100000 in
theorem G_eq : (qTrip d L).1 k ft fr fq fo =
    stp (qTrip.sl.f_14 d L k ft fr fq fo) (k.val * 256 + 128 + 7) (qTrip.sl.r_149 d L k ft fr fq) := by
  unfold qTrip
  dsimp only
  exact writes_step _ _ _ _ _ _ _ (st_idx_7_1 k)

theorem stp_miss (g : Vec F S16384 .f32) (s : Nat) (a : Vec F S16 .f32) (j : S16384.Idx)
    (h : ¬ (s ≤ (j 0).val ∧ ((j 0).val - s) % 8 = 0 ∧ ((j 0).val - s) / 8 < 16)) : stp g s a j = g j := dif_neg h

theorem stp_hit (g : Vec F S16384 .f32) (s : Nat) (a : Vec F S16 .f32) (j : S16384.Idx)
    (h : s ≤ (j 0).val ∧ ((j 0).val - s) % 8 = 0 ∧ ((j 0).val - s) / 8 < 16) (y : F .f32)
    (hy : ∀ hl : ((j 0).val - s) / 8 < 16, a (Shape.ofLane (d := ![16]) ⟨((j 0).val - s) / 8, hl⟩) = y) :
    stp g s a j = y := (dif_pos h).trans (hy _)

theorem kqA_congr (lg lg' : Fin 2) (lane lane' : Fin 16) (h h' : Fin 8)
    (e1 : lg.val = lg'.val) (e2 : lane.val = lane'.val) (e3 : h.val = h'.val) :
    kqA ft fr fq k lg lane h = kqA ft fr fq k lg' lane' h' := by
  obtain rfl := Fin.ext e1
  obtain rfl := Fin.ext e2
  obtain rfl := Fin.ext e3
  rfl

/-- The newest store misses the word: look at what was there before it. -/
macro "peel" : tactic => `(tactic| (refine (stp_miss _ _ _ _ ?_).trans ?_; · omega))

/-- The word a hitting store wrote is the closed form at the word's neighbour and head. -/
macro "hit_tac" : tactic => `(tactic|
  ((first
      | rw [acc_0_0] | rw [acc_0_1] | rw [acc_1_0] | rw [acc_1_1] | rw [acc_2_0] | rw [acc_2_1] | rw [acc_3_0] | rw [acc_3_1]
      | rw [acc_4_0] | rw [acc_4_1] | rw [acc_5_0] | rw [acc_5_1] | rw [acc_6_0] | rw [acc_6_1] | rw [acc_7_0] | rw [acc_7_1])
   refine kqA_congr _ _ _ _ _ _ _ _ _ _ ?_ ?_ ?_ <;> (dsimp only [Shape.ofLane, Fin.coe_cast]; omega)))

set_option maxHeartbeats 4000000 in
/-- One trip at a word of the staged output: the words k · 256 … k · 256 + 255 hold the closed form (neighbour
    (r − k · 256) / 8, head (r − k · 256) % 8), every other word what it held. -/
theorem qTrip_apply (r : Fin 16384) :
    (qTrip d L).1 k ft fr fq fo (ix1 r) =
      if hr : k.val * 256 ≤ r.val ∧ r.val < k.val * 256 + 256 then
        kq ft fr fq k ⟨(r.val - k.val * 256) / 8, by omega⟩ ⟨(r.val - k.val * 256) % 8, Nat.mod_lt _ (by decide)⟩
      else fo (ix1 r) := by
  rw [G_eq, f14_eq, f13_eq, f12_eq, f11_eq, f10_eq, f9_eq, f8_eq, f7_eq, f6_eq, f5_eq, f4_eq, f3_eq, f2_eq, f1_eq, f0_eq]
  have hk := trip_lt k
  have hr := r.isLt
  have e0 : ((ix1 r : S16384.Idx) 0).val = r.val := rfl
  by_cases hin : k.val * 256 ≤ r.val ∧ r.val < k.val * 256 + 256
  · rw [dif_pos hin]
    obtain ⟨h1, h2⟩ := hin
    unfold kq
    obtain ⟨H, eH⟩ : ∃ H, (r.val - k.val * 256) % 8 = H := ⟨_, rfl⟩
    obtain ⟨G, eG⟩ : ∃ G, (r.val - k.val * 256) / 128 = G := ⟨_, rfl⟩
    have hH : H < 8 := by omega
    have hG : G < 2 := by omega
    interval_cases H <;> interval_cases G <;>
      ((repeat peel); refine stp_hit _ _ _ _ (by omega) _ ?_; intro hl; hit_tac)
  · rw [dif_neg hin]
    iterate 16 peel
    rfl

end Cert.KernelIdeal.Tile

end
-- ==== Proof.KIQFold.lean ====
/-
  The sixty-four trips of a chunk, folded: after n trips every word below 256 · n of the staged output holds the
  closed form of its query (word / 256), neighbour ((word % 256) / 8) and head (word % 8), and every other word
  still holds what the buffer held before the first trip. After all sixty-four nothing of the prior contents is left.
-/
import proofs.«204784_g45775761440795_cont_8to1c4_693_3_alg».proof.Proof.KITileA
import proofs.«204784_g45775761440795_cont_8to1c4_693_3_alg».proof.Proof.KIQApply

noncomputable section

namespace Cert.KernelIdeal.Tile

open Cert.KernelIdeal Cert.KernelIdeal.Gen
open Idealize.ShloMosaic Idealize.ShloMosaic.ValueIdx
open Idealize.ShloMosaic.SparseCore (S V T)

variable {F : FTy → Type} [FloatOps F]

local notation "s0W" => (Memref.whole Cert.KernelIdeal.cc0_scratch0 : Memref Cert.KernelIdeal.sig Kind.scVector Space.vmem Cert.KernelIdeal.S49184 EltTy.f32)
local notation "s1W" => (Memref.whole Cert.KernelIdeal.cc0_scratch1 : Memref Cert.KernelIdeal.sig Kind.scVector Space.vmem Cert.KernelIdeal.S6144 EltTy.f32)
local notation "s2W" => (Memref.whole Cert.KernelIdeal.cc0_scratch2 : Memref Cert.KernelIdeal.sig Kind.scVector Space.vmem Cert.KernelIdeal.S6144 EltTy.f32)
local notation "s3W" => (Memref.whole Cert.KernelIdeal.cc0_scratch3 : Memref Cert.KernelIdeal.sig Kind.scVector Space.vmem Cert.KernelIdeal.S16384 EltTy.f32)

theorem kq_congr (ft : Vec F S49184 .f32) (fr fq : Vec F S6144 .f32) (k k' : Fin k0_t2_loop.trips) (l l' : Fin 32) (h h' : Fin 8)
    (e1 : k.val = k'.val) (e2 : l.val = l'.val) (e3 : h.val = h'.val) : kq ft fr fq k l h = kq ft fr fq k' l' h' := by
  obtain rfl := Fin.ext e1
  obtain rfl := Fin.ext e2
  obtain rfl := Fin.ext e3
  rfl

variable (d : Dev nD) (L : grid0.Coords)
  (ft : Vec F S49184 .f32) (fr fq : Vec F S6144 .f32) (fo : Vec F S16384 .f32)

/-- After n ≤ 64 trips: the words below 256 · n hold the closed form, the others what was there before. -/
theorem qFold_inv (n : Nat) (hn : n ≤ 64) (r : Fin 16384) :
    qFold d L ft fr fq fo n (ix1 r) =
      if r.val < n * 256 then
        kq ft fr fq ⟨r.val / 256, by rw [trips2]; have := r.isLt; omega⟩
          ⟨(r.val % 256) / 8, by have := Nat.mod_lt r.val (show 0 < 256 by decide); omega⟩ ⟨r.val % 8, Nat.mod_lt _ (by decide)⟩
      else fo (ix1 r) := by
  induction n with
  | zero => rw [qFold_zero, if_neg (by omega)]
  | succ n ih =>
    have hlt : n < k0_t2_loop.trips := by rw [trips2]; omega
    have e := qFold_succ d L ft fr fq fo ⟨n, hlt⟩
    rw [show (⟨n, hlt⟩ : Fin k0_t2_loop.trips).val + 1 = n + 1 from rfl] at e
    rw [e, qTrip_apply d L ⟨n, hlt⟩ ft fr fq (qFold d L ft fr fq fo n) r]
    by_cases hin : n * 256 ≤ r.val ∧ r.val < n * 256 + 256
    · rw [dif_pos hin, if_pos (by omega)]
      exact kq_congr ft fr fq _ _ _ _ _ _ (by show n = r.val / 256; omega)
        (by show (r.val - n * 256) / 8 = (r.val % 256) / 8; omega) (by show (r.val - n * 256) % 8 = r.val % 8; omega)
    · rw [dif_neg hin, ih (by omega)]
      by_cases hlo : r.val < n * 256
      · rw [if_pos hlo, if_pos (by omega)]
      · rw [if_neg hlo, if_neg (by omega)]

/-- (a) After the sixty-four trips every word of the staged output is the closed form. -/
theorem qFold_apply (r : Fin 16384) :
    qFold d L ft fr fq fo 64 (ix1 r) =
      kq ft fr fq ⟨r.val / 256, by rw [trips2]; have := r.isLt; omega⟩
        ⟨(r.val % 256) / 8, by have := Nat.mod_lt r.val (show 0 < 256 by decide); omega⟩ ⟨r.val % 8, Nat.mod_lt _ (by decide)⟩ := by
  rw [qFold_inv d L ft fr fq fo 64 (le_refl _) r, if_pos (by have := r.isLt; omega)]

/-- (b) Sixty-four trips leave a staged output that does not depend on what the buffer held before them. -/
theorem tripsOverwrite :
    ∀ (d : Dev nD) (L : grid0.Coords) (ft : Buf (Elt F) ((s0W).view.loc (V d (cV L) (jV L)))) (fr : Buf (Elt F) ((s1W).view.loc (V d (cV L) (jV L))))
      (fq : Buf (Elt F) ((s2W).view.loc (V d (cV L) (jV L)))) (fo fo' : Buf (Elt F) ((s3W).view.loc (V d (cV L) (jV L)))),
      qFold d L ft fr fq fo 64 = qFold d L ft fr fq fo' 64 := by
  intro d L ft fr fq fo fo'
  funext j
  have ej : j = ix1 (j 0) := eq_ix1 (n := 16384) j
  rw [ej]
  exact (qFold_apply d L ft fr fq fo (j 0)).trans (qFold_apply d L ft fr fq fo' (j 0)).symm

end Cert.KernelIdeal.Tile

end
-- ==== Proof.RefTerm.lean ====
import proofs.«204784_g45775761440795_cont_8to1c4_693_3_alg».proof.ReferenceIdeal
import proofs.«204784_g45775761440795_cont_8to1c4_693_3_alg».proof.Proof.Gen.ReferenceIdeal
import Idealize.ShloMosaic.PureOps.Ideal

noncomputable section

namespace Cert.RefSide

open Cert.ReferenceIdeal Cert.ReferenceIdeal.Facts₀ Idealize.ShloMosaic Idealize.SL.Sem

/-! # The reference as one function of its argument arrays

The reference quantises each relative position `x` to `⌊(x + max_d) / 0.4⌋`, clips the three
columns of that index array to the three tables' row ranges, reads one table row per column
(`jnp.take`: a negative index wrapped by the extent, a gather, an in-bounds mask selecting between the
gathered row and a fill value), contracts each row with the query features of that direction over
the four channels, adds the three directions and multiplies by the scaling. The definitions below
compose the program's operations in that order, for any float values `F`. -/

variable {F : FTy → Type} [FloatOps F] [Cert.ReferenceIdeal.Facts]

/-- `⌊(relpos + max_d) / 0.4⌋` as 32-bit integers: the add of the broadcast `max_d` row, the quotient
    by the broadcast quantum, the floor, the conversion. -/
def quant (a0 : (⟨S65536x32x3, .f32⟩ : BufTy).Contents (Elt F)) : (⟨S65536x32x3, .i32⟩ : BufTy).Contents (Elt F) :=
  fptosi 32 (Host.floor (Host.divf
    (addf a0 (broadcastInDim S65536x32x3 ![0, 1, 2] bcast_S1x1x3_S65536x32x3_0_1_2
      (shapeCast S1x1x3 ((fun i => FloatOps.ofBits .f32 (lit0 (S3.rowMajor i))) : (⟨S3, .f32⟩ : BufTy).Contents (Elt F))
        shapeCasts_S3_S1x1x3)))
    (broadcastInDim S65536x32x3 ![] bcast_S_S65536x32x3 (constant S_ .f32 0x3ECCCCCD#32))))

/-- One column of the index array, clipped: the maximum with `0` first, then the minimum with `hi`
    (the bound is the FIRST operand of both). -/
def rowIdx (off : Fin 3 → Nat) (hs : S65536x32x3.Slices off S65536x32x1) (hi : BitVec 32)
    (q : (⟨S65536x32x3, .i32⟩ : BufTy).Contents (Elt F)) : (⟨S65536x32, .i32⟩ : BufTy).Contents (Elt F) :=
  minsi (broadcastInDim S65536x32 ![] bcast_S_S65536x32 (constantI S_ 32 hi))
    (maxsi (broadcastInDim S65536x32 ![] bcast_S_S65536x32 (constantI S_ 32 0#32))
      (shapeCast S65536x32 (extractStridedSlice S65536x32x1 off q hs) shapeCasts_S65536x32x1_S65536x32))

/-- The index column the gather reads: an index below `0` has the table's extent `n` added, and the
    array gains a unit axis. -/
def wrapIdx (n : BitVec 32) (I : (⟨S65536x32, .i32⟩ : BufTy).Contents (Elt F)) :
    (⟨S65536x32x1, .i32⟩ : BufTy).Contents (Elt F) :=
  broadcastInDim S65536x32x1 ![0, 1] bcast_S65536x32_S65536x32x1_0_1
    (select (cmpi .slt I (broadcastInDim S65536x32 ![] bcast_S_S65536x32 (constantI S_ 32 0#32)))
      (addi I (broadcastInDim S65536x32 ![] bcast_S_S65536x32 (constantI S_ 32 n))) I)

/-- The in-bounds mask of an index column: `0 ≤ j` and `j ≤ hi`, reduced by `and` over the unit axis. -/
def inBounds (hi : BitVec 32) (J : (⟨S65536x32x1, .i32⟩ : BufTy).Contents (Elt F)) :
    (⟨S65536x32, .i1⟩ : BufTy).Contents (Elt F) :=
  Host.reduce IntOp.andi
    (andi (cmpi .sge J (broadcastInDim S65536x32x1 ![] bcast_S_S65536x32x1 (constantI S_ 32 0#32)))
      (cmpi .sle J (broadcastInDim S65536x32x1 ![0, 1, 2] bcast_S1x1x1_S65536x32x1_0_1_2
        (broadcastInDim S1x1x1 ![2] bcast_S1_S1x1x1_2 (constantI S1 32 hi)))))
    (constantI S_ 1 1#1) reducesTo_S65536x32x1_S65536x32_d2 h_S_

/-- The rows read from a table: the gather at the index column where the column is in bounds, the
    fill value elsewhere. -/
def takeRows {T : Shape} (g : GatherDims T S65536x32x1 S65536x32x8x4) (hi : BitVec 32)
    (tab : (⟨T, .f32⟩ : BufTy).Contents (Elt F)) (J : (⟨S65536x32x1, .i32⟩ : BufTy).Contents (Elt F)) :
    (⟨S65536x32x8x4, .f32⟩ : BufTy).Contents (Elt F) :=
  select (broadcastInDim S65536x32x8x4 ![0, 1] bcast_S65536x32_S65536x32x8x4_0_1 (inBounds hi J))
    (Host.gather g tab J)
    (broadcastInDim S65536x32x8x4 ![] bcast_S_S65536x32x8x4 (constant S_ .f32 0x7FC00000#32))

/-- The query features of one direction: the channel axis split `12 = 3 × 4`, one of the three slices,
    its unit axis dropped. -/
def qfDir (off : Fin 4 → Nat) (hs : S65536x8x3x4.Slices off S65536x8x1x4)
    (a1 : (⟨S65536x8x12, .f32⟩ : BufTy).Contents (Elt F)) : (⟨S65536x8x4, .f32⟩ : BufTy).Contents (Elt F) :=
  shapeCast S65536x8x4
    (extractStridedSlice S65536x8x1x4 off (shapeCast S65536x8x3x4 a1 shapeCasts_S65536x8x12_S65536x8x3x4) hs)
    shapeCasts_S65536x8x1x4_S65536x8x4

/-- One direction's term: the contraction over the four channels (query features the LEFT operand, the
    table rows the right), its last two axes exchanged. -/
def dirTerm (qf : (⟨S65536x8x4, .f32⟩ : BufTy).Contents (Elt F))
    (rows : (⟨S65536x32x8x4, .f32⟩ : BufTy).Contents (Elt F)) : (⟨S65536x32x8, .f32⟩ : BufTy).Contents (Elt F) :=
  transpose S65536x32x8 [0, 2, 1] (Host.dotGeneral dot_S65536x8x4_S65536x32x8x4_S65536x8x32_2_3_n_1_01_02 none qf rows)
    transposes_S65536x8x32_S65536x32x8_0_2_1

/-- The reference's result as a function of its six float arguments: `((x + y) + z) * scaling`. -/
def outF (a0 : (⟨S65536x32x3, .f32⟩ : BufTy).Contents (Elt F)) (a1 : (⟨S65536x8x12, .f32⟩ : BufTy).Contents (Elt F))
    (a2 : (⟨S_, .f32⟩ : BufTy).Contents (Elt F)) (a4 a5 : (⟨S753x8x4, .f32⟩ : BufTy).Contents (Elt F))
    (a6 : (⟨S31x8x4, .f32⟩ : BufTy).Contents (Elt F)) : (⟨S65536x32x8, .f32⟩ : BufTy).Contents (Elt F) :=
  mulf
    (addf
      (addf
        (dirTerm (qfDir ![0, 0, 0, 0] slices_S65536x8x3x4_S65536x8x1x4_0_0_0_0 a1)
          (takeRows gather_S753x8x4_S65536x32x1_S65536x32x8x4_23_0_n_n_0_2_184 752#32 a4
            (wrapIdx 753#32 (rowIdx ![0, 0, 0] slices_S65536x32x3_S65536x32x1_0_0_0 752#32 (quant a0)))))
        (dirTerm (qfDir ![0, 0, 1, 0] slices_S65536x8x3x4_S65536x8x1x4_0_0_1_0 a1)
          (takeRows gather_S753x8x4_S65536x32x1_S65536x32x8x4_23_0_n_n_0_2_184 752#32 a5
            (wrapIdx 753#32 (rowIdx ![0, 0, 1] slices_S65536x32x3_S65536x32x1_0_0_1 752#32 (quant a0))))))
      (dirTerm (qfDir ![0, 0, 2, 0] slices_S65536x8x3x4_S65536x8x1x4_0_0_2_0 a1)
        (takeRows gather_S31x8x4_S65536x32x1_S65536x32x8x4_23_0_n_n_0_2_184 30#32 a6
          (wrapIdx 31#32 (rowIdx ![0, 0, 2] slices_S65536x32x3_S65536x32x1_0_0_2 30#32 (quant a0))))))
    (broadcastInDim S65536x32x8 ![] bcast_S_S65536x32x8 a2)

/-- The same at the extended reals. -/
def out (a0 : S65536x32x3.Idx → EReal) (a1 : S65536x8x12.Idx → EReal) (a2 : S_.Idx → EReal)
    (a4 a5 : S753x8x4.Idx → EReal) (a6 : S31x8x4.Idx → EReal) : S65536x32x8.Idx → EReal :=
  outF (F := Ideal) a0 a1 a2 a4 a5 a6

end Cert.RefSide

end
-- ==== Proof.RefOps.lean ====
import proofs.«204784_g45775761440795_cont_8to1c4_693_3_alg».proof.ReferenceIdeal
import proofs.«204784_g45775761440795_cont_8to1c4_693_3_alg».proof.Proof.Gen.ReferenceIdeal
import Idealize.ShloMosaic.Lib.StableHlo.Run

noncomputable section

namespace Cert.RefSide

open Cert.ReferenceIdeal Cert.ReferenceIdeal.Facts₀ Idealize.ShloMosaic Idealize.SL.Sem Idealize.ShloMosaic.TcCoe Idealize.ShloMosaic.StableHlo

/-! # The reference's @main as a line of operations

@main is a straight line once its calls are unfolded: a call of `clip` is six operations over that call's
record (the lower bound converted and broadcast, the maximum, the upper bound converted and broadcast, the
minimum), a call of `_take` / `_take_0` twenty-three (the wrap of negative indices through `_where`'s
select, the index column, the two bounds' comparisons and their conjunction reduced over the unit axis, the
gather, the mask and the fill value broadcast, the select). With @main's own forty-four that is one hundred
and twenty-five, in program order. -/

variable {F : FTy → Type} [FloatOps F] [Cert.ReferenceIdeal.Facts]

/-- @main's 125 operations in order, the calls unfolded at their sites: a callee's operation is stated over the
    buffers of that call's record directly (what its typed builder unfolds to at a literal reference), so that the
    fold of the list carries no transport between a reference's type and the value's. -/
abbrev ops : List (HloOp τ sig (Elt F)) :=
  [
    nullary main_cst (fun i => FloatOps.ofBits .f32 (lit0 (S3.rowMajor i))),
    reshape main_cst main_v0 rfl shapeCasts_S3_S1x1x3,
    unary main_v0 main_v1 (broadcastInDim S65536x32x3 ![0, 1, 2] bcast_S1x1x3_S65536x32x3_0_1_2 : (⟨S1x1x3, .f32⟩ : BufTy).Contents (Elt F) → (⟨S65536x32x3, .f32⟩ : BufTy).Contents (Elt F)),
    binary main_arg0 main_v1 main_v2 (addf : (⟨S65536x32x3, .f32⟩ : BufTy).Contents (Elt F) → (⟨S65536x32x3, .f32⟩ : BufTy).Contents (Elt F) → (⟨S65536x32x3, .f32⟩ : BufTy).Contents (Elt F)),
    nullary main_cst_0 (constant S_ .f32 0x3ECCCCCD#32),
    unary main_cst_0 main_v3 (broadcastInDim S65536x32x3 ![] bcast_S_S65536x32x3 : (⟨S_, .f32⟩ : BufTy).Contents (Elt F) → (⟨S65536x32x3, .f32⟩ : BufTy).Contents (Elt F)),
    binary main_v2 main_v3 main_v4 (Host.divf : (⟨S65536x32x3, .f32⟩ : BufTy).Contents (Elt F) → (⟨S65536x32x3, .f32⟩ : BufTy).Contents (Elt F) → (⟨S65536x32x3, .f32⟩ : BufTy).Contents (Elt F)),
    unary main_v4 main_v5 (Host.floor : (⟨S65536x32x3, .f32⟩ : BufTy).Contents (Elt F) → (⟨S65536x32x3, .f32⟩ : BufTy).Contents (Elt F)),
    unary main_v5 main_v6 (fptosi 32 : (⟨S65536x32x3, .f32⟩ : BufTy).Contents (Elt F) → (⟨S65536x32x3, .i32⟩ : BufTy).Contents (Elt F)),
    reshape main_arg1 main_v7 rfl shapeCasts_S65536x8x12_S65536x8x3x4,
    unary main_v6 main_v8 ((extractStridedSlice S65536x32x1 ![0, 0, 0] · slices_S65536x32x3_S65536x32x1_0_0_0) : (⟨S65536x32x3, .i32⟩ : BufTy).Contents (Elt F) → (⟨S65536x32x1, .i32⟩ : BufTy).Contents (Elt F)),
    reshape main_v8 main_v9 rfl shapeCasts_S65536x32x1_S65536x32,
    nullary main_c (constantI S_ 32 0#32),
    nullary main_c_1 (constantI S_ 32 752#32),
    unary main_c main_call0_v0 (id : (⟨S_, .i32⟩ : BufTy).Contents (Elt F) → (⟨S_, .i32⟩ : BufTy).Contents (Elt F)),
    unary main_call0_v0 main_call0_v1 (broadcastInDim S65536x32 ![] bcast_S_S65536x32 : (⟨S_, .i32⟩ : BufTy).Contents (Elt F) → (⟨S65536x32, .i32⟩ : BufTy).Contents (Elt F)),
    binary main_call0_v1 main_v9 main_call0_v2 (maxsi : (⟨S65536x32, .i32⟩ : BufTy).Contents (Elt F) → (⟨S65536x32, .i32⟩ : BufTy).Contents (Elt F) → (⟨S65536x32, .i32⟩ : BufTy).Contents (Elt F)),
    unary main_c_1 main_call0_v3 (id : (⟨S_, .i32⟩ : BufTy).Contents (Elt F) → (⟨S_, .i32⟩ : BufTy).Contents (Elt F)),
    unary main_call0_v3 main_call0_v4 (broadcastInDim S65536x32 ![] bcast_S_S65536x32 : (⟨S_, .i32⟩ : BufTy).Contents (Elt F) → (⟨S65536x32, .i32⟩ : BufTy).Contents (Elt F)),
    binary main_call0_v4 main_call0_v2 main_v10 (minsi : (⟨S65536x32, .i32⟩ : BufTy).Contents (Elt F) → (⟨S65536x32, .i32⟩ : BufTy).Contents (Elt F) → (⟨S65536x32, .i32⟩ : BufTy).Contents (Elt F)),
    unary main_v7 main_v11 ((extractStridedSlice S65536x8x1x4 ![0, 0, 0, 0] · slices_S65536x8x3x4_S65536x8x1x4_0_0_0_0) : (⟨S65536x8x3x4, .f32⟩ : BufTy).Contents (Elt F) → (⟨S65536x8x1x4, .f32⟩ : BufTy).Contents (Elt F)),
    reshape main_v11 main_v12 rfl shapeCasts_S65536x8x1x4_S65536x8x4,
    nullary main_call1_c (constantI S_ 32 0#32),
    unary main_call1_c main_call1_v0 (broadcastInDim S65536x32 ![] bcast_S_S65536x32 : (⟨S_, .i32⟩ : BufTy).Contents (Elt F) → (⟨S65536x32, .i32⟩ : BufTy).Contents (Elt F)),
    binary main_v10 main_call1_v0 main_call1_v1 (cmpi .slt : (⟨S65536x32, .i32⟩ : BufTy).Contents (Elt F) → (⟨S65536x32, .i32⟩ : BufTy).Contents (Elt F) → (⟨S65536x32, .i1⟩ : BufTy).Contents (Elt F)),
    nullary main_call1_c_0 (constantI S_ 32 753#32),
    unary main_call1_c_0 main_call1_v2 (broadcastInDim S65536x32 ![] bcast_S_S65536x32 : (⟨S_, .i32⟩ : BufTy).Contents (Elt F) → (⟨S65536x32, .i32⟩ : BufTy).Contents (Elt F)),
    binary main_v10 main_call1_v2 main_call1_v3 (addi : (⟨S65536x32, .i32⟩ : BufTy).Contents (Elt F) → (⟨S65536x32, .i32⟩ : BufTy).Contents (Elt F) → (⟨S65536x32, .i32⟩ : BufTy).Contents (Elt F)),
    ternary main_call1_v1 main_call1_v3 main_v10 main_call1_v4 (select : (⟨S65536x32, .i1⟩ : BufTy).Contents (Elt F) → (⟨S65536x32, .i32⟩ : BufTy).Contents (Elt F) → (⟨S65536x32, .i32⟩ : BufTy).Contents (Elt F) → (⟨S65536x32, .i32⟩ : BufTy).Contents (Elt F)),
    unary main_call1_v4 main_call1_v5 (broadcastInDim S65536x32x1 ![0, 1] bcast_S65536x32_S65536x32x1_0_1 : (⟨S65536x32, .i32⟩ : BufTy).Contents (Elt F) → (⟨S65536x32x1, .i32⟩ : BufTy).Contents (Elt F)),
    nullary main_call1_c_1 (constantI S1 32 752#32),
    nullary main_call1_c_2 (constantI S_ 32 0#32),
    unary main_call1_c_2 main_call1_v6 (broadcastInDim S65536x32x1 ![] bcast_S_S65536x32x1 : (⟨S_, .i32⟩ : BufTy).Contents (Elt F) → (⟨S65536x32x1, .i32⟩ : BufTy).Contents (Elt F)),
    binary main_call1_v5 main_call1_v6 main_call1_v7 (cmpi .sge : (⟨S65536x32x1, .i32⟩ : BufTy).Contents (Elt F) → (⟨S65536x32x1, .i32⟩ : BufTy).Contents (Elt F) → (⟨S65536x32x1, .i1⟩ : BufTy).Contents (Elt F)),
    unary main_call1_c_1 main_call1_v8 (broadcastInDim S1x1x1 ![2] bcast_S1_S1x1x1_2 : (⟨S1, .i32⟩ : BufTy).Contents (Elt F) → (⟨S1x1x1, .i32⟩ : BufTy).Contents (Elt F)),
    unary main_call1_v8 main_call1_v9 (broadcastInDim S65536x32x1 ![0, 1, 2] bcast_S1x1x1_S65536x32x1_0_1_2 : (⟨S1x1x1, .i32⟩ : BufTy).Contents (Elt F) → (⟨S65536x32x1, .i32⟩ : BufTy).Contents (Elt F)),
    binary main_call1_v5 main_call1_v9 main_call1_v10 (cmpi .sle : (⟨S65536x32x1, .i32⟩ : BufTy).Contents (Elt F) → (⟨S65536x32x1, .i32⟩ : BufTy).Contents (Elt F) → (⟨S65536x32x1, .i1⟩ : BufTy).Contents (Elt F)),
    binary main_call1_v7 main_call1_v10 main_call1_v11 (andi : (⟨S65536x32x1, .i1⟩ : BufTy).Contents (Elt F) → (⟨S65536x32x1, .i1⟩ : BufTy).Contents (Elt F) → (⟨S65536x32x1, .i1⟩ : BufTy).Contents (Elt F)),
    nullary main_call1_c_3 (constantI S_ 1 1#1),
    binary main_call1_v11 main_call1_c_3 main_call1_v12 ((fun x v => Host.reduce IntOp.andi x v reducesTo_S65536x32x1_S65536x32_d2 h_S_) : (⟨S65536x32x1, .i1⟩ : BufTy).Contents (Elt F) → (⟨S_, .i1⟩ : BufTy).Contents (Elt F) → (⟨S65536x32, .i1⟩ : BufTy).Contents (Elt F)),
    binary main_arg4 main_call1_v5 main_call1_v13 ((fun x i => Host.gather gather_S753x8x4_S65536x32x1_S65536x32x8x4_23_0_n_n_0_2_184 x i) : (⟨S753x8x4, .f32⟩ : BufTy).Contents (Elt F) → (⟨S65536x32x1, .i32⟩ : BufTy).Contents (Elt F) → (⟨S65536x32x8x4, .f32⟩ : BufTy).Contents (Elt F)),
    unary main_call1_v12 main_call1_v14 (broadcastInDim S65536x32x8x4 ![0, 1] bcast_S65536x32_S65536x32x8x4_0_1 : (⟨S65536x32, .i1⟩ : BufTy).Contents (Elt F) → (⟨S65536x32x8x4, .i1⟩ : BufTy).Contents (Elt F)),
    nullary main_call1_cst (constant S_ .f32 0x7FC00000#32),
    unary main_call1_cst main_call1_v15 (broadcastInDim S65536x32x8x4 ![] bcast_S_S65536x32x8x4 : (⟨S_, .f32⟩ : BufTy).Contents (Elt F) → (⟨S65536x32x8x4, .f32⟩ : BufTy).Contents (Elt F)),
    ternary main_call1_v14 main_call1_v13 main_call1_v15 main_v13 (select : (⟨S65536x32x8x4, .i1⟩ : BufTy).Contents (Elt F) → (⟨S65536x32x8x4, .f32⟩ : BufTy).Contents (Elt F) → (⟨S65536x32x8x4, .f32⟩ : BufTy).Contents (Elt F) → (⟨S65536x32x8x4, .f32⟩ : BufTy).Contents (Elt F)),
    binary main_v12 main_v13 main_v14 ((fun l r => Host.dotGeneral dot_S65536x8x4_S65536x32x8x4_S65536x8x32_2_3_n_1_01_02 none l r) : (⟨S65536x8x4, .f32⟩ : BufTy).Contents (Elt F) → (⟨S65536x32x8x4, .f32⟩ : BufTy).Contents (Elt F) → (⟨S65536x8x32, .f32⟩ : BufTy).Contents (Elt F)),
    unary main_v14 main_v15 ((transpose S65536x32x8 [0, 2, 1] · transposes_S65536x8x32_S65536x32x8_0_2_1) : (⟨S65536x8x32, .f32⟩ : BufTy).Contents (Elt F) → (⟨S65536x32x8, .f32⟩ : BufTy).Contents (Elt F)),
    unary main_v6 main_v16 ((extractStridedSlice S65536x32x1 ![0, 0, 1] · slices_S65536x32x3_S65536x32x1_0_0_1) : (⟨S65536x32x3, .i32⟩ : BufTy).Contents (Elt F) → (⟨S65536x32x1, .i32⟩ : BufTy).Contents (Elt F)),
    reshape main_v16 main_v17 rfl shapeCasts_S65536x32x1_S65536x32,
    nullary main_c_2 (constantI S_ 32 0#32),
    nullary main_c_3 (constantI S_ 32 752#32),
    unary main_c_2 main_call2_v0 (id : (⟨S_, .i32⟩ : BufTy).Contents (Elt F) → (⟨S_, .i32⟩ : BufTy).Contents (Elt F)),
    unary main_call2_v0 main_call2_v1 (broadcastInDim S65536x32 ![] bcast_S_S65536x32 : (⟨S_, .i32⟩ : BufTy).Contents (Elt F) → (⟨S65536x32, .i32⟩ : BufTy).Contents (Elt F)),
    binary main_call2_v1 main_v17 main_call2_v2 (maxsi : (⟨S65536x32, .i32⟩ : BufTy).Contents (Elt F) → (⟨S65536x32, .i32⟩ : BufTy).Contents (Elt F) → (⟨S65536x32, .i32⟩ : BufTy).Contents (Elt F)),
    unary main_c_3 main_call2_v3 (id : (⟨S_, .i32⟩ : BufTy).Contents (Elt F) → (⟨S_, .i32⟩ : BufTy).Contents (Elt F)),
    unary main_call2_v3 main_call2_v4 (broadcastInDim S65536x32 ![] bcast_S_S65536x32 : (⟨S_, .i32⟩ : BufTy).Contents (Elt F) → (⟨S65536x32, .i32⟩ : BufTy).Contents (Elt F)),
    binary main_call2_v4 main_call2_v2 main_v18 (minsi : (⟨S65536x32, .i32⟩ : BufTy).Contents (Elt F) → (⟨S65536x32, .i32⟩ : BufTy).Contents (Elt F) → (⟨S65536x32, .i32⟩ : BufTy).Contents (Elt F)),
    unary main_v7 main_v19 ((extractStridedSlice S65536x8x1x4 ![0, 0, 1, 0] · slices_S65536x8x3x4_S65536x8x1x4_0_0_1_0) : (⟨S65536x8x3x4, .f32⟩ : BufTy).Contents (Elt F) → (⟨S65536x8x1x4, .f32⟩ : BufTy).Contents (Elt F)),
    reshape main_v19 main_v20 rfl shapeCasts_S65536x8x1x4_S65536x8x4,
    nullary main_call3_c (constantI S_ 32 0#32),
    unary main_call3_c main_call3_v0 (broadcastInDim S65536x32 ![] bcast_S_S65536x32 : (⟨S_, .i32⟩ : BufTy).Contents (Elt F) → (⟨S65536x32, .i32⟩ : BufTy).Contents (Elt F)),
    binary main_v18 main_call3_v0 main_call3_v1 (cmpi .slt : (⟨S65536x32, .i32⟩ : BufTy).Contents (Elt F) → (⟨S65536x32, .i32⟩ : BufTy).Contents (Elt F) → (⟨S65536x32, .i1⟩ : BufTy).Contents (Elt F)),
    nullary main_call3_c_0 (constantI S_ 32 753#32),
    unary main_call3_c_0 main_call3_v2 (broadcastInDim S65536x32 ![] bcast_S_S65536x32 : (⟨S_, .i32⟩ : BufTy).Contents (Elt F) → (⟨S65536x32, .i32⟩ : BufTy).Contents (Elt F)),
    binary main_v18 main_call3_v2 main_call3_v3 (addi : (⟨S65536x32, .i32⟩ : BufTy).Contents (Elt F) → (⟨S65536x32, .i32⟩ : BufTy).Contents (Elt F) → (⟨S65536x32, .i32⟩ : BufTy).Contents (Elt F)),
    ternary main_call3_v1 main_call3_v3 main_v18 main_call3_v4 (select : (⟨S65536x32, .i1⟩ : BufTy).Contents (Elt F) → (⟨S65536x32, .i32⟩ : BufTy).Contents (Elt F) → (⟨S65536x32, .i32⟩ : BufTy).Contents (Elt F) → (⟨S65536x32, .i32⟩ : BufTy).Contents (Elt F)),
    unary main_call3_v4 main_call3_v5 (broadcastInDim S65536x32x1 ![0, 1] bcast_S65536x32_S65536x32x1_0_1 : (⟨S65536x32, .i32⟩ : BufTy).Contents (Elt F) → (⟨S65536x32x1, .i32⟩ : BufTy).Contents (Elt F)),
    nullary main_call3_c_1 (constantI S1 32 752#32),
    nullary main_call3_c_2 (constantI S_ 32 0#32),
    unary main_call3_c_2 main_call3_v6 (broadcastInDim S65536x32x1 ![] bcast_S_S65536x32x1 : (⟨S_, .i32⟩ : BufTy).Contents (Elt F) → (⟨S65536x32x1, .i32⟩ : BufTy).Contents (Elt F)),
    binary main_call3_v5 main_call3_v6 main_call3_v7 (cmpi .sge : (⟨S65536x32x1, .i32⟩ : BufTy).Contents (Elt F) → (⟨S65536x32x1, .i32⟩ : BufTy).Contents (Elt F) → (⟨S65536x32x1, .i1⟩ : BufTy).Contents (Elt F)),
    unary main_call3_c_1 main_call3_v8 (broadcastInDim S1x1x1 ![2] bcast_S1_S1x1x1_2 : (⟨S1, .i32⟩ : BufTy).Contents (Elt F) → (⟨S1x1x1, .i32⟩ : BufTy).Contents (Elt F)),
    unary main_call3_v8 main_call3_v9 (broadcastInDim S65536x32x1 ![0, 1, 2] bcast_S1x1x1_S65536x32x1_0_1_2 : (⟨S1x1x1, .i32⟩ : BufTy).Contents (Elt F) → (⟨S65536x32x1, .i32⟩ : BufTy).Contents (Elt F)),
    binary main_call3_v5 main_call3_v9 main_call3_v10 (cmpi .sle : (⟨S65536x32x1, .i32⟩ : BufTy).Contents (Elt F) → (⟨S65536x32x1, .i32⟩ : BufTy).Contents (Elt F) → (⟨S65536x32x1, .i1⟩ : BufTy).Contents (Elt F)),
    binary main_call3_v7 main_call3_v10 main_call3_v11 (andi : (⟨S65536x32x1, .i1⟩ : BufTy).Contents (Elt F) → (⟨S65536x32x1, .i1⟩ : BufTy).Contents (Elt F) → (⟨S65536x32x1, .i1⟩ : BufTy).Contents (Elt F)),
    nullary main_call3_c_3 (constantI S_ 1 1#1),
    binary main_call3_v11 main_call3_c_3 main_call3_v12 ((fun x v => Host.reduce IntOp.andi x v reducesTo_S65536x32x1_S65536x32_d2 h_S_) : (⟨S65536x32x1, .i1⟩ : BufTy).Contents (Elt F) → (⟨S_, .i1⟩ : BufTy).Contents (Elt F) → (⟨S65536x32, .i1⟩ : BufTy).Contents (Elt F)),
    binary main_arg5 main_call3_v5 main_call3_v13 ((fun x i => Host.gather gather_S753x8x4_S65536x32x1_S65536x32x8x4_23_0_n_n_0_2_184 x i) : (⟨S753x8x4, .f32⟩ : BufTy).Contents (Elt F) → (⟨S65536x32x1, .i32⟩ : BufTy).Contents (Elt F) → (⟨S65536x32x8x4, .f32⟩ : BufTy).Contents (Elt F)),
    unary main_call3_v12 main_call3_v14 (broadcastInDim S65536x32x8x4 ![0, 1] bcast_S65536x32_S65536x32x8x4_0_1 : (⟨S65536x32, .i1⟩ : BufTy).Contents (Elt F) → (⟨S65536x32x8x4, .i1⟩ : BufTy).Contents (Elt F)),
    nullary main_call3_cst (constant S_ .f32 0x7FC00000#32),
    unary main_call3_cst main_call3_v15 (broadcastInDim S65536x32x8x4 ![] bcast_S_S65536x32x8x4 : (⟨S_, .f32⟩ : BufTy).Contents (Elt F) → (⟨S65536x32x8x4, .f32⟩ : BufTy).Contents (Elt F)),
    ternary main_call3_v14 main_call3_v13 main_call3_v15 main_v21 (select : (⟨S65536x32x8x4, .i1⟩ : BufTy).Contents (Elt F) → (⟨S65536x32x8x4, .f32⟩ : BufTy).Contents (Elt F) → (⟨S65536x32x8x4, .f32⟩ : BufTy).Contents (Elt F) → (⟨S65536x32x8x4, .f32⟩ : BufTy).Contents (Elt F)),
    binary main_v20 main_v21 main_v22 ((fun l r => Host.dotGeneral dot_S65536x8x4_S65536x32x8x4_S65536x8x32_2_3_n_1_01_02 none l r) : (⟨S65536x8x4, .f32⟩ : BufTy).Contents (Elt F) → (⟨S65536x32x8x4, .f32⟩ : BufTy).Contents (Elt F) → (⟨S65536x8x32, .f32⟩ : BufTy).Contents (Elt F)),
    unary main_v22 main_v23 ((transpose S65536x32x8 [0, 2, 1] · transposes_S65536x8x32_S65536x32x8_0_2_1) : (⟨S65536x8x32, .f32⟩ : BufTy).Contents (Elt F) → (⟨S65536x32x8, .f32⟩ : BufTy).Contents (Elt F)),
    binary main_v15 main_v23 main_v24 (addf : (⟨S65536x32x8, .f32⟩ : BufTy).Contents (Elt F) → (⟨S65536x32x8, .f32⟩ : BufTy).Contents (Elt F) → (⟨S65536x32x8, .f32⟩ : BufTy).Contents (Elt F)),
    unary main_v6 main_v25 ((extractStridedSlice S65536x32x1 ![0, 0, 2] · slices_S65536x32x3_S65536x32x1_0_0_2) : (⟨S65536x32x3, .i32⟩ : BufTy).Contents (Elt F) → (⟨S65536x32x1, .i32⟩ : BufTy).Contents (Elt F)),
    reshape main_v25 main_v26 rfl shapeCasts_S65536x32x1_S65536x32,
    nullary main_c_4 (constantI S_ 32 0#32),
    nullary main_c_5 (constantI S_ 32 30#32),
    unary main_c_4 main_call4_v0 (id : (⟨S_, .i32⟩ : BufTy).Contents (Elt F) → (⟨S_, .i32⟩ : BufTy).Contents (Elt F)),
    unary main_call4_v0 main_call4_v1 (broadcastInDim S65536x32 ![] bcast_S_S65536x32 : (⟨S_, .i32⟩ : BufTy).Contents (Elt F) → (⟨S65536x32, .i32⟩ : BufTy).Contents (Elt F)),
    binary main_call4_v1 main_v26 main_call4_v2 (maxsi : (⟨S65536x32, .i32⟩ : BufTy).Contents (Elt F) → (⟨S65536x32, .i32⟩ : BufTy).Contents (Elt F) → (⟨S65536x32, .i32⟩ : BufTy).Contents (Elt F)),
    unary main_c_5 main_call4_v3 (id : (⟨S_, .i32⟩ : BufTy).Contents (Elt F) → (⟨S_, .i32⟩ : BufTy).Contents (Elt F)),
    unary main_call4_v3 main_call4_v4 (broadcastInDim S65536x32 ![] bcast_S_S65536x32 : (⟨S_, .i32⟩ : BufTy).Contents (Elt F) → (⟨S65536x32, .i32⟩ : BufTy).Contents (Elt F)),
    binary main_call4_v4 main_call4_v2 main_v27 (minsi : (⟨S65536x32, .i32⟩ : BufTy).Contents (Elt F) → (⟨S65536x32, .i32⟩ : BufTy).Contents (Elt F) → (⟨S65536x32, .i32⟩ : BufTy).Contents (Elt F)),
    unary main_v7 main_v28 ((extractStridedSlice S65536x8x1x4 ![0, 0, 2, 0] · slices_S65536x8x3x4_S65536x8x1x4_0_0_2_0) : (⟨S65536x8x3x4, .f32⟩ : BufTy).Contents (Elt F) → (⟨S65536x8x1x4, .f32⟩ : BufTy).Contents (Elt F)),
    reshape main_v28 main_v29 rfl shapeCasts_S65536x8x1x4_S65536x8x4,
    nullary main_call5_c (constantI S_ 32 0#32),
    unary main_call5_c main_call5_v0 (broadcastInDim S65536x32 ![] bcast_S_S65536x32 : (⟨S_, .i32⟩ : BufTy).Contents (Elt F) → (⟨S65536x32, .i32⟩ : BufTy).Contents (Elt F)),
    binary main_v27 main_call5_v0 main_call5_v1 (cmpi .slt : (⟨S65536x32, .i32⟩ : BufTy).Contents (Elt F) → (⟨S65536x32, .i32⟩ : BufTy).Contents (Elt F) → (⟨S65536x32, .i1⟩ : BufTy).Contents (Elt F)),
    nullary main_call5_c_0 (constantI S_ 32 31#32),
    unary main_call5_c_0 main_call5_v2 (broadcastInDim S65536x32 ![] bcast_S_S65536x32 : (⟨S_, .i32⟩ : BufTy).Contents (Elt F) → (⟨S65536x32, .i32⟩ : BufTy).Contents (Elt F)),
    binary main_v27 main_call5_v2 main_call5_v3 (addi : (⟨S65536x32, .i32⟩ : BufTy).Contents (Elt F) → (⟨S65536x32, .i32⟩ : BufTy).Contents (Elt F) → (⟨S65536x32, .i32⟩ : BufTy).Contents (Elt F)),
    ternary main_call5_v1 main_call5_v3 main_v27 main_call5_v4 (select : (⟨S65536x32, .i1⟩ : BufTy).Contents (Elt F) → (⟨S65536x32, .i32⟩ : BufTy).Contents (Elt F) → (⟨S65536x32, .i32⟩ : BufTy).Contents (Elt F) → (⟨S65536x32, .i32⟩ : BufTy).Contents (Elt F)),
    unary main_call5_v4 main_call5_v5 (broadcastInDim S65536x32x1 ![0, 1] bcast_S65536x32_S65536x32x1_0_1 : (⟨S65536x32, .i32⟩ : BufTy).Contents (Elt F) → (⟨S65536x32x1, .i32⟩ : BufTy).Contents (Elt F)),
    nullary main_call5_c_1 (constantI S1 32 30#32),
    nullary main_call5_c_2 (constantI S_ 32 0#32),
    unary main_call5_c_2 main_call5_v6 (broadcastInDim S65536x32x1 ![] bcast_S_S65536x32x1 : (⟨S_, .i32⟩ : BufTy).Contents (Elt F) → (⟨S65536x32x1, .i32⟩ : BufTy).Contents (Elt F)),
    binary main_call5_v5 main_call5_v6 main_call5_v7 (cmpi .sge : (⟨S65536x32x1, .i32⟩ : BufTy).Contents (Elt F) → (⟨S65536x32x1, .i32⟩ : BufTy).Contents (Elt F) → (⟨S65536x32x1, .i1⟩ : BufTy).Contents (Elt F)),
    unary main_call5_c_1 main_call5_v8 (broadcastInDim S1x1x1 ![2] bcast_S1_S1x1x1_2 : (⟨S1, .i32⟩ : BufTy).Contents (Elt F) → (⟨S1x1x1, .i32⟩ : BufTy).Contents (Elt F)),
    unary main_call5_v8 main_call5_v9 (broadcastInDim S65536x32x1 ![0, 1, 2] bcast_S1x1x1_S65536x32x1_0_1_2 : (⟨S1x1x1, .i32⟩ : BufTy).Contents (Elt F) → (⟨S65536x32x1, .i32⟩ : BufTy).Contents (Elt F)),
    binary main_call5_v5 main_call5_v9 main_call5_v10 (cmpi .sle : (⟨S65536x32x1, .i32⟩ : BufTy).Contents (Elt F) → (⟨S65536x32x1, .i32⟩ : BufTy).Contents (Elt F) → (⟨S65536x32x1, .i1⟩ : BufTy).Contents (Elt F)),
    binary main_call5_v7 main_call5_v10 main_call5_v11 (andi : (⟨S65536x32x1, .i1⟩ : BufTy).Contents (Elt F) → (⟨S65536x32x1, .i1⟩ : BufTy).Contents (Elt F) → (⟨S65536x32x1, .i1⟩ : BufTy).Contents (Elt F)),
    nullary main_call5_c_3 (constantI S_ 1 1#1),
    binary main_call5_v11 main_call5_c_3 main_call5_v12 ((fun x v => Host.reduce IntOp.andi x v reducesTo_S65536x32x1_S65536x32_d2 h_S_) : (⟨S65536x32x1, .i1⟩ : BufTy).Contents (Elt F) → (⟨S_, .i1⟩ : BufTy).Contents (Elt F) → (⟨S65536x32, .i1⟩ : BufTy).Contents (Elt F)),
    binary main_arg6 main_call5_v5 main_call5_v13 ((fun x i => Host.gather gather_S31x8x4_S65536x32x1_S65536x32x8x4_23_0_n_n_0_2_184 x i) : (⟨S31x8x4, .f32⟩ : BufTy).Contents (Elt F) → (⟨S65536x32x1, .i32⟩ : BufTy).Contents (Elt F) → (⟨S65536x32x8x4, .f32⟩ : BufTy).Contents (Elt F)),
    unary main_call5_v12 main_call5_v14 (broadcastInDim S65536x32x8x4 ![0, 1] bcast_S65536x32_S65536x32x8x4_0_1 : (⟨S65536x32, .i1⟩ : BufTy).Contents (Elt F) → (⟨S65536x32x8x4, .i1⟩ : BufTy).Contents (Elt F)),
    nullary main_call5_cst (constant S_ .f32 0x7FC00000#32),
    unary main_call5_cst main_call5_v15 (broadcastInDim S65536x32x8x4 ![] bcast_S_S65536x32x8x4 : (⟨S_, .f32⟩ : BufTy).Contents (Elt F) → (⟨S65536x32x8x4, .f32⟩ : BufTy).Contents (Elt F)),
    ternary main_call5_v14 main_call5_v13 main_call5_v15 main_v30 (select : (⟨S65536x32x8x4, .i1⟩ : BufTy).Contents (Elt F) → (⟨S65536x32x8x4, .f32⟩ : BufTy).Contents (Elt F) → (⟨S65536x32x8x4, .f32⟩ : BufTy).Contents (Elt F) → (⟨S65536x32x8x4, .f32⟩ : BufTy).Contents (Elt F)),
    binary main_v29 main_v30 main_v31 ((fun l r => Host.dotGeneral dot_S65536x8x4_S65536x32x8x4_S65536x8x32_2_3_n_1_01_02 none l r) : (⟨S65536x8x4, .f32⟩ : BufTy).Contents (Elt F) → (⟨S65536x32x8x4, .f32⟩ : BufTy).Contents (Elt F) → (⟨S65536x8x32, .f32⟩ : BufTy).Contents (Elt F)),
    unary main_v31 main_v32 ((transpose S65536x32x8 [0, 2, 1] · transposes_S65536x8x32_S65536x32x8_0_2_1) : (⟨S65536x8x32, .f32⟩ : BufTy).Contents (Elt F) → (⟨S65536x32x8, .f32⟩ : BufTy).Contents (Elt F)),
    binary main_v24 main_v32 main_v33 (addf : (⟨S65536x32x8, .f32⟩ : BufTy).Contents (Elt F) → (⟨S65536x32x8, .f32⟩ : BufTy).Contents (Elt F) → (⟨S65536x32x8, .f32⟩ : BufTy).Contents (Elt F)),
    unary main_arg2 main_v34 (broadcastInDim S65536x32x8 ![] bcast_S_S65536x32x8 : (⟨S_, .f32⟩ : BufTy).Contents (Elt F) → (⟨S65536x32x8, .f32⟩ : BufTy).Contents (Elt F)),
    binary main_v33 main_v34 main_v35 (mulf : (⟨S65536x32x8, .f32⟩ : BufTy).Contents (Elt F) → (⟨S65536x32x8, .f32⟩ : BufTy).Contents (Elt F) → (⟨S65536x32x8, .f32⟩ : BufTy).Contents (Elt F)) ]

-- one hundred and twenty-five binds re-associated: the rewrite under the chain recurses once per statement
-- the reduction and the gather stay folded: only the transports around them are opened
attribute [local irreducible] Host.reduce Host.gather in
set_option maxRecDepth 16384 in
/-- @main is that line: the functions unfolded at their calls, sequencing re-associated; a callee's typed operation
    at the call's literal references is the operation over those buffers (the transports are the identity). -/
theorem main_eq (c : Dev nD) : main (F := F) c = seq ops := by
  simp only [main, fn_clip.body, fn_where.body, fn_take.body, fn_take_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    nullary_bufs_sub .., reshape_bufs_sub .., unary_bufs_sub .., binary_bufs_sub .., nullary_bufs_sub .., unary_bufs_sub ..,
    binary_bufs_sub .., unary_bufs_sub .., unary_bufs_sub .., reshape_bufs_sub .., unary_bufs_sub .., reshape_bufs_sub ..,
    nullary_bufs_sub .., nullary_bufs_sub .., unary_bufs_sub .., unary_bufs_sub .., binary_bufs_sub .., unary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., binary_bufs_sub .., unary_bufs_sub .., unary_bufs_sub ..,
    reshape_bufs_sub .., nullary_bufs_sub .., nullary_bufs_sub .., unary_bufs_sub .., unary_bufs_sub .., binary_bufs_sub ..,
    unary_bufs_sub .., unary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., unary_bufs_sub ..,
    binary_bufs_sub .., unary_bufs_sub .., reshape_bufs_sub .., nullary_bufs_sub .., nullary_bufs_sub .., unary_bufs_sub ..,
    unary_bufs_sub .., binary_bufs_sub .., unary_bufs_sub .., unary_bufs_sub .., binary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., unary_bufs_sub .., binary_bufs_sub .., unary_bufs_sub .., binary_bufs_sub ..⟩

end Cert.RefSide

end
-- ==== Proof.RefRunArgs.lean ====
import proofs.«204784_g45775761440795_cont_8to1c4_693_3_alg».proof.Proof.RefOps
import Idealize.ShloMosaic.Lib.StableHlo.Run

noncomputable section

namespace Cert.RefSide

open Cert.ReferenceIdeal Cert.ReferenceIdeal.Facts₀ Idealize.ShloMosaic Idealize.SL.Sem Idealize.ShloMosaic.TcCoe Idealize.ShloMosaic.StableHlo

/-! # The reference's arguments after the run

None of the 125 operations writes an argument's buffer: each argument ends as it started. -/

variable {F : FTy → Type} [FloatOps F] [Cert.ReferenceIdeal.Facts]

set_option maxRecDepth 16384 in
set_option maxHeartbeats 1600000 in
/-- No operation writes this argument's buffer. -/
theorem main_arg0_eq (V : Valuation τ sig (Elt F)) : after ops V (Proc.devRef .tc main_arg0) = V (Proc.devRef .tc main_arg0) := by
  after_results_simp

set_option maxRecDepth 16384 in
set_option maxHeartbeats 1600000 in
/-- No operation writes this argument's buffer. -/
theorem main_arg1_eq (V : Valuation τ sig (Elt F)) : after ops V (Proc.devRef .tc main_arg1) = V (Proc.devRef .tc main_arg1) := by
  after_results_simp

set_option maxRecDepth 16384 in
set_option maxHeartbeats 1600000 in
/-- No operation writes this argument's buffer. -/
theorem main_arg2_eq (V : Valuation τ sig (Elt F)) : after ops V (Proc.devRef .tc main_arg2) = V (Proc.devRef .tc main_arg2) := by
  after_results_simp

set_option maxRecDepth 16384 in
set_option maxHeartbeats 1600000 in
/-- No operation writes this argument's buffer. -/
theorem main_arg3_eq (V : Valuation τ sig (Elt F)) : after ops V (Proc.devRef .tc main_arg3) = V (Proc.devRef .tc main_arg3) := by
  after_results_simp

set_option maxRecDepth 16384 in
set_option maxHeartbeats 1600000 in
/-- No operation writes this argument's buffer. -/
theorem main_arg4_eq (V : Valuation τ sig (Elt F)) : after ops V (Proc.devRef .tc main_arg4) = V (Proc.devRef .tc main_arg4) := by
  after_results_simp

set_option maxRecDepth 16384 in
set_option maxHeartbeats 1600000 in
/-- No operation writes this argument's buffer. -/
theorem main_arg5_eq (V : Valuation τ sig (Elt F)) : after ops V (Proc.devRef .tc main_arg5) = V (Proc.devRef .tc main_arg5) := by
  after_results_simp

set_option maxRecDepth 16384 in
set_option maxHeartbeats 1600000 in
/-- No operation writes this argument's buffer. -/
theorem main_arg6_eq (V : Valuation τ sig (Elt F)) : after ops V (Proc.devRef .tc main_arg6) = V (Proc.devRef .tc main_arg6) := by
  after_results_simp

end Cert.RefSide

end
-- ==== Proof.RefRunOut.lean ====
import proofs.«204784_g45775761440795_cont_8to1c4_693_3_alg».proof.Proof.RefTerm
import proofs.«204784_g45775761440795_cont_8to1c4_693_3_alg».proof.Proof.RefOps
import Idealize.ShloMosaic.Lib.StableHlo.Run

noncomputable section

namespace Cert.RefSide

open Cert.ReferenceIdeal Cert.ReferenceIdeal.Facts₀ Idealize.ShloMosaic Idealize.SL.Sem Idealize.ShloMosaic.TcCoe Idealize.ShloMosaic.StableHlo

/-! # The reference's result after the run

The fold of the 125 operations at the result buffer, as the composed function of the arguments. -/

variable {F : FTy → Type} [FloatOps F] [Cert.ReferenceIdeal.Facts]

-- the reduction and the gather are folds and searches over their operands' elements: the equation never
-- looks inside them, so they stay folded while the two spellings are compared
attribute [local irreducible] Host.reduce Host.gather in
set_option maxRecDepth 16384 in
set_option maxHeartbeats 400000 in
/-- The fold of the 125 operations at the result buffer is `outF` of the argument buffers' contents: each
    operation's result at its own buffer is its function's value, at any other buffer what was there. -/
theorem out_eq (V : Valuation τ sig (Elt F)) :
    after ops V (Proc.devRef .tc main_v35)
      = outF (V (Proc.devRef .tc main_arg0)) (V (Proc.devRef .tc main_arg1)) (V (Proc.devRef .tc main_arg2))
          (V (Proc.devRef .tc main_arg4)) (V (Proc.devRef .tc main_arg5)) (V (Proc.devRef .tc main_arg6)) := by
  after_results_simp
  rfl

end Cert.RefSide

end
-- ==== Proof.RefRun.lean ====
import proofs.«204784_g45775761440795_cont_8to1c4_693_3_alg».proof.Proof.RefTerm
import proofs.«204784_g45775761440795_cont_8to1c4_693_3_alg».proof.Proof.RefOps
import proofs.«204784_g45775761440795_cont_8to1c4_693_3_alg».proof.Proof.RefRunArgs
import proofs.«204784_g45775761440795_cont_8to1c4_693_3_alg».proof.Proof.RefRunOut
import Idealize.ShloMosaic.Lib.StableHlo.Run

noncomputable section

namespace Cert.RefSide

open Cert.ReferenceIdeal Cert.ReferenceIdeal.Facts₀ Idealize.ShloMosaic Idealize.SL.Sem Idealize.ShloMosaic.TcCoe Idealize.ShloMosaic.StableHlo

/-! # The reference's run

Every weakly fair execution of @main terminates; the result buffer then holds the composed function
`outF` of the six float arguments' launch contents, and the seven arguments are unchanged. -/

variable {F : FTy → Type} [FloatOps F] [Cert.ReferenceIdeal.Facts]

/-- On every device, for any float values, from any memory with zero counters: every weakly fair execution of
    @main terminates with the result buffer at `outF` of the arguments' launch contents and the arguments
    unchanged. -/
theorem runF (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v35) = outF (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v35).trans (out_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _)⟩)
    (run_seq scopedRefs_eq scopedSems_eq defs main (fun _ => ops) main_eq (fun _ => ops_sub) m ρ)

/-- The run at the extended reals, in the spelling of the claim's post. -/
theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v35)
          = out (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  runF (F := Ideal) m g

end Cert.RefSide

end
-- ==== Proof.KILaunchRead.lean ====
/-
  The host terms read at an index: the last reshape of the flat output, the flat relative positions and query
  features, and the scaled flat table (its three pieces), each at literal shapes and explicit coordinates.
-/
import proofs.«204784_g45775761440795_cont_8to1c4_693_3_alg».proof.Proof.KILaunchA
import Idealize.ShloMosaic.Lib.ValueIdx
import Idealize.ShloMosaic.Lib.Pipeline.Value

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

variable (m : (ℓ : Loc nD τ sig) → Buf (Elt F) ℓ)

/-- The result at (query, neighbour, head) is the flat output at their row-major position. -/
theorem outOf_apply {d : Dev nD} (g : Buf (Elt F) (ouLoc d)) (q : Fin 65536) (l : Fin 32) (h : Fin 8) :
    outOf g (ix3 q l h) = g (ix1 ⟨q.val * 256 + l.val * 8 + h.val, by have := q.isLt; have := l.isLt; have := h.isLt; omega⟩) := by
  unfold outOf
  refine shapeCast_apply (s := S16777216) (t := S65536x32x8) g shapeCasts_S16777216_S65536x32x8 (ix3 q l h) (ix1 ⟨_, _⟩) ?_
  rw [Shape.rowMajor_val_one, Shape.rowMajor_val_three]
  show q.val * 256 + l.val * 8 + h.val = (q.val * 32 + l.val) * 8 + h.val
  omega

/-- The flat relative positions at the row-major position of (query, neighbour, axis). -/
theorem w6Of_apply (d : Dev nD) (q : Fin 65536) (l : Fin 32) (a : Fin 3) :
    w6Of m d (ix1 ⟨q.val * 96 + l.val * 3 + a.val, by have := q.isLt; have := l.isLt; have := a.isLt; omega⟩)
      = m ((SparseCore.T d).loc main_arg0) (ix3 q l a) := by
  unfold w6Of
  refine shapeCast_apply (s := S65536x32x3) (t := S6291456) _ shapeCasts_S65536x32x3_S6291456 (ix1 ⟨_, _⟩) (ix3 q l a) ?_
  rw [Shape.rowMajor_val_one, Shape.rowMajor_val_three]
  show (q.val * 32 + l.val) * 3 + a.val = q.val * 96 + l.val * 3 + a.val
  omega

/-- The flat query features at the row-major position of (query, head, channel). -/
theorem w7Of_apply (d : Dev nD) (q : Fin 65536) (h : Fin 8) (e : Fin 12) :
    w7Of m d (ix1 ⟨q.val * 96 + h.val * 12 + e.val, by have := q.isLt; have := h.isLt; have := e.isLt; omega⟩)
      = m ((SparseCore.T d).loc main_arg1) (ix3 q h e) := by
  unfold w7Of
  refine shapeCast_apply (s := S65536x8x12) (t := S6291456) _ shapeCasts_S65536x8x12_S6291456 (ix1 ⟨_, _⟩) (ix3 q h e) ?_
  rw [Shape.rowMajor_val_one, Shape.rowMajor_val_three]
  show (q.val * 8 + h.val) * 12 + e.val = q.val * 96 + h.val * 12 + e.val
  omega

/-- The scaled flat table at a position of its first piece: the first table's entry times the scalar. -/
theorem w5Of_apply_x (d : Dev nD) (t : Fin 753) (h : Fin 8) (c : Fin 4) :
    w5Of m d (ix1 ⟨t.val * 32 + h.val * 4 + c.val, by have := t.isLt; have := h.isLt; have := c.isLt; omega⟩)
      = FloatOps.mulf (m ((SparseCore.T d).loc main_arg4) (ix3 t h c)) (m ((SparseCore.T d).loc main_arg2) ix0) := by
  have ht := t.isLt; have hh := h.isLt; have hc := c.isLt
  unfold w5Of
  show FloatOps.mulf _ _ = _
  congr 1
  · refine (concatenate_apply_piece (t := S49184) 0 _ _ (ix1 ⟨t.val * 32 + h.val * 4 + c.val, by omega⟩) 0 (by show (0 : ℕ) < 3; omega) S24096 _ rfl rfl 0 rfl
      (ix1 ⟨t.val * 32 + h.val * 4 + c.val, by omega⟩)
      (fun b hb => (hb (Fin.ext (show b.val = 0 from by have : b.val < 1 := b.isLt; omega))).elim) (Nat.zero_add _)).trans ?_
    refine shapeCast_apply (s := S753x8x4) (t := S24096) _ shapeCasts_S753x8x4_S24096 (ix1 ⟨_, _⟩) (ix3 t h c) ?_
    rw [Shape.rowMajor_val_one, Shape.rowMajor_val_three]
    show (t.val * 8 + h.val) * 4 + c.val = t.val * 32 + h.val * 4 + c.val
    omega
  · exact broadcastInDim_apply _ _ _ _ ix0 (fun a => a.elim0)

/-- At a position of its second piece: the second table's entry times the scalar. -/
theorem w5Of_apply_y (d : Dev nD) (t : Fin 753) (h : Fin 8) (c : Fin 4) :
    w5Of m d (ix1 ⟨24096 + t.val * 32 + h.val * 4 + c.val, by have := t.isLt; have := h.isLt; have := c.isLt; omega⟩)
      = FloatOps.mulf (m ((SparseCore.T d).loc main_arg5) (ix3 t h c)) (m ((SparseCore.T d).loc main_arg2) ix0) := by
  have ht := t.isLt; have hh := h.isLt; have hc := c.isLt
  unfold w5Of
  show FloatOps.mulf _ _ = _
  congr 1
  · refine (concatenate_apply_piece (t := S49184) 0 _ _ (ix1 ⟨24096 + t.val * 32 + h.val * 4 + c.val, by omega⟩) 1 (by show (1 : ℕ) < 3; omega) S24096 _ rfl rfl 24096 rfl
      (ix1 ⟨t.val * 32 + h.val * 4 + c.val, by omega⟩)
      (fun b hb => (hb (Fin.ext (show b.val = 0 from by have : b.val < 1 := b.isLt; omega))).elim)
      (by show 24096 + (t.val * 32 + h.val * 4 + c.val) = 24096 + t.val * 32 + h.val * 4 + c.val; omega)).trans ?_
    refine shapeCast_apply (s := S753x8x4) (t := S24096) _ shapeCasts_S753x8x4_S24096 (ix1 ⟨_, _⟩) (ix3 t h c) ?_
    rw [Shape.rowMajor_val_one, Shape.rowMajor_val_three]
    show (t.val * 8 + h.val) * 4 + c.val = t.val * 32 + h.val * 4 + c.val
    omega
  · exact broadcastInDim_apply _ _ _ _ ix0 (fun a => a.elim0)

/-- At a position of its third piece: the third table's entry times the scalar. -/
theorem w5Of_apply_z (d : Dev nD) (t : Fin 31) (h : Fin 8) (c : Fin 4) :
    w5Of m d (ix1 ⟨48192 + t.val * 32 + h.val * 4 + c.val, by have := t.isLt; have := h.isLt; have := c.isLt; omega⟩)
      = FloatOps.mulf (m ((SparseCore.T d).loc main_arg6) (ix3 t h c)) (m ((SparseCore.T d).loc main_arg2) ix0) := by
  have ht := t.isLt; have hh := h.isLt; have hc := c.isLt
  unfold w5Of
  show FloatOps.mulf _ _ = _
  congr 1
  · refine (concatenate_apply_piece (t := S49184) 0 _ _ (ix1 ⟨48192 + t.val * 32 + h.val * 4 + c.val, by omega⟩) 2 (by show (2 : ℕ) < 3; omega) S992 _ rfl rfl 48192 rfl
      (ix1 ⟨t.val * 32 + h.val * 4 + c.val, by omega⟩)
      (fun b hb => (hb (Fin.ext (show b.val = 0 from by have : b.val < 1 := b.isLt; omega))).elim)
      (by show 48192 + (t.val * 32 + h.val * 4 + c.val) = 48192 + t.val * 32 + h.val * 4 + c.val; omega)).trans ?_
    refine shapeCast_apply (s := S31x8x4) (t := S992) _ shapeCasts_S31x8x4_S992 (ix1 ⟨_, _⟩) (ix3 t h c) ?_
    rw [Shape.rowMajor_val_one, Shape.rowMajor_val_three]
    show (t.val * 8 + h.val) * 4 + c.val = t.val * 32 + h.val * 4 + c.val
    omega
  · exact broadcastInDim_apply _ _ _ _ ix0 (fun a => a.elim0)

end Cert.KernelIdeal.Tile

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«204784_g45775761440795_cont_8to1c4_693_3_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.PreReal.lean ====
/-
  The precondition read at the ideal values: every float input is a real number.
  The printed precondition is the conjunction of six tests "every |entry| < +∞" — one per float input: the relative
  positions, the query features, the scale (a single number, tested without spreading the +∞ constant), and the
  three tables — and one integer test on the batch counts. When the conjunction is 1, each test is 1; a test that is 1
  had |x| = max(x, −x) below the top of the extended reals at every entry, which excludes both infinities, so the
  entry is the image of a real. The integer test is not needed for this and is dropped.
-/
import Idealize.ShloMosaic.Lib.ReduceAll
import Idealize.ShloMosaic.Lib.ValueIdx
import Idealize.ShloMosaic.PureOps.Ideal.Laws
import proofs.«204784_g45775761440795_cont_8to1c4_693_3_alg».proof.Pre_input_domain
import proofs.«204784_g45775761440795_cont_8to1c4_693_3_alg».proof.Proof.LibRealEntries
import proofs.«204784_g45775761440795_cont_8to1c4_693_3_alg».proof.Proof.LibFinitePre

noncomputable section

namespace Cert.PreReal

open Idealize.ShloMosaic Idealize.ShloMosaic.ValueIdx Cert.LibRealEntries Cert.LibFinitePre Cert.Pre_input_domain

/-- The test "|x| < +∞" of a single number (the +∞ constant is compared directly, not spread over a shape):
    when it holds the number is a real. -/
theorem scalar_real {axes : List (Fin S_.rank)} (a : FVec Ideal S_ .f32) (hr : S_.ReducesTo axes S_)
    (hu : 0 < S_.numel)
    (e : Host.reduce IntOp.andi (cmpf .olt (Host.absf a) (constant (F := Ideal) S_ .f32 0x7F800000#32))
      (constantI S_ 1 1#1) hr hu ix0 = 1#1) (i : S_.Idx) : IsReal (a i) := by
  have h := Host.reduce_andi_all _ _ hr hu ix0 e i
  refine isReal_of_abs_lt_top (a i) ?_
  have h2 : Ideal.cmp .olt (max (a i) (-(a i))) (Ideal.ofBits .f32 0x7F800000#32) = 1#1 := h
  rwa [inf_word] at h2

variable [Facts]

/-- When the precondition holds of seven input arrays, every entry of each of the six float inputs is a real. -/
theorem reals_of_pre (a0 : FVec Ideal S65536x32x3 .f32) (a1 : FVec Ideal S65536x8x12 .f32) (a2 : FVec Ideal S_ .f32)
    (a3 : IVec S4 32) (a4 : FVec Ideal S753x8x4 .f32) (a5 : FVec Ideal S753x8x4 .f32) (a6 : FVec Ideal S31x8x4 .f32)
    (h : Cert.Pre_input_domain.fn (F := Ideal) a0 a1 a2 a3 a4 a5 a6 = (fun _ => 1#1)) :
    (∀ i, IsReal (a0 i)) ∧ (∀ i, IsReal (a1 i)) ∧ (∀ i, IsReal (a2 i)) ∧ (∀ i, IsReal (a4 i))
      ∧ (∀ i, IsReal (a5 i)) ∧ (∀ i, IsReal (a6 i)) := by
  have h0 := congrFun h ix0
  dsimp only [fn, fn_part1, fn_part2] at h0
  simp only [andi, IntOp.andi_eq_one] at h0
  obtain ⟨⟨⟨⟨⟨⟨e0, e1⟩, e2⟩, e4⟩, e5⟩, e6⟩, _⟩ := h0
  exact ⟨all_real a0 _ _ _ e0, all_real a1 _ _ _ e1, scalar_real a2 _ _ e2, all_real a4 _ _ _ e4,
    all_real a5 _ _ _ e5, all_real a6 _ _ _ e6⟩

end Cert.PreReal

end
-- ==== Proof.RefValueScalar.lean ====
import Idealize.ShloMosaic.PureOps.Ideal
import Idealize.ShloMosaic.Lib.Affine
import Idealize.ShloMosaic.Lib.ValueIdx
import Idealize.ShloMosaic.PureOps.Contract

noncomputable section

namespace Cert.RefSide

open Idealize.ShloMosaic

/-! # The table row, as words

One relative position `x` is quantised to the word `⌊(x + d) / 0.4⌋` (the conversion saturating), then
clipped: the maximum with `0`, the minimum with the table's last row `hi`. Whatever `x` is, the clipped
word read signed lies in `[0, hi]`: so it is not negative, it is at most the gather's own clamp, and both
comparisons of the in-bounds mask hold. -/

/-- The quantised coordinate of `x` against the offset whose f32 word is `d`. -/
def qz (d : BitVec 32) (x : EReal) : BitVec 32 :=
  Ideal.fptosi 32 (Ideal.liftRound Int.floor (Ideal.div (x + Ideal.ofBits .f32 d) (Ideal.ofBits .f32 0x3ECCCCCD#32)))

/-- The clipped word: `min hi (max 0 ·)` of the quantised coordinate, the bound the first operand of both. -/
def rowWord (hi d : BitVec 32) (x : EReal) : BitVec 32 :=
  IntOp.minsi hi (IntOp.maxsi 0#32 (qz d x))

/-- A word clipped to `[0, b]` (signed, `0 ≤ b`) lies there. -/
theorem clip_bounds (b w : BitVec 32) (hb : 0 ≤ b.toInt) :
    0 ≤ (IntOp.minsi b (IntOp.maxsi 0#32 w)).toInt ∧ (IntOp.minsi b (IntOp.maxsi 0#32 w)).toInt ≤ b.toInt := by
  have h0 : (0#32 : BitVec 32).toInt = 0 := rfl
  unfold IntOp.minsi IntOp.maxsi
  by_cases h1 : w.slt 0#32 = true
  · rw [if_pos h1]
    by_cases h2 : b.slt 0#32 = true
    · rw [if_pos h2]; exact ⟨hb, le_refl _⟩
    · rw [if_neg h2, h0]; exact ⟨le_refl _, hb⟩
  · rw [if_neg h1]
    have hw : 0 ≤ w.toInt := by
      rw [BitVec.slt_iff_toInt_lt, h0] at h1; omega
    by_cases h2 : b.slt w = true
    · rw [if_pos h2]; exact ⟨hb, le_refl _⟩
    · rw [if_neg h2]
      rw [BitVec.slt_iff_toInt_lt] at h2
      exact ⟨hw, by omega⟩

theorem rowWord_nonneg (hi d : BitVec 32) (x : EReal) (hb : 0 ≤ hi.toInt) : 0 ≤ (rowWord hi d x).toInt :=
  (clip_bounds hi (qz d x) hb).1

theorem rowWord_le (hi d : BitVec 32) (x : EReal) (hb : 0 ≤ hi.toInt) : (rowWord hi d x).toInt ≤ hi.toInt :=
  (clip_bounds hi (qz d x) hb).2

/-- The table row read for `x`: the clipped word's signed value, as a row of a table of `n` rows (the
    minimum with `n - 1` is the gather's own clamp; it is the identity here, `rb_val`). -/
def rb (n : Nat) (hn : 0 < n) (hi d : BitVec 32) (x : EReal) : Fin n :=
  ⟨min (rowWord hi d x).toInt.toNat (n - 1), by omega⟩

/-- The row is the clipped word's signed value when the clip's bound is the table's last row. -/
theorem rb_val (n : Nat) (hn : 0 < n) (hi d : BitVec 32) (x : EReal) (hb : 0 ≤ hi.toInt) (hh : hi.toInt.toNat = n - 1) :
    (rb n hn hi d x).val = (rowWord hi d x).toInt.toNat := by
  have h1 := rowWord_nonneg hi d x hb
  have h2 := rowWord_le hi d x hb
  show min _ _ = _
  omega

/-! ## The wrap, the mask -/

/-- A word that is not negative is not below zero: the wrap's select takes the index itself. -/
theorem wrap_select (w n : BitVec 32) (hw : 0 ≤ w.toInt) :
    Scalar.select (IntOp.cmpi .slt w 0#32) (IntOp.addi w n) w = w := by
  have h0 : (0#32 : BitVec 32).toInt = 0 := rfl
  have hne : ¬ IntOp.cmpi .slt w 0#32 = 1#1 := by
    rw [IntOp.cmpi_slt, h0]; omega
  exact if_neg hne

/-- Both comparisons of the mask hold of a word in `[0, hi]`. -/
theorem mask_one (w hi : BitVec 32) (hw : 0 ≤ w.toInt) (hle : w.toInt ≤ hi.toInt) :
    IntOp.andi (IntOp.cmpi .sge w 0#32) (IntOp.cmpi .sle w hi) = 1#1 := by
  have h0 : (0#32 : BitVec 32).toInt = 0 := rfl
  rw [IntOp.andi_eq_one, IntOp.cmpi_sge, IntOp.cmpi_sle, h0]
  exact ⟨hw, hle⟩

/-- A left fold by `and` from `1` over `1`s is `1`. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduction by `and` from `1` of an array of `1`s is `1` at every index (stated at any shapes: the list of
    positions that reduce into an index is never looked at). -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_one (fun n => x (s.rowMajor.symm n)) _ (fun n _ => hx _)

end Cert.RefSide

end
-- ==== Proof.RefValueIdx.lean ====
import proofs.«204784_g45775761440795_cont_8to1c4_693_3_alg».proof.Proof.RefTerm
import proofs.«204784_g45775761440795_cont_8to1c4_693_3_alg».proof.Proof.RefValueScalar
import Idealize.ShloMosaic.Lib.ValueIdx
import Idealize.ShloMosaic.Lib.ValueLayout
import Idealize.ShloMosaic.Lib.Pipeline.Value
import Idealize.ShloMosaic.Lib.IdealHost

noncomputable section

namespace Cert.RefSide

open Cert.ReferenceIdeal Cert.ReferenceIdeal.Facts₀ Idealize.ShloMosaic Idealize.ShloMosaic.ValueIdx

/-! # The index chain read at an index

At the extended reals: the quantised index array at `(q, l, k)`, its clipped column at `(q, l)`, the
index column the gather reads at `(q, l, 0)`, and the in-bounds mask, which is `1` everywhere because
the column is clipped. -/

variable [Cert.ReferenceIdeal.Facts]

/-- The broadcast `max_d` row at `(q, l, k)` is the `k`-th literal. -/
theorem maxd_apply (q : Fin 65536) (l : Fin 32) (k : Fin 3) :
    broadcastInDim S65536x32x3 ![0, 1, 2] bcast_S1x1x3_S65536x32x3_0_1_2
      (shapeCast S1x1x3 ((fun i => FloatOps.ofBits (F := Ideal) .f32 (lit0 (S3.rowMajor i))) : (⟨S3, .f32⟩ : BufTy).Contents (Elt Ideal))
        shapeCasts_S3_S1x1x3) (ix3 q l k)
      = Ideal.ofBits .f32 (lit0 k) := by
  refine (broadcastInDim_apply _ _ _ (ix3 q l k) (ix3 (0 : Fin 1) (0 : Fin 1) k) (fun a => ?_)).trans ?_
  · match a with
    | ⟨0, _⟩ => rfl
    | ⟨1, _⟩ => rfl
    | ⟨2, _⟩ => rfl
  · refine (shapeCast_apply _ _ (ix3 (0 : Fin 1) (0 : Fin 1) k) (ix1 k) ?_).trans ?_
    · rw [Shape.rowMajor_val_one, Shape.rowMajor_val_three]
      show k.val = (0 * 1 + 0) * 3 + k.val
      omega
    · have hk : S3.rowMajor (ix1 k) = k := Fin.ext ((Shape.rowMajor_val_one _).trans rfl)
      exact congrArg (fun z => Ideal.ofBits .f32 (lit0 z)) hk

/-- The quantised index array at `(q, l, k)`. -/
theorem quant_apply (a0 : S65536x32x3.Idx → EReal) (q : Fin 65536) (l : Fin 32) (k : Fin 3) :
    quant (F := Ideal) a0 (ix3 q l k) = qz (lit0 k) (a0 (ix3 q l k)) := by
  have h1 := maxd_apply q l k
  have h2 : broadcastInDim S65536x32x3 ![] bcast_S_S65536x32x3 (constant (F := Ideal) S_ .f32 0x3ECCCCCD#32) (ix3 q l k)
      = Ideal.ofBits .f32 0x3ECCCCCD#32 := rfl
  show Ideal.fptosi 32 (Ideal.liftRound Int.floor (Ideal.div (a0 (ix3 q l k) + _) _)) = _
  rw [h1, h2]
  rfl

/-- The clipped column `k` at `(q, l)`: the clip of the index array's element at `(q, l, k)`. -/
theorem rowIdx_apply (o : Nat) (hs : S65536x32x3.Slices ![0, 0, o] S65536x32x1) (hi : BitVec 32)
    (Q : S65536x32x3.Idx → BitVec 32) (q : Fin 65536) (l : Fin 32) (k : Fin 3) (hk : k.val = o) :
    rowIdx (F := Ideal) ![0, 0, o] hs hi Q (ix2 q l) = IntOp.minsi hi (IntOp.maxsi 0#32 (Q (ix3 q l k))) := by
  have hS : shapeCast S65536x32 (extractStridedSlice S65536x32x1 ![0, 0, o] Q hs) shapeCasts_S65536x32x1_S65536x32 (ix2 q l)
      = Q (ix3 q l k) := by
    refine (shapeCast_apply _ _ (ix2 q l) (ix3 q l (0 : Fin 1)) ?_).trans ?_
    · rw [Shape.rowMajor_val_three, Shape.rowMajor_val_two]
      show (q.val * 32 + l.val) * 1 + 0 = q.val * 32 + l.val
      omega
    · exact extractStridedSlice_apply _ _ _ (ix3 q l (0 : Fin 1)) (ix3 q l k) (fun a => by
        match a with
        | ⟨0, _⟩ => exact (Nat.zero_add _).symm
        | ⟨1, _⟩ => exact (Nat.zero_add _).symm
        | ⟨2, _⟩ => show k.val = o + 0; omega)
  show IntOp.minsi hi (IntOp.maxsi 0#32 _) = _
  rw [hS]

/-- The index column at `(q, l, 0)`: the wrap's select on the clipped index at `(q, l)`. -/
theorem wrapIdx_apply (n : BitVec 32) (I : S65536x32.Idx → BitVec 32) (q : Fin 65536) (l : Fin 32) :
    wrapIdx (F := Ideal) n I (ix3 q l (0 : Fin 1))
      = Scalar.select (IntOp.cmpi .slt (I (ix2 q l)) 0#32) (IntOp.addi (I (ix2 q l)) n) (I (ix2 q l)) := by
  refine (broadcastInDim_apply _ _ _ (ix3 q l (0 : Fin 1)) (ix2 q l) (fun a => ?_)).trans ?_
  · match a with
    | ⟨0, _⟩ => rfl
    | ⟨1, _⟩ => rfl
  · rfl

/-- The index column the gather reads for direction `k`, at `(q, l, 0)`: the clipped word of
    `relpos (q, l, k)` (the wrap is the identity on it). -/
theorem idxCol_apply (o : Nat) (hs : S65536x32x3.Slices ![0, 0, o] S65536x32x1) (n hi : BitVec 32) (hb : 0 ≤ hi.toInt)
    (a0 : S65536x32x3.Idx → EReal) (q : Fin 65536) (l : Fin 32) (k : Fin 3) (hk : k.val = o) :
    wrapIdx (F := Ideal) n (rowIdx (F := Ideal) ![0, 0, o] hs hi (quant (F := Ideal) a0)) (ix3 q l (0 : Fin 1))
      = rowWord hi (lit0 k) (a0 (ix3 q l k)) := by
  rw [wrapIdx_apply, rowIdx_apply o hs hi _ q l k hk, quant_apply]
  exact wrap_select _ _ (rowWord_nonneg hi (lit0 k) _ hb)

/-- Every element of that column lies in `[0, hi]`. -/
theorem idxCol_bounds (o : Nat) (hs : S65536x32x3.Slices ![0, 0, o] S65536x32x1) (n hi : BitVec 32) (hb : 0 ≤ hi.toInt)
    (a0 : S65536x32x3.Idx → EReal) (k : Fin 3) (hk : k.val = o) (i : S65536x32x1.Idx) :
    0 ≤ (wrapIdx (F := Ideal) n (rowIdx (F := Ideal) ![0, 0, o] hs hi (quant (F := Ideal) a0)) i).toInt
      ∧ (wrapIdx (F := Ideal) n (rowIdx (F := Ideal) ![0, 0, o] hs hi (quant (F := Ideal) a0)) i).toInt ≤ hi.toInt := by
  obtain ⟨q, l, u, rfl⟩ : ∃ (q : Fin 65536) (l : Fin 32) (u : Fin 1), i = ix3 q l u := ⟨i 0, i 1, i 2, eq_ix3 i⟩
  obtain rfl : u = 0 := Subsingleton.elim _ _
  rw [idxCol_apply o hs n hi hb a0 q l k hk]
  exact ⟨rowWord_nonneg hi _ _ hb, rowWord_le hi _ _ hb⟩

/-- The in-bounds mask of a column whose elements all lie in `[0, hi]` is `1` everywhere. -/
theorem inBounds_apply (hi : BitVec 32) (J : S65536x32x1.Idx → BitVec 32)
    (hJ : ∀ i, 0 ≤ (J i).toInt ∧ (J i).toInt ≤ hi.toInt) (j : S65536x32.Idx) :
    inBounds (F := Ideal) hi J j = 1#1 := by
  unfold inBounds
  exact reduce_andi_of_all_one _ _ _ _ (fun i => mask_one (J i) hi (hJ i).1 (hJ i).2) rfl j

/-- The rows read through a column that is in bounds everywhere are the gathered rows: the select takes
    the gather, never the fill value. -/
theorem takeRows_apply {T : Shape} (g : GatherDims T S65536x32x1 S65536x32x8x4) (hi : BitVec 32)
    (tab : T.Idx → EReal) (J : S65536x32x1.Idx → BitVec 32)
    (hJ : ∀ i, 0 ≤ (J i).toInt ∧ (J i).toInt ≤ hi.toInt) (j : S65536x32x8x4.Idx) :
    takeRows (F := Ideal) g hi tab J j = Host.gather g tab J j := by
  have hm : broadcastInDim S65536x32x8x4 ![0, 1] bcast_S65536x32_S65536x32x8x4_0_1 (inBounds (F := Ideal) hi J) j = 1#1 := by
    unfold broadcastInDim
    exact inBounds_apply hi J hJ _
  unfold takeRows
  rw [select_apply, hm]
  exact select_one _ _

end Cert.RefSide

end
-- ==== Proof.RefValueTake.lean ====
import proofs.«204784_g45775761440795_cont_8to1c4_693_3_alg».proof.Proof.RefTerm
import Idealize.ShloMosaic.Lib.ValueIdx

noncomputable section

namespace Cert.RefSide

open Cert.ReferenceIdeal Cert.ReferenceIdeal.Facts₀ Idealize.ShloMosaic Idealize.ShloMosaic.ValueIdx

/-! # The row gather read at an index

`jnp.take(table, idx, axis=0)` of a table `[N, 8, 4]` at an index array `[65536, 32]` is a gather with offset
axes `[2, 3]`, the row axis collapsed, the start index's one component on the row axis, slice sizes
`[1, 8, 4]`, over the indices as `[65536, 32, 1]`. Result element `(q, l, h, c)` is the table at row
`idx[q, l, 0]` (read signed and clamped into `[0, N − 1]`), `h`, `c`. -/

section Rows
variable {α : Type}

/-- Those dimension numbers; their conditions `wf` are decided on a program's literal shapes. -/
abbrev rowsDims (N : Nat)
    (wf : GatherDims.WF ⟨3, ![N, 8, 4]⟩ ⟨3, ![65536, 32, 1]⟩ ⟨4, ![65536, 32, 8, 4]⟩ [2, 3] [0] [] [0] [] 2 ![1, 8, 4]) :
    GatherDims ⟨3, ![N, 8, 4]⟩ ⟨3, ![65536, 32, 1]⟩ ⟨4, ![65536, 32, 8, 4]⟩ where
  offsetDims := [2, 3]
  collapsedSliceDims := [0]
  operandBatchingDims := []
  startIndicesBatchingDims := []
  startIndexMap := [0]
  indexVectorDim := 2
  sliceSizes := ![1, 8, 4]
  wf := wf

/-- THE GATHER READ AT `(q, l, h, c)`. -/
theorem gather_rows_apply {N w : Nat} (hN : 0 < N)
    (wf : GatherDims.WF ⟨3, ![N, 8, 4]⟩ ⟨3, ![65536, 32, 1]⟩ ⟨4, ![65536, 32, 8, 4]⟩ [2, 3] [0] [] [0] [] 2 ![1, 8, 4])
    (x : (⟨3, ![N, 8, 4]⟩ : Shape).Idx → α) (idx : IVec ⟨3, ![65536, 32, 1]⟩ w)
    (q : Fin 65536) (l : Fin 32) (h : Fin 8) (c : Fin 4) :
    Host.gather (rowsDims N wf) x idx (ix4 q l h c)
      = x (ix3 ⟨min (idx (ix3 q l (0 : Fin 1))).toInt.toNat (N - 1), by omega⟩ h c) := by
  unfold Host.gather
  refine congrArg x (funext fun a => Fin.ext ?_)
  show (rowsDims N wf).start (ix4 q l h c) idx a + (rowsDims N wf).batchCoord (ix4 q l h c) a
      + (rowsDims N wf).offCoord (ix4 q l h c) a = _
  rw [GatherDims.batchCoord_eq_zero _ _ _ List.not_mem_nil, Nat.add_zero]
  match a with
  | ⟨0, _⟩ =>
    rw [GatherDims.offCoord_eq_zero _ _ _ (fun hm => ((GatherDims.mem_sKept _ _).mp hm).1 (List.mem_singleton.mpr rfl)),
      Nat.add_zero]
    unfold GatherDims.start
    rw [dif_pos (show (⟨0, by omega⟩ : Fin 3) ∈ (rowsDims N wf).startIndexMap from List.mem_singleton.mpr rfl)]
    have hsi : (rowsDims N wf).siIdx (ix4 q l h c) ⟨List.idxOf (⟨0, by omega⟩ : Fin 3) (rowsDims N wf).startIndexMap,
        List.idxOf_lt_length_iff.2 (List.mem_singleton.mpr rfl)⟩ = ix3 q l (0 : Fin 1) := by
      funext b; refine Fin.ext ?_
      match b with
      | ⟨0, _⟩ => rfl
      | ⟨1, _⟩ => rfl
      | ⟨2, _⟩ => rfl
    rw [hsi]
    rfl
  | ⟨1, _⟩ =>
    have hs : (rowsDims N wf).start (ix4 q l h c) idx ⟨1, by omega⟩ = 0 := by
      unfold GatherDims.start
      rw [dif_neg (show ¬ (⟨1, by omega⟩ : Fin 3) ∈ (rowsDims N wf).startIndexMap from fun hm =>
        absurd (show (1 : Nat) = 0 from congrArg Fin.val (List.mem_singleton.mp hm)) (by decide))]
    rw [hs, Nat.zero_add]
    unfold GatherDims.offCoord
    rw [dif_pos ((GatherDims.mem_sKept _ _).mpr ⟨fun hm =>
      absurd (show (1 : Nat) = 0 from congrArg Fin.val (List.mem_singleton.mp hm)) (by decide), List.not_mem_nil⟩)]
    rfl
  | ⟨2, _⟩ =>
    have hs : (rowsDims N wf).start (ix4 q l h c) idx ⟨2, by omega⟩ = 0 := by
      unfold GatherDims.start
      rw [dif_neg (show ¬ (⟨2, by omega⟩ : Fin 3) ∈ (rowsDims N wf).startIndexMap from fun hm =>
        absurd (show (2 : Nat) = 0 from congrArg Fin.val (List.mem_singleton.mp hm)) (by decide))]
    rw [hs, Nat.zero_add]
    unfold GatherDims.offCoord
    rw [dif_pos ((GatherDims.mem_sKept _ _).mpr ⟨fun hm =>
      absurd (show (2 : Nat) = 0 from congrArg Fin.val (List.mem_singleton.mp hm)) (by decide), List.not_mem_nil⟩)]
    rfl

end Rows

variable [Cert.ReferenceIdeal.Facts]

/-- The two gathers of the program are those dimension numbers at `N = 753` and `N = 31`. -/
theorem gather753_eq : gather_S753x8x4_S65536x32x1_S65536x32x8x4_23_0_n_n_0_2_184
    = rowsDims 753 gather_S753x8x4_S65536x32x1_S65536x32x8x4_23_0_n_n_0_2_184_wf := rfl
theorem gather31_eq : gather_S31x8x4_S65536x32x1_S65536x32x8x4_23_0_n_n_0_2_184
    = rowsDims 31 gather_S31x8x4_S65536x32x1_S65536x32x8x4_23_0_n_n_0_2_184_wf := rfl

end Cert.RefSide

end
-- ==== Proof.RefValueDot.lean ====
import proofs.«204784_g45775761440795_cont_8to1c4_693_3_alg».proof.Proof.RefTerm
import Idealize.ShloMosaic.Lib.ValueIdx
import Idealize.ShloMosaic.Lib.ValueLayout
import Idealize.ShloMosaic.Lib.Pipeline.Value
import Idealize.ShloMosaic.PureOps.Ideal.Laws

noncomputable section

namespace Cert.RefSide

open Cert.ReferenceIdeal Cert.ReferenceIdeal.Facts₀ Idealize.ShloMosaic Idealize.ShloMosaic.ValueIdx

/-! # One direction's contraction read at an index

The query features of direction `d` at `(q, h, c)` are the argument at channel `4 d + c` of head `h`; the
contraction (batch axes query and head, four channels contracted) at `(q, h, l)` is the sum over the channel of
the products, the query feature the left factor; the transpose exchanges `h` and `l`. -/

variable [Cert.ReferenceIdeal.Facts]

/-- The query features of the direction at offset `o`, read at `(q, h, c)`. -/
theorem qfDir_apply (o : Nat) (hs : S65536x8x3x4.Slices ![0, 0, o, 0] S65536x8x1x4) (a1 : S65536x8x12.Idx → EReal)
    (q : Fin 65536) (h : Fin 8) (c : Fin 4) (d : Fin 3) (hd : d.val = o) (m : Fin 12) (hm : m.val = 4 * o + c.val) :
    qfDir (F := Ideal) ![0, 0, o, 0] hs a1 (ix3 q h c) = a1 (ix3 q h m) := by
  unfold qfDir
  refine (shapeCast_apply _ _ (ix3 q h c) (ix4 q h (0 : Fin 1) c) ?_).trans ?_
  · rw [Shape.rowMajor_val_four, Shape.rowMajor_val_three]
    show ((q.val * 8 + h.val) * 1 + 0) * 4 + c.val = (q.val * 8 + h.val) * 4 + c.val
    omega
  · refine (slice4_axis2_apply o _ hs q h (0 : Fin 1) c d (by omega)).trans ?_
    refine shapeCast_apply _ _ (ix4 q h d c) (ix3 q h m) ?_
    rw [Shape.rowMajor_val_three, Shape.rowMajor_val_four]
    show (q.val * 8 + h.val) * 12 + m.val = ((q.val * 8 + h.val) * 3 + d.val) * 4 + c.val
    omega

/-- The contraction read at `(q, h, l)`: the sum over the channel, the left operand's element the left factor. -/
theorem dot_apply (A : FVec Ideal S65536x8x4 .f32) (B : FVec Ideal S65536x32x8x4 .f32) (q : Fin 65536) (h : Fin 8) (l : Fin 32) :
    Host.dotGeneral (F := Ideal) dot_S65536x8x4_S65536x32x8x4_S65536x8x32_2_3_n_1_01_02 none A B (ix3 q h l) = ∑ c : Fin 4, A (ix3 q h c) * B (ix4 q l h c) := by
  show FloatOps.dotGeneral _ none _ A B (ix3 q h l) = _
  rw [Ideal.dotGeneral_apply, ← Equiv.sum_comp (contrEquiv1 dot_S65536x8x4_S65536x32x8x4_S65536x8x32_2_3_n_1_01_02 4 rfl rfl).symm]
  refine Finset.sum_congr rfl fun c _ => ?_
  have c3 := contrEquiv1_symm_val dot_S65536x8x4_S65536x32x8x4_S65536x8x32_2_3_n_1_01_02 4 rfl rfl c
  have l3 : (dot_S65536x8x4_S65536x32x8x4_S65536x8x32_2_3_n_1_01_02).lhsIdx (ix3 q h l) ((contrEquiv1 _ 4 rfl rfl).symm c) = ix3 q h c := by
    funext ax; apply Fin.ext
    match ax with
    | ⟨0, _⟩ => simp [DotDims.lhsIdx, dot_S65536x8x4_S65536x32x8x4_S65536x8x32_2_3_n_1_01_02]; rfl
    | ⟨1, _⟩ => simp [DotDims.lhsIdx, dot_S65536x8x4_S65536x32x8x4_S65536x8x32_2_3_n_1_01_02]; rfl
    | ⟨2, _⟩ => simp [DotDims.lhsIdx, dot_S65536x8x4_S65536x32x8x4_S65536x8x32_2_3_n_1_01_02]; exact c3
  have r3 : (dot_S65536x8x4_S65536x32x8x4_S65536x8x32_2_3_n_1_01_02).rhsIdx (ix3 q h l) ((contrEquiv1 _ 4 rfl rfl).symm c) = ix4 q l h c := by
    funext ax; apply Fin.ext
    match ax with
    | ⟨0, _⟩ => simp [DotDims.rhsIdx, dot_S65536x8x4_S65536x32x8x4_S65536x8x32_2_3_n_1_01_02]; rfl
    | ⟨1, _⟩ => simp [DotDims.rhsIdx, dot_S65536x8x4_S65536x32x8x4_S65536x8x32_2_3_n_1_01_02]; rfl
    | ⟨2, _⟩ => simp [DotDims.rhsIdx, dot_S65536x8x4_S65536x32x8x4_S65536x8x32_2_3_n_1_01_02]; rfl
    | ⟨3, _⟩ => simp [DotDims.rhsIdx, dot_S65536x8x4_S65536x32x8x4_S65536x8x32_2_3_n_1_01_02]; exact c3
  rw [l3, r3]

/-- One direction's term read at `(q, l, h)`. -/
theorem dirTerm_apply (A : FVec Ideal S65536x8x4 .f32) (B : FVec Ideal S65536x32x8x4 .f32) (q : Fin 65536) (l : Fin 32) (h : Fin 8) :
    dirTerm (F := Ideal) A B (ix3 q l h) = ∑ c : Fin 4, A (ix3 q h c) * B (ix4 q l h c) := by
  unfold dirTerm
  rw [transpose_ix3_021_apply]
  exact dot_apply A B q h l

end Cert.RefSide

end
-- ==== Proof.RefValue.lean ====
import proofs.«204784_g45775761440795_cont_8to1c4_693_3_alg».proof.Proof.RefTerm
import proofs.«204784_g45775761440795_cont_8to1c4_693_3_alg».proof.Proof.RefValueScalar
import proofs.«204784_g45775761440795_cont_8to1c4_693_3_alg».proof.Proof.RefValueIdx
import proofs.«204784_g45775761440795_cont_8to1c4_693_3_alg».proof.Proof.RefValueTake
import proofs.«204784_g45775761440795_cont_8to1c4_693_3_alg».proof.Proof.RefValueDot

noncomputable section

namespace Cert.RefSide

open Cert.ReferenceIdeal Cert.ReferenceIdeal.Facts₀ Idealize.ShloMosaic Idealize.ShloMosaic.ValueIdx

/-! # The reference's result read at an index

For ALL inputs: the clip puts each row in `[0, hi]`, so the negative-index wrap is the identity, the gather's
own clamp is the identity, and the in-bounds mask is true, so the select takes the gathered row. Each
direction is then the sum over its four channels of query feature times table entry; the three directions are
added left to right and the sum is multiplied by the scaling. -/

variable [Cert.ReferenceIdeal.Facts]

/-- One direction's term at `(q, l, h)`: the sum over the channel `c` of the query feature at channel `m c`
    (`= 4 o + c`) times the table's entry at the row read for `relpos (q, l, k)`. -/
theorem dir_apply {N : Nat} (hN : 0 < N)
    (wf : GatherDims.WF ⟨3, ![N, 8, 4]⟩ ⟨3, ![65536, 32, 1]⟩ ⟨4, ![65536, 32, 8, 4]⟩ [2, 3] [0] [] [0] [] 2 ![1, 8, 4])
    (o : Nat) (hsQ : S65536x8x3x4.Slices ![0, 0, o, 0] S65536x8x1x4) (hsI : S65536x32x3.Slices ![0, 0, o] S65536x32x1)
    (n hi : BitVec 32) (hb : 0 ≤ hi.toInt) (k : Fin 3) (hk : k.val = o) (d : BitVec 32) (hd : lit0 k = d)
    (m : Fin 4 → Fin 12) (hm : ∀ c, (m c).val = 4 * o + c.val)
    (a0 : S65536x32x3.Idx → EReal) (a1 : S65536x8x12.Idx → EReal) (tab : (⟨3, ![N, 8, 4]⟩ : Shape).Idx → EReal)
    (q : Fin 65536) (l : Fin 32) (h : Fin 8) :
    dirTerm (F := Ideal) (qfDir (F := Ideal) ![0, 0, o, 0] hsQ a1)
        (takeRows (F := Ideal) (rowsDims N wf) hi tab
          (wrapIdx (F := Ideal) n (rowIdx (F := Ideal) ![0, 0, o] hsI hi (quant (F := Ideal) a0)))) (ix3 q l h)
      = ∑ c : Fin 4, a1 (ix3 q h (m c)) * tab (ix3 (rb N hN hi d (a0 (ix3 q l k))) h c) := by
  rw [dirTerm_apply]
  refine Finset.sum_congr rfl fun c _ => ?_
  rw [qfDir_apply o hsQ a1 q h c k hk (m c) (hm c),
    takeRows_apply _ hi tab _ (idxCol_bounds o hsI n hi hb a0 k hk) (ix4 q l h c),
    gather_rows_apply hN wf tab _ q l h c]
  refine congrArg (fun r : Fin N => a1 (ix3 q h (m c)) * tab (ix3 r h c)) (Fin.ext ?_)
  show min (wrapIdx (F := Ideal) n (rowIdx (F := Ideal) ![0, 0, o] hsI hi (quant (F := Ideal) a0)) (ix3 q l (0 : Fin 1))).toInt.toNat (N - 1)
      = min (rowWord hi d (a0 (ix3 q l k))).toInt.toNat (N - 1)
  rw [idxCol_apply o hsI n hi hb a0 q l k hk, hd]

/-- THE REFERENCE'S RESULT AT `(q, l, h)`, for all inputs. -/
theorem out_apply (a0 : S65536x32x3.Idx → EReal) (a1 : S65536x8x12.Idx → EReal) (a2 : S_.Idx → EReal)
    (a4 a5 : S753x8x4.Idx → EReal) (a6 : S31x8x4.Idx → EReal) (q : Fin 65536) (l : Fin 32) (h : Fin 8) :
    out a0 a1 a2 a4 a5 a6 (ix3 q l h)
      = ((∑ c : Fin 4, a1 (ix3 q h ⟨c.val, by have := c.isLt; omega⟩)
            * a4 (ix3 (rb 753 (by decide) 752#32 0x43166666#32 (a0 (ix3 q l 0))) h c))
          + (∑ c : Fin 4, a1 (ix3 q h ⟨4 + c.val, by have := c.isLt; omega⟩)
            * a5 (ix3 (rb 753 (by decide) 752#32 0x43166666#32 (a0 (ix3 q l 1))) h c))
          + (∑ c : Fin 4, a1 (ix3 q h ⟨8 + c.val, by have := c.isLt; omega⟩)
            * a6 (ix3 (rb 31 (by decide) 30#32 0x40C00000#32 (a0 (ix3 q l 2))) h c)))
        * a2 ix0 := by
  have hb752 : 0 ≤ (752#32 : BitVec 32).toInt := by decide
  have hb30 : 0 ≤ (30#32 : BitVec 32).toInt := by decide
  unfold out outF
  rw [mulf_apply, addf_apply, addf_apply, broadcastInDim_scalar_apply, gather753_eq, gather31_eq]
  rw [dir_apply (by decide) _ 0 _ _ 753#32 752#32 hb752 0 rfl 0x43166666#32 rfl
      (fun c => ⟨c.val, by have := c.isLt; omega⟩) (fun c => by show c.val = 4 * 0 + c.val; omega) a0 a1 a4 q l h,
    dir_apply (by decide) _ 1 _ _ 753#32 752#32 hb752 1 rfl 0x43166666#32 rfl
      (fun c => ⟨4 + c.val, by have := c.isLt; omega⟩) (fun c => by show 4 + c.val = 4 * 1 + c.val; omega) a0 a1 a5 q l h,
    dir_apply (by decide) _ 2 _ _ 31#32 30#32 hb30 2 rfl 0x40C00000#32 rfl
      (fun c => ⟨8 + c.val, by have := c.isLt; omega⟩) (fun c => by show 8 + c.val = 4 * 2 + c.val; omega) a0 a1 a6 q l h]

end Cert.RefSide

end
-- ==== Proof.LibClipTrunc.lean ====
/-
  Truncation against floor under a clip to [0, hi].
  A float-to-signed-integer conversion rounds toward zero and saturates at the ends of the 32-bit signed range.
  Followed by the signed clip  min hi (max 0 ·)  it cannot be told from the same conversion applied to the FLOOR of
  its argument: for a real r ≥ 0 the integer toward zero IS ⌊r⌋; for r < 0 both ⌈r⌉ and ⌊r⌋ are ≤ 0, so are
  their saturations, and the signed maximum with 0 gives the word 0 on both sides. No bound on hi is needed: the
  two sides already agree after the maximum with 0.
  Also the same statement with the argument written as the quotient (x + m) / q of reals, q ≠ 0, in the operations
  the extended-real instance gives addition and division.
-/
import Idealize.ShloMosaic.PureOps.Ideal

noncomputable section

namespace Cert.ClipTrunc

open Idealize.ShloMosaic

/-- A 32-bit word built from an integer inside the signed range reads back as that integer. -/
theorem toInt_ofInt32 {a : Int} (hlo : -(2 ^ 31 : Int) ≤ a) (hhi : a ≤ 2 ^ 31 - 1) :
    (BitVec.ofInt 32 a).toInt = a := by
  rw [BitVec.toInt_ofInt]
  apply Int.bmod_eq_of_le <;> omega

/-- The signed maximum of the word 0 and a word built from a nonpositive integer of the signed range is the word 0. -/
theorem maxsi_zero_ofInt_nonpos {a : Int} (hlo : -(2 ^ 31 : Int) ≤ a) (h0 : a ≤ 0) :
    IntOp.maxsi 0#32 (BitVec.ofInt 32 a) = 0#32 := by
  unfold IntOp.maxsi
  by_cases ha : a = 0
  · subst ha; simp
  · have hneg : a < 0 := lt_of_le_of_ne h0 ha
    have hslt : (BitVec.ofInt 32 a).slt 0#32 = true := by
      rw [BitVec.slt_iff_toInt_lt, toInt_ofInt32 hlo (by omega)]
      simpa using hneg
    rw [if_pos hslt]

/-- After the signed maximum with 0, converting a real toward zero and converting its floor agree. -/
theorem maxsi_zero_fptosi_floor (r : ℝ) :
    IntOp.maxsi 0#32 (Ideal.fptosi 32 ((r : ℝ) : EReal))
      = IntOp.maxsi 0#32 (Ideal.fptosi 32 (Ideal.liftRound Int.floor ((r : ℝ) : EReal))) := by
  rw [Ideal.liftRound_coe]
  unfold Ideal.fptosi
  rw [Ideal.toIntClamped_coe, Ideal.toIntClamped_coe]
  have hfl : (if (0 : ℝ) ≤ ((⌊r⌋ : ℤ) : ℝ) then ⌊((⌊r⌋ : ℤ) : ℝ)⌋ else ⌈((⌊r⌋ : ℤ) : ℝ)⌉) = ⌊r⌋ := by
    split_ifs <;> simp
  rw [hfl]
  by_cases hr : 0 ≤ r
  · rw [if_pos hr]
  · rw [if_neg hr]
    have hr' : r < 0 := not_le.mp hr
    have hceil : ⌈r⌉ ≤ 0 := Int.ceil_le.mpr (by exact_mod_cast hr'.le)
    have hfloor : ⌊r⌋ ≤ 0 := le_trans (Int.floor_le_ceil r) hceil
    rw [maxsi_zero_ofInt_nonpos (a := max _ (min _ ⌈r⌉)) (by simp) (by simp; omega),
        maxsi_zero_ofInt_nonpos (a := max _ (min _ ⌊r⌋)) (by simp) (by simp; omega)]

/-- The clip to [0, hi] of a real converted toward zero is the clip of its floor converted. -/
theorem clip_fptosi_floor (r : ℝ) (hi : BitVec 32) :
    IntOp.minsi hi (IntOp.maxsi 0#32 (Ideal.fptosi 32 ((r : ℝ) : EReal)))
      = IntOp.minsi hi (IntOp.maxsi 0#32 (Ideal.fptosi 32 (Ideal.liftRound Int.floor ((r : ℝ) : EReal)))) := by
  rw [maxsi_zero_fptosi_floor]

/-- The quotient (x + m) / q of reals, q ≠ 0, in the extended-real instance's operations, is the real quotient. -/
theorem divf_addf_coe (x m q : ℝ) (hq : q ≠ 0) :
    FloatOps.divf (F := Ideal) (φ := .f32) (FloatOps.addf (F := Ideal) (φ := .f32) ((x : ℝ) : EReal) ((m : ℝ) : EReal))
        ((q : ℝ) : EReal)
      = (((x + m) / q : ℝ) : EReal) := by
  rw [Ideal.divf_def, Ideal.addf_def, Ideal.div_coe hq, ← EReal.coe_add, ← EReal.coe_mul, mul_one_div]

/-- The clip of the quotient (x + m) / q converted toward zero is the clip of its floor converted: the form
    in which one program truncates and another takes the floor first. -/
theorem clip_fptosi_divf_addf (x m q : ℝ) (hq : q ≠ 0) (hi : BitVec 32) :
    IntOp.minsi hi (IntOp.maxsi 0#32 (Ideal.fptosi 32
        (FloatOps.divf (F := Ideal) (φ := .f32) (FloatOps.addf (F := Ideal) (φ := .f32) ((x : ℝ) : EReal) ((m : ℝ) : EReal))
          ((q : ℝ) : EReal))))
      = IntOp.minsi hi (IntOp.maxsi 0#32 (Ideal.fptosi 32 (FloatOps.floor (F := Ideal) (φ := .f32)
        (FloatOps.divf (F := Ideal) (φ := .f32) (FloatOps.addf (F := Ideal) (φ := .f32) ((x : ℝ) : EReal) ((m : ℝ) : EReal))
          ((q : ℝ) : EReal))))) := by
  rw [Ideal.floor_def, divf_addf_coe x m q hq, clip_fptosi_floor]

end Cert.ClipTrunc

end
-- ==== Proof.GlueConsts.lean ====
/-
  The three float literals of the quantisation, as real numbers, and the bucket of a real position.
  A relative position x is quantised to the bucket of (x + M) / Q, with M the axis' extent (150.4 rounded to
  binary32 for the first two axes, 6 for the third) and Q the quantum (0.4 rounded to binary32, a nonzero real).
  One program converts the quotient to an integer by truncation, the other takes its floor first; clipped to
  [0, hi] the two buckets are the same word whenever x is a real.
-/
import Idealize.ShloMosaic.PureOps.Ideal
import proofs.«204784_g45775761440795_cont_8to1c4_693_3_alg».proof.Proof.LibClipTrunc
import proofs.«204784_g45775761440795_cont_8to1c4_693_3_alg».proof.Proof.LibRealEntries

noncomputable section

namespace Cert.Glue

open Idealize.ShloMosaic Cert.LibRealEntries

/-- The quantum: binary32's 0.4, the real 13421773 / 2^25, not zero. -/
theorem quantum_eq : Ideal.ofBits .f32 0x3ECCCCCD#32 = (((13421773 : ℝ) / 33554432 : ℝ) : EReal) := by
  simp [Ideal.ofBits, Ideal.ieee, -EReal.coe_mul]; norm_num

/-- The extent of the first two axes: binary32's 150.4, the real 9856614 / 2^16. -/
theorem extent_xy_eq : Ideal.ofBits .f32 0x43166666#32 = (((9856614 : ℝ) / 65536 : ℝ) : EReal) := by
  simp [Ideal.ofBits, Ideal.ieee, -EReal.coe_mul]; norm_num

/-- The extent of the third axis: 6. -/
theorem extent_z_eq : Ideal.ofBits .f32 0x40C00000#32 = ((6 : ℝ) : EReal) := by
  simp [Ideal.ofBits, Ideal.ieee, -EReal.coe_mul]; norm_num

theorem quantum_real : ∃ r : ℝ, r ≠ 0 ∧ Ideal.ofBits .f32 0x3ECCCCCD#32 = (r : EReal) :=
  ⟨(13421773 : ℝ) / 33554432, by norm_num, quantum_eq⟩

theorem extent_xy_real : IsReal (Ideal.ofBits .f32 0x43166666#32) := ⟨_, extent_xy_eq⟩

theorem extent_z_real : IsReal (Ideal.ofBits .f32 0x40C00000#32) := ⟨_, extent_z_eq⟩

/-- The clipped bucket of (x + M) / Q by truncation is the clipped bucket of its floor, for reals x, M and a nonzero
    real Q, in the extended-real instance's operations. -/
theorem clip_trunc_eq_floor {x md q : EReal} (hx : IsReal x) (hmd : IsReal md)
    (hq : ∃ r : ℝ, r ≠ 0 ∧ q = (r : EReal)) (hi : BitVec 32) :
    IntOp.minsi hi (IntOp.maxsi 0#32 (Ideal.fptosi 32
        (FloatOps.divf (F := Ideal) (φ := .f32) (FloatOps.addf (F := Ideal) (φ := .f32) x md) q)))
      = IntOp.minsi hi (IntOp.maxsi 0#32 (Ideal.fptosi 32 (FloatOps.floor (F := Ideal) (φ := .f32)
        (FloatOps.divf (F := Ideal) (φ := .f32) (FloatOps.addf (F := Ideal) (φ := .f32) x md) q)))) := by
  obtain ⟨x, rfl⟩ := hx
  obtain ⟨md, rfl⟩ := hmd
  obtain ⟨q, hq0, rfl⟩ := hq
  exact Cert.ClipTrunc.clip_fptosi_divf_addf x md q hq0 hi

/-- The bucket along the first two axes. -/
theorem bucket_xy {x : EReal} (hx : IsReal x) (hi : BitVec 32) :
    IntOp.minsi hi (IntOp.maxsi 0#32 (Ideal.fptosi 32
        (FloatOps.divf (F := Ideal) (φ := .f32) (FloatOps.addf (F := Ideal) (φ := .f32) x (Ideal.ofBits .f32 0x43166666#32))
          (Ideal.ofBits .f32 0x3ECCCCCD#32))))
      = IntOp.minsi hi (IntOp.maxsi 0#32 (Ideal.fptosi 32 (FloatOps.floor (F := Ideal) (φ := .f32)
        (FloatOps.divf (F := Ideal) (φ := .f32) (FloatOps.addf (F := Ideal) (φ := .f32) x (Ideal.ofBits .f32 0x43166666#32))
          (Ideal.ofBits .f32 0x3ECCCCCD#32))))) :=
  clip_trunc_eq_floor hx extent_xy_real quantum_real hi

/-- The bucket along the third axis. -/
theorem bucket_z {x : EReal} (hx : IsReal x) (hi : BitVec 32) :
    IntOp.minsi hi (IntOp.maxsi 0#32 (Ideal.fptosi 32
        (FloatOps.divf (F := Ideal) (φ := .f32) (FloatOps.addf (F := Ideal) (φ := .f32) x (Ideal.ofBits .f32 0x40C00000#32))
          (Ideal.ofBits .f32 0x3ECCCCCD#32))))
      = IntOp.minsi hi (IntOp.maxsi 0#32 (Ideal.fptosi 32 (FloatOps.floor (F := Ideal) (φ := .f32)
        (FloatOps.divf (F := Ideal) (φ := .f32) (FloatOps.addf (F := Ideal) (φ := .f32) x (Ideal.ofBits .f32 0x40C00000#32))
          (Ideal.ofBits .f32 0x3ECCCCCD#32))))) :=
  clip_trunc_eq_floor hx extent_z_real quantum_real hi

end Cert.Glue

end
-- ==== Proof.LibFoldScale.lean ====
/-
  A twelve-term accumulation with the scale folded into one factor, against three four-term sums scaled once.
  Three groups d = 0, 1, 2 of four channels c = 0..3; reals t d c (a table's entries), q d c (a query's features)
  and a scale s. One arrangement starts at 0 and adds, group by group and channel by channel, the product
  (t d c · s) · q d c; the other forms the three sums  ∑ c, q d c · t d c,  adds them, and multiplies by s once.
  On the reals both are  s · ∑ d c, t d c · q d c  (distributivity and commutativity); the statement is made on the
  extended reals for entries that are images of reals, where the same identity holds because sums and products of
  images are images. It does NOT hold for arbitrary extended reals: distributivity fails at the infinities.
-/
import Idealize.ShloMosaic.PureOps.Ideal

noncomputable section

namespace Cert.FoldScale

open Idealize.ShloMosaic

/-- The twelve nested additions from 0, group-major, of (t·s)·q equal the sum of the three four-term sums of
    q·t, times s: real entries read in the extended reals. -/
theorem fold12_eq (t q : Fin 3 → Fin 4 → ℝ) (s : ℝ) :
    (((((((((((((0 : EReal)
        + ((t 0 0 : ℝ) : EReal) * ((s : ℝ) : EReal) * ((q 0 0 : ℝ) : EReal))
        + ((t 0 1 : ℝ) : EReal) * ((s : ℝ) : EReal) * ((q 0 1 : ℝ) : EReal))
        + ((t 0 2 : ℝ) : EReal) * ((s : ℝ) : EReal) * ((q 0 2 : ℝ) : EReal))
        + ((t 0 3 : ℝ) : EReal) * ((s : ℝ) : EReal) * ((q 0 3 : ℝ) : EReal))
        + ((t 1 0 : ℝ) : EReal) * ((s : ℝ) : EReal) * ((q 1 0 : ℝ) : EReal))
        + ((t 1 1 : ℝ) : EReal) * ((s : ℝ) : EReal) * ((q 1 1 : ℝ) : EReal))
        + ((t 1 2 : ℝ) : EReal) * ((s : ℝ) : EReal) * ((q 1 2 : ℝ) : EReal))
        + ((t 1 3 : ℝ) : EReal) * ((s : ℝ) : EReal) * ((q 1 3 : ℝ) : EReal))
        + ((t 2 0 : ℝ) : EReal) * ((s : ℝ) : EReal) * ((q 2 0 : ℝ) : EReal))
        + ((t 2 1 : ℝ) : EReal) * ((s : ℝ) : EReal) * ((q 2 1 : ℝ) : EReal))
        + ((t 2 2 : ℝ) : EReal) * ((s : ℝ) : EReal) * ((q 2 2 : ℝ) : EReal))
        + ((t 2 3 : ℝ) : EReal) * ((s : ℝ) : EReal) * ((q 2 3 : ℝ) : EReal))
      = ((∑ c : Fin 4, ((q 0 c : ℝ) : EReal) * ((t 0 c : ℝ) : EReal))
          + (∑ c : Fin 4, ((q 1 c : ℝ) : EReal) * ((t 1 c : ℝ) : EReal))
          + (∑ c : Fin 4, ((q 2 c : ℝ) : EReal) * ((t 2 c : ℝ) : EReal))) * ((s : ℝ) : EReal) := by
  simp only [Fin.sum_univ_four, zero_add, ← EReal.coe_mul, ← EReal.coe_add]
  congr 1
  ring

/-- The same with the entries given as extended reals known to be images of reals (the form a precondition
    "every entry is finite" delivers). -/
theorem fold12_eq_of_real (T Q : Fin 3 → Fin 4 → EReal) (S : EReal)
    (hT : ∀ d c, ∃ r : ℝ, T d c = (r : EReal)) (hQ : ∀ d c, ∃ r : ℝ, Q d c = (r : EReal))
    (hS : ∃ r : ℝ, S = (r : EReal)) :
    (((((((((((((0 : EReal)
        + T 0 0 * S * Q 0 0) + T 0 1 * S * Q 0 1) + T 0 2 * S * Q 0 2) + T 0 3 * S * Q 0 3)
        + T 1 0 * S * Q 1 0) + T 1 1 * S * Q 1 1) + T 1 2 * S * Q 1 2) + T 1 3 * S * Q 1 3)
        + T 2 0 * S * Q 2 0) + T 2 1 * S * Q 2 1) + T 2 2 * S * Q 2 2) + T 2 3 * S * Q 2 3)
      = ((∑ c : Fin 4, Q 0 c * T 0 c) + (∑ c : Fin 4, Q 1 c * T 1 c) + (∑ c : Fin 4, Q 2 c * T 2 c)) * S := by
  choose t ht using hT
  choose q hq using hQ
  obtain ⟨s, rfl⟩ := hS
  simp only [ht, hq]
  exact fold12_eq t q s

/-- The twelve (group, channel) pairs in the order of the accumulation. -/
def order : List (Fin 3 × Fin 4) :=
  [(0, 0), (0, 1), (0, 2), (0, 3), (1, 0), (1, 1), (1, 2), (1, 3), (2, 0), (2, 1), (2, 2), (2, 3)]

/-- The accumulation as a left fold over the twelve pairs. -/
theorem foldl_eq (t q : Fin 3 → Fin 4 → ℝ) (s : ℝ) :
    order.foldl (fun (acc : EReal) (dc : Fin 3 × Fin 4) =>
        acc + ((t dc.1 dc.2 : ℝ) : EReal) * ((s : ℝ) : EReal) * ((q dc.1 dc.2 : ℝ) : EReal)) 0
      = ((∑ c : Fin 4, ((q 0 c : ℝ) : EReal) * ((t 0 c : ℝ) : EReal))
          + (∑ c : Fin 4, ((q 1 c : ℝ) : EReal) * ((t 1 c : ℝ) : EReal))
          + (∑ c : Fin 4, ((q 2 c : ℝ) : EReal) * ((t 2 c : ℝ) : EReal))) * ((s : ℝ) : EReal) := by
  rw [← fold12_eq t q s]
  rfl

end Cert.FoldScale

end
-- ==== Proof.GlueEntry.lean ====
/-
  One entry of the result: the kernel's accumulation against the reference's closed form.
  For a query Q, a neighbour l and a head h, let b_d be the kernel's bucket of the d-th coordinate x_d of the relative
  position: the clip to [0, hi_d] of (x_d + M_d) / Q converted to an integer by truncation. The kernel's entry is the
  accumulation, from the float 0, over d = 0, 1, 2 and c = 0..3 of (table_d[b_d, h, c] · scale) · feature[Q, h, 4 d + c].
  The reference's entry is its three contractions at the rows given by the FLOOR bucket, added and scaled once.
  For real x_d the two buckets are the same word (truncation and floor agree under the clip), so the rows agree; and
  for real entries the two arrangements of  scale · ∑ table · feature  agree.
-/
import proofs.«204784_g45775761440795_cont_8to1c4_693_3_alg».proof.Proof.RefValue
import proofs.«204784_g45775761440795_cont_8to1c4_693_3_alg».proof.Proof.GlueConsts
import proofs.«204784_g45775761440795_cont_8to1c4_693_3_alg».proof.Proof.LibFoldScale
import Idealize.ShloMosaic.PureOps.Ideal.Laws

noncomputable section

namespace Cert.Glue

open Idealize.ShloMosaic Idealize.ShloMosaic.ValueIdx Cert.LibRealEntries

/-- The kernel's bucket word of a coordinate y along an axis of extent pattern md, clipped to [0, hi]: the quotient
    (y + M) / Q converted toward zero, then the signed maximum with 0 and minimum with hi. -/
def bucketWord (hi md : BitVec 32) (y : EReal) : BitVec 32 :=
  IntOp.minsi hi (IntOp.maxsi 0#32 (FloatOps.fptosi (F := Ideal) (φ := .f32) 32
    (FloatOps.divf (F := Ideal) (φ := .f32) (FloatOps.addf (F := Ideal) (φ := .f32) y (FloatOps.ofBits (F := Ideal) .f32 md))
      (FloatOps.ofBits (F := Ideal) .f32 0x3ECCCCCD#32))))

/-- Along the first two axes the kernel's bucket word of a real is the reference's clipped word. -/
theorem bucketWord_xy {x : EReal} (hx : IsReal x) (hi : BitVec 32) :
    bucketWord hi 0x43166666#32 x = Cert.RefSide.rowWord hi 0x43166666#32 x :=
  bucket_xy hx hi

/-- Along the third axis likewise. -/
theorem bucketWord_z {x : EReal} (hx : IsReal x) (hi : BitVec 32) :
    bucketWord hi 0x40C00000#32 x = Cert.RefSide.rowWord hi 0x40C00000#32 x :=
  bucket_z hx hi

/-- A word that is nonnegative as a signed word has the same signed and unsigned values. -/
theorem toInt_toNat_of_nonneg (w : BitVec 32) (h : 0 ≤ w.toInt) : w.toInt.toNat = w.toNat := by
  have e := BitVec.toInt_eq_toNat_cond w
  have hw := w.isLt
  split at e <;> omega

/-- A row whose number is the kernel's bucket word (read unsigned) is the reference's row, for a real coordinate. -/
theorem row_eq (n : Nat) (hn : 0 < n) (hi md : BitVec 32) (x : EReal) (hb : 0 ≤ hi.toInt) (hh : hi.toInt.toNat = n - 1)
    (hbk : bucketWord hi md x = Cert.RefSide.rowWord hi md x) (t : Fin n) (ht : t.val = (bucketWord hi md x).toNat) :
    t = Cert.RefSide.rb n hn hi md x := by
  apply Fin.ext
  rw [ht, hbk, Cert.RefSide.rb_val n hn hi md x hb hh, toInt_toNat_of_nonneg _ (Cert.RefSide.rowWord_nonneg hi md x hb)]

variable [Cert.ReferenceIdeal.Facts]

/-- THE ENTRY. With the three table rows numbered by the kernel's bucket words, the kernel's twelve-term accumulation
    from the float 0 of (table · scale) · feature is the reference's result at (Q, l, h) — for real inputs. -/
theorem entry (a0 : Cert.ReferenceIdeal.S65536x32x3.Idx → EReal) (a1 : Cert.ReferenceIdeal.S65536x8x12.Idx → EReal)
    (a2 : Cert.ReferenceIdeal.S_.Idx → EReal) (a4 a5 : Cert.ReferenceIdeal.S753x8x4.Idx → EReal)
    (a6 : Cert.ReferenceIdeal.S31x8x4.Idx → EReal)
    (h0 : ∀ i, IsReal (a0 i)) (h1 : ∀ i, IsReal (a1 i)) (h2 : ∀ i, IsReal (a2 i)) (h4 : ∀ i, IsReal (a4 i))
    (h5 : ∀ i, IsReal (a5 i)) (h6 : ∀ i, IsReal (a6 i))
    (Q : Fin 65536) (l : Fin 32) (h : Fin 8) (t0 t1 : Fin 753) (t2 : Fin 31)
    (e0 : t0.val = (bucketWord 752#32 0x43166666#32 (a0 (ix3 Q l 0))).toNat)
    (e1 : t1.val = (bucketWord 752#32 0x43166666#32 (a0 (ix3 Q l 1))).toNat)
    (e2 : t2.val = (bucketWord 30#32 0x40C00000#32 (a0 (ix3 Q l 2))).toNat) :
    FloatOps.addf (F := Ideal) (φ := .f32) (FloatOps.addf (F := Ideal) (φ := .f32) (FloatOps.addf (F := Ideal) (φ := .f32) (FloatOps.addf (F := Ideal) (φ := .f32)
      (FloatOps.addf (F := Ideal) (φ := .f32) (FloatOps.addf (F := Ideal) (φ := .f32) (FloatOps.addf (F := Ideal) (φ := .f32) (FloatOps.addf (F := Ideal) (φ := .f32)
      (FloatOps.addf (F := Ideal) (φ := .f32) (FloatOps.addf (F := Ideal) (φ := .f32) (FloatOps.addf (F := Ideal) (φ := .f32) (FloatOps.addf (F := Ideal) (φ := .f32)
        (FloatOps.ofBits (F := Ideal) .f32 0x00000000#32)
        (FloatOps.mulf (F := Ideal) (φ := .f32) (FloatOps.mulf (F := Ideal) (φ := .f32) (a4 (ix3 t0 h 0)) (a2 ix0)) (a1 (ix3 Q h 0))))
        (FloatOps.mulf (F := Ideal) (φ := .f32) (FloatOps.mulf (F := Ideal) (φ := .f32) (a4 (ix3 t0 h 1)) (a2 ix0)) (a1 (ix3 Q h 1))))
        (FloatOps.mulf (F := Ideal) (φ := .f32) (FloatOps.mulf (F := Ideal) (φ := .f32) (a4 (ix3 t0 h 2)) (a2 ix0)) (a1 (ix3 Q h 2))))
        (FloatOps.mulf (F := Ideal) (φ := .f32) (FloatOps.mulf (F := Ideal) (φ := .f32) (a4 (ix3 t0 h 3)) (a2 ix0)) (a1 (ix3 Q h 3))))
        (FloatOps.mulf (F := Ideal) (φ := .f32) (FloatOps.mulf (F := Ideal) (φ := .f32) (a5 (ix3 t1 h 0)) (a2 ix0)) (a1 (ix3 Q h 4))))
        (FloatOps.mulf (F := Ideal) (φ := .f32) (FloatOps.mulf (F := Ideal) (φ := .f32) (a5 (ix3 t1 h 1)) (a2 ix0)) (a1 (ix3 Q h 5))))
        (FloatOps.mulf (F := Ideal) (φ := .f32) (FloatOps.mulf (F := Ideal) (φ := .f32) (a5 (ix3 t1 h 2)) (a2 ix0)) (a1 (ix3 Q h 6))))
        (FloatOps.mulf (F := Ideal) (φ := .f32) (FloatOps.mulf (F := Ideal) (φ := .f32) (a5 (ix3 t1 h 3)) (a2 ix0)) (a1 (ix3 Q h 7))))
        (FloatOps.mulf (F := Ideal) (φ := .f32) (FloatOps.mulf (F := Ideal) (φ := .f32) (a6 (ix3 t2 h 0)) (a2 ix0)) (a1 (ix3 Q h 8))))
        (FloatOps.mulf (F := Ideal) (φ := .f32) (FloatOps.mulf (F := Ideal) (φ := .f32) (a6 (ix3 t2 h 1)) (a2 ix0)) (a1 (ix3 Q h 9))))
        (FloatOps.mulf (F := Ideal) (φ := .f32) (FloatOps.mulf (F := Ideal) (φ := .f32) (a6 (ix3 t2 h 2)) (a2 ix0)) (a1 (ix3 Q h 10))))
        (FloatOps.mulf (F := Ideal) (φ := .f32) (FloatOps.mulf (F := Ideal) (φ := .f32) (a6 (ix3 t2 h 3)) (a2 ix0)) (a1 (ix3 Q h 11)))
      = Cert.RefSide.out a0 a1 a2 a4 a5 a6 (ix3 Q l h) := by
  obtain rfl := row_eq 753 (by decide) 752#32 0x43166666#32 (a0 (ix3 Q l 0)) (by decide) (by decide) (bucketWord_xy (h0 _) _) t0 e0
  obtain rfl := row_eq 753 (by decide) 752#32 0x43166666#32 (a0 (ix3 Q l 1)) (by decide) (by decide) (bucketWord_xy (h0 _) _) t1 e1
  obtain rfl := row_eq 31 (by decide) 30#32 0x40C00000#32 (a0 (ix3 Q l 2)) (by decide) (by decide) (bucketWord_z (h0 _) _) t2 e2
  rw [Cert.RefSide.out_apply]
  simp only [Ideal.addf_def, Ideal.mulf_def, Ideal.ofBits_def, Ideal.ofBits_zero_f32]
  exact Cert.FoldScale.fold12_eq_of_real
    ![fun c => a4 (ix3 (Cert.RefSide.rb 753 (by decide) 752#32 0x43166666#32 (a0 (ix3 Q l 0))) h c),
      fun c => a5 (ix3 (Cert.RefSide.rb 753 (by decide) 752#32 0x43166666#32 (a0 (ix3 Q l 1))) h c),
      fun c => a6 (ix3 (Cert.RefSide.rb 31 (by decide) 30#32 0x40C00000#32 (a0 (ix3 Q l 2))) h c)]
    ![fun c => a1 (ix3 Q h ⟨c.val, by have := c.isLt; omega⟩), fun c => a1 (ix3 Q h ⟨4 + c.val, by have := c.isLt; omega⟩),
      fun c => a1 (ix3 Q h ⟨8 + c.val, by have := c.isLt; omega⟩)]
    (a2 ix0)
    (fun d c => by fin_cases d <;> first | exact h4 _ | exact h5 _ | exact h6 _)
    (fun d c => by fin_cases d <;> exact h1 _)
    (h2 ix0)

end Cert.Glue

end
-- ==== Proof.GlueValue.lean ====
/-
  The kernel's value at one word of the flat output, in the launch's arrays, against the reference's entry.
  The flat output's word q · 256 + l · 8 + h is the result's entry (q, l, h); it lies in the slab of the tile that
  owns query q. In the launch's arrays the kernel's accumulation for that word reads three words of the flat positions
  (the coordinates of the relative position of (q, l)), twelve words of the flat features (the features of (q, h))
  and twelve words of the scaled flat table (row = the coordinate's bucket, within the piece of its axis): reading
  those words back as entries of the arguments — the table's words are an entry times the scale — the accumulation
  is the one the entry identity joins to the reference's result, the precondition making every entry a real.
-/
import proofs.«204784_g45775761440795_cont_8to1c4_693_3_alg».proof.Defs
import proofs.«204784_g45775761440795_cont_8to1c4_693_3_alg».proof.Proof.KILaunchRead
import proofs.«204784_g45775761440795_cont_8to1c4_693_3_alg».proof.Proof.RefTerm
import proofs.«204784_g45775761440795_cont_8to1c4_693_3_alg».proof.Proof.PreReal
import proofs.«204784_g45775761440795_cont_8to1c4_693_3_alg».proof.Proof.GlueEntry
import proofs.«204784_g45775761440795_cont_8to1c4_693_3_alg».proof.Proof.LibLaneRanges
import Idealize.ShloMosaic.PureOps.Ideal.Laws

noncomputable section

namespace Cert.Glue

open Cert.KernelIdeal Cert.KernelIdeal.Gen Cert.KernelIdeal.Tile
open Idealize.ShloMosaic Idealize.ShloMosaic.ValueIdx Idealize.SL.Sem Cert.LibRealEntries

/-- The SparseCore and the subcore of the tile that owns query q: tile 2 s + c takes queries [2048 (2 s + c), 2048 (2 s + c + 1)). -/
def tileC (q : Fin 65536) : Fin 2 := ⟨q.val / 2048 % 2, by omega⟩
def tileS (q : Fin 65536) : Fin 16 := ⟨q.val / 4096, by have := q.isLt; omega⟩

/-- The output word of (query, neighbour, head) lies in the slab of the query's tile. -/
theorem word_mem_slab (q : Fin 65536) (l : Fin 32) (h : Fin 8) :
    (ix1 ⟨q.val * 256 + l.val * 8 + h.val, by have := q.isLt; have := l.isLt; have := h.isLt; omega⟩ : S16777216.Idx)
      ∈ slab (tileC q) (tileS q) := by
  have hq := q.isLt; have hl := l.isLt; have hh := h.isLt
  rw [mem_slab]
  show (2 * (q.val / 4096) + q.val / 2048 % 2) * 524288 ≤ q.val * 256 + l.val * 8 + h.val
    ∧ q.val * 256 + l.val * 8 + h.val < (2 * (q.val / 4096) + q.val / 2048 % 2 + 1) * 524288
  omega

/-- The reshaped flat output is a given array as soon as its word at every (query, neighbour, head) is that array's entry. -/
theorem value_of_entry {c : Dev nD} (g : Buf (Elt Ideal) (ouLoc c)) (R : Cert.ReferenceIdeal.S65536x32x8.Idx → EReal)
    (E : ∀ (q : Fin 65536) (l : Fin 32) (h : Fin 8),
      g (ix1 ⟨q.val * 256 + l.val * 8 + h.val, by have := q.isLt; have := l.isLt; have := h.isLt; omega⟩) = R (ix3 q l h)) :
    outOf g = R := by
  funext i
  revert i
  show ∀ i : (⟨3, ![65536, 32, 8]⟩ : Shape).Idx, outOf g i = R i
  intro i
  obtain ⟨q, l, h, rfl⟩ : ∃ (q : Fin 65536) (l : Fin 32) (h : Fin 8), i = ix3 q l h := ⟨i 0, i 1, i 2, eq_ix3 i⟩
  rw [outOf_apply]
  exact E q l h

variable [Cert.Pre_input_domain.Facts]

/-- The six float arguments' entries are reals under the precondition. -/
theorem reals (m : (ℓ : Loc Cert.KernelIdeal.nD Cert.KernelIdeal.τ Cert.KernelIdeal.sig) → Buf (Elt Ideal) ℓ) (hpre : Cert.Pre_KernelIdeal m)
    (c : Dev Cert.KernelIdeal.nD) :
    (∀ i, IsReal (m ((c.tc : Thread nD τ).loc main_arg0) i)) ∧ (∀ i, IsReal (m ((c.tc : Thread nD τ).loc main_arg1) i))
      ∧ (∀ i, IsReal (m ((c.tc : Thread nD τ).loc main_arg2) i)) ∧ (∀ i, IsReal (m ((c.tc : Thread nD τ).loc main_arg4) i))
      ∧ (∀ i, IsReal (m ((c.tc : Thread nD τ).loc main_arg5) i)) ∧ (∀ i, IsReal (m ((c.tc : Thread nD τ).loc main_arg6) i)) :=
  Cert.PreReal.reals_of_pre _ _ _ _ _ _ _ (hpre c)

variable [Cert.ReferenceIdeal.Facts]

/-- THE VALUE AT ONE WORD, IN THE LAUNCH'S ARRAYS. For a query Q, a neighbour l and a head h: with the three position
    words p d (row-major position of (Q, l, d) in the flat positions), the twelve feature words j d c' (position of
    (Q, h, 4 d + c')) and the twelve table words i d c' (the piece's offset, plus the bucket of the position word times
    32, plus 4 h + c'), the accumulation from the float 0 of  table word · feature word  is the reference's result
    at (Q, l, h). The words are given by their numbers only, so any spelling of the positions fits. -/
theorem value_at (m : (ℓ : Loc Cert.KernelIdeal.nD Cert.KernelIdeal.τ Cert.KernelIdeal.sig) → Buf (Elt Ideal) ℓ)
    (hpre : Cert.Pre_KernelIdeal m) (c : Dev Cert.KernelIdeal.nD) (Q : Fin 65536) (l : Fin 32) (h : Fin 8)
    (p : Fin 3 → Fin 6291456) (hp : ∀ d : Fin 3, (p d).val = Q.val * 96 + l.val * 3 + d.val)
    (i : Fin 3 → Fin 4 → Fin 49184)
    (hi0 : ∀ c' : Fin 4, (i 0 c').val
      = (bucketWord 752#32 0x43166666#32 (w6Of m c (ix1 (p 0)))).toNat * 32 + h.val * 4 + c'.val)
    (hi1 : ∀ c' : Fin 4, (i 1 c').val
      = 24096 + (bucketWord 752#32 0x43166666#32 (w6Of m c (ix1 (p 1)))).toNat * 32 + h.val * 4 + c'.val)
    (hi2 : ∀ c' : Fin 4, (i 2 c').val
      = 48192 + (bucketWord 30#32 0x40C00000#32 (w6Of m c (ix1 (p 2)))).toNat * 32 + h.val * 4 + c'.val)
    (j : Fin 3 → Fin 4 → Fin 6291456) (hj : ∀ (d : Fin 3) (c' : Fin 4), (j d c').val = Q.val * 96 + h.val * 12 + (4 * d.val + c'.val)) :
    FloatOps.addf (F := Ideal) (φ := .f32) (FloatOps.addf (F := Ideal) (φ := .f32) (FloatOps.addf (F := Ideal) (φ := .f32) (FloatOps.addf (F := Ideal) (φ := .f32) (FloatOps.addf (F := Ideal) (φ := .f32) (FloatOps.addf (F := Ideal) (φ := .f32) (FloatOps.addf (F := Ideal) (φ := .f32) (FloatOps.addf (F := Ideal) (φ := .f32) (FloatOps.addf (F := Ideal) (φ := .f32) (FloatOps.addf (F := Ideal) (φ := .f32) (FloatOps.addf (F := Ideal) (φ := .f32) (FloatOps.addf (F := Ideal) (φ := .f32) (FloatOps.ofBits (F := Ideal) .f32 0x00000000#32) (FloatOps.mulf (F := Ideal) (φ := .f32) (w5Of m c (ix1 (i 0 0))) (w7Of m c (ix1 (j 0 0))))) (FloatOps.mulf (F := Ideal) (φ := .f32) (w5Of m c (ix1 (i 0 1))) (w7Of m c (ix1 (j 0 1))))) (FloatOps.mulf (F := Ideal) (φ := .f32) (w5Of m c (ix1 (i 0 2))) (w7Of m c (ix1 (j 0 2))))) (FloatOps.mulf (F := Ideal) (φ := .f32) (w5Of m c (ix1 (i 0 3))) (w7Of m c (ix1 (j 0 3))))) (FloatOps.mulf (F := Ideal) (φ := .f32) (w5Of m c (ix1 (i 1 0))) (w7Of m c (ix1 (j 1 0))))) (FloatOps.mulf (F := Ideal) (φ := .f32) (w5Of m c (ix1 (i 1 1))) (w7Of m c (ix1 (j 1 1))))) (FloatOps.mulf (F := Ideal) (φ := .f32) (w5Of m c (ix1 (i 1 2))) (w7Of m c (ix1 (j 1 2))))) (FloatOps.mulf (F := Ideal) (φ := .f32) (w5Of m c (ix1 (i 1 3))) (w7Of m c (ix1 (j 1 3))))) (FloatOps.mulf (F := Ideal) (φ := .f32) (w5Of m c (ix1 (i 2 0))) (w7Of m c (ix1 (j 2 0))))) (FloatOps.mulf (F := Ideal) (φ := .f32) (w5Of m c (ix1 (i 2 1))) (w7Of m c (ix1 (j 2 1))))) (FloatOps.mulf (F := Ideal) (φ := .f32) (w5Of m c (ix1 (i 2 2))) (w7Of m c (ix1 (j 2 2))))) (FloatOps.mulf (F := Ideal) (φ := .f32) (w5Of m c (ix1 (i 2 3))) (w7Of m c (ix1 (j 2 3))))
      = Cert.RefSide.out (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (ix3 Q l h) := by
  obtain ⟨r0, r1, r2, r4, r5, r6⟩ := reals m hpre c
  have hQ := Q.isLt; have hl := l.isLt; have hh := h.isLt
  -- the position words
  have hw6 : ∀ d : Fin 3, w6Of m c (ix1 (p d)) = m ((c.tc : Thread nD τ).loc main_arg0) (ix3 Q l d) := fun d => by
    refine Eq.trans ?_ (w6Of_apply m c Q l d)
    exact congrArg (fun x => w6Of m c (ix1 x)) (Fin.ext (hp d))
  rw [hw6 0] at hi0; rw [hw6 1] at hi1; rw [hw6 2] at hi2
  -- the rows
  have b0 := Cert.LaneRanges.clip_toNat_le 752#32 (FloatOps.fptosi (F := Ideal) (φ := .f32) 32
    (FloatOps.divf (F := Ideal) (φ := .f32) (FloatOps.addf (F := Ideal) (φ := .f32) (m ((c.tc : Thread nD τ).loc main_arg0) (ix3 Q l 0)) (FloatOps.ofBits (F := Ideal) .f32 0x43166666#32))
      (FloatOps.ofBits (F := Ideal) .f32 0x3ECCCCCD#32))) (by decide)
  have b1 := Cert.LaneRanges.clip_toNat_le 752#32 (FloatOps.fptosi (F := Ideal) (φ := .f32) 32
    (FloatOps.divf (F := Ideal) (φ := .f32) (FloatOps.addf (F := Ideal) (φ := .f32) (m ((c.tc : Thread nD τ).loc main_arg0) (ix3 Q l 1)) (FloatOps.ofBits (F := Ideal) .f32 0x43166666#32))
      (FloatOps.ofBits (F := Ideal) .f32 0x3ECCCCCD#32))) (by decide)
  have b2 := Cert.LaneRanges.clip_toNat_le 30#32 (FloatOps.fptosi (F := Ideal) (φ := .f32) 32
    (FloatOps.divf (F := Ideal) (φ := .f32) (FloatOps.addf (F := Ideal) (φ := .f32) (m ((c.tc : Thread nD τ).loc main_arg0) (ix3 Q l 2)) (FloatOps.ofBits (F := Ideal) .f32 0x40C00000#32))
      (FloatOps.ofBits (F := Ideal) .f32 0x3ECCCCCD#32))) (by decide)
  have v752 : (752#32 : BitVec 32).toNat = 752 := by decide
  have v30 : (30#32 : BitVec 32).toNat = 30 := by decide
  let t0 : Fin 753 := ⟨(bucketWord 752#32 0x43166666#32 (m ((c.tc : Thread nD τ).loc main_arg0) (ix3 Q l 0))).toNat, by
    show (IntOp.minsi _ _).toNat < 753; omega⟩
  let t1 : Fin 753 := ⟨(bucketWord 752#32 0x43166666#32 (m ((c.tc : Thread nD τ).loc main_arg0) (ix3 Q l 1))).toNat, by
    show (IntOp.minsi _ _).toNat < 753; omega⟩
  let t2 : Fin 31 := ⟨(bucketWord 30#32 0x40C00000#32 (m ((c.tc : Thread nD τ).loc main_arg0) (ix3 Q l 2))).toNat, by
    show (IntOp.minsi _ _).toNat < 31; omega⟩
  -- the table words
  have hx : ∀ c' : Fin 4, w5Of m c (ix1 (i 0 c'))
      = FloatOps.mulf (F := Ideal) (φ := .f32) (m ((c.tc : Thread nD τ).loc main_arg4) (ix3 t0 h c')) (m ((c.tc : Thread nD τ).loc main_arg2) ix0) := fun c' => by
    refine Eq.trans ?_ (w5Of_apply_x m c t0 h c')
    exact congrArg (fun x => w5Of m c (ix1 x)) (Fin.ext (hi0 c'))
  have hy : ∀ c' : Fin 4, w5Of m c (ix1 (i 1 c'))
      = FloatOps.mulf (F := Ideal) (φ := .f32) (m ((c.tc : Thread nD τ).loc main_arg5) (ix3 t1 h c')) (m ((c.tc : Thread nD τ).loc main_arg2) ix0) := fun c' => by
    refine Eq.trans ?_ (w5Of_apply_y m c t1 h c')
    exact congrArg (fun x => w5Of m c (ix1 x)) (Fin.ext (hi1 c'))
  have hz : ∀ c' : Fin 4, w5Of m c (ix1 (i 2 c'))
      = FloatOps.mulf (F := Ideal) (φ := .f32) (m ((c.tc : Thread nD τ).loc main_arg6) (ix3 t2 h c')) (m ((c.tc : Thread nD τ).loc main_arg2) ix0) := fun c' => by
    refine Eq.trans ?_ (w5Of_apply_z m c t2 h c')
    exact congrArg (fun x => w5Of m c (ix1 x)) (Fin.ext (hi2 c'))
  -- the feature words
  have hf : ∀ (d : Fin 3) (c' : Fin 4), w7Of m c (ix1 (j d c'))
      = m ((c.tc : Thread nD τ).loc main_arg1) (ix3 Q h ⟨4 * d.val + c'.val, by have := d.isLt; have := c'.isLt; omega⟩) := fun d c' => by
    refine Eq.trans ?_ (w7Of_apply m c Q h ⟨4 * d.val + c'.val, by have := d.isLt; have := c'.isLt; omega⟩)
    exact congrArg (fun x => w7Of m c (ix1 x)) (Fin.ext (hj d c'))
  rw [hx 0, hx 1, hx 2, hx 3, hy 0, hy 1, hy 2, hy 3, hz 0, hz 1, hz 2, hz 3,
    hf 0 0, hf 0 1, hf 0 2, hf 0 3, hf 1 0, hf 1 1, hf 1 2, hf 1 3, hf 2 0, hf 2 1, hf 2 2, hf 2 3]
  exact entry _ _ _ _ _ _ r0 r1 r2 r4 r5 r6 Q l h t0 t1 t2 rfl rfl rfl

end Cert.Glue

end
-- ==== Proof.GlueTile.lean ====
/-
  The kernel's closed form of one trip, in the launch's arrays: the reference's entry.
  A tile (cc, s) works on its chunk kc through three staged buffers: the staged table is the scaled flat table, word
  for word; the staged positions and features are the 6144 words of the flat positions and features from
  196608 (2 s + cc) + 6144 kc on. For the query at position k of the chunk, a neighbour l and a head h, the trip's
  closed form reads the staged words whose numbers, moved by the chunk's base, are the words of the launch's arrays
  for the query Q = 2048 (2 s + cc) + 64 kc + k: so the closed form is the reference's result at (Q, l, h).
-/
import proofs.«204784_g45775761440795_cont_8to1c4_693_3_alg».proof.Proof.GlueValue
import proofs.«204784_g45775761440795_cont_8to1c4_693_3_alg».proof.Proof.KIQValue

noncomputable section

namespace Cert.Glue

open Cert.KernelIdeal Cert.KernelIdeal.Gen Cert.KernelIdeal.Tile
open Idealize.ShloMosaic Idealize.ShloMosaic.ValueIdx Idealize.SL.Sem Cert.LibRealEntries

variable [Cert.Pre_input_domain.Facts] [Cert.ReferenceIdeal.Facts]

theorem toffW_zero : (toffW 0).toNat = 0 := rfl
theorem toffW_one : (toffW 1).toNat = 24096 := rfl
theorem toffW_two : (toffW 2).toNat = 48192 := rfl

/-- The trip's bucket word along each axis, at the extended reals, is the bucket word of the entry identity. -/
theorem bucketWord_zero (y : EReal) : Cert.KernelIdeal.Tile.bucketWord (F := Ideal) 0 y = Cert.Glue.bucketWord 752#32 0x43166666#32 y := rfl
theorem bucketWord_one (y : EReal) : Cert.KernelIdeal.Tile.bucketWord (F := Ideal) 1 y = Cert.Glue.bucketWord 752#32 0x43166666#32 y := rfl
theorem bucketWord_two (y : EReal) : Cert.KernelIdeal.Tile.bucketWord (F := Ideal) 2 y = Cert.Glue.bucketWord 30#32 0x40C00000#32 y := rfl

/-- The closed form of the trip for query k of chunk kc of tile (cc, s), over staged buffers that hold the launch's
    arrays (the table whole, the chunk's 6144 words of the positions and of the features), is the reference's result
    at the query 2048 (2 s + cc) + 64 kc + k. -/
theorem kq_value (m : (ℓ : Loc Cert.KernelIdeal.nD Cert.KernelIdeal.τ Cert.KernelIdeal.sig) → Buf (Elt Ideal) ℓ)
    (hpre : Cert.Pre_KernelIdeal m) (c : Dev Cert.KernelIdeal.nD)
    (cc : Fin 2) (s : Fin 16) (kc : Fin 32) (k : Fin k0_t2_loop.trips) (l : Fin 32) (h : Fin 8)
    (ft : Vec Ideal S49184 .f32) (fr fq : Vec Ideal S6144 .f32)
    (hft : ∀ i : Fin 49184, ft (ix1 i) = w5Of m c (ix1 i))
    (hfr : ∀ i : Fin 6144, fr (ix1 i) = w6Of m c (ix1 ⟨196608 * (2 * s.val + cc.val) + 6144 * kc.val + i.val, by
      have := cc.isLt; have := s.isLt; have := kc.isLt; have := i.isLt; omega⟩))
    (hfq : ∀ i : Fin 6144, fq (ix1 i) = w7Of m c (ix1 ⟨196608 * (2 * s.val + cc.val) + 6144 * kc.val + i.val, by
      have := cc.isLt; have := s.isLt; have := kc.isLt; have := i.isLt; omega⟩)) :
    kq ft fr fq k l h
      = Cert.RefSide.out (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))
          (ix3 (⟨(2 * s.val + cc.val) * 2048 + 64 * kc.val + k.val, by
            have := cc.isLt; have := s.isLt; have := kc.isLt; have := trip_lt k; omega⟩ : Fin 65536) l h) := by
  have hcc := cc.isLt; have hs := s.isLt; have hkc := kc.isLt; have hk := trip_lt k; have hl := l.isLt; have hh := h.isLt
  -- the lane group and the lane of the neighbour
  let lg : Fin 2 := ⟨l.val / 16, by omega⟩
  let lane : Fin 16 := ⟨l.val % 16, Nat.mod_lt _ (by decide)⟩
  -- the words, by their numbers
  let p : Fin 3 → Fin 6291456 := fun d =>
    ⟨196608 * (2 * s.val + cc.val) + 6144 * kc.val + (lane.val * 3 + (k.val * 96 + lg.val * 48 + d.val)), by
      have := d.isLt; have : lane.val < 16 := lane.isLt; have : lg.val < 2 := lg.isLt; omega⟩
  let i : Fin 3 → Fin 4 → Fin 49184 := fun d c' =>
    ⟨(Cert.KernelIdeal.Tile.bucketWord (F := Ideal) d (fr (posIx k lg d lane))).toNat * 32 + (toffW d).toNat + (h.val * 4 + c'.val),
      tab_lt (F := Ideal) d _ ⟨h.val * 4 + c'.val, by have := c'.isLt; omega⟩⟩
  let j : Fin 3 → Fin 4 → Fin 6291456 := fun d c' =>
    ⟨196608 * (2 * s.val + cc.val) + 6144 * kc.val + (k.val * 96 + h.val * 12 + d.val * 4 + c'.val), by
      have := d.isLt; have := c'.isLt; omega⟩
  -- the staged positions are the launch's position words
  have hpos : ∀ d : Fin 3, fr (posIx k lg d lane) = w6Of m c (ix1 (p d)) := fun d =>
    hfr ⟨lane.val * 3 + (k.val * 96 + lg.val * 48 + d.val), by
      have := d.isLt; have : lane.val < 16 := lane.isLt; have : lg.val < 2 := lg.isLt; omega⟩
  have hftx : ∀ x : S49184.Idx, ft x = w5Of m c x := fun x => by rw [eq_ix1 x]; exact hft _
  -- one product
  have t : ∀ (d : Fin 3) (c' : Fin 4),
      FloatOps.mulf (F := Ideal) (φ := .f32) (w5Of m c (ix1 (i d c'))) (w7Of m c (ix1 (j d c')))
        = FloatOps.mulf (F := Ideal) (φ := .f32)
            (ft (tabIx (F := Ideal) d (fr (posIx k lg d lane)) ⟨h.val * 4 + c'.val, by have := c'.isLt; omega⟩)) (fq (featIx k h d c')) := fun d c' => by
    have e1 : ft (tabIx (F := Ideal) d (fr (posIx k lg d lane)) ⟨h.val * 4 + c'.val, by have := c'.isLt; omega⟩) = w5Of m c (ix1 (i d c')) := hftx _
    have e2 : fq (featIx k h d c') = w7Of m c (ix1 (j d c')) :=
      hfq ⟨k.val * 96 + h.val * 12 + d.val * 4 + c'.val, by have := d.isLt; have := c'.isLt; omega⟩
    rw [e1, e2]
  -- the numbers
  have hp : ∀ d : Fin 3, (p d).val
      = ((2 * s.val + cc.val) * 2048 + 64 * kc.val + k.val) * 96 + l.val * 3 + d.val := fun d => by
    show 196608 * (2 * s.val + cc.val) + 6144 * kc.val + (l.val % 16 * 3 + (k.val * 96 + l.val / 16 * 48 + d.val)) = _
    omega
  have hj : ∀ (d : Fin 3) (c' : Fin 4), (j d c').val
      = ((2 * s.val + cc.val) * 2048 + 64 * kc.val + k.val) * 96 + h.val * 12 + (4 * d.val + c'.val) := fun d c' => by
    show 196608 * (2 * s.val + cc.val) + 6144 * kc.val + (k.val * 96 + h.val * 12 + d.val * 4 + c'.val) = _
    omega
  have hi0 : ∀ c' : Fin 4, (i 0 c').val
      = (Cert.Glue.bucketWord 752#32 0x43166666#32 (w6Of m c (ix1 (p 0)))).toNat * 32 + h.val * 4 + c'.val := fun c' => by
    show (Cert.KernelIdeal.Tile.bucketWord (F := Ideal) 0 (fr (posIx k lg 0 lane))).toNat * 32 + (toffW 0).toNat + (h.val * 4 + c'.val) = _
    rw [toffW_zero, bucketWord_zero, hpos 0]
    omega
  have hi1 : ∀ c' : Fin 4, (i 1 c').val
      = 24096 + (Cert.Glue.bucketWord 752#32 0x43166666#32 (w6Of m c (ix1 (p 1)))).toNat * 32 + h.val * 4 + c'.val := fun c' => by
    show (Cert.KernelIdeal.Tile.bucketWord (F := Ideal) 1 (fr (posIx k lg 1 lane))).toNat * 32 + (toffW 1).toNat + (h.val * 4 + c'.val) = _
    rw [toffW_one, bucketWord_one, hpos 1]
    omega
  have hi2 : ∀ c' : Fin 4, (i 2 c').val
      = 48192 + (Cert.Glue.bucketWord 30#32 0x40C00000#32 (w6Of m c (ix1 (p 2)))).toNat * 32 + h.val * 4 + c'.val := fun c' => by
    show (Cert.KernelIdeal.Tile.bucketWord (F := Ideal) 2 (fr (posIx k lg 2 lane))).toNat * 32 + (toffW 2).toNat + (h.val * 4 + c'.val) = _
    rw [toffW_two, bucketWord_two, hpos 2]
    omega
  have V := value_at m hpre c ⟨(2 * s.val + cc.val) * 2048 + 64 * kc.val + k.val, by omega⟩ l h p hp i hi0 hi1 hi2 j hj
  have hk : kq ft fr fq k l h
      = sum12 (F := Ideal) zeroW (fun dd c' => FloatOps.mulf (F := Ideal) (φ := .f32)
          (ft (tabIx (F := Ideal) dd (fr (posIx k lg dd lane)) ⟨h.val * 4 + c'.val, by have := c'.isLt; omega⟩)) (fq (featIx k h dd c'))) := rfl
  refine hk.trans (Eq.trans (Eq.symm ?_) V)
  exact sum12_eq (F := Ideal) _ _ _ _ _ _ _ _ _ _ _ _ _
    (fun dd c' => FloatOps.mulf (F := Ideal) (φ := .f32)
      (ft (tabIx (F := Ideal) dd (fr (posIx k lg dd lane)) ⟨h.val * 4 + c'.val, by have := c'.isLt; omega⟩)) (fq (featIx k h dd c')))
    rfl (t 0 0) (t 0 1) (t 0 2) (t 0 3) (t 1 0) (t 1 1) (t 1 2) (t 1 3) (t 2 0) (t 2 1) (t 2 2) (t 2 3)

end Cert.Glue

end
-- ==== Proof.KITileRead.lean ====
/-
  The tile's final function and the fetches' landings read at a word: word `r` of chunk `k` of the slab is word `r` of
  the staged output after that chunk; a chunk's staged positions and features are the flat arrays at the chunk's
  offset; the staged table is the flat table.
-/
import proofs.«204784_g45775761440795_cont_8to1c4_693_3_alg».proof.Proof.KITileA
import Idealize.ShloMosaic.Lib.Tactic

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "rpW" => (Memref.whole Cert.KernelIdeal.main_v6_scv : Memref Cert.KernelIdeal.sig Kind.scVector Space.hbm Cert.KernelIdeal.S6291456 EltTy.f32)
local notation "qfW" => (Memref.whole Cert.KernelIdeal.main_v7_scv : Memref Cert.KernelIdeal.sig Kind.scVector Space.hbm Cert.KernelIdeal.S6291456 EltTy.f32)
local notation "tbW" => (Memref.whole Cert.KernelIdeal.main_v5_scv : Memref Cert.KernelIdeal.sig Kind.scVector Space.hbm Cert.KernelIdeal.S49184 EltTy.f32)
local notation "ouW" => (Memref.whole Cert.KernelIdeal.main_v8_scv : Memref Cert.KernelIdeal.sig Kind.scVector Space.hbm Cert.KernelIdeal.S16777216 EltTy.f32)
local notation "s0W" => (Memref.whole Cert.KernelIdeal.cc0_scratch0 : Memref Cert.KernelIdeal.sig Kind.scVector Space.vmem Cert.KernelIdeal.S49184 EltTy.f32)
local notation "s1W" => (Memref.whole Cert.KernelIdeal.cc0_scratch1 : Memref Cert.KernelIdeal.sig Kind.scVector Space.vmem Cert.KernelIdeal.S6144 EltTy.f32)
local notation "s2W" => (Memref.whole Cert.KernelIdeal.cc0_scratch2 : Memref Cert.KernelIdeal.sig Kind.scVector Space.vmem Cert.KernelIdeal.S6144 EltTy.f32)
local notation "s3W" => (Memref.whole Cert.KernelIdeal.cc0_scratch3 : Memref Cert.KernelIdeal.sig Kind.scVector Space.vmem Cert.KernelIdeal.S16384 EltTy.f32)

variable [FloatOps F]

section Read

open Idealize.ShloMosaic.ValueIdx

variable (d : Dev nD) (L : grid0.Coords)
variable (w6 : Buf (Elt F) (rpLoc d)) (w7 : Buf (Elt F) (qfLoc d)) (w5 : Buf (Elt F) (tbLoc d)) (o0 : Buf (Elt F) (ouLoc d))

/-- The final function at a word of the slab whose position is word `r` of chunk `k`. -/
theorem tileOut_at (j : S16777216.Idx) (k : Fin k0_t1_loop.trips) (r : Fin 16384)
    (hj : (j 0).val = 1048576 * (L 1).val + 524288 * (L 0).val + 16384 * k.val + r.val) :
    tileOut d L w6 w7 w5 o0 j = stagedOut d L w6 w7 w5 (k.val + 1) (ix1 r) := by
  have hk32 : k.val < 32 := lt_of_lt_of_eq k.isLt trips1
  have h0 : (L 0).val < 2 := (L 0).isLt
  have h1 : (L 1).val < 16 := (L 1).isLt
  have hr : r.val < 16384 := r.isLt
  unfold tileOut
  rw [if_pos (by rw [hj]; omega)]
  have e1 : ((j 0).val - (2 * (L 1).val + (L 0).val) * 524288) / 16384 + 1 = k.val + 1 := by rw [hj]; omega
  have e2 : ((j 0).val - (2 * (L 1).val + (L 0).val) * 524288) % 16384 = r.val := by rw [hj]; omega
  have e3 : (ix1 ⟨((j 0).val - (2 * (L 1).val + (L 0).val) * 524288) % 16384, Nat.mod_lt _ (by decide)⟩ : S16384.Idx) = ix1 r := by
    funext a; match a with | ⟨0, _⟩ => exact Fin.ext e2
  rw [e1, e3]

theorem tileOut_apply (k : Fin k0_t1_loop.trips) (r : Fin 16384) :
    tileOut d L w6 w7 w5 o0 (ix1 ⟨1048576 * (L 1).val + 524288 * (L 0).val + 16384 * k.val + r.val, by
        have hk : k.val < 32 := lt_of_lt_of_eq k.isLt trips1; have h0 : (L 0).val < 2 := (L 0).isLt; have h1 : (L 1).val < 16 := (L 1).isLt; have hr := r.isLt; omega⟩)
      = stagedOut d L w6 w7 w5 (k.val + 1) (ix1 r) :=
  tileOut_at d L w6 w7 w5 o0 _ k r rfl

/-- Off the slab the final function is the launch contents. -/
theorem tileOut_off (j : S16777216.Idx) (hj : j ∉ slab (cL L) (sL L)) : tileOut d L w6 w7 w5 o0 j = o0 j := by
  unfold tileOut
  exact if_neg fun h => hj (mem_slab.mpr h)

theorem stagedOut_zero : stagedOut d L w6 w7 w5 0 = fun _ => (FloatOps.ofBits FTy.f32 0 : F .f32) := rfl

/-- The staged table is the flat table. -/
theorem tbLand_apply (j : S49184.Idx) : tbLand d L w5 j = w5 j := rfl

/-- Chunk `k`'s staged positions at word `i`: the flat positions at the chunk's offset plus `i`. -/
theorem rpRead_apply (k : Fin k0_t1_loop.trips) (i : Fin 6144) :
    rpRead d L k w6 (ix1 i) = w6 (ix1 ⟨196608 * (2 * (L 1).val + (L 0).val) + 6144 * k.val + i.val, by
        have hk : k.val < 32 := lt_of_lt_of_eq k.isLt trips1; have h0 : (L 0).val < 2 := (L 0).isLt; have h1 : (L 1).val < 16 := (L 1).isLt; have hi := i.isLt; omega⟩) := by
  unfold rpRead
  rw [View.read_apply, cast_eq]
  refine congrArg w6 ?_
  funext a
  match a with
  | ⟨0, _⟩ =>
    apply Fin.ext
    show (k0_off1 L k) 0 + 1 * i.val = _
    rw [k0_off1_eq]
    show 393216 * (L 1).val + 196608 * (L 0).val + 6144 * k.val + 1 * i.val = 196608 * (2 * (L 1).val + (L 0).val) + 6144 * k.val + i.val
    omega

/-- Chunk `k`'s staged features at word `i`: the flat features at the chunk's offset plus `i`. -/
theorem qfRead_apply (k : Fin k0_t1_loop.trips) (i : Fin 6144) :
    qfRead d L k w7 (ix1 i) = w7 (ix1 ⟨196608 * (2 * (L 1).val + (L 0).val) + 6144 * k.val + i.val, by
        have hk : k.val < 32 := lt_of_lt_of_eq k.isLt trips1; have h0 : (L 0).val < 2 := (L 0).isLt; have h1 : (L 1).val < 16 := (L 1).isLt; have hi := i.isLt; omega⟩) := by
  unfold qfRead
  rw [View.read_apply, cast_eq]
  refine congrArg w7 ?_
  funext a
  match a with
  | ⟨0, _⟩ =>
    apply Fin.ext
    show (k0_off1 L k) 0 + 1 * i.val = _
    rw [k0_off1_eq]
    show 393216 * (L 1).val + 196608 * (L 0).val + 6144 * k.val + 1 * i.val = 196608 * (2 * (L 1).val + (L 0).val) + 6144 * k.val + i.val
    omega

end Read

end Cert.KernelIdeal.Tile

end
-- ==== Proof.Glue.lean ====
/-
  The kernel's result is the reference's function of the kernel's arguments.
  What the launch leaves in the flat output agrees, on each tile's slab, with that tile's final function. The word of
  (query Q, neighbour l, head h) lies in the slab of the tile that owns Q; there the tile's final function is the
  staged output after the chunk of Q, at the word 256 (Q mod 64) + 8 l + h, which the sixty-four trips of the chunk
  leave at the trip's closed form for the query at position Q mod 64; the staged buffers of that chunk hold the
  launch's arrays (the table whole, the chunk's words of the positions and features), so the closed form is the
  reference's result at (Q, l, h) — for finite inputs.
-/
import proofs.«204784_g45775761440795_cont_8to1c4_693_3_alg».proof.Proof.GlueTile
import proofs.«204784_g45775761440795_cont_8to1c4_693_3_alg».proof.Proof.KITileRead
import proofs.«204784_g45775761440795_cont_8to1c4_693_3_alg».proof.Proof.KIQFold
import proofs.«204784_g45775761440795_cont_8to1c4_693_3_alg».proof.Proof.KITileRun

noncomputable section

namespace Cert.Glue

open Cert.KernelIdeal Cert.KernelIdeal.Gen Cert.KernelIdeal.Tile
open Idealize.ShloMosaic Idealize.ShloMosaic.ValueIdx Idealize.SL.Sem Cert.LibRealEntries

variable [Cert.Pre_input_domain.Facts] [Cert.ReferenceIdeal.Facts]

/-- An array that agrees with every tile's final function on that tile's slab, reshaped, is the reference's
    function of the arguments — under the precondition. -/
theorem value (m : (ℓ : Loc Cert.KernelIdeal.nD Cert.KernelIdeal.τ Cert.KernelIdeal.sig) → Buf (Elt Ideal) ℓ)
    (hpre : Cert.Pre_KernelIdeal m) (c : Dev Cert.KernelIdeal.nD) (g : Buf (Elt Ideal) (ouLoc c))
    (hs : ∀ (cc : Fin 2) (s : Fin 16), ∀ j ∈ slab cc s, g j = tileOuts m c cc s j) :
    outOf g = Cert.RefSide.out (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  refine value_of_entry g _ (fun Q l h => ?_)
  have hQ := Q.isLt; have hl := l.isLt; have hh := h.isLt
  rw [hs (tileC Q) (tileS Q) _ (word_mem_slab Q l h)]
  -- the chunk of the query, the word within the chunk
  have hkc : Q.val % 2048 / 64 < 32 := by omega
  have hr : 256 * (Q.val % 64) + 8 * l.val + h.val < 16384 := by omega
  have e := tileOut_at (F := Ideal) c (coordsV (tileC Q) (tileS Q)) (w6Of m c) (w7Of m c) (w5Of m c) (m (ouLoc c))
    (ix1 ⟨Q.val * 256 + l.val * 8 + h.val, by omega⟩) ⟨Q.val % 2048 / 64, by rw [trips1]; exact hkc⟩
    ⟨256 * (Q.val % 64) + 8 * l.val + h.val, hr⟩ (by
      show Q.val * 256 + l.val * 8 + h.val
        = 1048576 * (Q.val / 4096) + 524288 * (Q.val / 2048 % 2) + 16384 * (Q.val % 2048 / 64) + (256 * (Q.val % 64) + 8 * l.val + h.val)
      omega)
  refine (e.trans ?_)
  rw [stagedOut_succ, qFold_apply]
  -- the trip's closed form, at the query's position in the chunk
  refine (kq_congr _ _ _ _ ⟨Q.val % 64, by rw [trips2]; omega⟩ _ l _ h (by show (256 * (Q.val % 64) + 8 * l.val + h.val) / 256 = Q.val % 64; omega)
    (by show (256 * (Q.val % 64) + 8 * l.val + h.val) % 256 / 8 = l.val; omega)
    (by show (256 * (Q.val % 64) + 8 * l.val + h.val) % 8 = h.val; omega)).trans ?_
  have V := kq_value m hpre c (tileC Q) (tileS Q) ⟨Q.val % 2048 / 64, hkc⟩ ⟨Q.val % 64, by rw [trips2]; omega⟩ l h
    (tbLand c (coordsV (tileC Q) (tileS Q)) (w5Of m c))
    (rpRead c (coordsV (tileC Q) (tileS Q)) ⟨Q.val % 2048 / 64, by rw [trips1]; exact hkc⟩ (w6Of m c))
    (qfRead c (coordsV (tileC Q) (tileS Q)) ⟨Q.val % 2048 / 64, by rw [trips1]; exact hkc⟩ (w7Of m c))
    (fun i => tbLand_apply c (coordsV (tileC Q) (tileS Q)) (w5Of m c) (ix1 i))
    (fun i => rpRead_apply c (coordsV (tileC Q) (tileS Q)) (w6Of m c) ⟨Q.val % 2048 / 64, by rw [trips1]; exact hkc⟩ i)
    (fun i => qfRead_apply c (coordsV (tileC Q) (tileS Q)) (w7Of m c) ⟨Q.val % 2048 / 64, by rw [trips1]; exact hkc⟩ i)
  have eQ : (⟨(2 * (tileS Q).val + (tileC Q).val) * 2048 + 64 * (Q.val % 2048 / 64) + Q.val % 64, by
      show (2 * (Q.val / 4096) + Q.val / 2048 % 2) * 2048 + 64 * (Q.val % 2048 / 64) + Q.val % 64 < 65536; omega⟩ : Fin 65536) = Q :=
    Fin.ext (by show (2 * (Q.val / 4096) + Q.val / 2048 % 2) * 2048 + 64 * (Q.val % 2048 / 64) + Q.val % 64 = Q.val; omega)
  rw [eQ] at V
  exact V

end Cert.Glue

end
-- ==== Proof.lean ====
/-
  The certificate's claim: the kernel and the reference compute the same array at the extended reals, and each of
  the three programs runs to the end, faults nowhere and leaves its arguments unchanged.

  WHAT THE KERNEL COMPUTES. The host reshapes the relative positions and the query features flat, lays the three
  tables end to end and multiplies every entry by the scale; the 2 × 16 vector subcores then each take 2048
  consecutive queries. For a query q, a neighbour l and a head h the kernel quantises the three coordinates of the
  relative position to the buckets b_d = clip(trunc((x_d + M_d) / Q), 0, T_d − 1) (the conversion to an integer rounds
  toward zero), and accumulates, from the float 0, over the axes d = 0, 1, 2 and the channels c = 0..3 in that order,
  the products (table_d[b_d, h, c] · scale) · feature[q, h, 4 d + c].

  WHAT THE REFERENCE COMPUTES. The same buckets with FLOOR in place of truncation, one row of each table per axis,
  the three contractions  ∑_c feature[q, h, 4 d + c] · table_d[b_d, h, c]  added, and the sum multiplied by the scale once.

  WHY THEY AGREE. Clipped below at 0, truncation and floor give the same bucket for a real argument: they agree for
  nonnegative reals, and for negative ones both are ≤ 0 and the clip gives 0. With equal buckets the two values are two
  arrangements of  scale · ∑_{d,c} table · feature,  equal by distributivity and commutativity. That last step is
  where FINITENESS is used: the extended reals are not a ring (distributivity fails at the infinities), so the identity
  is applied to entries that are images of reals, which the precondition — every float input is finite — provides.
  The kernel as printed and its reading at the extended reals are the same text (no rewrite), so the remaining
  conjunct is trivial; the three frame claims are the runs read at the arguments.
-/
import proofs.«204784_g45775761440795_cont_8to1c4_693_3_alg».proof.Defs
import proofs.«204784_g45775761440795_cont_8to1c4_693_3_alg».proof.Proof.Gen.Kernel
import proofs.«204784_g45775761440795_cont_8to1c4_693_3_alg».proof.Proof.Gen.KernelIdeal
import proofs.«204784_g45775761440795_cont_8to1c4_693_3_alg».proof.Proof.Gen.ReferenceIdeal
import proofs.«204784_g45775761440795_cont_8to1c4_693_3_alg».proof.Proof.Gen.Pre_input_domain
import proofs.«204784_g45775761440795_cont_8to1c4_693_3_alg».proof.Proof.KTileRun
import proofs.«204784_g45775761440795_cont_8to1c4_693_3_alg».proof.Proof.KQFold
import proofs.«204784_g45775761440795_cont_8to1c4_693_3_alg».proof.Proof.KITileRun
import proofs.«204784_g45775761440795_cont_8to1c4_693_3_alg».proof.Proof.KIQFold
import proofs.«204784_g45775761440795_cont_8to1c4_693_3_alg».proof.Proof.RefRun
import proofs.«204784_g45775761440795_cont_8to1c4_693_3_alg».proof.Proof.Glue

noncomputable section

namespace Cert.Proof

open Idealize.ShloMosaic Idealize.SL.Sem

/-- The kernel as printed runs and leaves its arguments unchanged: the launch's run, read at the arguments. -/
theorem frame_K : Cert.frame_Kernel := fun m ρ _ =>
  (θ_run Cert.Kernel.defs _ _).mono (fun _ h c => (h c).2) (Cert.Kernel.Tile.run (F := Bits) m Cert.Kernel.Tile.tripsOverwrite ρ)

/-- The same program at the extended reals. -/
theorem frame_KI : Cert.frame_KernelIdeal := fun m ρ _ =>
  (θ_run Cert.KernelIdeal.defs _ _).mono (fun _ h c => (h c).2) (Cert.KernelIdeal.Tile.run (F := Ideal) m Cert.KernelIdeal.Tile.tripsOverwrite ρ)

/-- The reference runs and leaves its arguments unchanged. -/
theorem frame_RI : Cert.frame_ReferenceIdeal := fun m ρ _ =>
  (θ_run Cert.ReferenceIdeal.defs _ _).mono (fun _ h c => (h c).2) (Cert.RefSide.run m ρ)

/-- Both programs end at the reference's function of the kernel's arguments: the kernel by the entrywise identity
    of the glue (finite inputs), the reference by its run, its arguments being the kernel's. -/
theorem algebraic : Cert.algebraic_KernelIdeal_ReferenceIdeal := fun m g m' g' hpre hagree =>
  ⟨fun c => Cert.RefSide.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    (θ_run Cert.KernelIdeal.defs _ _).mono
      (fun _ h c => ⟨by obtain ⟨g₀, hg, hs⟩ := (h c).1; rw [hg]; exact Cert.Glue.value m hpre c g₀ hs, (h c).2⟩)
      (Cert.KernelIdeal.Tile.run (F := Ideal) m Cert.KernelIdeal.Tile.tripsOverwrite g),
    (θ_run Cert.ReferenceIdeal.defs _ _).mono
      (fun _ h c => ⟨by
          rw [(h c).1, (hagree c).1, (hagree c).2.1, (hagree c).2.2.1, (hagree c).2.2.2.2.1, (hagree c).2.2.2.2.2.1,
            (hagree c).2.2.2.2.2.2], (h c).2⟩)
      (Cert.RefSide.run m' g')⟩

/-- Everything the certificate claims. -/
theorem claim : Cert.Claim :=
  ⟨Cert.Kernel.Gen.facts, Cert.KernelIdeal.Gen.facts, Cert.ReferenceIdeal.Gen.facts, Cert.Pre_input_domain.Gen.facts,
    frame_K, frame_KI, frame_RI, trivial, algebraic⟩

end Cert.Proof

end
